-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S16384x512 : Shape := ⟨2, ![16384, 512]⟩
abbrev S2 : Shape := ⟨1, ![2]⟩
abbrev S2048x512 : Shape := ⟨2, ![2048, 512]⟩
abbrev S2x8x512 : Shape := ⟨3, ![2, 8, 512]⟩
abbrev S1x8x512 : Shape := ⟨3, ![1, 8, 512]⟩
abbrev S8x512 : Shape := ⟨2, ![8, 512]⟩
abbrev S1 : Shape := ⟨1, ![1]⟩
abbrev S1x1x1 : Shape := ⟨3, ![1, 1, 1]⟩
abbrev S16x16 : Shape := ⟨2, ![16, 16]⟩
abbrev S32x512 : Shape := ⟨2, ![32, 512]⟩
abbrev S16 : Shape := ⟨1, ![16]⟩
abbrev S_ : Shape := ⟨0, ![]⟩
abbrev S1x16 : Shape := ⟨2, ![1, 16]⟩
abbrev S1x16x16 : Shape := ⟨3, ![1, 16, 16]⟩

abbrev nBuf : Table → Nat
  | .hbm => 9
  | .local .tc .vmem => 7
  | .local .tc .smem => 3
  | .local .scVector .vmem => 6
  | _ => 0

abbrev bufTy : (tb : Table) → Fin (nBuf tb) → BufTy
  | .hbm, ⟨0, _⟩ => ⟨S32x1x512x512, .f32⟩
  | .hbm, ⟨1, _⟩ => ⟨S32x1x512x512, .f32⟩
  | .hbm, ⟨2, _⟩ => ⟨S16384x512, .f32⟩
  | .hbm, ⟨3, _⟩ => ⟨S16384x512, .f32⟩
  | .hbm, ⟨4, _⟩ => ⟨S2, .f32⟩
  | .hbm, ⟨5, _⟩ => ⟨S16x16, .f32⟩
  | .hbm, ⟨6, _⟩ => ⟨S16x16, .f32⟩
  | .hbm, ⟨7, _⟩ => ⟨S1, .f32⟩
  | .hbm, ⟨8, _⟩ => ⟨S_, .f32⟩
  | .local .tc .vmem, ⟨0, _⟩ => ⟨S2048x512, .f32⟩
  | .local .tc .vmem, ⟨1, _⟩ => ⟨S2048x512, .f32⟩
  | .local .tc .vmem, ⟨2, _⟩ => ⟨S2048x512, .f32⟩
  | .local .tc .vmem, ⟨3, _⟩ => ⟨S2048x512, .f32⟩
  | .local .tc .vmem, ⟨4, _⟩ => ⟨S2x8x512, .f32⟩
  | .local .tc .vmem, ⟨5, _⟩ => ⟨S16x16, .f32⟩
  | .local .tc .vmem, ⟨6, _⟩ => ⟨S16x16, .f32⟩
  | .local .tc .smem, ⟨0, _⟩ => ⟨S2, .f32⟩
  | .local .tc .smem, ⟨1, _⟩ => ⟨S2, .f32⟩
  | .local .tc .smem, ⟨2, _⟩ => ⟨S1, .f32⟩
  | .local .scVector .vmem, ⟨0, _⟩ => ⟨S32x512, .f32⟩
  | .local .scVector .vmem, ⟨1, _⟩ => ⟨S32x512, .f32⟩
  | .local .scVector .vmem, ⟨2, _⟩ => ⟨S32x512, .f32⟩
  | .local .scVector .vmem, ⟨3, _⟩ => ⟨S32x512, .f32⟩
  | .local .scVector .vmem, ⟨4, _⟩ => ⟨S16, .f32⟩
  | .local .scVector .vmem, ⟨5, _⟩ => ⟨S16, .f32⟩
  | _, _ => ⟨S32x1x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 2, rfl⟩
abbrev main_v1_scv : Ref sig .scVector := ⟨.hbm, 3, rfl⟩
abbrev main_v3_0_scv : Ref sig .scVector := ⟨.hbm, 5, rfl⟩
abbrev main_v3_1_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc2_stg0_0 : Ref sig .tc := ⟨.vmem, 5, rfl⟩
abbrev cc2_stg1_0 : Ref sig .tc := ⟨.vmem, 6, rfl⟩
abbrev cc0_stg2_0 : Ref sig .tc := ⟨.smem, 0, rfl⟩
abbrev cc2_stg2_0 : Ref sig .tc := ⟨.smem, 1, rfl⟩
abbrev cc2_stg3_0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc2_sem0_0 : DmaSem sig := 11
abbrev cc2_sem1_0 : DmaSem sig := 12
abbrev cc2_sem2_0 : DmaSem sig := 13
abbrev cc2_sem3_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v3853 : BitVec 1 := Scalar.cmpi .eq arg0 c6_i32
  let v3854 : BitVec 32 := Scalar.extui v3853
  let c0_i32_1803 : BitVec 32 := 0#32
  let v3855 : BitVec 1 := Scalar.cmpi .ne v3854 c0_i32_1803
  v3855

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![1, 16], ![false, false]⟩

def k1_off1 (i : grid1.Coords) (c0_i32 : BitVec 32) : Fin 2 → Nat :=
  let c14336_i32 : BitVec 32 := 14336#32
  let arg1 : BitVec 32 := BitVec.ofNat 32 (i 1).val
  let c128_i32 : BitVec 32 := 128#32
  let v0 : BitVec 32 := Scalar.muli arg1 c128_i32
  let v1 : BitVec 32 := Scalar.addi c14336_i32 v0
  let v2 : BitVec 32 := Scalar.addi v1 c0_i32
  let c0_i32_0 : BitVec 32 := 0#32
  ![v2.toNat, 0]
@[reducible] def k1_t1_loop : Scf.Loop 32 :=
  let c0_i32_13 : BitVec 32 := 0#32
  let c32_i32_14 : BitVec 32 := 32#32
  let v18 : BitVec 32 := Scalar.addi c0_i32_13 c32_i32_14
  let c1_i32 : BitVec 32 := 1#32
  ⟨c0_i32_13, v18, c1_i32⟩
@[reducible] def k1_t2_loop : Scf.Loop 32 :=
  let c0_i32_49 : BitVec 32 := 0#32
  let c32_i32_50 : BitVec 32 := 32#32
  let v54 : BitVec 32 := Scalar.addi c0_i32_49 c32_i32_50
  let c1_i32_51 : BitVec 32 := 1#32
  ⟨c0_i32_49, v54, c1_i32_51⟩
def k1_off2 (k1_t1 : Fin k1_t1_loop.trips) (k1_t2 : Fin k1_t2_loop.trips) : Fin 2 → Nat :=
  let c0_i32_13 : BitVec 32 := 0#32
  let c1_i32 : BitVec 32 := 1#32
  let arg16 : BitVec 32 := Scf.iv c0_i32_13 c1_i32 k1_t1
  let v57 : Index := Scalar.indexCast arg16
  let c0_i32_49 : BitVec 32 := 0#32
  let c1_i32_51 : BitVec 32 := 1#32
  let arg19 : BitVec 32 := Scf.iv c0_i32_49 c1_i32_51 k1_t2
  let c16_i32 : BitVec 32 := 16#32
  let v56 : BitVec 32 := Scalar.muli arg19 c16_i32
  let v58 : Index := Scalar.indexCast v56
  ![v57.toNat, v58.toNat]
@[reducible] def k1_t3_loop : Scf.Loop 32 :=
  let c0_i32_24 : BitVec 32 := 0#32
  let c32_i32_25 : BitVec 32 := 32#32
  let v29 : BitVec 32 := Scalar.addi c0_i32_24 c32_i32_25
  let c1_i32_26 : BitVec 32 := 1#32
  ⟨c0_i32_24, v29, c1_i32_26⟩
@[reducible] def k1_t4_loop : Scf.Loop 32 :=
  let c0_i32_49 : BitVec 32 := 0#32
  let c32_i32_50 : BitVec 32 := 32#32
  let v54 : BitVec 32 := Scalar.addi c0_i32_49 c32_i32_50
  let c1_i32_51 : BitVec 32 := 1#32
  ⟨c0_i32_49, v54, c1_i32_51⟩
def k1_off3 (k1_t3 : Fin k1_t3_loop.trips) (k1_t4 : Fin k1_t4_loop.trips) : Fin 2 → Nat :=
  let c0_i32_24 : BitVec 32 := 0#32
  let c1_i32_26 : BitVec 32 := 1#32
  let arg16 : BitVec 32 := Scf.iv c0_i32_24 c1_i32_26 k1_t3
  let v57 : Index := Scalar.indexCast arg16
  let c0_i32_49 : BitVec 32 := 0#32
  let c1_i32_51 : BitVec 32 := 1#32
  let arg19 : BitVec 32 := Scf.iv c0_i32_49 c1_i32_51 k1_t4
  let c16_i32 : BitVec 32 := 16#32
  let v56 : BitVec 32 := Scalar.muli arg19 c16_i32
  let v58 : Index := Scalar.indexCast v56
  ![v57.toNat, v58.toNat]
@[reducible] def k1_t5_loop : Scf.Loop 32 :=
  let c0_i32_36 : BitVec 32 := 0#32
  let c32_i32_37 : BitVec 32 := 32#32
  let v40 : BitVec 32 := Scalar.addi c0_i32_36 c32_i32_37
  let c1_i32_38 : BitVec 32 := 1#32
  ⟨c0_i32_36, v40, c1_i32_38⟩
@[reducible] def k1_t6_loop : Scf.Loop 32 :=
  let c0_i32_49 : BitVec 32 := 0#32
  let c32_i32_50 : BitVec 32 := 32#32
  let v54 : BitVec 32 := Scalar.addi c0_i32_49 c32_i32_50
  let c1_i32_51 : BitVec 32 := 1#32
  ⟨c0_i32_49, v54, c1_i32_51⟩
def k1_off4 (k1_t5 : Fin k1_t5_loop.trips) (k1_t6 : Fin k1_t6_loop.trips) : Fin 2 → Nat :=
  let c0_i32_36 : BitVec 32 := 0#32
  let c1_i32_38 : BitVec 32 := 1#32
  let arg16 : BitVec 32 := Scf.iv c0_i32_36 c1_i32_38 k1_t5
  let v57 : Index := Scalar.indexCast arg16
  let c0_i32_49 : BitVec 32 := 0#32
  let c1_i32_51 : BitVec 32 := 1#32
  let arg19 : BitVec 32 := Scf.iv c0_i32_49 c1_i32_51 k1_t6
  let c16_i32 : BitVec 32 := 16#32
  let v56 : BitVec 32 := Scalar.muli arg19 c16_i32
  let v58 : Index := Scalar.indexCast v56
  ![v57.toNat, v58.toNat]
@[reducible] def k1_t7_loop : Scf.Loop 32 :=
  let c0_i32_44 : BitVec 32 := 0#32
  let c32_i32_45 : BitVec 32 := 32#32
  let v46 : BitVec 32 := Scalar.addi c0_i32_44 c32_i32_45
  let c1_i32_46 : BitVec 32 := 1#32
  ⟨c0_i32_44, v46, c1_i32_46⟩
@[reducible] def k1_t8_loop : Scf.Loop 32 :=
  let c0_i32_49 : BitVec 32 := 0#32
  let c32_i32_50 : BitVec 32 := 32#32
  let v54 : BitVec 32 := Scalar.addi c0_i32_49 c32_i32_50
  let c1_i32_51 : BitVec 32 := 1#32
  ⟨c0_i32_49, v54, c1_i32_51⟩
def k1_off5 (k1_t7 : Fin k1_t7_loop.trips) (k1_t8 : Fin k1_t8_loop.trips) : Fin 2 → Nat :=
  let c0_i32_44 : BitVec 32 := 0#32
  let c1_i32_46 : BitVec 32 := 1#32
  let arg16 : BitVec 32 := Scf.iv c0_i32_44 c1_i32_46 k1_t7
  let v57 : Index := Scalar.indexCast arg16
  let c0_i32_49 : BitVec 32 := 0#32
  let c1_i32_51 : BitVec 32 := 1#32
  let arg19 : BitVec 32 := Scf.iv c0_i32_49 c1_i32_51 k1_t8
  let c16_i32 : BitVec 32 := 16#32
  let v56 : BitVec 32 := Scalar.muli arg19 c16_i32
  let v58 : Index := Scalar.indexCast v56
  ![v57.toNat, v58.toNat]
def k1_off6 (i : grid1.Coords) : Fin 2 → Nat :=
  let arg1 : BitVec 32 := BitVec.ofNat 32 (i 1).val
  let c0_i32_49_r0 : BitVec 32 := 0#32
  ![arg1.toNat, 0]
abbrev grid2 : Pipeline.Grid := .none

abbrev stage2_0 : Fin 1 → Memref sig .tc .vmem S16x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x1x512x512_S16384x512 : S32x1x512x512.ShapeCasts S16384x512
  inb_S2x8x512_S2x8x512_0_0_0 : ∀ a, (![0, 0, 0] : Fin 3 → Nat) a + S2x8x512.size a ≤ S2x8x512.size a
  h_S2x8x512 : 0 < S2x8x512.numel
  shapeCasts_S2x8x512_S2x8x512 : S2x8x512.ShapeCasts S2x8x512
  inb_S2x8x512_S1x8x512_0_0_0 : ∀ a, (![0, 0, 0] : Fin 3 → Nat) a + S1x8x512.size a ≤ S2x8x512.size a
  h_S1x8x512 : 0 < S1x8x512.numel
  shapeCasts_S1x8x512_S8x512 : S1x8x512.ShapeCasts S8x512
  inb_S2x8x512_S1x8x512_1_0_0 : ∀ a, (![1, 0, 0] : Fin 3 → Nat) a + S1x8x512.size a ≤ S2x8x512.size a
  inb_S2048x512_S8x512_0_0 : ∀ a, (![0, 0] : Fin 2 → Nat) a + S8x512.size a ≤ S2048x512.size a
  h_S8x512 : 0 < S8x512.numel
  shapeCasts_S8x512_S8x512 : S8x512.ShapeCasts S8x512
  inb_S2048x512_S8x512_8_0 : ∀ a, (![8, 0] : Fin 2 → Nat) a + S8x512.size a ≤ S2048x512.size a
  inb_S2048x512_S8x512_16_0 : ∀ a, (![16, 0] : Fin 2 → Nat) a + S8x512.size a ≤ S2048x512.size a
  inb_S2048x512_S8x512_24_0 : ∀ a, (![24, 0] : Fin 2 → Nat) a + S8x512.size a ≤ S2048x512.size a
  inb_S2048x512_S8x512_32_0 : ∀ a, (![32, 0] : Fin 2 → Nat) a + S8x512.size a ≤ S2048x512.size a
  inb_S2048x512_S8x512_40_0 : ∀ a, (![40, 0] : Fin 2 → Nat) a + S8x512.size a ≤ S2048x512.size a
  inb_S2048x512_S8x512_48_0 : ∀ a, (![48, 0] : Fin 2 → Nat) a + S8x512.size a ≤ S2048x512.size a
  inb_S2048x512_S8x512_56_0 : ∀ a, (![56, 0] : Fin 2 → Nat) a + S8x512.size a ≤ S2048x512.size a
  inb_S2048x512_S8x512_64_0 : ∀ a, (![64, 0] : Fin 2 → Nat) a + S8x512.size a ≤ S2048x512.size a
  inb_S2048x512_S8x512_72_0 : ∀ a, (![72, 0] : Fin 2 → Nat) a + S8x512.size a ≤ S2048x512.size a
  inb_S2048x512_S8x512_80_0 : ∀ a, (![80, 0] : Fin 2 → Nat) a + S8x512.size a ≤ S2048x512.size a
  inb_S2048x512_S8x512_88_0 : ∀ a, (![88, 0] : Fin 2 → Nat) a + S8x512.size a ≤ S2048x512.size a
  inb_S2048x512_S8x512_96_0 : ∀ a, (![96, 0] : Fin 2 → Nat) a + S8x512.size a ≤ S2048x512.size a
  inb_S2048x512_S8x512_104_0 : ∀ a, (![104, 0] : Fin 2 → Nat) a + S8x512.size a ≤ S2048x512.size a
  inb_S2048x512_S8x512_112_0 : ∀ a, (![112, 0] : Fin 2 → Nat) a + S8x512.size a ≤ S2048x512.size a
  inb_S2048x512_S8x512_120_0 : ∀ a, (![120, 0] : Fin 2 → Nat) a + S8x512.size a ≤ S2048x512.size a
  inb_S2048x512_S8x512_128_0 : ∀ a, (![128, 0] : Fin 2 → Nat) a + S8x512.size a ≤ S2048x512.size a
  inb_S2048x512_S8x512_136_0 : ∀ a, (![136, 0] : Fin 2 → Nat) a + S8x512.size a ≤ S2048x512.size a
  inb_S2048x512_S8x512_144_0 : ∀ a, (![144, 0] : Fin 2 → Nat) a + S8x512.size a ≤ S2048x512.size a
  inb_S2048x512_S8x512_152_0 : ∀ a, (![152, 0] : Fin 2 → Nat) a + S8x512.size a ≤ S2048x512.size a
  inb_S2048x512_S8x512_160_0 : ∀ a, (![160, 0] : Fin 2 → Nat) a + S8x512.size a ≤ S2048x512.size a
  inb_S2048x512_S8x512_168_0 : ∀ a, (![168, 0] : Fin 2 → Nat) a + S8x512.size a ≤ S2048x512.size a
  inb_S2048x512_S8x512_176_0 : ∀ a, (![176, 0] : Fin 2 → Nat) a + S8x512.size a ≤ S2048x512.size a
  inb_S2048x512_S8x512_184_0 : ∀ a, (![184, 0] : Fin 2 → Nat) a + S8x512.size a ≤ S2048x512.size a
  inb_S2048x512_S8x512_192_0 : ∀ a, (![192, 0] : Fin 2 → Nat) a + S8x512.size a ≤ S2048x512.size a
  inb_S2048x512_S8x512_200_0 : ∀ a, (![200, 0] : Fin 2 → Nat) a + S8x512.size a ≤ S2048x512.size a
  inb_S2048x512_S8x512_208_0 : ∀ a, (![208, 0] : Fin 2 → Nat) a + S8x512.size a ≤ S2048x512.size a
  inb_S2048x512_S8x512_216_0 : ∀ a, (![216, 0] : Fin 2 → Nat) a + S8x512.size a ≤ S2048x512.size a
  inb_S2048x512_S8x512_224_0 : ∀ a, (![224, 0] : Fin 2 → Nat) a + S8x512.size a ≤ S2048x512.size a
  inb_S2048x512_S8x512_232_0 : ∀ a, (![232, 0] : Fin 2 → Nat) a + S8x512.size a ≤ S2048x512.size a
  inb_S2048x512_S8x512_240_0 : ∀ a, (![240, 0] : Fin 2 → Nat) a + S8x512.size a ≤ S2048x512.size a
  inb_S2048x512_S8x512_248_0 : ∀ a, (![248, 0] : Fin 2 → Nat) a + S8x512.size a ≤ S2048x512.size a
  inb_S2048x512_S8x512_256_0 : ∀ a, (![256, 0] : Fin 2 → Nat) a + S8x512.size a ≤ S2048x512.size a
  inb_S2048x512_S8x512_264_0 : ∀ a, (![264, 0] : Fin 2 → Nat) a + S8x512.size a ≤ S2048x512.size a
  inb_S2048x512_S8x512_272_0 : ∀ a, (![272, 0] : Fin 2 → Nat) a + S8x512.size a ≤ S2048x512.size a
  inb_S2048x512_S8x512_280_0 : ∀ a, (![280, 0] : Fin 2 → Nat) a + S8x512.size a ≤ S2048x512.size a
  inb_S2048x512_S8x512_288_0 : ∀ a, (![288, 0] : Fin 2 → Nat) a + S8x512.size a ≤ S2048x512.size a
  inb_S2048x512_S8x512_296_0 : ∀ a, (![296, 0] : Fin 2 → Nat) a + S8x512.size a ≤ S2048x512.size a
  inb_S2048x512_S8x512_304_0 : ∀ a, (![304, 0] : Fin 2 → Nat) a + S8x512.size a ≤ S2048x512.size a
  inb_S2048x512_S8x512_312_0 : ∀ a, (![312, 0] : Fin 2 → Nat) a + S8x512.size a ≤ S2048x512.size a
  inb_S2048x512_S8x512_320_0 : ∀ a, (![320, 0] : Fin 2 → Nat) a + S8x512.size a ≤ S2048x512.size a
  inb_S2048x512_S8x512_328_0 : ∀ a, (![328, 0] : Fin 2 → Nat) a + S8x512.size a ≤ S2048x512.size a
  inb_S2048x512_S8x512_336_0 : ∀ a, (![336, 0] : Fin 2 → Nat) a + S8x512.size a ≤ S2048x512.size a
  inb_S2048x512_S8x512_344_0 : ∀ a, (![344, 0] : Fin 2 → Nat) a + S8x512.size a ≤ S2048x512.size a
  inb_S2048x512_S8x512_352_0 : ∀ a, (![352, 0] : Fin 2 → Nat) a + S8x512.size a ≤ S2048x512.size a
  inb_S2048x512_S8x512_360_0 : ∀ a, (![360, 0] : Fin 2 → Nat) a + S8x512.size a ≤ S2048x512.size a
  inb_S2048x512_S8x512_368_0 : ∀ a, (![368, 0] : Fin 2 → Nat) a + S8x512.size a ≤ S2048x512.size a
  inb_S2048x512_S8x512_376_0 : ∀ a, (![376, 0] : Fin 2 → Nat) a + S8x512.size a ≤ S2048x512.size a
  inb_S2048x512_S8x512_384_0 : ∀ a, (![384, 0] : Fin 2 → Nat) a + S8x512.size a ≤ S2048x512.size a
  inb_S2048x512_S8x512_392_0 : ∀ a, (![392, 0] : Fin 2 → Nat) a + S8x512.size a ≤ S2048x512.size a
  inb_S2048x512_S8x512_400_0 : ∀ a, (![400, 0] : Fin 2 → Nat) a + S8x512.size a ≤ S2048x512.size a
  inb_S2048x512_S8x512_408_0 : ∀ a, (![408, 0] : Fin 2 → Nat) a + S8x512.size a ≤ S2048x512.size a
  inb_S2048x512_S8x512_416_0 : ∀ a, (![416, 0] : Fin 2 → Nat) a + S8x512.size a ≤ S2048x512.size a
  inb_S2048x512_S8x512_424_0 : ∀ a, (![424, 0] : Fin 2 → Nat) a + S8x512.size a ≤ S2048x512.size a
  inb_S2048x512_S8x512_432_0 : ∀ a, (![432, 0] : Fin 2 → Nat) a + S8x512.size a ≤ S2048x512.size a
  inb_S2048x512_S8x512_440_0 : ∀ a, (![440, 0] : Fin 2 → Nat) a + S8x512.size a ≤ S2048x512.size a
  inb_S2048x512_S8x512_448_0 : ∀ a, (![448, 0] : Fin 2 → Nat) a + S8x512.size a ≤ S2048x512.size a
  inb_S2048x512_S8x512_456_0 : ∀ a, (![456, 0] : Fin 2 → Nat) a + S8x512.size a ≤ S2048x512.size a
  inb_S2048x512_S8x512_464_0 : ∀ a, (![464, 0] : Fin 2 → Nat) a + S8x512.size a ≤ S2048x512.size a
  inb_S2048x512_S8x512_472_0 : ∀ a, (![472, 0] : Fin 2 → Nat) a + S8x512.size a ≤ S2048x512.size a
  inb_S2048x512_S8x512_480_0 : ∀ a, (![480, 0] : Fin 2 → Nat) a + S8x512.size a ≤ S2048x512.size a
  inb_S2048x512_S8x512_488_0 : ∀ a, (![488, 0] : Fin 2 → Nat) a + S8x512.size a ≤ S2048x512.size a
  inb_S2048x512_S8x512_496_0 : ∀ a, (![496, 0] : Fin 2 → Nat) a + S8x512.size a ≤ S2048x512.size a
  inb_S2048x512_S8x512_504_0 : ∀ a, (![504, 0] : Fin 2 → Nat) a + S8x512.size a ≤ S2048x512.size a
  inb_S2048x512_S8x512_512_0 : ∀ a, (![512, 0] : Fin 2 → Nat) a + S8x512.size a ≤ S2048x512.size a
  inb_S2048x512_S8x512_520_0 : ∀ a, (![520, 0] : Fin 2 → Nat) a + S8x512.size a ≤ S2048x512.size a
  inb_S2048x512_S8x512_528_0 : ∀ a, (![528, 0] : Fin 2 → Nat) a + S8x512.size a ≤ S2048x512.size a
  inb_S2048x512_S8x512_536_0 : ∀ a, (![536, 0] : Fin 2 → Nat) a + S8x512.size a ≤ S2048x512.size a
  inb_S2048x512_S8x512_544_0 : ∀ a, (![544, 0] : Fin 2 → Nat) a + S8x512.size a ≤ S2048x512.size a
  inb_S2048x512_S8x512_552_0 : ∀ a, (![552, 0] : Fin 2 → Nat) a + S8x512.size a ≤ S2048x512.size a
  inb_S2048x512_S8x512_560_0 : ∀ a, (![560, 0] : Fin 2 → Nat) a + S8x512.size a ≤ S2048x512.size a
  inb_S2048x512_S8x512_568_0 : ∀ a, (![568, 0] : Fin 2 → Nat) a + S8x512.size a ≤ S2048x512.size a
  inb_S2048x512_S8x512_576_0 : ∀ a, (![576, 0] : Fin 2 → Nat) a + S8x512.size a ≤ S2048x512.size a
  inb_S2048x512_S8x512_584_0 : ∀ a, (![584, 0] : Fin 2 → Nat) a + S8x512.size a ≤ S2048x512.size a
  inb_S2048x512_S8x512_592_0 : ∀ a, (![592, 0] : Fin 2 → Nat) a + S8x512.size a ≤ S2048x512.size a
  inb_S2048x512_S8x512_600_0 : ∀ a, (![600, 0] : Fin 2 → Nat) a + S8x512.size a ≤ S2048x512.size a
  inb_S2048x512_S8x512_608_0 : ∀ a, (![608, 0] : Fin 2 → Nat) a + S8x512.size a ≤ S2048x512.size a
  inb_S2048x512_S8x512_616_0 : ∀ a, (![616, 0] : Fin 2 → Nat) a + S8x512.size a ≤ S2048x512.size a
  inb_S2048x512_S8x512_624_0 : ∀ a, (![624, 0] : Fin 2 → Nat) a + S8x512.size a ≤ S2048x512.size a
  inb_S2048x512_S8x512_632_0 : ∀ a, (![632, 0] : Fin 2 → Nat) a + S8x512.size a ≤ S2048x512.size a
  inb_S2048x512_S8x512_640_0 : ∀ a, (![640, 0] : Fin 2 → Nat) a + S8x512.size a ≤ S2048x512.size a
  inb_S2048x512_S8x512_648_0 : ∀ a, (![648, 0] : Fin 2 → Nat) a + S8x512.size a ≤ S2048x512.size a
  inb_S2048x512_S8x512_656_0 : ∀ a, (![656, 0] : Fin 2 → Nat) a + S8x512.size a ≤ S2048x512.size a
  inb_S2048x512_S8x512_664_0 : ∀ a, (![664, 0] : Fin 2 → Nat) a + S8x512.size a ≤ S2048x512.size a
  inb_S2048x512_S8x512_672_0 : ∀ a, (![672, 0] : Fin 2 → Nat) a + S8x512.size a ≤ S2048x512.size a
  inb_S2048x512_S8x512_680_0 : ∀ a, (![680, 0] : Fin 2 → Nat) a + S8x512.size a ≤ S2048x512.size a
  inb_S2048x512_S8x512_688_0 : ∀ a, (![688, 0] : Fin 2 → Nat) a + S8x512.size a ≤ S2048x512.size a
  inb_S2048x512_S8x512_696_0 : ∀ a, (![696, 0] : Fin 2 → Nat) a + S8x512.size a ≤ S2048x512.size a
  inb_S2048x512_S8x512_704_0 : ∀ a, (![704, 0] : Fin 2 → Nat) a + S8x512.size a ≤ S2048x512.size a
  inb_S2048x512_S8x512_712_0 : ∀ a, (![712, 0] : Fin 2 → Nat) a + S8x512.size a ≤ S2048x512.size a
  inb_S2048x512_S8x512_720_0 : ∀ a, (![720, 0] : Fin 2 → Nat) a + S8x512.size a ≤ S2048x512.size a
  inb_S2048x512_S8x512_728_0 : ∀ a, (![728, 0] : Fin 2 → Nat) a + S8x512.size a ≤ S2048x512.size a
  inb_S2048x512_S8x512_736_0 : ∀ a, (![736, 0] : Fin 2 → Nat) a + S8x512.size a ≤ S2048x512.size a
  inb_S2048x512_S8x512_744_0 : ∀ a, (![744, 0] : Fin 2 → Nat) a + S8x512.size a ≤ S2048x512.size a
  inb_S2048x512_S8x512_752_0 : ∀ a, (![752, 0] : Fin 2 → Nat) a + S8x512.size a ≤ S2048x512.size a
  inb_S2048x512_S8x512_760_0 : ∀ a, (![760, 0] : Fin 2 → Nat) a + S8x512.size a ≤ S2048x512.size a
  inb_S2048x512_S8x512_768_0 : ∀ a, (![768, 0] : Fin 2 → Nat) a + S8x512.size a ≤ S2048x512.size a
  inb_S2048x512_S8x512_776_0 : ∀ a, (![776, 0] : Fin 2 → Nat) a + S8x512.size a ≤ S2048x512.size a
  inb_S2048x512_S8x512_784_0 : ∀ a, (![784, 0] : Fin 2 → Nat) a + S8x512.size a ≤ S2048x512.size a
  inb_S2048x512_S8x512_792_0 : ∀ a, (![792, 0] : Fin 2 → Nat) a + S8x512.size a ≤ S2048x512.size a
  inb_S2048x512_S8x512_800_0 : ∀ a, (![800, 0] : Fin 2 → Nat) a + S8x512.size a ≤ S2048x512.size a
  inb_S2048x512_S8x512_808_0 : ∀ a, (![808, 0] : Fin 2 → Nat) a + S8x512.size a ≤ S2048x512.size a
  inb_S2048x512_S8x512_816_0 : ∀ a, (![816, 0] : Fin 2 → Nat) a + S8x512.size a ≤ S2048x512.size a
  inb_S2048x512_S8x512_824_0 : ∀ a, (![824, 0] : Fin 2 → Nat) a + S8x512.size a ≤ S2048x512.size a
  inb_S2048x512_S8x512_832_0 : ∀ a, (![832, 0] : Fin 2 → Nat) a + S8x512.size a ≤ S2048x512.size a
  inb_S2048x512_S8x512_840_0 : ∀ a, (![840, 0] : Fin 2 → Nat) a + S8x512.size a ≤ S2048x512.size a
  inb_S2048x512_S8x512_848_0 : ∀ a, (![848, 0] : Fin 2 → Nat) a + S8x512.size a ≤ S2048x512.size a
  inb_S2048x512_S8x512_856_0 : ∀ a, (![856, 0] : Fin 2 → Nat) a + S8x512.size a ≤ S2048x512.size a
  inb_S2048x512_S8x512_864_0 : ∀ a, (![864, 0] : Fin 2 → Nat) a + S8x512.size a ≤ S2048x512.size a
  inb_S2048x512_S8x512_872_0 : ∀ a, (![872, 0] : Fin 2 → Nat) a + S8x512.size a ≤ S2048x512.size a
  inb_S2048x512_S8x512_880_0 : ∀ a, (![880, 0] : Fin 2 → Nat) a + S8x512.size a ≤ S2048x512.size a
  inb_S2048x512_S8x512_888_0 : ∀ a, (![888, 0] : Fin 2 → Nat) a + S8x512.size a ≤ S2048x512.size a
  inb_S2048x512_S8x512_896_0 : ∀ a, (![896, 0] : Fin 2 → Nat) a + S8x512.size a ≤ S2048x512.size a
  inb_S2048x512_S8x512_904_0 : ∀ a, (![904, 0] : Fin 2 → Nat) a + S8x512.size a ≤ S2048x512.size a
  inb_S2048x512_S8x512_912_0 : ∀ a, (![912, 0] : Fin 2 → Nat) a + S8x512.size a ≤ S2048x512.size a
  inb_S2048x512_S8x512_920_0 : ∀ a, (![920, 0] : Fin 2 → Nat) a + S8x512.size a ≤ S2048x512.size a
  inb_S2048x512_S8x512_928_0 : ∀ a, (![928, 0] : Fin 2 → Nat) a + S8x512.size a ≤ S2048x512.size a
  inb_S2048x512_S8x512_936_0 : ∀ a, (![936, 0] : Fin 2 → Nat) a + S8x512.size a ≤ S2048x512.size a
  inb_S2048x512_S8x512_944_0 : ∀ a, (![944, 0] : Fin 2 → Nat) a + S8x512.size a ≤ S2048x512.size a
  inb_S2048x512_S8x512_952_0 : ∀ a, (![952, 0] : Fin 2 → Nat) a + S8x512.size a ≤ S2048x512.size a
  inb_S2048x512_S8x512_960_0 : ∀ a, (![960, 0] : Fin 2 → Nat) a + S8x512.size a ≤ S2048x512.size a
  inb_S2048x512_S8x512_968_0 : ∀ a, (![968, 0] : Fin 2 → Nat) a + S8x512.size a ≤ S2048x512.size a
  inb_S2048x512_S8x512_976_0 : ∀ a, (![976, 0] : Fin 2 → Nat) a + S8x512.size a ≤ S2048x512.size a
  inb_S2048x512_S8x512_984_0 : ∀ a, (![984, 0] : Fin 2 → Nat) a + S8x512.size a ≤ S2048x512.size a
  inb_S2048x512_S8x512_992_0 : ∀ a, (![992, 0] : Fin 2 → Nat) a + S8x512.size a ≤ S2048x512.size a
  inb_S2048x512_S8x512_1000_0 : ∀ a, (![1000, 0] : Fin 2 → Nat) a + S8x512.size a ≤ S2048x512.size a
  inb_S2048x512_S8x512_1008_0 : ∀ a, (![1008, 0] : Fin 2 → Nat) a + S8x512.size a ≤ S2048x512.size a
  inb_S2048x512_S8x512_1016_0 : ∀ a, (![1016, 0] : Fin 2 → Nat) a + S8x512.size a ≤ S2048x512.size a
  inb_S2048x512_S8x512_1024_0 : ∀ a, (![1024, 0] : Fin 2 → Nat) a + S8x512.size a ≤ S2048x512.size a
  inb_S2048x512_S8x512_1032_0 : ∀ a, (![1032, 0] : Fin 2 → Nat) a + S8x512.size a ≤ S2048x512.size a
  inb_S2048x512_S8x512_1040_0 : ∀ a, (![1040, 0] : Fin 2 → Nat) a + S8x512.size a ≤ S2048x512.size a
  inb_S2048x512_S8x512_1048_0 : ∀ a, (![1048, 0] : Fin 2 → Nat) a + S8x512.size a ≤ S2048x512.size a
  inb_S2048x512_S8x512_1056_0 : ∀ a, (![1056, 0] : Fin 2 → Nat) a + S8x512.size a ≤ S2048x512.size a
  inb_S2048x512_S8x512_1064_0 : ∀ a, (![1064, 0] : Fin 2 → Nat) a + S8x512.size a ≤ S2048x512.size a
  inb_S2048x512_S8x512_1072_0 : ∀ a, (![1072, 0] : Fin 2 → Nat) a + S8x512.size a ≤ S2048x512.size a
  inb_S2048x512_S8x512_1080_0 : ∀ a, (![1080, 0] : Fin 2 → Nat) a + S8x512.size a ≤ S2048x512.size a
  inb_S2048x512_S8x512_1088_0 : ∀ a, (![1088, 0] : Fin 2 → Nat) a + S8x512.size a ≤ S2048x512.size a
  inb_S2048x512_S8x512_1096_0 : ∀ a, (![1096, 0] : Fin 2 → Nat) a + S8x512.size a ≤ S2048x512.size a
  inb_S2048x512_S8x512_1104_0 : ∀ a, (![1104, 0] : Fin 2 → Nat) a + S8x512.size a ≤ S2048x512.size a
  inb_S2048x512_S8x512_1112_0 : ∀ a, (![1112, 0] : Fin 2 → Nat) a + S8x512.size a ≤ S2048x512.size a
  inb_S2048x512_S8x512_1120_0 : ∀ a, (![1120, 0] : Fin 2 → Nat) a + S8x512.size a ≤ S2048x512.size a
  inb_S2048x512_S8x512_1128_0 : ∀ a, (![1128, 0] : Fin 2 → Nat) a + S8x512.size a ≤ S2048x512.size a
  inb_S2048x512_S8x512_1136_0 : ∀ a, (![1136, 0] : Fin 2 → Nat) a + S8x512.size a ≤ S2048x512.size a
  inb_S2048x512_S8x512_1144_0 : ∀ a, (![1144, 0] : Fin 2 → Nat) a + S8x512.size a ≤ S2048x512.size a
  inb_S2048x512_S8x512_1152_0 : ∀ a, (![1152, 0] : Fin 2 → Nat) a + S8x512.size a ≤ S2048x512.size a
  inb_S2048x512_S8x512_1160_0 : ∀ a, (![1160, 0] : Fin 2 → Nat) a + S8x512.size a ≤ S2048x512.size a
  inb_S2048x512_S8x512_1168_0 : ∀ a, (![1168, 0] : Fin 2 → Nat) a + S8x512.size a ≤ S2048x512.size a
  inb_S2048x512_S8x512_1176_0 : ∀ a, (![1176, 0] : Fin 2 → Nat) a + S8x512.size a ≤ S2048x512.size a
  inb_S2048x512_S8x512_1184_0 : ∀ a, (![1184, 0] : Fin 2 → Nat) a + S8x512.size a ≤ S2048x512.size a
  inb_S2048x512_S8x512_1192_0 : ∀ a, (![1192, 0] : Fin 2 → Nat) a + S8x512.size a ≤ S2048x512.size a
  inb_S2048x512_S8x512_1200_0 : ∀ a, (![1200, 0] : Fin 2 → Nat) a + S8x512.size a ≤ S2048x512.size a
  inb_S2048x512_S8x512_1208_0 : ∀ a, (![1208, 0] : Fin 2 → Nat) a + S8x512.size a ≤ S2048x512.size a
  inb_S2048x512_S8x512_1216_0 : ∀ a, (![1216, 0] : Fin 2 → Nat) a + S8x512.size a ≤ S2048x512.size a
  inb_S2048x512_S8x512_1224_0 : ∀ a, (![1224, 0] : Fin 2 → Nat) a + S8x512.size a ≤ S2048x512.size a
  inb_S2048x512_S8x512_1232_0 : ∀ a, (![1232, 0] : Fin 2 → Nat) a + S8x512.size a ≤ S2048x512.size a
  inb_S2048x512_S8x512_1240_0 : ∀ a, (![1240, 0] : Fin 2 → Nat) a + S8x512.size a ≤ S2048x512.size a
  inb_S2048x512_S8x512_1248_0 : ∀ a, (![1248, 0] : Fin 2 → Nat) a + S8x512.size a ≤ S2048x512.size a
  inb_S2048x512_S8x512_1256_0 : ∀ a, (![1256, 0] : Fin 2 → Nat) a + S8x512.size a ≤ S2048x512.size a
  inb_S2048x512_S8x512_1264_0 : ∀ a, (![1264, 0] : Fin 2 → Nat) a + S8x512.size a ≤ S2048x512.size a
  inb_S2048x512_S8x512_1272_0 : ∀ a, (![1272, 0] : Fin 2 → Nat) a + S8x512.size a ≤ S2048x512.size a
  inb_S2048x512_S8x512_1280_0 : ∀ a, (![1280, 0] : Fin 2 → Nat) a + S8x512.size a ≤ S2048x512.size a
  inb_S2048x512_S8x512_1288_0 : ∀ a, (![1288, 0] : Fin 2 → Nat) a + S8x512.size a ≤ S2048x512.size a
  inb_S2048x512_S8x512_1296_0 : ∀ a, (![1296, 0] : Fin 2 → Nat) a + S8x512.size a ≤ S2048x512.size a
  inb_S2048x512_S8x512_1304_0 : ∀ a, (![1304, 0] : Fin 2 → Nat) a + S8x512.size a ≤ S2048x512.size a
  inb_S2048x512_S8x512_1312_0 : ∀ a, (![1312, 0] : Fin 2 → Nat) a + S8x512.size a ≤ S2048x512.size a
  inb_S2048x512_S8x512_1320_0 : ∀ a, (![1320, 0] : Fin 2 → Nat) a + S8x512.size a ≤ S2048x512.size a
  inb_S2048x512_S8x512_1328_0 : ∀ a, (![1328, 0] : Fin 2 → Nat) a + S8x512.size a ≤ S2048x512.size a
  inb_S2048x512_S8x512_1336_0 : ∀ a, (![1336, 0] : Fin 2 → Nat) a + S8x512.size a ≤ S2048x512.size a
  inb_S2048x512_S8x512_1344_0 : ∀ a, (![1344, 0] : Fin 2 → Nat) a + S8x512.size a ≤ S2048x512.size a
  inb_S2048x512_S8x512_1352_0 : ∀ a, (![1352, 0] : Fin 2 → Nat) a + S8x512.size a ≤ S2048x512.size a
  inb_S2048x512_S8x512_1360_0 : ∀ a, (![1360, 0] : Fin 2 → Nat) a + S8x512.size a ≤ S2048x512.size a
  inb_S2048x512_S8x512_1368_0 : ∀ a, (![1368, 0] : Fin 2 → Nat) a + S8x512.size a ≤ S2048x512.size a
  inb_S2048x512_S8x512_1376_0 : ∀ a, (![1376, 0] : Fin 2 → Nat) a + S8x512.size a ≤ S2048x512.size a
  inb_S2048x512_S8x512_1384_0 : ∀ a, (![1384, 0] : Fin 2 → Nat) a + S8x512.size a ≤ S2048x512.size a
  inb_S2048x512_S8x512_1392_0 : ∀ a, (![1392, 0] : Fin 2 → Nat) a + S8x512.size a ≤ S2048x512.size a
  inb_S2048x512_S8x512_1400_0 : ∀ a, (![1400, 0] : Fin 2 → Nat) a + S8x512.size a ≤ S2048x512.size a
  inb_S2048x512_S8x512_1408_0 : ∀ a, (![1408, 0] : Fin 2 → Nat) a + S8x512.size a ≤ S2048x512.size a
  inb_S2048x512_S8x512_1416_0 : ∀ a, (![1416, 0] : Fin 2 → Nat) a + S8x512.size a ≤ S2048x512.size a
  inb_S2048x512_S8x512_1424_0 : ∀ a, (![1424, 0] : Fin 2 → Nat) a + S8x512.size a ≤ S2048x512.size a
  inb_S2048x512_S8x512_1432_0 : ∀ a, (![1432, 0] : Fin 2 → Nat) a + S8x512.size a ≤ S2048x512.size a
  inb_S2048x512_S8x512_1440_0 : ∀ a, (![1440, 0] : Fin 2 → Nat) a + S8x512.size a ≤ S2048x512.size a
  inb_S2048x512_S8x512_1448_0 : ∀ a, (![1448, 0] : Fin 2 → Nat) a + S8x512.size a ≤ S2048x512.size a
  inb_S2048x512_S8x512_1456_0 : ∀ a, (![1456, 0] : Fin 2 → Nat) a + S8x512.size a ≤ S2048x512.size a
  inb_S2048x512_S8x512_1464_0 : ∀ a, (![1464, 0] : Fin 2 → Nat) a + S8x512.size a ≤ S2048x512.size a
  inb_S2048x512_S8x512_1472_0 : ∀ a, (![1472, 0] : Fin 2 → Nat) a + S8x512.size a ≤ S2048x512.size a
  inb_S2048x512_S8x512_1480_0 : ∀ a, (![1480, 0] : Fin 2 → Nat) a + S8x512.size a ≤ S2048x512.size a
  inb_S2048x512_S8x512_1488_0 : ∀ a, (![1488, 0] : Fin 2 → Nat) a + S8x512.size a ≤ S2048x512.size a
  inb_S2048x512_S8x512_1496_0 : ∀ a, (![1496, 0] : Fin 2 → Nat) a + S8x512.size a ≤ S2048x512.size a
  inb_S2048x512_S8x512_1504_0 : ∀ a, (![1504, 0] : Fin 2 → Nat) a + S8x512.size a ≤ S2048x512.size a
  inb_S2048x512_S8x512_1512_0 : ∀ a, (![1512, 0] : Fin 2 → Nat) a + S8x512.size a ≤ S2048x512.size a
  inb_S2048x512_S8x512_1520_0 : ∀ a, (![1520, 0] : Fin 2 → Nat) a + S8x512.size a ≤ S2048x512.size a
  inb_S2048x512_S8x512_1528_0 : ∀ a, (![1528, 0] : Fin 2 → Nat) a + S8x512.size a ≤ S2048x512.size a
  inb_S2048x512_S8x512_1536_0 : ∀ a, (![1536, 0] : Fin 2 → Nat) a + S8x512.size a ≤ S2048x512.size a
  inb_S2048x512_S8x512_1544_0 : ∀ a, (![1544, 0] : Fin 2 → Nat) a + S8x512.size a ≤ S2048x512.size a
  inb_S2048x512_S8x512_1552_0 : ∀ a, (![1552, 0] : Fin 2 → Nat) a + S8x512.size a ≤ S2048x512.size a
  inb_S2048x512_S8x512_1560_0 : ∀ a, (![1560, 0] : Fin 2 → Nat) a + S8x512.size a ≤ S2048x512.size a
  inb_S2048x512_S8x512_1568_0 : ∀ a, (![1568, 0] : Fin 2 → Nat) a + S8x512.size a ≤ S2048x512.size a
  inb_S2048x512_S8x512_1576_0 : ∀ a, (![1576, 0] : Fin 2 → Nat) a + S8x512.size a ≤ S2048x512.size a
  inb_S2048x512_S8x512_1584_0 : ∀ a, (![1584, 0] : Fin 2 → Nat) a + S8x512.size a ≤ S2048x512.size a
  inb_S2048x512_S8x512_1592_0 : ∀ a, (![1592, 0] : Fin 2 → Nat) a + S8x512.size a ≤ S2048x512.size a
  inb_S2048x512_S8x512_1600_0 : ∀ a, (![1600, 0] : Fin 2 → Nat) a + S8x512.size a ≤ S2048x512.size a
  inb_S2048x512_S8x512_1608_0 : ∀ a, (![1608, 0] : Fin 2 → Nat) a + S8x512.size a ≤ S2048x512.size a
  inb_S2048x512_S8x512_1616_0 : ∀ a, (![1616, 0] : Fin 2 → Nat) a + S8x512.size a ≤ S2048x512.size a
  inb_S2048x512_S8x512_1624_0 : ∀ a, (![1624, 0] : Fin 2 → Nat) a + S8x512.size a ≤ S2048x512.size a
  inb_S2048x512_S8x512_1632_0 : ∀ a, (![1632, 0] : Fin 2 → Nat) a + S8x512.size a ≤ S2048x512.size a
  inb_S2048x512_S8x512_1640_0 : ∀ a, (![1640, 0] : Fin 2 → Nat) a + S8x512.size a ≤ S2048x512.size a
  inb_S2048x512_S8x512_1648_0 : ∀ a, (![1648, 0] : Fin 2 → Nat) a + S8x512.size a ≤ S2048x512.size a
  inb_S2048x512_S8x512_1656_0 : ∀ a, (![1656, 0] : Fin 2 → Nat) a + S8x512.size a ≤ S2048x512.size a
  inb_S2048x512_S8x512_1664_0 : ∀ a, (![1664, 0] : Fin 2 → Nat) a + S8x512.size a ≤ S2048x512.size a
  inb_S2048x512_S8x512_1672_0 : ∀ a, (![1672, 0] : Fin 2 → Nat) a + S8x512.size a ≤ S2048x512.size a
  inb_S2048x512_S8x512_1680_0 : ∀ a, (![1680, 0] : Fin 2 → Nat) a + S8x512.size a ≤ S2048x512.size a
  inb_S2048x512_S8x512_1688_0 : ∀ a, (![1688, 0] : Fin 2 → Nat) a + S8x512.size a ≤ S2048x512.size a
  inb_S2048x512_S8x512_1696_0 : ∀ a, (![1696, 0] : Fin 2 → Nat) a + S8x512.size a ≤ S2048x512.size a
  inb_S2048x512_S8x512_1704_0 : ∀ a, (![1704, 0] : Fin 2 → Nat) a + S8x512.size a ≤ S2048x512.size a
  inb_S2048x512_S8x512_1712_0 : ∀ a, (![1712, 0] : Fin 2 → Nat) a + S8x512.size a ≤ S2048x512.size a
  inb_S2048x512_S8x512_1720_0 : ∀ a, (![1720, 0] : Fin 2 → Nat) a + S8x512.size a ≤ S2048x512.size a
  inb_S2048x512_S8x512_1728_0 : ∀ a, (![1728, 0] : Fin 2 → Nat) a + S8x512.size a ≤ S2048x512.size a
  inb_S2048x512_S8x512_1736_0 : ∀ a, (![1736, 0] : Fin 2 → Nat) a + S8x512.size a ≤ S2048x512.size a
  inb_S2048x512_S8x512_1744_0 : ∀ a, (![1744, 0] : Fin 2 → Nat) a + S8x512.size a ≤ S2048x512.size a
  inb_S2048x512_S8x512_1752_0 : ∀ a, (![1752, 0] : Fin 2 → Nat) a + S8x512.size a ≤ S2048x512.size a
  inb_S2048x512_S8x512_1760_0 : ∀ a, (![1760, 0] : Fin 2 → Nat) a + S8x512.size a ≤ S2048x512.size a
  inb_S2048x512_S8x512_1768_0 : ∀ a, (![1768, 0] : Fin 2 → Nat) a + S8x512.size a ≤ S2048x512.size a
  inb_S2048x512_S8x512_1776_0 : ∀ a, (![1776, 0] : Fin 2 → Nat) a + S8x512.size a ≤ S2048x512.size a
  inb_S2048x512_S8x512_1784_0 : ∀ a, (![1784, 0] : Fin 2 → Nat) a + S8x512.size a ≤ S2048x512.size a
  inb_S2048x512_S8x512_1792_0 : ∀ a, (![1792, 0] : Fin 2 → Nat) a + S8x512.size a ≤ S2048x512.size a
  inb_S2048x512_S8x512_1800_0 : ∀ a, (![1800, 0] : Fin 2 → Nat) a + S8x512.size a ≤ S2048x512.size a
  inb_S2048x512_S8x512_1808_0 : ∀ a, (![1808, 0] : Fin 2 → Nat) a + S8x512.size a ≤ S2048x512.size a
  inb_S2048x512_S8x512_1816_0 : ∀ a, (![1816, 0] : Fin 2 → Nat) a + S8x512.size a ≤ S2048x512.size a
  inb_S2048x512_S8x512_1824_0 : ∀ a, (![1824, 0] : Fin 2 → Nat) a + S8x512.size a ≤ S2048x512.size a
  inb_S2048x512_S8x512_1832_0 : ∀ a, (![1832, 0] : Fin 2 → Nat) a + S8x512.size a ≤ S2048x512.size a
  inb_S2048x512_S8x512_1840_0 : ∀ a, (![1840, 0] : Fin 2 → Nat) a + S8x512.size a ≤ S2048x512.size a
  inb_S2048x512_S8x512_1848_0 : ∀ a, (![1848, 0] : Fin 2 → Nat) a + S8x512.size a ≤ S2048x512.size a
  inb_S2048x512_S8x512_1856_0 : ∀ a, (![1856, 0] : Fin 2 → Nat) a + S8x512.size a ≤ S2048x512.size a
  inb_S2048x512_S8x512_1864_0 : ∀ a, (![1864, 0] : Fin 2 → Nat) a + S8x512.size a ≤ S2048x512.size a
  inb_S2048x512_S8x512_1872_0 : ∀ a, (![1872, 0] : Fin 2 → Nat) a + S8x512.size a ≤ S2048x512.size a
  inb_S2048x512_S8x512_1880_0 : ∀ a, (![1880, 0] : Fin 2 → Nat) a + S8x512.size a ≤ S2048x512.size a
  inb_S2048x512_S8x512_1888_0 : ∀ a, (![1888, 0] : Fin 2 → Nat) a + S8x512.size a ≤ S2048x512.size a
  inb_S2048x512_S8x512_1896_0 : ∀ a, (![1896, 0] : Fin 2 → Nat) a + S8x512.size a ≤ S2048x512.size a
  inb_S2048x512_S8x512_1904_0 : ∀ a, (![1904, 0] : Fin 2 → Nat) a + S8x512.size a ≤ S2048x512.size a
  inb_S2048x512_S8x512_1912_0 : ∀ a, (![1912, 0] : Fin 2 → Nat) a + S8x512.size a ≤ S2048x512.size a
  inb_S2048x512_S8x512_1920_0 : ∀ a, (![1920, 0] : Fin 2 → Nat) a + S8x512.size a ≤ S2048x512.size a
  inb_S2048x512_S8x512_1928_0 : ∀ a, (![1928, 0] : Fin 2 → Nat) a + S8x512.size a ≤ S2048x512.size a
  inb_S2048x512_S8x512_1936_0 : ∀ a, (![1936, 0] : Fin 2 → Nat) a + S8x512.size a ≤ S2048x512.size a
  inb_S2048x512_S8x512_1944_0 : ∀ a, (![1944, 0] : Fin 2 → Nat) a + S8x512.size a ≤ S2048x512.size a
  inb_S2048x512_S8x512_1952_0 : ∀ a, (![1952, 0] : Fin 2 → Nat) a + S8x512.size a ≤ S2048x512.size a
  inb_S2048x512_S8x512_1960_0 : ∀ a, (![1960, 0] : Fin 2 → Nat) a + S8x512.size a ≤ S2048x512.size a
  inb_S2048x512_S8x512_1968_0 : ∀ a, (![1968, 0] : Fin 2 → Nat) a + S8x512.size a ≤ S2048x512.size a
  inb_S2048x512_S8x512_1976_0 : ∀ a, (![1976, 0] : Fin 2 → Nat) a + S8x512.size a ≤ S2048x512.size a
  inb_S2048x512_S8x512_1984_0 : ∀ a, (![1984, 0] : Fin 2 → Nat) a + S8x512.size a ≤ S2048x512.size a
  inb_S2048x512_S8x512_1992_0 : ∀ a, (![1992, 0] : Fin 2 → Nat) a + S8x512.size a ≤ S2048x512.size a
  inb_S2048x512_S8x512_2000_0 : ∀ a, (![2000, 0] : Fin 2 → Nat) a + S8x512.size a ≤ S2048x512.size a
  inb_S2048x512_S8x512_2008_0 : ∀ a, (![2008, 0] : Fin 2 → Nat) a + S8x512.size a ≤ S2048x512.size a
  inb_S2048x512_S8x512_2016_0 : ∀ a, (![2016, 0] : Fin 2 → Nat) a + S8x512.size a ≤ S2048x512.size a
  inb_S2048x512_S8x512_2024_0 : ∀ a, (![2024, 0] : Fin 2 → Nat) a + S8x512.size a ≤ S2048x512.size a
  inb_S2048x512_S8x512_2032_0 : ∀ a, (![2032, 0] : Fin 2 → Nat) a + S8x512.size a ≤ S2048x512.size a
  inb_S2048x512_S8x512_2040_0 : ∀ a, (![2040, 0] : Fin 2 → Nat) a + S8x512.size a ≤ S2048x512.size a
  shapeCasts_S8x512_S1x8x512 : S8x512.ShapeCasts S1x8x512
  reduces_S1x8x512_S1 : S1x8x512.Reduces [1, 2] S1
  shapeCasts_S1_S1x1x1 : S1.ShapeCasts S1x1x1
  inpos_S1x1x1_p0_0_0 : ∀ a, (![0, 0, 0] : Fin 3 → Nat) a < S1x1x1.size a
  inb_S2_S1_0 : ∀ a, (![0] : Fin 1 → Nat) a + S1.size a ≤ S2.size a
  numel1_S1 : S1.numel = 1
  inb_S2_S1_1 : ∀ a, (![1] : Fin 1 → Nat) a + S1.size a ≤ S2.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S16x16_S1x16x16 : S16x16.ShapeCasts S1x16x16
  reduces_S1x16x16_S1 : S1x16x16.Reduces [1, 2] S1
  inb_S1_S1_0 : ∀ a, (![0] : Fin 1 → Nat) a + S1.size a ≤ S1.size a
  shapeCasts_S1_S_ : S1.ShapeCasts S_
  hcc1_scratch6 : 5 + S_.numel ≤ 15
  hcc1_scratch7 : 6 + S_.numel ≤ 15
  hcc1_scratch8 : 7 + S_.numel ≤ 15
  hcc1_scratch9 : 8 + S_.numel ≤ 15
  hcc1_scoped0 : 9 + S_.numel ≤ 15
  hcc1_scoped1 : 10 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (r : Fin 4), ∀ a, (k1_off1 i (BitVec.ofNat 32 (32 * r.val))) a + S32x512.size a ≤ S16384x512.size a
  k1_t1_ok : k1_t1_loop.OK
  k1_t2_ok : k1_t2_loop.OK
  k1_off2_inb : ∀ (k1_t1 : Fin k1_t1_loop.trips) (k1_t2 : Fin k1_t2_loop.trips), ∀ a, (k1_off2 k1_t1 k1_t2) a + S1x16.size a ≤ S32x512.size a
  k1_t3_ok : k1_t3_loop.OK
  k1_t4_ok : k1_t4_loop.OK
  k1_off3_inb : ∀ (k1_t3 : Fin k1_t3_loop.trips) (k1_t4 : Fin k1_t4_loop.trips), ∀ a, (k1_off3 k1_t3 k1_t4) a + S1x16.size a ≤ S32x512.size a
  k1_t5_ok : k1_t5_loop.OK
  k1_t6_ok : k1_t6_loop.OK
  k1_off4_inb : ∀ (k1_t5 : Fin k1_t5_loop.trips) (k1_t6 : Fin k1_t6_loop.trips), ∀ a, (k1_off4 k1_t5 k1_t6) a + S1x16.size a ≤ S32x512.size a
  k1_t7_ok : k1_t7_loop.OK
  k1_t8_ok : k1_t8_loop.OK
  k1_off5_inb : ∀ (k1_t7 : Fin k1_t7_loop.trips) (k1_t8 : Fin k1_t8_loop.trips), ∀ a, (k1_off5 k1_t7 k1_t8) a + S1x16.size a ≤ S32x512.size a
  k1_off6_inb : ∀ i : grid1.Coords, ∀ a, (k1_off6 i) a + S1x16.size a ≤ S16x16.size a
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc1_scratch6 : DmaSems sig S_ := SemArray.consecutive 5 S_ hcc1_scratch6
abbrev cc1_scratch7 : DmaSems sig S_ := SemArray.consecutive 6 S_ hcc1_scratch7
abbrev cc1_scratch8 : DmaSems sig S_ := SemArray.consecutive 7 S_ hcc1_scratch8
abbrev cc1_scratch9 : DmaSems sig S_ := SemArray.consecutive 8 S_ hcc1_scratch9
abbrev cc1_scoped0 : DmaSems sig S_ := SemArray.consecutive 9 S_ hcc1_scoped0
abbrev cc1_scoped1 : DmaSems sig S_ := SemArray.consecutive 10 S_ hcc1_scoped1

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win2_0 : Pipeline.Window sig grid2 :=
  Pipeline.Window.whole (Memref.whole main_v3_0) false false (stage2_0 0) (sem2_0 0) (Memref.isWhole_whole _) (hstage2_0 0)

abbrev win2_1 : Pipeline.Window sig grid2 :=
  Pipeline.Window.whole (Memref.whole main_v3_1) false false (stage2_1 0) (sem2_1 0) (Memref.isWhole_whole _) (hstage2_1 0)

abbrev win2_2 : Pipeline.Window sig grid2 :=
  Pipeline.Window.whole (Memref.whole main_v2) false false (stage2_2 0) (sem2_2 0) (Memref.isWhole_whole _) (hstage2_2 0)

abbrev win2_3 : Pipeline.Window sig grid2 :=
  Pipeline.Window.whole (Memref.whole main_v4) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x1x512x512 : Shape := ⟨4, ![32, 1, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S_, .f32⟩
  | .hbm, ⟨3, _⟩ => ⟨S32x1x512x512, .f32⟩
  | .hbm, ⟨4, _⟩ => ⟨S32x1x512x512, .i1⟩
  | .hbm, ⟨5, _⟩ => ⟨S32x1x512x512, .f32⟩
  | .hbm, ⟨6, _⟩ => ⟨S32x1x512x512, .f32⟩
  | .hbm, ⟨7, _⟩ => ⟨S32x1x512x512, .f32⟩
  | .hbm, ⟨8, _⟩ => ⟨S32x1x512x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts₀]

class Facts : Prop extends Facts₀ where

variable [Facts]
-- ==== Proof.CommonB.lean ====
/-
  What every part of the kernel's proof shares: the program as the launch theorem for a program with a
  vector-subcore kernel sees it (its label signature, the SparseCore configuration, the body table, the loop
  variants), the configuration's side facts, and the ghost state: the launch handshakes' rounds beside the rounds
  of the two pipelines' staging cells and the counters of the tiles' own local copies.
-/
import proofs.«211649_g4638564679882_cont_8to1c4_562_19_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211649_g4638564679882_cont_8to1c4_562_19_alg».proof.Proof.Gen.Kernel
import proofs.«211649_g4638564679882_cont_8to1c4_562_19_alg».proof.Proof.Gen.Kernel.Skeleton
import proofs.«211649_g4638564679882_cont_8to1c4_562_19_alg».proof.Proof.Gen.Kernel.Launch
import proofs.«211649_g4638564679882_cont_8to1c4_562_19_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch handshakes' rounds. -/
abbrev UH : Type := URounds (GSem nD τ sig) ℕ
/-- The two pipelines' staging cells' rounds. -/
abbrev UP : Type := URounds (GSem nD τ sig) Unit
/-- Handshakes, staging cells, and the counters of local copies. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The two arguments and the arrays @main makes of them, as locations of device `d` -/

abbrev a0Loc (d : Dev nD) : Loc nD τ sig := (SparseCore.T d).loc main_arg0
abbrev a1Loc (d : Dev nD) : Loc nD τ sig := (SparseCore.T d).loc main_arg1
abbrev srcLoc (d : Dev nD) : Loc nD τ sig := (SparseCore.T d).loc main_v0
abbrev tarLoc (d : Dev nD) : Loc nD τ sig := (SparseCore.T d).loc main_v1
abbrev tcPartLoc (d : Dev nD) : Loc nD τ sig := (SparseCore.T d).loc main_v2
abbrev scSumLoc (d : Dev nD) : Loc nD τ sig := (SparseCore.T d).loc main_v3_0
abbrev scCntLoc (d : Dev nD) : Loc nD τ sig := (SparseCore.T d).loc main_v3_1
abbrev outLoc (d : Dev nD) : Loc nD τ sig := (SparseCore.T d).loc main_v4
abbrev resLoc (d : Dev nD) : Loc nD τ sig := (SparseCore.T d).loc main_v5

end Cert.Proof.KB

end
-- ==== Proof.TcBodyB.lean ====
/-
  The two TensorCore kernel bodies, run once at symbolic operands.

  The accumulating body visits a block of 2048 rows of the source and the target, eight rows at a time: with
  s and t the two row groups it adds (s - t)^2 where t exceeds the threshold, else 0, to plane 0 of the carried
  [2, 8, 512] array, and 1 where t exceeds the threshold, else 0, to plane 1; at the first grid point the carried
  array is zeroed first, at the last the two planes' totals are stored as the two partial results. The combining
  body stores the quotient of the two grand totals. Each run states what the written buffers hold at the return
  as a function of what the read buffers held at entry.
-/
import proofs.«211649_g4638564679882_cont_8to1c4_562_19_alg».proof.Proof.CommonB
import Idealize.ShloMosaic.Lib.Pipeline.FrameBody
import Idealize.ShloMosaic.Lib.Pipeline.Value
import Idealize.ShloMosaic.Lib.ValueIdx
import Idealize.ShloMosaic.Lib.ValueLayout

noncomputable section

namespace Cert.Proof.KB.TcBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {Sh : Shape} {e : EltTy} (M : Memref sig .tc sp Sh e) : Type := Buf (Elt F) (M.view.loc (c : Thread nD τ))
abbrev pt (c : Dev nD) {sp : Space} {Sh : Shape} {e : EltTy} (M : Memref sig .tc sp Sh e) (f : Bf (F := F) c M) : sProp 𝕄 :=
  M.view.loc (c : Thread nD τ) ↦{fullShare} f

/-- The grid coordinate is below seven. -/
theorem i0_lt (i : grid0.Coords) : (i 0).val < 7 := (i 0).isLt

/-- The first conditional (the zeroing of the carried array) is taken exactly at coordinate 0. -/
theorem cond1_iff (i : grid0.Coords) :
    Scalar.cmpi .ne (Scalar.extui (Scalar.cmpi .eq (BitVec.ofNat 32 (i 0).val) 0#32)) 0#32 = 1#1 ↔ (i 0).val = 0 := by
  have hlt := i0_lt i
  generalize (i 0).val = n at hlt ⊢
  interval_cases n <;> decide

/-- The last conditional (the store of the two totals) is taken exactly at coordinate 6. -/
theorem cond2_iff (i : grid0.Coords) : k0_cond2 i = 1#1 ↔ (i 0).val = 6 := by
  have hlt := i0_lt i
  unfold k0_cond2
  generalize (i 0).val = n at hlt ⊢
  interval_cases n <;> decide

set_option maxHeartbeats 4000000 in
/-- A middle grid point (neither first nor last): what the body leaves in the carried array, over the two blocks'
    contents and the carried array's contents at entry. -/
noncomputable def runMid (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    { W : Bf (F := F) c M4 //
      ∀ (f3 : Bf (F := F) c M3) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) E (cc0__tc_body i M1 h1 M2 h2 M3 h3 M4 h4) Q } := by
  have k0_h1 : ¬ Scalar.cmpi .ne (Scalar.extui (Scalar.cmpi .eq (BitVec.ofNat 32 (i 0).val) 0#32)) 0#32 = 1#1 :=
    fun h => hi0 ((cond1_iff i).1 h)
  have k0_h2 : ¬ k0_cond2 i = 1#1 := fun h => hi6 ((cond2_iff i).1 h)
  refine ⟨?_, fun f3 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxHeartbeats 4000000 in
/-- The first grid point: the carried array is zeroed, then accumulated into; what it holds at the return, over the
    two blocks' contents alone. -/
noncomputable def runFirst (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) :
    { W : Bf (F := F) c M4 //
      ∀ (f3 : Bf (F := F) c M3) (f4 : Bf (F := F) c M4) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) E (cc0__tc_body i M1 h1 M2 h2 M3 h3 M4 h4) Q } := by
  have k0_h1 : Scalar.cmpi .ne (Scalar.extui (Scalar.cmpi .eq (BitVec.ofNat 32 (i 0).val) 0#32)) 0#32 = 1#1 :=
    (cond1_iff i).2 hi0
  have k0_h2 : ¬ k0_cond2 i = 1#1 := fun h => by have := (cond2_iff i).1 h; omega
  refine ⟨?_, fun f3 f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxHeartbeats 4000000 in
/-- The last grid point: the carried array is accumulated into and its two planes' totals are stored as the two
    partial results; what the carried array and the results' buffer hold at the return. -/
noncomputable def runLast (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    { W : Bf (F := F) c M4 × Bf (F := F) c M3 //
      ∀ (f3 : Bf (F := F) c M3) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 W.2 ∗ pt c M4 W.1) -∗ Q ⟨⟩))
        ⊢ wp frame (wpE (defs₀ (F := F)) Variants.none c none) E (cc0__tc_body i M1 h1 M2 h2 M3 h3 M4 h4) Q } := by
  have k0_h1 : ¬ Scalar.cmpi .ne (Scalar.extui (Scalar.cmpi .eq (BitVec.ofNat 32 (i 0).val) 0#32)) 0#32 = 1#1 :=
    fun h => by have := (cond1_iff i).1 h; omega
  have k0_h2 : k0_cond2 i = 1#1 := (cond2_iff i).2 hi6
  refine ⟨⟨?_, ?_⟩, fun f3 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

/-- The combining body: it stores the quotient of the two grand totals — each the sum of a [16, 16] array of
    partial sums plus one partial result — as the one result. -/
noncomputable def runCombine (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : Bf (F := F) c A0) (g1 : Bf (F := F) c A1) (g2 : Bf (F := F) c A2) :
    { W : Bf (F := F) c A3 //
      ∀ (g3 : Bf (F := F) c A3) (E : Set ℕ) (Q : PUnit → sProp 𝕄),
        iprop(pt c A0 g0 ∗ pt c A1 g1 ∗ pt c A2 g2 ∗ pt c A3 g3
          ∗ (iprop(pt c A0 g0 ∗ pt c A1 g1 ∗ pt c A2 g2 ∗ pt c A3 W) -∗ Q ⟨⟩))
        ⊢ wp frame (wpE (defs₀ (F := F)) Variants.none c none) E (cc2__combine_body A0 h0 A1 h1 A2 h2 A3 h3) Q } := by
  refine ⟨?_, fun g3 E Q => ?run⟩
  case run =>
    iintro ⟨H0, H1, H2, H3, Hk⟩
    sl_exec_parts!
    sl_step
    iapply Hk
    isplitl [H0]; · iexact H0
    isplitl [H1]; · iexact H1
    isplitl [H2]; · iexact H2
    iexact H3

/-! ## The values

What the runs leave, read through each memref's own view: contents indexed by the memref's shape. -/

open Idealize.ShloMosaic.ValueIdx

/-- Unfold, in the goal, the named values of a run (`<decl>.sl.<name>`) and the printed payload definitions
    (`kK_payN`) to their bodies, all the way down — but the names listed after `except`. -/
syntax (name := openPayloads) "open_payloads" (" except " "[" ident,* "]")? : tactic

open Lean Elab Tactic Meta in
@[tactic openPayloads] def evalOpenPayloads : Tactic := fun stx => do
  let ids : Array Syntax := match stx with
    | `(tactic| open_payloads except [$ids,*]) => ids.getElems.map (·.raw)
    | _ => #[]
  let keep : Array Name ← ids.mapM fun i => realizeGlobalConstNoOverloadWithInfo i
  let g ← getMainGoal
  let isPay (n : Name) : Bool :=
    !keep.contains n &&
    (n.components.dropLast.any (· == `sl) ||
    (match n with
      | .str _ last => last.startsWith "k0_pay" || last.startsWith "k2_pay"
      | _ => false))
  let t ← instantiateMVars (← g.getType)
  let t' ← Meta.deltaExpand t isPay
  replaceMainGoal [← g.replaceTargetDefEq t']

/-- Rows `8k … 8k+7` are inside the `[2048, 512]` block. -/
theorem inb_rows (k : ℕ) (hk : k < 256) : ∀ a, (![8 * k, 0] : Fin 2 → ℕ) a + S8x512.size a ≤ S2048x512.size a := by
  intro a; fin_cases a
  · show 8 * k + 8 ≤ 2048; omega
  · show 0 + 512 ≤ 512; omega

/-- Plane `p` is inside the `[2, 8, 512]` array. -/
theorem inb_plane (p : ℕ) (hp : p < 2) : ∀ a, (![p, 0, 0] : Fin 3 → ℕ) a + S1x8x512.size a ≤ S2x8x512.size a := by
  intro a; fin_cases a
  · show p + 1 ≤ 2; omega
  · show 0 + 8 ≤ 8; omega
  · show 0 + 512 ≤ 512; omega

/-- Rows `8k … 8k+7` of a `[2048, 512]` array, as an `[8, 512]` vector. -/
def rows8 (x : Vec F S2048x512 .f32) (k : ℕ) (hk : k < 256) : FVec F S8x512 .f32 :=
  View.ld x (Rect.unit (s := S2048x512) ![8 * k, 0] S8x512.size (inb_rows k hk))

/-- Plane `p` of a `[2, 8, 512]` array, as an `[8, 512]` vector. -/
def plane (a : Vec F S2x8x512 .f32) (p : ℕ) (hp : p < 2) : FVec F S8x512 .f32 :=
  shapeCast S8x512 (View.ld a (Rect.unit (s := S2x8x512) ![p, 0, 0] S1x8x512.size (inb_plane p hp))) shapeCasts_S1x8x512_S8x512

/-- One step on plane 0: `(s - t)²` where `t` exceeds the threshold, else zero, added to the accumulator. -/
def sqStep (s t acc : FVec F S8x512 .f32) : FVec F S8x512 .f32 :=
  addf acc (select (cmpf .ogt t (broadcast S8x512 (Scalar.ofBits .f32 0x3D4CCCCD#32))) (mulf (subf s t) (subf s t))
    (broadcast S8x512 (Scalar.ofBits .f32 0x00000000#32)))

/-- One step on plane 1: one where `t` exceeds the threshold, else zero, added to the accumulator. -/
def cnStep (t acc : FVec F S8x512 .f32) : FVec F S8x512 .f32 :=
  addf acc (select (cmpf .ogt t (broadcast S8x512 (Scalar.ofBits .f32 0x3D4CCCCD#32)))
    (broadcast S8x512 (Scalar.ofBits .f32 0x3F800000#32)) (broadcast S8x512 (Scalar.ofBits .f32 0x00000000#32)))

/-- Plane 0 after the first `k` row groups, from `a0`: the left fold of `sqStep` over the row groups in order. -/
def sqAcc (x1 x2 : Vec F S2048x512 .f32) (a0 : FVec F S8x512 .f32) : (k : ℕ) → k ≤ 256 → FVec F S8x512 .f32
  | 0, _ => a0
  | k + 1, h => sqStep (rows8 x1 k (by omega)) (rows8 x2 k (by omega)) (sqAcc x1 x2 a0 k (by omega))

/-- Plane 1 after the first `k` row groups, from `a0`. -/
def cnAcc (x2 : Vec F S2048x512 .f32) (a0 : FVec F S8x512 .f32) : (k : ℕ) → k ≤ 256 → FVec F S8x512 .f32
  | 0, _ => a0
  | k + 1, h => cnStep (rows8 x2 k (by omega)) (cnAcc x2 a0 k (by omega))

/-- Two `[8, 512]` planes stacked as a `[2, 8, 512]` array. -/
def stack (V0 V1 : FVec F S8x512 .f32) : Vec F S2x8x512 .f32 := fun j =>
  if (j 0).val = 0 then V0 (ix2 (j 1) (j 2)) else V1 (ix2 (j 1) (j 2))

/-- What one grid point makes of the carried array `a` given the source block `x1` and the target block `x2`:
    plane 0 gains, row group after row group in order, `(s - t)²` where `t` exceeds the threshold; plane 1 gains
    one there. -/
def accStep (x1 x2 : Vec F S2048x512 .f32) (a : Vec F S2x8x512 .f32) : Vec F S2x8x512 .f32 :=
  stack (sqAcc x1 x2 (plane a 0 (by decide)) 256 le_rfl) (cnAcc x2 (plane a 1 (by decide)) 256 le_rfl)

/-- The all-zero carried array, zero spelt as the body spells it. -/
def zeroAcc : Vec F S2x8x512 .f32 := fun _ => Scalar.ofBits .f32 0x00000000#32

/-- The total of an `[8, 512]` plane, as the body reduces it: the sum over both axes from zero. -/
def total (v : FVec F S8x512 .f32) : F .f32 :=
  extractAt ![0, 0, 0]
    (shapeCast S1x1x1 (multiReduction .add [1, 2] S1 (shapeCast S1x8x512 v shapeCasts_S8x512_S1x8x512) 0x00000000#32
      reduces_S1x8x512_S1 (.inl rfl) rfl) shapeCasts_S1_S1x1x1) inpos_S1x1x1_p0_0_0

/-- The two planes' totals: the two partial results. -/
def totals (a : Vec F S2x8x512 .f32) : Vec F S2 .f32 := fun j =>
  if (j 0).val = 0 then total (plane a 0 (by decide)) else total (plane a 1 (by decide))

/-- The total of a `[16, 16]` array, as the combining body reduces it. -/
def total16 (g : Vec F S16x16 .f32) : F .f32 :=
  extractAt ![0, 0, 0]
    (shapeCast S1x1x1 (multiReduction .add [1, 2] S1 (shapeCast S1x16x16 g shapeCasts_S16x16_S1x16x16) 0x00000000#32
      reduces_S1x16x16_S1 (.inl rfl) rfl) shapeCasts_S1_S1x1x1) inpos_S1x1x1_p0_0_0

/-- The combined result: the first grand total over the second. -/
def quotient (g0 g1 : Vec F S16x16 .f32) (g2 : Vec F S2 .f32) : Vec F S1 .f32 := fun _ =>
  Scalar.divf (Scalar.addf (total16 g0) (g2 (ix1 0))) (Scalar.addf (total16 g1) (g2 (ix1 1)))

theorem hz3 : (![0, 0, 0] : Fin 3 → ℕ) = fun _ => 0 := funext fun a => by fin_cases a <;> rfl

/-- Plane `p` at `(r, col)` is the array at `(p, r, col)`. -/
theorem plane_apply (a : Vec F S2x8x512 .f32) (p : ℕ) (hp : p < 2) (r : Fin 8) (col : Fin 512) :
    plane a p hp (ix2 r col) = a (ix3 ⟨p, hp⟩ r col) := by
  unfold plane
  rw [shapeCast_1ab_ab_apply]
  show a _ = a _
  congr 1
  funext d
  match d with
  | ⟨0, _⟩ => exact Fin.ext (by show p + 1 * 0 = p; omega)
  | ⟨1, _⟩ => exact Fin.ext (by show 0 + 1 * r.val = r.val; omega)
  | ⟨2, _⟩ => exact Fin.ext (by show 0 + 1 * col.val = col.val; omega)

/-- Rows `8k … 8k+7` at `(r, col)` are the array at `(8k + r, col)`. -/
theorem rows8_apply (x : Vec F S2048x512 .f32) (k : ℕ) (hk : k < 256) (r : Fin 8) (col : Fin 512) :
    rows8 x k hk (ix2 r col) = x (ix2 ⟨8 * k + r.val, by omega⟩ col) := by
  unfold rows8
  show x _ = x _
  congr 1
  funext d
  match d with
  | ⟨0, _⟩ => exact Fin.ext (by show 8 * k + 1 * r.val = 8 * k + r.val; omega)
  | ⟨1, _⟩ => exact Fin.ext (by show 0 + 1 * col.val = col.val; omega)

theorem stack_apply (V0 V1 : FVec F S8x512 .f32) (p : Fin 2) (r : Fin 8) (col : Fin 512) :
    stack V0 V1 (ix3 p r col) = if p.val = 0 then V0 (ix2 r col) else V1 (ix2 r col) := rfl

theorem emb_plane (p : ℕ) (hp : p < 2) (inb) (r : Fin 8) (col : Fin 512) :
    (Rect.unit (s := S2x8x512) ![p, 0, 0] S1x8x512.size inb).emb (ix3 (0 : Fin 1) r col) = ix3 (⟨p, hp⟩ : Fin 2) r col := by
  funext d
  match d with
  | ⟨0, _⟩ => exact Fin.ext (by show p + 1 * 0 = p; omega)
  | ⟨1, _⟩ => exact Fin.ext (by show 0 + 1 * r.val = r.val; omega)
  | ⟨2, _⟩ => exact Fin.ext (by show 0 + 1 * col.val = col.val; omega)

/-- Under the two plane stores (the later first, whatever was stored before them), plane 1 holds the later store's
    value -/
theorem canon_planes_at1 (V0 V1 : FVec F S8x512 .f32) (inb1 inb0) (hc1 hc0 : S8x512.ShapeCasts S1x8x512)
    (L : List (View.Piece (Elt F) S2x8x512 .f32)) (r : Fin 8) (col : Fin 512) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) (ix3 (⟨1, by decide⟩ : Fin 2) r col)
      = V1 (ix2 r col) := by
  have e := View.canon_cons_emb (Val := Elt F) (Rect.unit (s := S2x8x512) ![1, 0, 0] S1x8x512.size inb1) (shapeCast S1x8x512 V1 hc1)
    ((⟨Rect.unit (s := S2x8x512) ![0, 0, 0] S1x8x512.size inb0, shapeCast S1x8x512 V0 hc0⟩ : View.Piece (Elt F) S2x8x512 .f32) :: L)
    (ix3 (0 : Fin 1) r col)
  rw [emb_plane 1 (by decide) inb1 r col] at e
  exact e.trans (shapeCast_ab_1ab_apply V1 hc1 0 r col)

/-- and plane 0 the earlier store's. -/
theorem canon_planes_at0 (V0 V1 : FVec F S8x512 .f32) (inb1 inb0) (hc1 hc0 : S8x512.ShapeCasts S1x8x512)
    (L : List (View.Piece (Elt F) S2x8x512 .f32)) (r : Fin 8) (col : Fin 512) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) (ix3 (⟨0, by decide⟩ : Fin 2) r col)
      = V0 (ix2 r col) := by
  have hmem : ix3 (⟨0, by decide⟩ : Fin 2) r col ∉ (Rect.unit (s := S2x8x512) ![1, 0, 0] S1x8x512.size inb1).set := by
    rw [Rect.mem_set_unit]; intro h
    have h' : 1 ≤ 0 := (h 0).1
    omega
  have e := View.canon_cons_emb (Val := Elt F) (Rect.unit (s := S2x8x512) ![0, 0, 0] S1x8x512.size inb0) (shapeCast S1x8x512 V0 hc0) L
    (ix3 (0 : Fin 1) r col)
  rw [emb_plane 0 (by decide) inb0 r col] at e
  exact (View.canon_cons_of_not_mem (Val := Elt F)
    (⟨Rect.unit (s := S2x8x512) ![1, 0, 0] S1x8x512.size inb1, shapeCast S1x8x512 V1 hc1⟩ : View.Piece (Elt F) S2x8x512 .f32) _ hmem).trans
    (e.trans (shapeCast_ab_1ab_apply V0 hc0 0 r col))

/-- So the two plane stores leave the two planes stacked. -/
theorem canon_planes (V0 V1 : FVec F S8x512 .f32) (inb1 inb0) (hc1 hc0 : S8x512.ShapeCasts S1x8x512)
    (L : List (View.Piece (Elt F) S2x8x512 .f32)) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) = stack V0 V1 := by
  funext j
  obtain ⟨p, r, col, rfl⟩ : ∃ (p : Fin 2) (r : Fin 8) (col : Fin 512), j = ix3 p r col := ⟨j 0, j 1, j 2, eq_ix3 j⟩
  fin_cases p
  · exact canon_planes_at0 V0 V1 inb1 inb0 hc1 hc0 L r col
  · exact canon_planes_at1 V0 V1 inb1 inb0 hc1 hc0 L r col

theorem hz2 : (![0, 0] : Fin 2 → ℕ) = fun _ => 0 := funext fun a => by fin_cases a <;> rfl
theorem hz1 : (![0] : Fin 1 → ℕ) = fun _ => 0 := funext fun a => by fin_cases a; rfl

theorem plane_stack0 (V0 V1 : FVec F S8x512 .f32) (h : 0 < 2) : plane (stack V0 V1) 0 h = V0 := by
  funext j
  obtain ⟨r, col, rfl⟩ : ∃ (r : Fin 8) (col : Fin 512), j = ix2 r col := ⟨j 0, j 1, eq_ix2 j⟩
  rw [plane_apply]; rfl

theorem plane_stack1 (V0 V1 : FVec F S8x512 .f32) (h : 1 < 2) : plane (stack V0 V1) 1 h = V1 := by
  funext j
  obtain ⟨r, col, rfl⟩ : ∃ (r : Fin 8) (col : Fin 512), j = ix2 r col := ⟨j 0, j 1, eq_ix2 j⟩
  rw [plane_apply]; rfl

/-- A load after one store of the whole `[2, 8, 512]` array reads the stored value at the load's indices. -/
theorem readCov_filled {κ : Kind} {sp : Space} (v : View sig κ sp S2x8x512 .f32) (inb) (w : S2x8x512.Idx → Elt F .f32)
    (B : LoadRect S2x8x512) :
    v.readCov [(⟨Rect.unit (s := S2x8x512) ![0, 0, 0] S2x8x512.size inb, w⟩ : View.Piece (Elt F) S2x8x512 .f32)] B
      = fun j => w (B.idx j) := by
  rw [View.readCov_eq_canon', View.canon_unit_zero hz3]

theorem emb_word (p : ℕ) (hp : p < 2) (inb) :
    (Rect.unit (s := S2) ![p] S1.size inb).emb (ix1 (0 : Fin 1)) = ix1 (⟨p, hp⟩ : Fin 2) := by
  funext d
  match d with
  | ⟨0, _⟩ => exact Fin.ext (by show p + 1 * 0 = p; omega)

/-- The two one-word stores, the later first, leave the two words. -/
theorem canon_words (T0 T1 : Elt F .f32) (inb1 inb0) :
    View.canon [(⟨Rect.unit (s := S2) ![1] S1.size inb1, fun _ => T1⟩ : View.Piece (Elt F) S2 .f32),
      ⟨Rect.unit (s := S2) ![0] S1.size inb0, fun _ => T0⟩] = fun j => if (j 0).val = 0 then T0 else T1 := by
  funext j
  obtain ⟨p, rfl⟩ : ∃ p : Fin 2, j = ix1 p := ⟨j 0, eq_ix1 j⟩
  fin_cases p
  · show View.canon _ (ix1 (⟨0, by decide⟩ : Fin 2)) = T0
    have hmem : ix1 (⟨0, by decide⟩ : Fin 2) ∉ (Rect.unit (s := S2) ![1] S1.size inb1).set := by
      rw [Rect.mem_set_unit]; intro h
      have h' : 1 ≤ 0 := (h 0).1
      omega
    have e := View.canon_cons_emb (Val := Elt F) (Rect.unit (s := S2) ![0] S1.size inb0) (fun _ => T0) [] (ix1 (0 : Fin 1))
    rw [emb_word 0 (by decide) inb0] at e
    exact (View.canon_cons_of_not_mem (Val := Elt F)
      (⟨Rect.unit (s := S2) ![1] S1.size inb1, fun _ => T1⟩ : View.Piece (Elt F) S2 .f32) _ hmem).trans e
  · show View.canon _ (ix1 (⟨1, by decide⟩ : Fin 2)) = T1
    have e := View.canon_cons_emb (Val := Elt F) (Rect.unit (s := S2) ![1] S1.size inb1) (fun _ => T1)
      [(⟨Rect.unit (s := S2) ![0] S1.size inb0, fun _ => T0⟩ : View.Piece (Elt F) S2 .f32)] (ix1 (0 : Fin 1))
    rw [emb_word 1 (by decide) inb1] at e
    exact e

/-- The body's reduction of a loaded plane is the plane's total. -/
theorem pay3_eq (v : Vec F S1x8x512 .f32) : k0_pay3 v = total (shapeCast S8x512 v shapeCasts_S1x8x512_S8x512) := rfl
theorem pay4_eq (v : Vec F S1x8x512 .f32) : k0_pay4 v = total (shapeCast S8x512 v shapeCasts_S1x8x512_S8x512) := rfl

/-- After the two plane stores, a load of plane 1 reads the later store's value and a load of plane 0 the earlier
    store's. -/
theorem read_planes {κ : Kind} {sp : Space} (v : View sig κ sp S2x8x512 .f32) (V0 V1 : FVec F S8x512 .f32) (inb1 inb0)
    (hc1 hc0 : S8x512.ShapeCasts S1x8x512) :
    v.readCov [(⟨Rect.unit (s := S2x8x512) ![1, 0, 0] S1x8x512.size inb1, shapeCast S1x8x512 V1 hc1⟩ : View.Piece (Elt F) S2x8x512 .f32),
        ⟨Rect.unit (s := S2x8x512) ![0, 0, 0] S1x8x512.size inb0, shapeCast S1x8x512 V0 hc0⟩]
        (Rect.unit (s := S2x8x512) ![1, 0, 0] S1x8x512.size inb1).toLoadRect = shapeCast S1x8x512 V1 hc1
    ∧ v.readCov [(⟨Rect.unit (s := S2x8x512) ![1, 0, 0] S1x8x512.size inb1, shapeCast S1x8x512 V1 hc1⟩ : View.Piece (Elt F) S2x8x512 .f32),
        ⟨Rect.unit (s := S2x8x512) ![0, 0, 0] S1x8x512.size inb0, shapeCast S1x8x512 V0 hc0⟩]
        (Rect.unit (s := S2x8x512) ![0, 0, 0] S1x8x512.size inb0).toLoadRect = shapeCast S1x8x512 V0 hc0 := by
  refine ⟨View.readCov_cons_toLoadRect v _ _ _, ?_⟩
  have hd : Disjoint (Rect.unit (s := S2x8x512) ![1, 0, 0] S1x8x512.size inb1).set
      (Rect.unit (s := S2x8x512) ![0, 0, 0] S1x8x512.size inb0).set :=
    Rect.unit_disjoint (s := S2x8x512) (0 : Fin 3) (Or.inr (by show 0 + 1 ≤ 1; omega))
  exact (View.readCov_cons_of_disjoint v
    (⟨Rect.unit (s := S2x8x512) ![1, 0, 0] S1x8x512.size inb1, shapeCast S1x8x512 V1 hc1⟩ : View.Piece (Elt F) S2x8x512 .f32) _ _ hd).trans
    (View.readCov_cons_toLoadRect v _ _ _)

/-- So the two words the last point stores — the body's reductions of the two planes as loaded back — are the two
    totals of the stacked planes. -/
theorem words_of_planes {κ : Kind} {sp : Space} (v : View sig κ sp S2x8x512 .f32) (V0 V1 : FVec F S8x512 .f32) (inb1 inb0)
    (hc1 hc0 : S8x512.ShapeCasts S1x8x512) (i1 i0) :
    View.canon [(⟨Rect.unit (s := S2) ![1] S1.size i1, fun _ => k0_pay4 (v.readCov
        [(⟨Rect.unit (s := S2x8x512) ![1, 0, 0] S1x8x512.size inb1, shapeCast S1x8x512 V1 hc1⟩ : View.Piece (Elt F) S2x8x512 .f32),
          ⟨Rect.unit (s := S2x8x512) ![0, 0, 0] S1x8x512.size inb0, shapeCast S1x8x512 V0 hc0⟩]
        (Rect.unit (s := S2x8x512) ![1, 0, 0] S1x8x512.size inb1).toLoadRect)⟩ : View.Piece (Elt F) S2 .f32),
      ⟨Rect.unit (s := S2) ![0] S1.size i0, fun _ => k0_pay3 (v.readCov
        [(⟨Rect.unit (s := S2x8x512) ![1, 0, 0] S1x8x512.size inb1, shapeCast S1x8x512 V1 hc1⟩ : View.Piece (Elt F) S2x8x512 .f32),
          ⟨Rect.unit (s := S2x8x512) ![0, 0, 0] S1x8x512.size inb0, shapeCast S1x8x512 V0 hc0⟩]
        (Rect.unit (s := S2x8x512) ![0, 0, 0] S1x8x512.size inb0).toLoadRect)⟩]
      = totals (stack V0 V1) := by
  rw [(read_planes v V0 V1 inb1 inb0 hc1 hc0).1, (read_planes v V0 V1 inb1 inb0 hc1 hc0).2, pay3_eq, pay4_eq,
    shapeCast_shapeCast, shapeCast_shapeCast, canon_words]
  unfold totals
  rw [plane_stack0, plane_stack1]

/-! ### What the runs leave -/

set_option maxRecDepth 200000 in
set_option maxHeartbeats 4000000 in
/-- The middle point's two stores: plane 1, then plane 0, each the fold over the 256 row groups. -/
theorem mid_pieces (c : Dev nD) (M1 M2 : Memref sig .tc .vmem S2048x512 .f32) (M4 : Memref sig .tc .vmem S2x8x512 .f32)
    (f1 : Bf (F := F) c M1) (f2 : Bf (F := F) c M2) (f4 : Bf (F := F) c M4) :
    runMid.sl.H4_2 c M1 M2 M4 f1 f2 f4
      = [⟨Rect.unit (s := S2x8x512) ![1, 0, 0] S1x8x512.size inb_S2x8x512_S1x8x512_1_0_0,
          shapeCast S1x8x512 (cnAcc (M2.view.read (Elt F) f2) (plane (M4.view.read (Elt F) f4) 1 (by decide)) 256 le_rfl)
            shapeCasts_S8x512_S1x8x512⟩,
        ⟨Rect.unit (s := S2x8x512) ![0, 0, 0] S1x8x512.size inb_S2x8x512_S1x8x512_0_0_0,
          shapeCast S1x8x512 (sqAcc (M1.view.read (Elt F) f1) (M2.view.read (Elt F) f2)
            (plane (M4.view.read (Elt F) f4) 0 (by decide)) 256 le_rfl) shapeCasts_S8x512_S1x8x512⟩] := by
  open_payloads
  simp only [shapeCast_self, View.readAt_eq_ld]
  generalize M1.view.read (Elt F) f1 = x1
  generalize M2.view.read (Elt F) f2 = x2
  generalize M4.view.read (Elt F) f4 = a
  rfl

/-- A middle point leaves the carried array stepped once. -/
theorem runMid_val (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M4.view.read (Elt F) (runMid c i hi0 hi6 M1 h1 M2 h2 M3 h3 M4 h4 f1 f2 f4).1
      = accStep (M1.view.read (Elt F) f1) (M2.view.read (Elt F) f2) (M4.view.read (Elt F) f4) := by
  unfold runMid
  dsimp only
  rw [View.read_writes_junk_eq_canon, mid_pieces]
  exact canon_planes _ _ _ _ _ _ []

/-- At the first point the two planes are loaded after the zero fill: they are the zero array's planes. -/
theorem first_v3 (M4 : Memref sig .tc .vmem S2x8x512 .f32) :
    shapeCast (s := S1x8x512) S8x512 (runFirst.sl.v3 (F := F) M4) shapeCasts_S1x8x512_S8x512 = plane zeroAcc 0 (by decide) := by
  unfold runFirst.sl.v3 runFirst.sl.H4_1
  rw [readCov_filled]
  unfold k0_pay5
  simp only [shapeCast_self]
  rfl

theorem first_v5 (M4 : Memref sig .tc .vmem S2x8x512 .f32) :
    shapeCast (s := S1x8x512) S8x512 (runFirst.sl.v5 (F := F) M4) shapeCasts_S1x8x512_S8x512 = plane zeroAcc 1 (by decide) := by
  unfold runFirst.sl.v5 runFirst.sl.H4_1
  rw [readCov_filled]
  unfold k0_pay5
  simp only [shapeCast_self]
  rfl

set_option maxRecDepth 200000 in
set_option maxHeartbeats 1000000 in
/-- The first point's stores: the zero fill, then plane 0 and plane 1, each the fold from the zero plane. -/
theorem first_pieces (c : Dev nD) (M1 M2 : Memref sig .tc .vmem S2048x512 .f32) (M4 : Memref sig .tc .vmem S2x8x512 .f32)
    (f1 : Bf (F := F) c M1) (f2 : Bf (F := F) c M2) :
    runFirst.sl.H4_3 c M1 M2 M4 f1 f2
      = ⟨Rect.unit (s := S2x8x512) ![1, 0, 0] S1x8x512.size inb_S2x8x512_S1x8x512_1_0_0,
          shapeCast S1x8x512 (cnAcc (M2.view.read (Elt F) f2) (plane zeroAcc 1 (by decide)) 256 le_rfl)
            shapeCasts_S8x512_S1x8x512⟩ ::
        ⟨Rect.unit (s := S2x8x512) ![0, 0, 0] S1x8x512.size inb_S2x8x512_S1x8x512_0_0_0,
          shapeCast S1x8x512 (sqAcc (M1.view.read (Elt F) f1) (M2.view.read (Elt F) f2)
            (plane zeroAcc 0 (by decide)) 256 le_rfl) shapeCasts_S8x512_S1x8x512⟩ :: runFirst.sl.H4_1 := by
  open_payloads except [runFirst.sl.v3, runFirst.sl.v5, runFirst.sl.H4_1]
  rw [first_v3, first_v5]
  simp only [shapeCast_self, View.readAt_eq_ld]
  generalize M1.view.read (Elt F) f1 = x1
  generalize M2.view.read (Elt F) f2 = x2
  generalize plane (F := F) zeroAcc 0 (by decide) = a0
  generalize plane (F := F) zeroAcc 1 (by decide) = a1
  fail_if_success (unfold runFirst.sl.v3)
  fail_if_success (unfold runFirst.sl.v5)
  rfl

/-- The first point leaves the zero array stepped once. -/
theorem runFirst_val (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) :
    M4.view.read (Elt F) (runFirst c i hi0 M1 h1 M2 h2 M3 h3 M4 h4 f1 f2).1
      = accStep (M1.view.read (Elt F) f1) (M2.view.read (Elt F) f2) zeroAcc := by
  unfold runFirst
  dsimp only
  rw [View.read_writes_junk_eq_canon, first_pieces]
  exact canon_planes _ _ _ _ _ _ _

set_option maxRecDepth 200000 in
set_option maxHeartbeats 1000000 in
/-- The last point's two plane stores, as a middle point's. -/
theorem last_pieces (c : Dev nD) (M1 M2 : Memref sig .tc .vmem S2048x512 .f32) (M4 : Memref sig .tc .vmem S2x8x512 .f32)
    (f1 : Bf (F := F) c M1) (f2 : Bf (F := F) c M2) (f4 : Bf (F := F) c M4) :
    runLast.sl.H4_2 c M1 M2 M4 f1 f2 f4
      = [⟨Rect.unit (s := S2x8x512) ![1, 0, 0] S1x8x512.size inb_S2x8x512_S1x8x512_1_0_0,
          shapeCast S1x8x512 (cnAcc (M2.view.read (Elt F) f2) (plane (M4.view.read (Elt F) f4) 1 (by decide)) 256 le_rfl)
            shapeCasts_S8x512_S1x8x512⟩,
        ⟨Rect.unit (s := S2x8x512) ![0, 0, 0] S1x8x512.size inb_S2x8x512_S1x8x512_0_0_0,
          shapeCast S1x8x512 (sqAcc (M1.view.read (Elt F) f1) (M2.view.read (Elt F) f2)
            (plane (M4.view.read (Elt F) f4) 0 (by decide)) 256 le_rfl) shapeCasts_S8x512_S1x8x512⟩] := by
  open_payloads
  simp only [shapeCast_self, View.readAt_eq_ld]
  generalize M1.view.read (Elt F) f1 = x1
  generalize M2.view.read (Elt F) f2 = x2
  generalize M4.view.read (Elt F) f4 = a
  rfl

/-- The last point leaves the carried array stepped once -/
theorem runLast_val4 (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M4.view.read (Elt F) (runLast c i hi6 M1 h1 M2 h2 M3 h3 M4 h4 f1 f2 f4).1.1
      = accStep (M1.view.read (Elt F) f1) (M2.view.read (Elt F) f2) (M4.view.read (Elt F) f4) := by
  unfold runLast
  dsimp only
  rw [View.read_writes_junk_eq_canon, last_pieces]
  exact canon_planes _ _ _ _ _ _ []

set_option maxHeartbeats 1000000 in
/-- and, as the two partial results, the two totals of the stepped array. -/
theorem runLast_val3 (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M3.view.read (Elt F) (runLast c i hi6 M1 h1 M2 h2 M3 h3 M4 h4 f1 f2 f4).1.2
      = totals (accStep (M1.view.read (Elt F) f1) (M2.view.read (Elt F) f2) (M4.view.read (Elt F) f4)) := by
  unfold runLast
  dsimp only
  rw [View.read_writes_junk_eq_canon]
  unfold runLast.sl.H3_2 runLast.sl.v3856 runLast.sl.v3863
  rw [last_pieces]
  exact words_of_planes M4.view _ _ _ _ _ _ _ _

theorem idx_word (p : ℕ) (hp : p < 2) (inb) (h) :
    (Rect.unit (s := S2) ![p] S1.size inb).idx (Shape.Idx.first h) = ix1 (⟨p, hp⟩ : Fin 2) := by
  funext d
  match d with
  | ⟨0, _⟩ => exact Fin.ext (by show p + 1 * 0 = p; omega)

/-- The combining body leaves the quotient of the two grand totals. -/
theorem runCombine_val (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : Bf (F := F) c A0) (g1 : Bf (F := F) c A1) (g2 : Bf (F := F) c A2) :
    A3.view.read (Elt F) (runCombine c A0 h0 A1 h1 A2 h2 A3 h3 g0 g1 g2).1
      = quotient (A0.view.read (Elt F) g0) (A1.view.read (Elt F) g1) (A2.view.read (Elt F) g2) := by
  unfold runCombine
  dsimp only
  rw [View.read_writes_junk_eq_canon]
  open_payloads
  rw [View.canon_unit_zero hz1]
  simp only [shapeCast_self, View.readAt_eq_ld, View.ld_unit_zero (S := S16x16) hz2]
  funext x
  show Scalar.divf (Scalar.addf _ (A2.view.read (Elt F) g2 _)) (Scalar.addf _ (A2.view.read (Elt F) g2 _)) = _
  rw [idx_word 0 (by decide), idx_word 1 (by decide)]
  rfl

end Cert.Proof.KB.TcBody

end
-- ==== Proof.Reg0B.lean ====
/-
  The first TensorCore region as a pipeline: seven grid points, each staging a block of 2048 rows of the source and of
  the target; a [2, 8, 512] scratch carried from point to point (zeroed at the first point, then the block's masked
  squared differences and mask counts added to its two planes); the two-element result window written at the last
  point only, with the two planes' totals.  The proof data say what the staging buffers and the scratch hold after
  each point; the body obligation at a point is the body's run there.
-/
import proofs.«211649_g4638564679882_cont_8to1c4_562_19_alg».proof.Proof.CommonB
import proofs.«211649_g4638564679882_cont_8to1c4_562_19_alg».proof.Proof.TcBodyB
import Idealize.ShloMosaic.Lib.Pipeline.FrameBody

set_option maxRecDepth 16384
set_option Elab.async false

noncomputable section

namespace Cert.Proof.KB.Reg0

open Cert.Kernel Cert.Kernel.Gen
open Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Contents of the three shapes the body reads and writes. -/
abbrev B2048 (F : FTy → Type) : Type := S2048x512.Idx → Elt F .f32
abbrev BAcc (F : FTy → Type) : Type := S2x8x512.Idx → Elt F .f32
abbrev B2 (F : FTy → Type) : Type := S2.Idx → Elt F .f32

/-- The admissible tables: none is prefetched. -/
abbrev adm : (p : Fin 2) → (pcfgs (F := F) p).Adm := fun p => (cfgs p).toPCfg_adm

/-! ## What the body computes, as three functions (their equations with the body's runs are hypotheses here) -/

variable (accStep : B2048 F → B2048 F → BAcc F → BAcc F) (zeroAcc : BAcc F) (totals : BAcc F → B2 F)

-- core `c`'s TensorCore buffers when the region is entered
variable (c : Dev nD) (Wr : (b : Ref sig .tc) → Buf (Elt F) ((c : Thread nD τ).loc b))
-- what the core owes through the region, and a bound on the wait pairs recorded before it
variable (O : CellTallies nD τ sig (HIx 1)) (Rec : Set (SemLoc sig × HIx 1))

/-! ## The windows' blocks -/

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (Wr (Pipeline.arrRef spec0 w))

/-- Each window's current staging memref at point `t`, spelt as the pipeline passes it, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S2 .f32 := win0_2.stage (cfg0.slots t 2)
abbrev hs2 (t : Fin cfg0.N) : (ms2 t).IsWhole := hstage0_2 ((cfg0.slots t 2).cast nbuf0_2)
/-- The carried scratch. -/
abbrev scM : Memref sig .tc .vmem S2x8x512 .f32 := Memref.whole cc0_scratch0

/-! ## The carried scratch after each point -/

/-- After point `n`: the zero array with the blocks of points `0 … n` accumulated into it, in order. -/
def accAt : (n : ℕ) → n < cfg0.N → BAcc F
  | 0, hn => accStep (iblk c Wr 0 ⟨0, hn⟩) (iblk c Wr 1 ⟨0, hn⟩) zeroAcc
  | n + 1, hn => accStep (iblk c Wr 0 ⟨n + 1, hn⟩) (iblk c Wr 1 ⟨n + 1, hn⟩) (accAt n (Nat.lt_of_succ_lt hn))

theorem accAt_zero (hn : 0 < cfg0.N) : accAt accStep zeroAcc c Wr 0 hn = accStep (iblk c Wr 0 ⟨0, hn⟩) (iblk c Wr 1 ⟨0, hn⟩) zeroAcc := rfl
theorem accAt_pos (t : Fin cfg0.N) (h : t.val ≠ 0) :
    accAt accStep zeroAcc c Wr t.val t.isLt = accStep (iblk c Wr 0 t) (iblk c Wr 1 t) (accAt accStep zeroAcc c Wr (t.val - 1) (Nat.lt_of_le_of_lt (Nat.sub_le _ _) t.isLt)) := by
  obtain ⟨n, hn⟩ := t
  cases n with
  | zero => exact absurd rfl h
  | succ n => rfl

/-! ## The invariant: the scoped buffers no window stages, the scratch among them at its contents -/

/-- The second region's four staging buffers, which this region does not touch. -/
def rest4 : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

theorem scopedRest_eq :
    (Pipeline.scopedRest (Ix := HIx 1) (Name := ℕ) (U := UU) (Lvl := ℕ) (Val := Elt F) spec0 c : sProp 𝕄)
      = iprop((∃ a, owns (c : Thread nD τ) scM fullShare a) ∗ rest4 (F := F) c) := by
  rw [scopedRest0_eq]; unfold rest4; simp only [scM, owns_whole]; rfl

/-- Before point `n` (after point `n - 1`): before the first point the scoped rest as the region finds it, then
    the scratch at what the point before left. -/
def PhiS : (n : ℕ) → n ≤ cfg0.N → sProp 𝕄
  | 0, _ => Pipeline.scopedRest (Ix := HIx 1) (Name := ℕ) (U := UU) (Lvl := ℕ) (Val := Elt F) spec0 c
  | n + 1, hn => iprop(owns (c : Thread nD τ) scM fullShare (accAt accStep zeroAcc c Wr n hn) ∗ rest4 (F := F) c)

theorem PhiS_zero (n : ℕ) (h : n ≤ cfg0.N) (hz : n = 0) :
    PhiS accStep zeroAcc c Wr n h = Pipeline.scopedRest (Ix := HIx 1) (Name := ℕ) (U := UU) (Lvl := ℕ) (Val := Elt F) spec0 c := by
  subst hz; rfl
theorem PhiS_succ (n : ℕ) (hn : n < cfg0.N) :
    PhiS accStep zeroAcc c Wr (n + 1) hn = iprop(owns (c : Thread nD τ) scM fullShare (accAt accStep zeroAcc c Wr n hn) ∗ rest4 (F := F) c) := rfl
theorem PhiS_pos (n : ℕ) (h : n ≤ cfg0.N) (hz : n ≠ 0) :
    PhiS accStep zeroAcc c Wr n h = iprop(owns (c : Thread nD τ) scM fullShare (accAt accStep zeroAcc c Wr (n - 1) (by omega)) ∗ rest4 (F := F) c) := by
  cases n with
  | zero => exact absurd rfl hz
  | succ n => rfl

/-! ## The proof data -/

/-- The arrays as the region finds them; after the body at point `t` each input's buffer at its block, the result
    window's at the totals of the scratch (read only where it is written back, at the last point); the invariant
    above; the core owing `O` throughout. -/
def dat : Dat τ (Elt F) (HIx 1) ℕ UU ℕ cfg0 c where
  A w := Wr (Pipeline.arrRef spec0 w)
  after w t := match w with
    | ⟨0, _⟩ => iblk c Wr 0 t
    | ⟨1, _⟩ => iblk c Wr 1 t
    | ⟨2, _⟩ => totals (accAt accStep zeroAcc c Wr t.val t.isLt)
  Φ t := PhiS accStep zeroAcc c Wr t.val (Nat.le_of_lt_succ t.isLt)
  q _ := fullShare
  owed _ := O
  recorded _ := Rec

local notation "𝔡" => dat accStep zeroAcc totals c Wr O Rec

theorem A_eq (w : Fin cfg0.W) : (𝔡).A w = Wr (Pipeline.arrRef spec0 w) := by dsimp only [dat]
theorem Phi_castSucc (t : Fin cfg0.N) : (𝔡).Φ t.castSucc = PhiS accStep zeroAcc c Wr t.val (Nat.le_of_lt t.isLt) := by
  dsimp only [dat]; simp only [Fin.coe_castSucc]
theorem after_0 (t : Fin cfg0.N) : (𝔡).after 0 t = iblk c Wr 0 t := by dsimp only [dat]
theorem after_1 (t : Fin cfg0.N) : (𝔡).after 1 t = iblk c Wr 1 t := by dsimp only [dat]
theorem after_2 (t : Fin cfg0.N) : (𝔡).after 2 t = totals (accAt accStep zeroAcc c Wr t.val t.isLt) := by dsimp only [dat]

/-- Each input's current staging buffer holds its block at every point. -/
theorem before_0 (t : Fin cfg0.N) (d) : (𝔡).before 0 t d = iblk c Wr 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (𝔡).before 1 t d = iblk c Wr 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body's runs over owned memrefs -/

/-- A whole memref owned at contents `X` is its buffer held whole at some contents it reads as `X`. -/
theorem owns_isWhole {sp : Space} {Sh : Shape} {e : EltTy} (M : Memref sig .tc sp Sh e) (h : M.IsWhole) (X : Sh.Idx → Elt F e) :
    (owns (Ix := HIx 1) (Name := ℕ) (U := UU) (Lvl := ℕ) (c : Thread nD τ) M fullShare X : sProp 𝕄)
      = iprop(∃ f : TcBody.Bf (F := F) c M, ⌜M.view.read (Elt F) f = X⌝ ∗ TcBody.pt c M f) := by
  unfold owns TcBody.pt; rw [h.set_eq_univ]

/-- A middle point's run leaves the scratch at `accStep` of the two blocks and what it held. -/
def MidSpec : Prop := (∀ (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2) (f4 : TcBody.Bf (F := F) c M4),
    M4.view.read (Elt F) (TcBody.runMid c i hi0 hi6 M1 h1 M2 h2 M3 h3 M4 h4 f1 f2 f4).1
      = accStep (M1.view.read (Elt F) f1) (M2.view.read (Elt F) f2) (M4.view.read (Elt F) f4))
/-- The first point's run leaves it at `accStep` of the two blocks and the zero array. -/
def FirstSpec : Prop := (∀ (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2),
    M4.view.read (Elt F) (TcBody.runFirst c i hi0 M1 h1 M2 h2 M3 h3 M4 h4 f1 f2).1
      = accStep (M1.view.read (Elt F) f1) (M2.view.read (Elt F) f2) zeroAcc)
/-- The last point's run steps the scratch and leaves the result window at its `totals`. -/
def LastSpec : Prop := (∀ (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2) (f4 : TcBody.Bf (F := F) c M4),
    M4.view.read (Elt F) (TcBody.runLast c i hi6 M1 h1 M2 h2 M3 h3 M4 h4 f1 f2 f4).1.1
        = accStep (M1.view.read (Elt F) f1) (M2.view.read (Elt F) f2) (M4.view.read (Elt F) f4)
      ∧ M3.view.read (Elt F) (TcBody.runLast c i hi6 M1 h1 M2 h2 M3 h3 M4 h4 f1 f2 f4).1.2
        = totals (accStep (M1.view.read (Elt F) f1) (M2.view.read (Elt F) f2) (M4.view.read (Elt F) f4)))

section Runs

variable (i : grid0.Coords)
  (M1 : Memref sig .tc .vmem S2048x512 .f32) (h1 : M1.IsWhole) (M2 : Memref sig .tc .vmem S2048x512 .f32) (h2 : M2.IsWhole)
  (M3 : Memref sig .tc .smem S2 .f32) (h3 : M3.IsWhole) (M4 : Memref sig .tc .vmem S2x8x512 .f32) (h4 : M4.IsWhole)
  (x1 x2 : B2048 F)

/-- A middle point: the blocks and the result window as they were, the scratch stepped. -/
theorem ownsMid (hMid : MidSpec accStep) (hi0 : (i 0).val ≠ 0) (hi6 : (i 0).val ≠ 6) (a : BAcc F) (y : B2 F) (Ψ : PUnit → sProp 𝕄) :
    iprop(owns (c : Thread nD τ) M1 fullShare x1 ∗ owns (c : Thread nD τ) M2 fullShare x2 ∗ owns (c : Thread nD τ) M3 fullShare y
        ∗ owns (c : Thread nD τ) M4 fullShare a
        ∗ (iprop(owns (c : Thread nD τ) M1 fullShare x1 ∗ owns (c : Thread nD τ) M2 fullShare x2 ∗ owns (c : Thread nD τ) M3 fullShare y
            ∗ owns (c : Thread nD τ) M4 fullShare (accStep x1 x2 a)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%f3, %e3, H3⟩, ⟨%f4, %e4, H4⟩, Hk⟩
  iapply ((TcBody.runMid c i hi0 hi6 M1 h1 M2 h2 M3 h3 M4 h4 f1 f2 f4).2 f3 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  iexists _; isplitr
  · ipureintro; rw [hMid c i hi0 hi6 M1 h1 M2 h2 M3 h3 M4 h4 f1 f2 f4, e1, e2, e4]
  iexact H4

/-- The first point: the scratch at whatever it held is overwritten. -/
theorem ownsFirst (hFirst : FirstSpec accStep zeroAcc) (hi0 : (i 0).val = 0) (y : B2 F) (Ψ : PUnit → sProp 𝕄) :
    iprop(owns (c : Thread nD τ) M1 fullShare x1 ∗ owns (c : Thread nD τ) M2 fullShare x2 ∗ owns (c : Thread nD τ) M3 fullShare y
        ∗ (∃ a, owns (c : Thread nD τ) M4 fullShare a)
        ∗ (iprop(owns (c : Thread nD τ) M1 fullShare x1 ∗ owns (c : Thread nD τ) M2 fullShare x2 ∗ owns (c : Thread nD τ) M3 fullShare y
            ∗ owns (c : Thread nD τ) M4 fullShare (accStep x1 x2 zeroAcc)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%f3, %e3, H3⟩, ⟨%a, %f4, %e4, H4⟩, Hk⟩
  iapply ((TcBody.runFirst c i hi0 M1 h1 M2 h2 M3 h3 M4 h4 f1 f2).2 f3 f4 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  iexists _; isplitr
  · ipureintro; rw [hFirst c i hi0 M1 h1 M2 h2 M3 h3 M4 h4 f1 f2, e1, e2]
  iexact H4

/-- The last point: the scratch stepped, the result window at its totals. -/
theorem ownsLast (hLast : LastSpec accStep totals) (hi6 : (i 0).val = 6) (a : BAcc F) (Ψ : PUnit → sProp 𝕄) :
    iprop(owns (c : Thread nD τ) M1 fullShare x1 ∗ owns (c : Thread nD τ) M2 fullShare x2 ∗ (∃ y, owns (c : Thread nD τ) M3 fullShare y)
        ∗ owns (c : Thread nD τ) M4 fullShare a
        ∗ (iprop(owns (c : Thread nD τ) M1 fullShare x1 ∗ owns (c : Thread nD τ) M2 fullShare x2
            ∗ owns (c : Thread nD τ) M3 fullShare (totals (accStep x1 x2 a))
            ∗ owns (c : Thread nD τ) M4 fullShare (accStep x1 x2 a)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%y, %f3, %e3, H3⟩, ⟨%f4, %e4, H4⟩, Hk⟩
  iapply ((TcBody.runLast c i hi6 M1 h1 M2 h2 M3 h3 M4 h4 f1 f2 f4).2 f3 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists _; isplitr
    · ipureintro; rw [(hLast c i hi6 M1 h1 M2 h2 M3 h3 M4 h4 f1 f2 f4).2, e1, e2, e4]
    iexact H3
  iexists _; isplitr
  · ipureintro; rw [(hLast c i hi6 M1 h1 M2 h2 M3 h3 M4 h4 f1 f2 f4).1, e1, e2, e4]
  iexact H4

end Runs

/-! ## Where the windows are idle, where the result window is written back -/

theorem coord_val : ∀ t : Fin cfg0.N, ((grid0.coords t) 0).val = t.val :=
  (by decide +kernel : ∀ t : Fin grid0.N, ((grid0.coords t) 0).val = t.val)
theorem live0 : ∀ t : Fin cfg0.N, cfg0.idle 0 (grid0.coords t) = false :=
  (by decide +kernel : ∀ t : Fin grid0.N, cfg0.idle 0 (grid0.coords t) = false)
theorem live1 : ∀ t : Fin cfg0.N, cfg0.idle 1 (grid0.coords t) = false :=
  (by decide +kernel : ∀ t : Fin grid0.N, cfg0.idle 1 (grid0.coords t) = false)
/-- Away from the last point the body stores nothing into the result window and the pipeline does not write it back. -/
theorem idle2 : ∀ t : Fin cfg0.N, t.val ≠ 6 → cfg0.idle 2 (grid0.coords t) = true :=
  (by decide +kernel : ∀ t : Fin grid0.N, t.val ≠ 6 → cfg0.idle 2 (grid0.coords t) = true)
theorem noFlush2 : ∀ t : Fin cfg0.N, t.val ≠ 6 → (cfg0.win 2).flush t = false :=
  (by decide +kernel : ∀ t : Fin grid0.N, t.val ≠ 6 → win0_2.flush t = false)
theorem live2 : ∀ t : Fin cfg0.N, t.val = 6 → cfg0.idle 2 (grid0.coords t) = false :=
  (by decide +kernel : ∀ t : Fin grid0.N, t.val = 6 → cfg0.idle 2 (grid0.coords t) = false)

theorem accAt_first (t : Fin cfg0.N) (h : t.val = 0) :
    accAt accStep zeroAcc c Wr t.val t.isLt = accStep (iblk c Wr 0 t) (iblk c Wr 1 t) zeroAcc := by
  obtain ⟨n, hn⟩ := t
  cases n with
  | zero => rfl
  | succ n => exact absurd h (Nat.succ_ne_zero n)

/-! ## The body obligation, at a generic point -/

/-- What the body is called with at point `t`, the windows one by one, -/
def bodyPre (t : Fin cfg0.N) : sProp 𝕄 :=
  iprop((𝔡).Φ t.castSucc ∗ (𝔡).owesAt none t.castSucc
    ∗ (∃ d, owns (c : Thread nD τ) (ms0 t) fullShare ((𝔡).before 0 t d))
    ∗ (∃ d, owns (c : Thread nD τ) (ms1 t) fullShare ((𝔡).before 1 t d))
    ∗ (∃ d, owns (c : Thread nD τ) (ms2 t) fullShare ((𝔡).before 2 t d)))

/-- and what it returns. -/
def bodyPost (t : Fin cfg0.N) : sProp 𝕄 :=
  iprop((𝔡).Φ t.succ ∗ (𝔡).owesAt none t.succ
    ∗ (𝔡).leavesExact 0 t ∗ (𝔡).leavesExact 1 t ∗ (𝔡).leavesExact 2 t)

set_option maxHeartbeats 1600000 in
/-- The body at any point: the inputs' memrefs hold their blocks; the point is the first, the last or one between;
    the invariant hands the body the scratch at what the point before left (at anything at the first point) and takes
    it back stepped; the result window is left alone but at the last point, where it takes the scratch's totals. -/
theorem sound_body (hMid : MidSpec accStep) (hFirst : FirstSpec accStep zeroAcc) (hLast : LastSpec accStep totals) (t : Fin cfg0.N) :
    bodyPre accStep zeroAcc totals c Wr O Rec t
      ⊢ wp frame (wpE (defs₀ (F := F)) Variants.none c none) Set.univ (bodyAt0 t) (fun _ => bodyPost accStep zeroAcc totals c Wr O Rec t) := by
  unfold bodyPre bodyPost bodyAt0
  simp only [before_0, before_1]
  rw [show (𝔡).owesAt none t.succ = (𝔡).owesAt none t.castSucc from rfl]
  rw [show (𝔡).Φ t.succ = PhiS accStep zeroAcc c Wr (t.val + 1) t.isLt from rfl, PhiS_succ]
  rw [show (𝔡).leavesExact 0 t = owns (c : Thread nD τ) (ms0 t) fullShare ((𝔡).after 0 t) from by
      unfold Dat.leavesExact; rw [live0 t], after_0]
  rw [show (𝔡).leavesExact 1 t = owns (c : Thread nD τ) (ms1 t) fullShare ((𝔡).after 1 t) from by
      unfold Dat.leavesExact; rw [live1 t], after_1]
  have hN : t.val < 7 := lt_of_lt_of_eq t.isLt (show cfg0.N = 7 from N_0)
  have hco := coord_val t
  by_cases h0 : t.val = 0
  · rw [Dat.leavesExact_idle (𝔡) 2 t (idle2 t (by omega)) (noFlush2 t (by omega))]
    rw [Phi_castSucc, PhiS_zero accStep zeroAcc c Wr _ _ h0, scopedRest_eq, accAt_first accStep zeroAcc c Wr t h0]
    iintro ⟨⟨HS, Hr4⟩, Ho, ⟨%d0, H0⟩, ⟨%d1, H1⟩, ⟨%d2, H2⟩⟩
    iapply (ownsFirst accStep zeroAcc c (i := grid0.coords t) (M1 := ms0 t) (h1 := hs0 t) (M2 := ms1 t) (h2 := hs1 t) (M3 := ms2 t) (h3 := hs2 t)
      (M4 := scM) (h4 := Memref.isWhole_whole _) (x1 := iblk c Wr 0 t) (x2 := iblk c Wr 1 t) (hFirst := hFirst) (hi0 := by rw [hco]; exact h0))
    isplitl [H0]; · iexact H0
    isplitl [H1]; · iexact H1
    isplitl [H2]; · iexact H2
    isplitl [HS]; · iexact HS
    iintro ⟨H0, H1, H2, HS⟩
    isplitl [HS Hr4]
    · isplitl [HS]
      · iexact HS
      · iexact Hr4
    isplitl [Ho]; · iexact Ho
    isplitl [H0]; · iexact H0
    isplitl [H1]; · iexact H1
    iexists _; iexact H2
  · rw [Phi_castSucc, PhiS_pos accStep zeroAcc c Wr _ _ h0, accAt_pos accStep zeroAcc c Wr t h0]
    by_cases h6 : t.val = 6
    · rw [show (𝔡).leavesExact 2 t = owns (c : Thread nD τ) (ms2 t) fullShare ((𝔡).after 2 t) from by
          unfold Dat.leavesExact; rw [live2 t h6], after_2, accAt_pos accStep zeroAcc c Wr t h0]
      iintro ⟨⟨HS, Hr4⟩, Ho, ⟨%d0, H0⟩, ⟨%d1, H1⟩, ⟨%d2, H2⟩⟩
      iapply (ownsLast accStep totals c (i := grid0.coords t) (M1 := ms0 t) (h1 := hs0 t) (M2 := ms1 t) (h2 := hs1 t) (M3 := ms2 t) (h3 := hs2 t)
        (M4 := scM) (h4 := Memref.isWhole_whole _) (x1 := iblk c Wr 0 t) (x2 := iblk c Wr 1 t) (hLast := hLast) (hi6 := by rw [hco]; exact h6))
      isplitl [H0]; · iexact H0
      isplitl [H1]; · iexact H1
      isplitl [H2]; · iexists _; iexact H2
      isplitl [HS]; · iexact HS
      iintro ⟨H0, H1, H2, HS⟩
      isplitl [HS Hr4]
      · isplitl [HS]
        · iexact HS
        · iexact Hr4
      isplitl [Ho]; · iexact Ho
      isplitl [H0]; · iexact H0
      isplitl [H1]; · iexact H1
      iexact H2
    · rw [Dat.leavesExact_idle (𝔡) 2 t (idle2 t h6) (noFlush2 t h6)]
      iintro ⟨⟨HS, Hr4⟩, Ho, ⟨%d0, H0⟩, ⟨%d1, H1⟩, ⟨%d2, H2⟩⟩
      iapply (ownsMid accStep c (i := grid0.coords t) (M1 := ms0 t) (h1 := hs0 t) (M2 := ms1 t) (h2 := hs1 t) (M3 := ms2 t) (h3 := hs2 t)
        (M4 := scM) (h4 := Memref.isWhole_whole _) (x1 := iblk c Wr 0 t) (x2 := iblk c Wr 1 t) (hMid := hMid) (hi0 := by rw [hco]; exact h0) (hi6 := by rw [hco]; exact h6))
      isplitl [H0]; · iexact H0
      isplitl [H1]; · iexact H1
      isplitl [H2]; · iexact H2
      isplitl [HS]; · iexact HS
      iintro ⟨H0, H1, H2, HS⟩
      isplitl [HS Hr4]
      · isplitl [HS]
        · iexact HS
        · iexact Hr4
      isplitl [Ho]; · iexact Ho
      isplitl [H0]; · iexact H0
      isplitl [H1]; · iexact H1
      iexists _; iexact H2

/-- The library's body obligation, at every point. -/
theorem body_obligation (hMid : MidSpec accStep) (hFirst : FirstSpec accStep zeroAcc) (hLast : LastSpec accStep totals) : BodyObligation (𝔡) (defs₀ (F := F)) Variants.none none Set.univ := fun t => by
  rw [bigSep_W0, bigSep_W0]
  exact sound_body accStep zeroAcc totals c Wr O Rec hMid hFirst hLast t

/-- The scoped rest as the region finds it is the invariant before the first point. -/
theorem hin0 : (Pipeline.scopedRest (Ix := HIx 1) (Name := ℕ) (U := UU) (Lvl := ℕ) (Val := Elt F) spec0 c : sProp 𝕄) ⊢ (𝔡).Φ 0 := by
  rw [show (𝔡).Φ 0 = PhiS accStep zeroAcc c Wr 0 (Nat.zero_le _) from rfl, PhiS_zero accStep zeroAcc c Wr 0 _ rfl]

/-- After the last point the invariant gives the scoped rest back: the scratch's contents are forgotten. -/
theorem hout0 : (𝔡).Φ (Fin.last cfg0.N) ⊢ (Pipeline.scopedRest (Ix := HIx 1) (Name := ℕ) (U := UU) (Lvl := ℕ) (Val := Elt F) spec0 c : sProp 𝕄) := by
  rw [show (𝔡).Φ (Fin.last cfg0.N) = PhiS accStep zeroAcc c Wr (Fin.last cfg0.N).val (Nat.le_of_lt_succ (Fin.last cfg0.N).isLt) from rfl,
    PhiS_pos accStep zeroAcc c Wr _ _ (by rw [Fin.val_last]; have : cfg0.N = 7 := N_0; omega), scopedRest_eq]
  iintro ⟨HS, Hr⟩
  isplitl [HS]
  · iexists _; iexact HS
  · iexact Hr

end Cert.Proof.KB.Reg0

end
-- ==== Proof.Reg2B.lean ====
/-
  The second TensorCore region as a pipeline: no grid (one point); three input windows (the sixteen tiles' partial sums
  and counts, [16, 16] each, and the first region's two partial results) and the one-element result window, which takes
  the quotient of the two grand totals.
-/
import proofs.«211649_g4638564679882_cont_8to1c4_562_19_alg».proof.Proof.CommonB
import proofs.«211649_g4638564679882_cont_8to1c4_562_19_alg».proof.Proof.TcBodyB
import Idealize.ShloMosaic.Lib.Pipeline.FrameBody

set_option maxRecDepth 16384
set_option Elab.async false

noncomputable section

namespace Cert.Proof.KB.Reg2

open Cert.Kernel Cert.Kernel.Gen
open Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev B16 (F : FTy → Type) : Type := S16x16.Idx → Elt F .f32
abbrev B2 (F : FTy → Type) : Type := S2.Idx → Elt F .f32
abbrev B1 (F : FTy → Type) : Type := S1.Idx → Elt F .f32

/-! ## What the body computes (its equation with the body's run is a hypothesis here) -/

variable (quotient : B16 F → B16 F → B2 F → B1 F)

-- core `c`'s TensorCore buffers when the region is entered
variable (c : Dev nD) (Wr : (b : Ref sig .tc) → Buf (Elt F) ((c : Thread nD τ).loc b))
-- what the core owes through the region, and a bound on the wait pairs recorded before it
variable (O : CellTallies nD τ sig (HIx 1)) (Rec : Set (SemLoc sig × HIx 1))

/-- Window `w`'s block (the whole array) read off its array as the region finds it. -/
def iblk (w : Fin cfg2.W) (t : Fin cfg2.N) : ((cfg2.win w).xblock (cfg2.grid.coords t)).Idx → Elt F (cfg2.win w).elt :=
  ((cfg2.win w).blk t).view.read (Elt F) (Wr (Pipeline.arrRef spec2 w))

abbrev ms0 (t : Fin cfg2.N) : Memref sig .tc .vmem S16x16 .f32 := win2_0.stage (cfg2.slots t 0)
abbrev ms1 (t : Fin cfg2.N) : Memref sig .tc .vmem S16x16 .f32 := win2_1.stage (cfg2.slots t 1)
abbrev ms2 (t : Fin cfg2.N) : Memref sig .tc .smem S2 .f32 := win2_2.stage (cfg2.slots t 2)
abbrev ms3 (t : Fin cfg2.N) : Memref sig .tc .smem S1 .f32 := win2_3.stage (cfg2.slots t 3)

/-- The arrays as the region finds them; after the body each input's buffer at its array, the result's at the quotient;
    the invariant the scoped buffers no window stages; the core owing `O` throughout. -/
def dat : Dat τ (Elt F) (HIx 1) ℕ UU ℕ cfg2 c where
  A w := Wr (Pipeline.arrRef spec2 w)
  after w t := match w with
    | ⟨0, _⟩ => iblk c Wr 0 t
    | ⟨1, _⟩ => iblk c Wr 1 t
    | ⟨2, _⟩ => iblk c Wr 2 t
    | ⟨3, _⟩ => quotient (iblk c Wr 0 t) (iblk c Wr 1 t) (iblk c Wr 2 t)
  Φ _ := Pipeline.scopedRest (Ix := HIx 1) (Name := ℕ) (U := UU) (Lvl := ℕ) (Val := Elt F) spec2 c
  q _ := fullShare
  owed _ := O
  recorded _ := Rec

local notation "𝔡" => dat quotient c Wr O Rec

theorem A_eq (w : Fin cfg2.W) : (𝔡).A w = Wr (Pipeline.arrRef spec2 w) := by dsimp only [dat]
theorem after_0 (t : Fin cfg2.N) : (𝔡).after 0 t = iblk c Wr 0 t := by dsimp only [dat]
theorem after_1 (t : Fin cfg2.N) : (𝔡).after 1 t = iblk c Wr 1 t := by dsimp only [dat]
theorem after_2 (t : Fin cfg2.N) : (𝔡).after 2 t = iblk c Wr 2 t := by dsimp only [dat]
theorem after_3 (t : Fin cfg2.N) : (𝔡).after 3 t = quotient (iblk c Wr 0 t) (iblk c Wr 1 t) (iblk c Wr 2 t) := by dsimp only [dat]

theorem before_0 (t : Fin cfg2.N) (d) : (𝔡).before 0 t d = iblk c Wr 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg2.N) (d) : (𝔡).before 1 t d = iblk c Wr 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg2.N) (d) : (𝔡).before 2 t d = iblk c Wr 2 t :=
  ((𝔡).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body's run over owned memrefs -/

theorem owns_isWhole {sp : Space} {Sh : Shape} {e : EltTy} (M : Memref sig .tc sp Sh e) (h : M.IsWhole) (X : Sh.Idx → Elt F e) :
    (owns (Ix := HIx 1) (Name := ℕ) (U := UU) (Lvl := ℕ) (c : Thread nD τ) M fullShare X : sProp 𝕄)
      = iprop(∃ f : TcBody.Bf (F := F) c M, ⌜M.view.read (Elt F) f = X⌝ ∗ TcBody.pt c M f) := by
  unfold owns TcBody.pt; rw [h.set_eq_univ]

/-- The run leaves the result window at `quotient` of the three inputs. -/
def CombSpec : Prop := ∀ (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : TcBody.Bf (F := F) c A0) (g1 : TcBody.Bf (F := F) c A1) (g2 : TcBody.Bf (F := F) c A2),
    A3.view.read (Elt F) (TcBody.runCombine c A0 h0 A1 h1 A2 h2 A3 h3 g0 g1 g2).1
      = quotient (A0.view.read (Elt F) g0) (A1.view.read (Elt F) g1) (A2.view.read (Elt F) g2)

theorem ownsCombine (hComb : CombSpec quotient)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (x0 x1 : B16 F) (x2 : B2 F) (Ψ : PUnit → sProp 𝕄) :
    iprop(owns (c : Thread nD τ) A0 fullShare x0 ∗ owns (c : Thread nD τ) A1 fullShare x1 ∗ owns (c : Thread nD τ) A2 fullShare x2
        ∗ (∃ y, owns (c : Thread nD τ) A3 fullShare y)
        ∗ (iprop(owns (c : Thread nD τ) A0 fullShare x0 ∗ owns (c : Thread nD τ) A1 fullShare x1 ∗ owns (c : Thread nD τ) A2 fullShare x2
            ∗ owns (c : Thread nD τ) A3 fullShare (quotient x0 x1 x2)) -∗ Ψ ⟨⟩))
      ⊢ wp frame (wpE (defs₀ (F := F)) Variants.none c none) Set.univ (cc2__combine_body A0 h0 A1 h1 A2 h2 A3 h3) Ψ := by
  simp only [owns_isWhole c A0 h0, owns_isWhole c A1 h1, owns_isWhole c A2 h2, owns_isWhole c A3 h3]
  iintro ⟨⟨%g0, %e0, H0⟩, ⟨%g1, %e1, H1⟩, ⟨%g2, %e2, H2⟩, ⟨%y, %g3, %e3, H3⟩, Hk⟩
  iapply ((TcBody.runCombine c A0 h0 A1 h1 A2 h2 A3 h3 g0 g1 g2).2 g3 Set.univ Ψ)
  isplitl [H0]; · iexact H0
  isplitl [H1]; · iexact H1
  isplitl [H2]; · iexact H2
  isplitl [H3]; · iexact H3
  iintro ⟨H0, H1, H2, H3⟩
  iapply Hk
  isplitl [H0]
  · iexists g0; isplitr
    · ipureintro; exact e0
    · iexact H0
  isplitl [H1]
  · iexists g1; isplitr
    · ipureintro; exact e1
    · iexact H1
  isplitl [H2]
  · iexists g2; isplitr
    · ipureintro; exact e2
    · iexact H2
  iexists _; isplitr
  · ipureintro; rw [hComb c A0 h0 A1 h1 A2 h2 A3 h3 g0 g1 g2, e0, e1, e2]
  · iexact H3

/-! ## The body obligation -/

theorem live : ∀ (w : Fin cfg2.W) (t : Fin cfg2.N), cfg2.idle w (cfg2.grid.coords t) = false := fun _ _ => rfl

def bodyPre (t : Fin cfg2.N) : sProp 𝕄 :=
  iprop((𝔡).Φ t.castSucc ∗ (𝔡).owesAt none t.castSucc
    ∗ (∃ d, owns (c : Thread nD τ) (ms0 t) fullShare ((𝔡).before 0 t d))
    ∗ (∃ d, owns (c : Thread nD τ) (ms1 t) fullShare ((𝔡).before 1 t d))
    ∗ (∃ d, owns (c : Thread nD τ) (ms2 t) fullShare ((𝔡).before 2 t d))
    ∗ (∃ d, owns (c : Thread nD τ) (ms3 t) fullShare ((𝔡).before 3 t d)))

def bodyPost (t : Fin cfg2.N) : sProp 𝕄 :=
  iprop((𝔡).Φ t.succ ∗ (𝔡).owesAt none t.succ
    ∗ owns (c : Thread nD τ) (ms0 t) fullShare ((𝔡).after 0 t) ∗ owns (c : Thread nD τ) (ms1 t) fullShare ((𝔡).after 1 t)
    ∗ owns (c : Thread nD τ) (ms2 t) fullShare ((𝔡).after 2 t) ∗ owns (c : Thread nD τ) (ms3 t) fullShare ((𝔡).after 3 t))

theorem sound_body (hComb : CombSpec quotient) (t : Fin cfg2.N) :
    bodyPre quotient c Wr O Rec t
      ⊢ wp frame (wpE (defs₀ (F := F)) Variants.none c none) Set.univ (bodyAt2 t) (fun _ => bodyPost quotient c Wr O Rec t) := by
  unfold bodyPre bodyPost bodyAt2
  simp only [before_0, before_1, before_2, after_0, after_1, after_2, after_3]
  rw [show (𝔡).owesAt none t.succ = (𝔡).owesAt none t.castSucc from rfl, show (𝔡).Φ t.succ = (𝔡).Φ t.castSucc from rfl]
  iintro ⟨HΦ, Ho, ⟨%d0, H0⟩, ⟨%d1, H1⟩, ⟨%d2, H2⟩, ⟨%d3, H3⟩⟩
  iapply (ownsCombine quotient c hComb (ms0 t) (hstage2_0 0) (ms1 t) (hstage2_1 0) (ms2 t) (hstage2_2 0) (ms3 t) (hstage2_3 0)
    (iblk c Wr 0 t) (iblk c Wr 1 t) (iblk c Wr 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (hComb : CombSpec quotient) : BodyObligation (𝔡) (defs₀ (F := F)) Variants.none none Set.univ := fun t => by
  rw [bigSep_W2, bigSep_W2]
  exact sound_body quotient c Wr O Rec hComb t

end Cert.Proof.KB.Reg2

end
-- ==== Proof.ScTileB.lean ====
/-
  The SparseCore side of the kernel's proof. Sixteen tiles each take 128 rows of the two `[16384,512]` arrays, in four
  chunks of 32 rows copied into two pairs of scratches (a chunk's copies issued while the chunk before it is worked on,
  each copy alone on its semaphore), and fold over rows and sixteen-lane column blocks two sixteen-lane accumulators:
  where the second array's lane exceeds the threshold, the squared difference of the two lanes and one; elsewhere zero.
  Each tile writes its two accumulators to its own row of the two `[16,16]` results.

  Here: that value, in the kernel's own order (`tileSum`, `tileCnt`, `scSums`, `scCnts`); what the launch handshakes
  carry (`P`: the big arrays as read shares, the results row by row); the tile's body once at a symbolic tile
  (`tile_body`, `tileObl`: the loops at invariants that carry the recurrence so far); and how the SparseCore's operands
  split among its tiles and join again (`vecSplit`).
-/
import proofs.«211649_g4638564679882_cont_8to1c4_562_19_alg».proof.Proof.CommonB
import Idealize.ShloMosaic.Lib.ValueIdx

noncomputable section

namespace Cert.Proof.KB.ScTile

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The value: the tile's two accumulators, in the kernel's own order -/

/-- Contents of the two big arrays and of the two small results. -/
abbrev Big (F : FTy → Type) : Type := S16384x512.Idx → Elt F .f32
abbrev Small (F : FTy → Type) : Type := S16x16.Idx → Elt F .f32
/-- The two carried vectors: the masked squared differences' sums and the mask's counts, sixteen lanes each. -/
abbrev QN (F : FTy → Type) : Type := FVec F S16 .f32 × FVec F S16 .f32

/-- One column block: with `s`, `t` its sixteen lanes of the two arrays, the lanes where `t` exceeds the threshold add
    `(s - t)²` to the first accumulator and one to the second; the other lanes add zero. -/
def stepQN (s t : FVec F S16 .f32) (p : QN F) : QN F :=
  (addf p.1 (select (cmpf .ogt t (broadcast S16 (Scalar.ofBits .f32 0x3D4CCCCD#32))) (mulf (subf s t) (subf s t)) (broadcast S16 (Scalar.ofBits .f32 0x00000000#32))),
   addf p.2 (select (cmpf .ogt t (broadcast S16 (Scalar.ofBits .f32 0x3D4CCCCD#32))) (broadcast S16 (Scalar.ofBits .f32 0x3F800000#32)) (broadcast S16 (Scalar.ofBits .f32 0x00000000#32))))

/-- Both accumulators start from zero. -/
def qn0 : QN F := (broadcast S16 (Scalar.ofBits .f32 0x00000000#32), broadcast S16 (Scalar.ofBits .f32 0x00000000#32))

/-- Chunk 0: the sixteen lanes at row `r`, column block `j` of a chunk held in a scratch, as a load reads them. -/
def blkS0 (fs : S32x512.Idx → Elt F .f32) (r : Fin k1_t1_loop.trips) (j : Fin k1_t2_loop.trips) : FVec F S16 .f32 :=
  shapeCast S16 ((Memref.whole cc1_scratch0 : Memref sig .scVector .vmem S32x512 .f32).view.readAt (Elt F) (Rect.unit (s := S32x512) (k1_off2 r j) S1x16.size (k1_off2_inb r j)).toLoadRect fs) shapeCasts_S1x16_S16
def blkT0 (ft : S32x512.Idx → Elt F .f32) (r : Fin k1_t1_loop.trips) (j : Fin k1_t2_loop.trips) : FVec F S16 .f32 :=
  shapeCast S16 ((Memref.whole cc1_scratch2 : Memref sig .scVector .vmem S32x512 .f32).view.readAt (Elt F) (Rect.unit (s := S32x512) (k1_off2 r j) S1x16.size (k1_off2_inb r j)).toLoadRect ft) shapeCasts_S1x16_S16
/-- The accumulators after the first `j` column blocks of row `r`. -/
def colFold0 (fs ft : S32x512.Idx → Elt F .f32) (r : Fin k1_t1_loop.trips) : ℕ → QN F → QN F
  | 0, p => p
  | j + 1, p => if h : j < k1_t2_loop.trips then stepQN (blkS0 fs r ⟨j, h⟩) (blkT0 ft r ⟨j, h⟩) (colFold0 fs ft r j p) else colFold0 fs ft r j p
/-- The accumulators after the first `r` rows. -/
def rowFold0 (fs ft : S32x512.Idx → Elt F .f32) : ℕ → QN F → QN F
  | 0, p => p
  | r + 1, p => if h : r < k1_t1_loop.trips then colFold0 fs ft ⟨r, h⟩ k1_t2_loop.trips (rowFold0 fs ft r p) else rowFold0 fs ft r p

/-- Chunk 1: the sixteen lanes at row `r`, column block `j` of a chunk held in a scratch, as a load reads them. -/
def blkS1 (fs : S32x512.Idx → Elt F .f32) (r : Fin k1_t3_loop.trips) (j : Fin k1_t4_loop.trips) : FVec F S16 .f32 :=
  shapeCast S16 ((Memref.whole cc1_scratch1 : Memref sig .scVector .vmem S32x512 .f32).view.readAt (Elt F) (Rect.unit (s := S32x512) (k1_off3 r j) S1x16.size (k1_off3_inb r j)).toLoadRect fs) shapeCasts_S1x16_S16
def blkT1 (ft : S32x512.Idx → Elt F .f32) (r : Fin k1_t3_loop.trips) (j : Fin k1_t4_loop.trips) : FVec F S16 .f32 :=
  shapeCast S16 ((Memref.whole cc1_scratch3 : Memref sig .scVector .vmem S32x512 .f32).view.readAt (Elt F) (Rect.unit (s := S32x512) (k1_off3 r j) S1x16.size (k1_off3_inb r j)).toLoadRect ft) shapeCasts_S1x16_S16
/-- The accumulators after the first `j` column blocks of row `r`. -/
def colFold1 (fs ft : S32x512.Idx → Elt F .f32) (r : Fin k1_t3_loop.trips) : ℕ → QN F → QN F
  | 0, p => p
  | j + 1, p => if h : j < k1_t4_loop.trips then stepQN (blkS1 fs r ⟨j, h⟩) (blkT1 ft r ⟨j, h⟩) (colFold1 fs ft r j p) else colFold1 fs ft r j p
/-- The accumulators after the first `r` rows. -/
def rowFold1 (fs ft : S32x512.Idx → Elt F .f32) : ℕ → QN F → QN F
  | 0, p => p
  | r + 1, p => if h : r < k1_t3_loop.trips then colFold1 fs ft ⟨r, h⟩ k1_t4_loop.trips (rowFold1 fs ft r p) else rowFold1 fs ft r p

/-- Chunk 2: the sixteen lanes at row `r`, column block `j` of a chunk held in a scratch, as a load reads them. -/
def blkS2 (fs : S32x512.Idx → Elt F .f32) (r : Fin k1_t5_loop.trips) (j : Fin k1_t6_loop.trips) : FVec F S16 .f32 :=
  shapeCast S16 ((Memref.whole cc1_scratch0 : Memref sig .scVector .vmem S32x512 .f32).view.readAt (Elt F) (Rect.unit (s := S32x512) (k1_off4 r j) S1x16.size (k1_off4_inb r j)).toLoadRect fs) shapeCasts_S1x16_S16
def blkT2 (ft : S32x512.Idx → Elt F .f32) (r : Fin k1_t5_loop.trips) (j : Fin k1_t6_loop.trips) : FVec F S16 .f32 :=
  shapeCast S16 ((Memref.whole cc1_scratch2 : Memref sig .scVector .vmem S32x512 .f32).view.readAt (Elt F) (Rect.unit (s := S32x512) (k1_off4 r j) S1x16.size (k1_off4_inb r j)).toLoadRect ft) shapeCasts_S1x16_S16
/-- The accumulators after the first `j` column blocks of row `r`. -/
def colFold2 (fs ft : S32x512.Idx → Elt F .f32) (r : Fin k1_t5_loop.trips) : ℕ → QN F → QN F
  | 0, p => p
  | j + 1, p => if h : j < k1_t6_loop.trips then stepQN (blkS2 fs r ⟨j, h⟩) (blkT2 ft r ⟨j, h⟩) (colFold2 fs ft r j p) else colFold2 fs ft r j p
/-- The accumulators after the first `r` rows. -/
def rowFold2 (fs ft : S32x512.Idx → Elt F .f32) : ℕ → QN F → QN F
  | 0, p => p
  | r + 1, p => if h : r < k1_t5_loop.trips then colFold2 fs ft ⟨r, h⟩ k1_t6_loop.trips (rowFold2 fs ft r p) else rowFold2 fs ft r p

/-- Chunk 3: the sixteen lanes at row `r`, column block `j` of a chunk held in a scratch, as a load reads them. -/
def blkS3 (fs : S32x512.Idx → Elt F .f32) (r : Fin k1_t7_loop.trips) (j : Fin k1_t8_loop.trips) : FVec F S16 .f32 :=
  shapeCast S16 ((Memref.whole cc1_scratch1 : Memref sig .scVector .vmem S32x512 .f32).view.readAt (Elt F) (Rect.unit (s := S32x512) (k1_off5 r j) S1x16.size (k1_off5_inb r j)).toLoadRect fs) shapeCasts_S1x16_S16
def blkT3 (ft : S32x512.Idx → Elt F .f32) (r : Fin k1_t7_loop.trips) (j : Fin k1_t8_loop.trips) : FVec F S16 .f32 :=
  shapeCast S16 ((Memref.whole cc1_scratch3 : Memref sig .scVector .vmem S32x512 .f32).view.readAt (Elt F) (Rect.unit (s := S32x512) (k1_off5 r j) S1x16.size (k1_off5_inb r j)).toLoadRect ft) shapeCasts_S1x16_S16
/-- The accumulators after the first `j` column blocks of row `r`. -/
def colFold3 (fs ft : S32x512.Idx → Elt F .f32) (r : Fin k1_t7_loop.trips) : ℕ → QN F → QN F
  | 0, p => p
  | j + 1, p => if h : j < k1_t8_loop.trips then stepQN (blkS3 fs r ⟨j, h⟩) (blkT3 ft r ⟨j, h⟩) (colFold3 fs ft r j p) else colFold3 fs ft r j p
/-- The accumulators after the first `r` rows. -/
def rowFold3 (fs ft : S32x512.Idx → Elt F .f32) : ℕ → QN F → QN F
  | 0, p => p
  | r + 1, p => if h : r < k1_t7_loop.trips then colFold3 fs ft ⟨r, h⟩ k1_t8_loop.trips (rowFold3 fs ft r p) else rowFold3 fs ft r p

/-- The rows of chunk `c` of tile `L` in a big array: thirty-two rows from row `14336 + 128 · L 1 + 32 · c`. -/
abbrev chunkR (L : grid1.Coords) (c : Fin 4) : Rect S16384x512 :=
  Rect.unit (s := S16384x512) (k1_off1 L (BitVec.ofNat 32 (32 * c.val))) S32x512.size (k1_off1_inb L c)
/-- What a copy of that chunk lands in a scratch. -/
def chunkS (x0 : Big F) (L : grid1.Coords) (c : Fin 4) : S32x512.Idx → Elt F .f32 :=
  ((Memref.whole main_v0_scv : Memref sig .scVector .hbm S16384x512 .f32).slice (chunkR L c) (fun _ => rfl)).view.read (Elt F) x0
def chunkT (x1 : Big F) (L : grid1.Coords) (c : Fin 4) : S32x512.Idx → Elt F .f32 :=
  ((Memref.whole main_v1_scv : Memref sig .scVector .hbm S16384x512 .f32).slice (chunkR L c) (fun _ => rfl)).view.read (Elt F) x1

/-- The tile's two accumulators after its four chunks, each chunk's rows folded onto the chunks before it, from zero. -/
def tileAcc (x0 x1 : Big F) (L : grid1.Coords) : QN F :=
  rowFold3 (chunkS x0 L 3) (chunkT x1 L 3) k1_t7_loop.trips
    (rowFold2 (chunkS x0 L 2) (chunkT x1 L 2) k1_t5_loop.trips
      (rowFold1 (chunkS x0 L 1) (chunkT x1 L 1) k1_t3_loop.trips
        (rowFold0 (chunkS x0 L 0) (chunkT x1 L 0) k1_t1_loop.trips qn0)))

/-- The grid coordinates of tile `w` of the one SparseCore. -/
def coordsW (w : Fin 16) : grid1.Coords :=
  fun | 0 => (⟨0, by decide⟩ : Fin 1) | 1 => w | ⟨_ + 2, h⟩ => absurd h (Nat.not_lt.2 (Nat.le_add_left _ _))

/-- Tile `w`'s sums and counts. -/
def tileSum (x0 x1 : Big F) (w : Fin 16) : FVec F S16 .f32 := (tileAcc x0 x1 (coordsW w)).1
def tileCnt (x0 x1 : Big F) (w : Fin 16) : FVec F S16 .f32 := (tileAcc x0 x1 (coordsW w)).2
/-- The two results: row `w` is tile `w`'s. -/
def scSums (x0 x1 : Big F) : Small F := fun idx => tileSum x0 x1 (idx 0) (ValueIdx.ix1 (idx 1))
def scCnts (x0 x1 : Big F) : Small F := fun idx => tileCnt x0 x1 (idx 0) (ValueIdx.ix1 (idx 1))

/-! ## What the handshakes carry -/

theorem hdiv : 16 ∣ S16x16.size 0 := ⟨1, rfl⟩
/-- Row `i` of a `[16,16]` array. -/
abbrev row (i : Fin 16) : Rect S16x16 := Rect.part (s := S16x16) (a₀ := 0) hdiv i
abbrev rowSet (i : Fin 16) : Finset S16x16.Idx := ((Memref.whole main_v3_0_scv : Memref sig .scVector .hbm S16x16 .f32).view.slice (row i)).set

/-- Tile `i`'s read share of a big array. -/
abbrev tok (i : Fin 16) : PosShare TreeShare := Transfers.shareTok fullShare 16 i

abbrev srcTok (x0 : Big F) (d : Dev nD) (i : Fin 16) : sProp 𝕄 := srcLoc d ↦{tok i} x0
abbrev tarTok (x1 : Big F) (d : Dev nD) (i : Fin 16) : sProp 𝕄 := tarLoc d ↦{tok i} x1
abbrev sumRow (d : Dev nD) (i : Fin 16) (f : Small F) : sProp 𝕄 := scSumLoc d ↦[rowSet i]{fullShare} f
abbrev cntRow (d : Dev nD) (i : Fin 16) (f : Small F) : sProp 𝕄 := scCntLoc d ↦[rowSet i]{fullShare} f

/-- The call hands the SparseCore the two big arrays whole at `x0`, `x1` and the two results whole at anything, and takes
    them back with the results at the tiles' sums and counts; tile `i` is handed a read share of each big array and row
    `i` of each result, and hands them back with its row at its own sums and counts. -/
def P (x0 x1 : Big F) : (K (F := F)).Pay (nD := nD) (Val := Elt F) (Name := ℕ) (U := UU) where
  st := fun q d _ => match q with
    | 0 => iprop((srcLoc d ↦{fullShare} x0) ∗ (tarLoc d ↦{fullShare} x1) ∗ (∃ f, scSumLoc d ↦{fullShare} f) ∗ (∃ f, scCntLoc d ↦{fullShare} f))
  dn := fun q d _ => match q with
    | 0 => iprop((srcLoc d ↦{fullShare} x0) ∗ (tarLoc d ↦{fullShare} x1) ∗ (scSumLoc d ↦{fullShare} scSums x0 x1) ∗ (scCntLoc d ↦{fullShare} scCnts x0 x1))
  go := fun q d _ i => match q with
    | 0 => iprop(srcTok x0 d (Fin.cast nSub_zero i) ∗ tarTok x1 d (Fin.cast nSub_zero i) ∗ (∃ f, sumRow d (Fin.cast nSub_zero i) f) ∗ (∃ f, cntRow d (Fin.cast nSub_zero i) f))
  td := fun q d _ i => match q with
    | 0 => iprop(srcTok x0 d (Fin.cast nSub_zero i) ∗ tarTok x1 d (Fin.cast nSub_zero i) ∗ sumRow d (Fin.cast nSub_zero i) (scSums x0 x1) ∗ cntRow d (Fin.cast nSub_zero i) (scCnts x0 x1))
  x := fun _ _ => iprop(emp)

instance P_storable (x0 x1 : Big F) : (P (F := F) x0 x1).IsStorable where
  st q d _ := match q with
    | 0 => (inferInstance : BI.Storable (upEmb : UEmb _ 𝕄) iprop((srcLoc d ↦{fullShare} x0) ∗ (tarLoc d ↦{fullShare} x1) ∗ (∃ f, scSumLoc d ↦{fullShare} f) ∗ (∃ f, scCntLoc d ↦{fullShare} f)))
  dn q d _ := match q with
    | 0 => (inferInstance : BI.Storable (upEmb : UEmb _ 𝕄) iprop((srcLoc d ↦{fullShare} x0) ∗ (tarLoc d ↦{fullShare} x1) ∗ (scSumLoc d ↦{fullShare} scSums x0 x1) ∗ (scCntLoc d ↦{fullShare} scCnts x0 x1)))
  go q d _ i := match q with
    | 0 => (inferInstance : BI.Storable (upEmb : UEmb _ 𝕄)
        iprop(srcTok x0 d (Fin.cast nSub_zero i) ∗ tarTok x1 d (Fin.cast nSub_zero i) ∗ (∃ f, sumRow d (Fin.cast nSub_zero i) f) ∗ (∃ f, cntRow d (Fin.cast nSub_zero i) f)))
  td q d _ i := match q with
    | 0 => (inferInstance : BI.Storable (upEmb : UEmb _ 𝕄)
        iprop(srcTok x0 d (Fin.cast nSub_zero i) ∗ tarTok x1 d (Fin.cast nSub_zero i) ∗ sumRow d (Fin.cast nSub_zero i) (scSums x0 x1) ∗ cntRow d (Fin.cast nSub_zero i) (scCnts x0 x1)))

/-- What the call takes and gives back, the one SparseCore's. -/
theorem st0_eq (x0 x1 : Big F) (d : Dev nD) :
    (bigSep Finset.univ fun c : Fin ((K (F := F)).nCore 0) => (P x0 x1).st 0 d c)
      = iprop((srcLoc d ↦{fullShare} x0) ∗ (tarLoc d ↦{fullShare} x1) ∗ (∃ f, scSumLoc d ↦{fullShare} f) ∗ (∃ f, scCntLoc d ↦{fullShare} f)) :=
  bigSep_univ_of_subsingleton (0 : Fin 1)
theorem dn0_eq (x0 x1 : Big F) (d : Dev nD) :
    (bigSep Finset.univ fun c : Fin ((K (F := F)).nCore 0) => (P x0 x1).dn 0 d c)
      = iprop((srcLoc d ↦{fullShare} x0) ∗ (tarLoc d ↦{fullShare} x1) ∗ (scSumLoc d ↦{fullShare} scSums x0 x1) ∗ (scCntLoc d ↦{fullShare} scCnts x0 x1)) :=
  bigSep_univ_of_subsingleton (0 : Fin 1)

/-- The launch deals the kernel's proof nothing. -/
theorem Px_thr (x0 x1 : Big F) (thr : Thread nD τ) : (bigSep Finset.univ fun q : Fin 1 => (P (F := F) x0 x1).x q thr) = iprop(emp) :=
  bigSep_univ_of_subsingleton (0 : Fin 1)
theorem Px_all (x0 x1 : Big F) :
    (bigSep Finset.univ fun thr : Thread nD τ => bigSep Finset.univ fun q : Fin 1 => (P (F := F) x0 x1).x q thr) = (iprop(emp) : sProp 𝕄) := by
  rw [bigSep_congr fun thr _ => Px_thr x0 x1 thr]; exact bigSep_emp_const _

/-! ## The tile -/

section Tile

variable (x0 x1 : Big F) (d : Dev nD) (L : grid1.Coords)

abbrev cV (L : grid1.Coords) : Fin τ.nSC := (L 0).castLE hcore1
abbrev jV (L : grid1.Coords) : Fin τ.nSub := (L 1).castLE hsub1
omit [FloatOps F] in
theorem bound_one : grid1.bound 1 = 16 := rfl
abbrev jL (L : grid1.Coords) : Fin 16 := Fin.cast bound_one (L 1)

-- the kernel's memrefs, spelt as the body table passes them
local notation "srcW" => (Memref.whole Cert.Kernel.main_v0_scv : Memref Cert.Kernel.sig Kind.scVector Space.hbm Cert.Kernel.S16384x512 EltTy.f32)
local notation "tarW" => (Memref.whole Cert.Kernel.main_v1_scv : Memref Cert.Kernel.sig Kind.scVector Space.hbm Cert.Kernel.S16384x512 EltTy.f32)
local notation "sumW" => (Memref.whole Cert.Kernel.main_v3_0_scv : Memref Cert.Kernel.sig Kind.scVector Space.hbm Cert.Kernel.S16x16 EltTy.f32)
local notation "cntW" => (Memref.whole Cert.Kernel.main_v3_1_scv : Memref Cert.Kernel.sig Kind.scVector Space.hbm Cert.Kernel.S16x16 EltTy.f32)
local notation "sb0" => (Memref.whole Cert.Kernel.cc1_scratch0 : Memref Cert.Kernel.sig Kind.scVector Space.vmem Cert.Kernel.S32x512 EltTy.f32)
local notation "sb1" => (Memref.whole Cert.Kernel.cc1_scratch1 : Memref Cert.Kernel.sig Kind.scVector Space.vmem Cert.Kernel.S32x512 EltTy.f32)
local notation "tb0" => (Memref.whole Cert.Kernel.cc1_scratch2 : Memref Cert.Kernel.sig Kind.scVector Space.vmem Cert.Kernel.S32x512 EltTy.f32)
local notation "tb1" => (Memref.whole Cert.Kernel.cc1_scratch3 : Memref Cert.Kernel.sig Kind.scVector Space.vmem Cert.Kernel.S32x512 EltTy.f32)
local notation "avW" => (Memref.whole Cert.Kernel.cc1_scratch4 : Memref Cert.Kernel.sig Kind.scVector Space.vmem Cert.Kernel.S16 EltTy.f32)
local notation "cvW" => (Memref.whole Cert.Kernel.cc1_scratch5 : Memref Cert.Kernel.sig Kind.scVector Space.vmem Cert.Kernel.S16 EltTy.f32)

/-- Row `L 1` of a result as the tile slices it, squeezed. -/
abbrev rowK (L : grid1.Coords) : Rect S16x16 := Rect.unit (s := S16x16) (k1_off6 L) S1x16.size (k1_off6_inb L)
abbrev sumRowK (L : grid1.Coords) : Memref sig .scVector .hbm S16 .f32 := ((sumW).slice (rowK L) (fun _ => rfl)).squeeze S16 squeezes_S1x16_S16
abbrev cntRowK (L : grid1.Coords) : Memref sig .scVector .hbm S16 .f32 := ((cntW).slice (rowK L) (fun _ => rfl)).squeeze S16 squeezes_S1x16_S16

omit [FloatOps F] in
theorem rowK_eq : rowK L = row (jL L) := by
  unfold rowK row Rect.part Rect.block
  congr 1 <;> funext a
  · rw [k1_off6_eq]
    match a with
    | 0 => simp [Shape.partIx, Shape.partSize]
    | 1 => simp [Shape.partIx, Shape.partSize]
  · match a with
    | 0 => simp [Shape.partSize]
    | 1 => simp [Shape.partSize]

omit [FloatOps F] in
theorem set_sumRowK : (sumRowK L).view.set = rowSet (jL L) := by
  show (((sumW).view.slice (rowK L)).reshape S16 squeezes_S1x16_S16.numel_eq).set = ((sumW).view.slice (row (jL L))).set
  rw [View.set_reshape]
  exact rowK_eq L ▸ rfl
omit [FloatOps F] in
theorem set_cntRowK : (cntRowK L).view.set = rowSet (jL L) := by
  show (((cntW).view.slice (rowK L)).reshape S16 squeezes_S1x16_S16.numel_eq).set = ((sumW).view.slice (row (jL L))).set
  rw [View.set_reshape]
  exact rowK_eq L ▸ rfl

omit [FloatOps F] in
theorem pts_sumRowK (f : Small F) :
    ((sumRowK L).view.loc (V d (cV L) (jV L)) ↦[(sumRowK L).view.set]{fullShare} f : sProp 𝕄) = scSumLoc d ↦[rowSet (jL L)]{fullShare} f := by
  rw [set_sumRowK]
omit [FloatOps F] in
theorem pts_cntRowK (f : Small F) :
    ((cntRowK L).view.loc (V d (cV L) (jV L)) ↦[(cntRowK L).view.set]{fullShare} f : sProp 𝕄) = scCntLoc d ↦[rowSet (jL L)]{fullShare} f := by
  rw [set_cntRowK]
omit [FloatOps F] in
theorem pts_src (q : PosShare TreeShare) (f : Big F) :
    ((srcW).view.loc (V d (cV L) (jV L)) ↦{q} f : sProp 𝕄) = srcLoc d ↦{q} f := by
  simp only [Memref.view_whole, View.set_whole]
omit [FloatOps F] in
theorem pts_tar (q : PosShare TreeShare) (f : Big F) :
    ((tarW).view.loc (V d (cV L) (jV L)) ↦{q} f : sProp 𝕄) = tarLoc d ↦{q} f := by
  simp only [Memref.view_whole, View.set_whole]

omit [FloatOps F] in
theorem ownSems0_V :
    (ownSems0 (V d (cV L) (jV L)) : sProp 𝕄)
      = iprop(semVal (((V d (cV L) (jV L)), SemLoc.dma cc1_scratch6.sem) : GSem nD τ sig) 0 ∗ semVal (((V d (cV L) (jV L)), SemLoc.dma cc1_scratch7.sem) : GSem nD τ sig) 0 ∗ semVal (((V d (cV L) (jV L)), SemLoc.dma cc1_scratch8.sem) : GSem nD τ sig) 0 ∗ semVal (((V d (cV L) (jV L)), SemLoc.dma cc1_scratch9.sem) : GSem nD τ sig) 0 ∗ semVal (((V d (cV L) (jV L)), SemLoc.dma cc1_scoped0.sem) : GSem nD τ sig) 0 ∗ semVal (((V d (cV L) (jV L)), SemLoc.dma cc1_scoped1.sem) : GSem nD τ sig) 0
          ∗ bigSep (((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scoped0.sem) : GSem nD τ sig)).erase (((V d (cV L) (jV L)), SemLoc.dma cc1_scoped1.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨(fun e => absurd (Prod.mk.inj e).2 (show (SemLoc.dma cc1_scratch7.sem : SemLoc sig) ≠ SemLoc.dma cc1_scratch6.sem by decide)), (mem_ownCells (g := (((V d (cV L) (jV L)), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨(fun e => absurd (Prod.mk.inj e).2 (show (SemLoc.dma cc1_scratch8.sem : SemLoc sig) ≠ SemLoc.dma cc1_scratch7.sem by decide)), Finset.mem_erase.mpr ⟨(fun e => absurd (Prod.mk.inj e).2 (show (SemLoc.dma cc1_scratch8.sem : SemLoc sig) ≠ SemLoc.dma cc1_scratch6.sem by decide)), (mem_ownCells (g := (((V d (cV L) (jV L)), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨(fun e => absurd (Prod.mk.inj e).2 (show (SemLoc.dma cc1_scratch9.sem : SemLoc sig) ≠ SemLoc.dma cc1_scratch8.sem by decide)), Finset.mem_erase.mpr ⟨(fun e => absurd (Prod.mk.inj e).2 (show (SemLoc.dma cc1_scratch9.sem : SemLoc sig) ≠ SemLoc.dma cc1_scratch7.sem by decide)), Finset.mem_erase.mpr ⟨(fun e => absurd (Prod.mk.inj e).2 (show (SemLoc.dma cc1_scratch9.sem : SemLoc sig) ≠ SemLoc.dma cc1_scratch6.sem by decide)), (mem_ownCells (g := (((V d (cV L) (jV L)), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨(fun e => absurd (Prod.mk.inj e).2 (show (SemLoc.dma cc1_scoped0.sem : SemLoc sig) ≠ SemLoc.dma cc1_scratch9.sem by decide)), Finset.mem_erase.mpr ⟨(fun e => absurd (Prod.mk.inj e).2 (show (SemLoc.dma cc1_scoped0.sem : SemLoc sig) ≠ SemLoc.dma cc1_scratch8.sem by decide)), Finset.mem_erase.mpr ⟨(fun e => absurd (Prod.mk.inj e).2 (show (SemLoc.dma cc1_scoped0.sem : SemLoc sig) ≠ SemLoc.dma cc1_scratch7.sem by decide)), Finset.mem_erase.mpr ⟨(fun e => absurd (Prod.mk.inj e).2 (show (SemLoc.dma cc1_scoped0.sem : SemLoc sig) ≠ SemLoc.dma cc1_scratch6.sem by decide)), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨(fun e => absurd (Prod.mk.inj e).2 (show (SemLoc.dma cc1_scoped1.sem : SemLoc sig) ≠ SemLoc.dma cc1_scoped0.sem by decide)), Finset.mem_erase.mpr ⟨(fun e => absurd (Prod.mk.inj e).2 (show (SemLoc.dma cc1_scoped1.sem : SemLoc sig) ≠ SemLoc.dma cc1_scratch9.sem by decide)), Finset.mem_erase.mpr ⟨(fun e => absurd (Prod.mk.inj e).2 (show (SemLoc.dma cc1_scoped1.sem : SemLoc sig) ≠ SemLoc.dma cc1_scratch8.sem by decide)), Finset.mem_erase.mpr ⟨(fun e => absurd (Prod.mk.inj e).2 (show (SemLoc.dma cc1_scoped1.sem : SemLoc sig) ≠ SemLoc.dma cc1_scratch7.sem by decide)), Finset.mem_erase.mpr ⟨(fun e => absurd (Prod.mk.inj e).2 (show (SemLoc.dma cc1_scoped1.sem : SemLoc sig) ≠ SemLoc.dma cc1_scratch6.sem by decide)), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

/-- Chunk 0's loops: the two scratches hold the chunk; the carried pair is the recurrence so far. -/
def invRow0 (d : Dev nD) (c : Fin τ.nSC) (i : Fin τ.nSub) (fs ft : S32x512.Idx → Elt F .f32) (p0 : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = rowFold0 fs ft k p0⌝)
def invCol0 (d : Dev nD) (c : Fin τ.nSC) (i : Fin τ.nSub) (fs ft : S32x512.Idx → Elt F .f32) (r : Fin k1_t1_loop.trips) (p : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = colFold0 fs ft r k p⌝)

/-- Chunk 1's loops: the two scratches hold the chunk; the carried pair is the recurrence so far. -/
def invRow1 (d : Dev nD) (c : Fin τ.nSC) (i : Fin τ.nSub) (fs ft : S32x512.Idx → Elt F .f32) (p0 : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = rowFold1 fs ft k p0⌝)
def invCol1 (d : Dev nD) (c : Fin τ.nSC) (i : Fin τ.nSub) (fs ft : S32x512.Idx → Elt F .f32) (r : Fin k1_t3_loop.trips) (p : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = colFold1 fs ft r k p⌝)

/-- Chunk 2's loops: the two scratches hold the chunk; the carried pair is the recurrence so far. -/
def invRow2 (d : Dev nD) (c : Fin τ.nSC) (i : Fin τ.nSub) (fs ft : S32x512.Idx → Elt F .f32) (p0 : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = rowFold2 fs ft k p0⌝)
def invCol2 (d : Dev nD) (c : Fin τ.nSC) (i : Fin τ.nSub) (fs ft : S32x512.Idx → Elt F .f32) (r : Fin k1_t5_loop.trips) (p : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = colFold2 fs ft r k p⌝)

/-- Chunk 3's loops: the two scratches hold the chunk; the carried pair is the recurrence so far. -/
def invRow3 (d : Dev nD) (c : Fin τ.nSC) (i : Fin τ.nSub) (fs ft : S32x512.Idx → Elt F .f32) (p0 : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = rowFold3 fs ft k p0⌝)
def invCol3 (d : Dev nD) (c : Fin τ.nSC) (i : Fin τ.nSub) (fs ft : S32x512.Idx → Elt F .f32) (r : Fin k1_t7_loop.trips) (p : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = colFold3 fs ft r k p⌝)

omit [FloatOps F] in
theorem pts_scr0 (f : Buf (Elt F) ((V d (cV L) (jV L)).loc cc1_scratch0)) :
    (((Memref.whole cc1_scratch0 : Memref sig .scVector .vmem S32x512 .f32).view.loc (V d (cV L) (jV L)) ↦{fullShare} f : sProp 𝕄)) = (V d (cV L) (jV L)).loc cc1_scratch0 ↦{fullShare} f := rfl
omit [FloatOps F] in
theorem pts_scr1 (f : Buf (Elt F) ((V d (cV L) (jV L)).loc cc1_scratch1)) :
    (((Memref.whole cc1_scratch1 : Memref sig .scVector .vmem S32x512 .f32).view.loc (V d (cV L) (jV L)) ↦{fullShare} f : sProp 𝕄)) = (V d (cV L) (jV L)).loc cc1_scratch1 ↦{fullShare} f := rfl
omit [FloatOps F] in
theorem pts_scr2 (f : Buf (Elt F) ((V d (cV L) (jV L)).loc cc1_scratch2)) :
    (((Memref.whole cc1_scratch2 : Memref sig .scVector .vmem S32x512 .f32).view.loc (V d (cV L) (jV L)) ↦{fullShare} f : sProp 𝕄)) = (V d (cV L) (jV L)).loc cc1_scratch2 ↦{fullShare} f := rfl
omit [FloatOps F] in
theorem pts_scr3 (f : Buf (Elt F) ((V d (cV L) (jV L)).loc cc1_scratch3)) :
    (((Memref.whole cc1_scratch3 : Memref sig .scVector .vmem S32x512 .f32).view.loc (V d (cV L) (jV L)) ↦{fullShare} f : sProp 𝕄)) = (V d (cV L) (jV L)).loc cc1_scratch3 ↦{fullShare} f := rfl
omit [FloatOps F] in
theorem pts_scr4 (f : Buf (Elt F) ((V d (cV L) (jV L)).loc cc1_scratch4)) :
    (((Memref.whole cc1_scratch4 : Memref sig .scVector .vmem S16 .f32).view.loc (V d (cV L) (jV L)) ↦{fullShare} f : sProp 𝕄)) = (V d (cV L) (jV L)).loc cc1_scratch4 ↦{fullShare} f := rfl
omit [FloatOps F] in
theorem pts_scr5 (f : Buf (Elt F) ((V d (cV L) (jV L)).loc cc1_scratch5)) :
    (((Memref.whole cc1_scratch5 : Memref sig .scVector .vmem S16 .f32).view.loc (V d (cV L) (jV L)) ↦{fullShare} f : sProp 𝕄)) = (V d (cV L) (jV L)).loc cc1_scratch5 ↦{fullShare} f := rfl
omit [FloatOps F] in
theorem pts_land0 (f : Buf (Elt F) ((V d (cV L) (jV L)).loc cc1_scratch0)) (w : S32x512.Idx → Elt F .f32) :
    (((Memref.whole cc1_scratch0 : Memref sig .scVector .vmem S32x512 .f32).view.loc (V d (cV L) (jV L)) ↦{fullShare}
        View.write (Elt F) (Memref.whole cc1_scratch0 : Memref sig .scVector .vmem S32x512 .f32).view f w Finset.univ : sProp 𝕄))
      = ((Memref.whole cc1_scratch0 : Memref sig .scVector .vmem S32x512 .f32).view.loc (V d (cV L) (jV L)) ↦{fullShare} w) := by
  rw [View.write_whole_univ]
omit [FloatOps F] in
theorem pts_land1 (f : Buf (Elt F) ((V d (cV L) (jV L)).loc cc1_scratch1)) (w : S32x512.Idx → Elt F .f32) :
    (((Memref.whole cc1_scratch1 : Memref sig .scVector .vmem S32x512 .f32).view.loc (V d (cV L) (jV L)) ↦{fullShare}
        View.write (Elt F) (Memref.whole cc1_scratch1 : Memref sig .scVector .vmem S32x512 .f32).view f w Finset.univ : sProp 𝕄))
      = ((Memref.whole cc1_scratch1 : Memref sig .scVector .vmem S32x512 .f32).view.loc (V d (cV L) (jV L)) ↦{fullShare} w) := by
  rw [View.write_whole_univ]
omit [FloatOps F] in
theorem pts_land2 (f : Buf (Elt F) ((V d (cV L) (jV L)).loc cc1_scratch2)) (w : S32x512.Idx → Elt F .f32) :
    (((Memref.whole cc1_scratch2 : Memref sig .scVector .vmem S32x512 .f32).view.loc (V d (cV L) (jV L)) ↦{fullShare}
        View.write (Elt F) (Memref.whole cc1_scratch2 : Memref sig .scVector .vmem S32x512 .f32).view f w Finset.univ : sProp 𝕄))
      = ((Memref.whole cc1_scratch2 : Memref sig .scVector .vmem S32x512 .f32).view.loc (V d (cV L) (jV L)) ↦{fullShare} w) := by
  rw [View.write_whole_univ]
omit [FloatOps F] in
theorem pts_land3 (f : Buf (Elt F) ((V d (cV L) (jV L)).loc cc1_scratch3)) (w : S32x512.Idx → Elt F .f32) :
    (((Memref.whole cc1_scratch3 : Memref sig .scVector .vmem S32x512 .f32).view.loc (V d (cV L) (jV L)) ↦{fullShare}
        View.write (Elt F) (Memref.whole cc1_scratch3 : Memref sig .scVector .vmem S32x512 .f32).view f w Finset.univ : sProp 𝕄))
      = ((Memref.whole cc1_scratch3 : Memref sig .scVector .vmem S32x512 .f32).view.loc (V d (cV L) (jV L)) ↦{fullShare} w) := by
  rw [View.write_whole_univ]

omit [FloatOps F] in
/-- The whole-vector rectangle of a sixteen-lane scratch places each lane at itself. -/
theorem rS_emb (x : S16.Idx) : (Rect.unit (s := S16) ![0] S16.size inb_S16_S16_0).emb x = x := by
  funext a; apply Fin.ext
  rw [Rect.emb_apply, Subsingleton.elim a 0]
  show 0 + 1 * (x 0).val = (x 0).val
  simp

/-- What the write-out reads off a sixteen-lane scratch after the store of `v`: `v`. -/
theorem pay_av (f4 : S16.Idx → Elt F .f32) (v : FVec F S16 .f32) (x : S16.Idx) :
    (avW).view.read (Elt F) ((avW).view.writes (Elt F) f4 [⟨Rect.unit (s := S16) ![0] S16.size inb_S16_S16_0, k1_pay5 v⟩]) x = v x := by
  have h := View.read_writes_cons_emb (avW).view f4 (Rect.unit (s := S16) ![0] S16.size inb_S16_S16_0) (k1_pay5 v) [] x
  rw [rS_emb] at h
  rw [h]
  simp [k1_pay5, shapeCast]
theorem pay_cv (f5 : S16.Idx → Elt F .f32) (v : FVec F S16 .f32) (x : S16.Idx) :
    (cvW).view.read (Elt F) ((cvW).view.writes (Elt F) f5 [⟨Rect.unit (s := S16) ![0] S16.size inb_S16_S16_0, k1_pay6 v⟩]) x = v x := by
  have h := View.read_writes_cons_emb (cvW).view f5 (Rect.unit (s := S16) ![0] S16.size inb_S16_S16_0) (k1_pay6 v) [] x
  rw [rS_emb] at h
  rw [h]
  simp [k1_pay6, shapeCast]

omit [FloatOps F] in
/-- Lane `x` of the tile's squeezed row of a result is the result's element at row `L 1`, column `x`. -/
theorem emb_sumRowK (x : S16.Idx) : (sumRowK L).view.emb x = ValueIdx.ix2 (jL L) (x 0) := by
  show (rowK L).emb (Shape.reshapeEquiv squeezes_S1x16_S16.numel_eq x) = _
  have hc := Shape.reshapeEquiv_cons_one (n := 1) (d := ![16]) squeezes_S1x16_S16.numel_eq x
  funext a
  apply Fin.ext
  rw [Rect.emb_apply]
  show k1_off6 L a + 1 * ((Shape.reshapeEquiv squeezes_S1x16_S16.numel_eq x a : Fin _) : ℕ) = _
  rw [k1_off6_eq, hc]
  match a with
  | ⟨0, _⟩ => show (L 1).val + 1 * 0 = (L 1).val; omega
  | ⟨1, _⟩ => show 0 + 1 * (x 0).val = (x 0).val; omega
omit [FloatOps F] in
theorem emb_cntRowK (x : S16.Idx) : (cntRowK L).view.emb x = ValueIdx.ix2 (jL L) (x 0) := by
  show (rowK L).emb (Shape.reshapeEquiv squeezes_S1x16_S16.numel_eq x) = _
  have hc := Shape.reshapeEquiv_cons_one (n := 1) (d := ![16]) squeezes_S1x16_S16.numel_eq x
  funext a
  apply Fin.ext
  rw [Rect.emb_apply]
  show k1_off6 L a + 1 * ((Shape.reshapeEquiv squeezes_S1x16_S16.numel_eq x a : Fin _) : ℕ) = _
  rw [k1_off6_eq, hc]
  match a with
  | ⟨0, _⟩ => show (L 1).val + 1 * 0 = (L 1).val; omega
  | ⟨1, _⟩ => show 0 + 1 * (x 0).val = (x 0).val; omega

/-- The recurrences read the big arrays through the tile's row offset only. -/
theorem tileAcc_coordsW : tileAcc x0 x1 (coordsW (jL L)) = tileAcc x0 x1 L := rfl

/-- Row `L 1` of the sums after the tile's write-out of its first accumulator. -/
theorem sum_val (fo : Small F) (pay : S16.Idx → Elt F .f32) (acc : QN F) (hp : ∀ x, pay x = acc.1 x)
    (hacc : tileAcc x0 x1 L = acc) :
    ∀ idx ∈ (sumRowK L).view.set, (sumRowK L).view.writes (Elt F) fo [⟨Rect.whole S16, pay⟩] idx = scSums x0 x1 idx := by
  intro idx hi
  obtain ⟨x, -, rfl⟩ := Finset.mem_map.mp hi
  rw [View.writes_singleton]
  have e : (sumRowK L).view.emb x = ((sumRowK L).view.slice (Rect.whole S16)).emb x := by
    rw [View.emb_slice]; simp [Rect.emb_whole_apply]
  conv_lhs => rw [e, View.write_emb_of_mem _ _ (Finset.mem_univ _)]
  rw [emb_sumRowK, hp, cast_eq]
  show acc.1 x = (tileAcc x0 x1 (coordsW (jL L))).1 (ValueIdx.ix1 (x 0))
  rw [tileAcc_coordsW, hacc]
  exact congrArg acc.1 (ValueIdx.eq_ix1 x)
theorem cnt_val (fc : Small F) (pay : S16.Idx → Elt F .f32) (acc : QN F) (hp : ∀ x, pay x = acc.2 x)
    (hacc : tileAcc x0 x1 L = acc) :
    ∀ idx ∈ (cntRowK L).view.set, (cntRowK L).view.writes (Elt F) fc [⟨Rect.whole S16, pay⟩] idx = scCnts x0 x1 idx := by
  intro idx hi
  obtain ⟨x, -, rfl⟩ := Finset.mem_map.mp hi
  rw [View.writes_singleton]
  have e : (cntRowK L).view.emb x = ((cntRowK L).view.slice (Rect.whole S16)).emb x := by
    rw [View.emb_slice]; simp [Rect.emb_whole_apply]
  conv_lhs => rw [e, View.write_emb_of_mem _ _ (Finset.mem_univ _)]
  rw [emb_cntRowK, hp, cast_eq]
  show acc.2 x = (tileAcc x0 x1 (coordsW (jL L))).2 (ValueIdx.ix1 (x 0))
  rw [tileAcc_coordsW, hacc]
  exact congrArg acc.2 (ValueIdx.eq_ix1 x)

set_option maxRecDepth 65536 in
theorem tile_body (hF : (K (F := F)).Facts) (O : CellTallies nD τ sig (HIx 1)) (W : Waits sig (HIx 1)) (hO : ∀ g, O g none = 0) :
    iprop(levAts (K (F := F)).L (K (F := F)).lev ∗ emp
        ∗ (srcTok x0 d (jL L) ∗ tarTok x1 d (jL L) ∗ (∃ f, sumRow d (jL L) f) ∗ (∃ f, cntRow d (jL L) f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L srcW (Memref.isWhole_whole _) tarW (Memref.isWhole_whole _) sumW (Memref.isWhole_whole _) cntW (Memref.isWhole_whole _)
            sb0 (Memref.isWhole_whole _) sb1 (Memref.isWhole_whole _) tb0 (Memref.isWhole_whole _) tb1 (Memref.isWhole_whole _)
            avW (Memref.isWhole_whole _) cvW (Memref.isWhole_whole _) cc1_scratch6 cc1_scratch7 cc1_scratch8 cc1_scratch9 cc1_scoped0 cc1_scoped1)
          fun _ => iprop((srcTok x0 d (jL L) ∗ tarTok x1 d (jL L) ∗ sumRow d (jL L) (scSums x0 x1) ∗ cntRow d (jL L) (scCnts x0 x1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  simp only [k1_part1_eq_skeleton, k1_part2_eq_skeleton]
  rw [(K (F := F)).scopedBufs_V hF d (cV L) (jV L), SparseCore.Cfg.scopedSems0_V (Val := Elt F) d (cV L) (jV L), ownSems0_V, ownBufs_V]
  iintro ⟨#Hlv, -, ⟨Hsrc, Htar, ⟨%fo, Hsum⟩, ⟨%fc, Hcnt⟩⟩,
    ⟨⟨%f0, Hs0⟩, ⟨%f1, Hs1⟩, ⟨%f2, Ht0⟩, ⟨%f3, Ht1⟩, ⟨%f4, Hav⟩, ⟨%f5, Hcv⟩, Hbufs⟩, ⟨Hm6, Hm7, Hm8, Hm9, Hn0, Hn1, Hsems⟩, HO⟩
  ihave Hmw := ((K (F := F)).mayWaits_none (thr := V d (cV L) (jV L)) hO) $$ Hlv
  -- the read share of each big array, in two halves: one per scratch a copy of it lands in
  ihave Hsrc2 := (pointsTo_share (PosShare.mem_left_op_right (tok (jL L)))).1 $$ Hsrc
  icases Hsrc2 with ⟨HsrcA, HsrcB⟩
  ihave Htar2 := (pointsTo_share (PosShare.mem_left_op_right (tok (jL L)))).1 $$ Htar
  icases Htar2 with ⟨HtarA, HtarB⟩
  ihave HsrcA' := (Entails.of_eq (pts_src (F := F) d L _ _).symm) $$ HsrcA
  ihave HsrcB' := (Entails.of_eq (pts_src (F := F) d L _ _).symm) $$ HsrcB
  ihave HtarA' := (Entails.of_eq (pts_tar (F := F) d L _ _).symm) $$ HtarA
  ihave HtarB' := (Entails.of_eq (pts_tar (F := F) d L _ _).symm) $$ HtarB
  ihave Hsum' := (Entails.of_eq (pts_sumRowK (F := F) d L _).symm) $$ Hsum
  ihave Hcnt' := (Entails.of_eq (pts_cntRowK (F := F) d L _).symm) $$ Hcnt
  ihave Hs0' := (Entails.of_eq (pts_scr0 (F := F) d L _).symm) $$ Hs0
  ihave Hs1' := (Entails.of_eq (pts_scr1 (F := F) d L _).symm) $$ Hs1
  ihave Ht0' := (Entails.of_eq (pts_scr2 (F := F) d L _).symm) $$ Ht0
  ihave Ht1' := (Entails.of_eq (pts_scr3 (F := F) d L _).symm) $$ Ht1
  ihave Hav' := (Entails.of_eq (pts_scr4 (F := F) d L _).symm) $$ Hav
  ihave Hcv' := (Entails.of_eq (pts_scr5 (F := F) d L _).symm) $$ Hcv
  sl_exec
  -- chunk 0: its two scratches hold the chunk; the loops by the recurrence
  ihave Hs0c := (Entails.of_eq (pts_land0 (F := F) d L _ _)) $$ Hs0'
  ihave Ht0c := (Entails.of_eq (pts_land2 (F := F) d L _ _)) $$ Ht0'
  sl_for (invRow0 d (cV L) (jV L) (chunkS x0 L 0) (chunkT x1 L 0) qn0) $$ [Hs0c Ht0c]
  case region =>
    intro k acc
    unfold invRow0
    iintro ⟨Hs, Ht, %hacc⟩
    sl_exec
    sl_for (invCol0 d (cV L) (jV L) (chunkS x0 L 0) (chunkT x1 L 0) k acc) $$ [Hs Ht]
    case region =>
      intro j acc2
      unfold invCol0
      iintro ⟨Hs, Ht, %hacc2⟩
      sl_exec
      sl_step
      isplitl [Hs]; · iexact Hs
      isplitl [Ht]; · iexact Ht
      ipureintro
      simp only [colFold0, dif_pos j.isLt]
      rw [← hacc2]; rfl
    · unfold invCol0
      isplitl [Hs]; · iexact Hs
      isplitl [Ht]; · iexact Ht
      ipureintro; rfl
    iintro %acc2 HI
    unfold invCol0
    icases HI with ⟨Hs, Ht, %hacc2⟩
    sl_exec
    sl_step
    isplitl [Hs]; · iexact Hs
    isplitl [Ht]; · iexact Ht
    ipureintro
    simp only [rowFold0, dif_pos k.isLt]
    rw [← hacc, ← hacc2]
  · unfold invRow0
    isplitl [Hs0c]; · iexact Hs0c
    isplitl [Ht0c]; · iexact Ht0c
    ipureintro; rfl
  iintro %acc0 HI
  unfold invRow0
  icases HI with ⟨Hs0', Ht0', %hacc0⟩
  sl_exec

  -- chunk 1: its two scratches hold the chunk; the loops by the recurrence
  ihave Hs1c := (Entails.of_eq (pts_land1 (F := F) d L _ _)) $$ Hs1'
  ihave Ht1c := (Entails.of_eq (pts_land3 (F := F) d L _ _)) $$ Ht1'
  sl_for (invRow1 d (cV L) (jV L) (chunkS x0 L 1) (chunkT x1 L 1) acc0) $$ [Hs1c Ht1c]
  case region =>
    intro k acc
    unfold invRow1
    iintro ⟨Hs, Ht, %hacc⟩
    sl_exec
    sl_for (invCol1 d (cV L) (jV L) (chunkS x0 L 1) (chunkT x1 L 1) k acc) $$ [Hs Ht]
    case region =>
      intro j acc2
      unfold invCol1
      iintro ⟨Hs, Ht, %hacc2⟩
      sl_exec
      sl_step
      isplitl [Hs]; · iexact Hs
      isplitl [Ht]; · iexact Ht
      ipureintro
      simp only [colFold1, dif_pos j.isLt]
      rw [← hacc2]; rfl
    · unfold invCol1
      isplitl [Hs]; · iexact Hs
      isplitl [Ht]; · iexact Ht
      ipureintro; rfl
    iintro %acc2 HI
    unfold invCol1
    icases HI with ⟨Hs, Ht, %hacc2⟩
    sl_exec
    sl_step
    isplitl [Hs]; · iexact Hs
    isplitl [Ht]; · iexact Ht
    ipureintro
    simp only [rowFold1, dif_pos k.isLt]
    rw [← hacc, ← hacc2]
  · unfold invRow1
    isplitl [Hs1c]; · iexact Hs1c
    isplitl [Ht1c]; · iexact Ht1c
    ipureintro; rfl
  iintro %acc1 HI
  unfold invRow1
  icases HI with ⟨Hs1', Ht1', %hacc1⟩
  sl_exec

  -- chunk 2: its two scratches hold the chunk; the loops by the recurrence
  ihave Hs0c := (Entails.of_eq (pts_land0 (F := F) d L _ _)) $$ Hs0'
  ihave Ht0c := (Entails.of_eq (pts_land2 (F := F) d L _ _)) $$ Ht0'
  sl_for (invRow2 d (cV L) (jV L) (chunkS x0 L 2) (chunkT x1 L 2) acc1) $$ [Hs0c Ht0c]
  case region =>
    intro k acc
    unfold invRow2
    iintro ⟨Hs, Ht, %hacc⟩
    sl_exec
    sl_for (invCol2 d (cV L) (jV L) (chunkS x0 L 2) (chunkT x1 L 2) k acc) $$ [Hs Ht]
    case region =>
      intro j acc2
      unfold invCol2
      iintro ⟨Hs, Ht, %hacc2⟩
      sl_exec
      sl_step
      isplitl [Hs]; · iexact Hs
      isplitl [Ht]; · iexact Ht
      ipureintro
      simp only [colFold2, dif_pos j.isLt]
      rw [← hacc2]; rfl
    · unfold invCol2
      isplitl [Hs]; · iexact Hs
      isplitl [Ht]; · iexact Ht
      ipureintro; rfl
    iintro %acc2 HI
    unfold invCol2
    icases HI with ⟨Hs, Ht, %hacc2⟩
    sl_exec
    sl_step
    isplitl [Hs]; · iexact Hs
    isplitl [Ht]; · iexact Ht
    ipureintro
    simp only [rowFold2, dif_pos k.isLt]
    rw [← hacc, ← hacc2]
  · unfold invRow2
    isplitl [Hs0c]; · iexact Hs0c
    isplitl [Ht0c]; · iexact Ht0c
    ipureintro; rfl
  iintro %acc2 HI
  unfold invRow2
  icases HI with ⟨Hs0', Ht0', %hacc2⟩
  sl_exec

  -- chunk 3: its two scratches hold the chunk; the loops by the recurrence
  ihave Hs1c := (Entails.of_eq (pts_land1 (F := F) d L _ _)) $$ Hs1'
  ihave Ht1c := (Entails.of_eq (pts_land3 (F := F) d L _ _)) $$ Ht1'
  sl_for (invRow3 d (cV L) (jV L) (chunkS x0 L 3) (chunkT x1 L 3) acc2) $$ [Hs1c Ht1c]
  case region =>
    intro k acc
    unfold invRow3
    iintro ⟨Hs, Ht, %hacc⟩
    sl_exec
    sl_for (invCol3 d (cV L) (jV L) (chunkS x0 L 3) (chunkT x1 L 3) k acc) $$ [Hs Ht]
    case region =>
      intro j acc2
      unfold invCol3
      iintro ⟨Hs, Ht, %hacc2⟩
      sl_exec
      sl_step
      isplitl [Hs]; · iexact Hs
      isplitl [Ht]; · iexact Ht
      ipureintro
      simp only [colFold3, dif_pos j.isLt]
      rw [← hacc2]; rfl
    · unfold invCol3
      isplitl [Hs]; · iexact Hs
      isplitl [Ht]; · iexact Ht
      ipureintro; rfl
    iintro %acc2 HI
    unfold invCol3
    icases HI with ⟨Hs, Ht, %hacc2⟩
    sl_exec
    sl_step
    isplitl [Hs]; · iexact Hs
    isplitl [Ht]; · iexact Ht
    ipureintro
    simp only [rowFold3, dif_pos k.isLt]
    rw [← hacc, ← hacc2]
  · unfold invRow3
    isplitl [Hs1c]; · iexact Hs1c
    isplitl [Ht1c]; · iexact Ht1c
    ipureintro; rfl
  iintro %acc3 HI
  unfold invRow3
  icases HI with ⟨Hs1', Ht1', %hacc3⟩
  sl_exec
  have hT : tileAcc x0 x1 L = acc3 := by subst hacc3 hacc2 hacc1 hacc0; rfl
  sl_step
  isplitl [HsrcA' HsrcB' HtarA' HtarB' Hsum' Hcnt']
  · isplitl [HsrcA' HsrcB']
    · ihave A := (Entails.of_eq (pts_src (F := F) d L _ _)) $$ HsrcA'
      ihave B := (Entails.of_eq (pts_src (F := F) d L _ _)) $$ HsrcB'
      iapply (pointsTo_share (PosShare.mem_left_op_right (tok (jL L)))).2
      isplitl [A]; · iexact A
      iexact B
    isplitl [HtarA' HtarB']
    · ihave A := (Entails.of_eq (pts_tar (F := F) d L _ _)) $$ HtarA'
      ihave B := (Entails.of_eq (pts_tar (F := F) d L _ _)) $$ HtarB'
      iapply (pointsTo_share (PosShare.mem_left_op_right (tok (jL L)))).2
      isplitl [A]; · iexact A
      iexact B
    isplitl [Hsum']
    · ihave S := (Entails.of_eq ((pointsTo_congr (sum_val (F := F) x0 x1 L fo _ acc3 ?hpS hT)).trans
        (pts_sumRowK (F := F) d L _))) $$ Hsum'
      case hpS => intro x; exact pay_av (F := F) f4 acc3.1 x
      iexact S
    · ihave S := (Entails.of_eq ((pointsTo_congr (cnt_val (F := F) x0 x1 L fc _ acc3 ?hpC hT)).trans
        (pts_cntRowK (F := F) d L _))) $$ Hcnt'
      case hpC => intro x; exact pay_cv (F := F) f5 acc3.2 x
      iexact S
  isplitl [Hs0' Hs1' Ht0' Ht1' Hav' Hcv' Hbufs]
  · isplitl [Hs0']; · iexists _; iapply (Entails.of_eq (pts_scr0 (F := F) d L _)); iexact Hs0'
    isplitl [Hs1']; · iexists _; iapply (Entails.of_eq (pts_scr1 (F := F) d L _)); iexact Hs1'
    isplitl [Ht0']; · iexists _; iapply (Entails.of_eq (pts_scr2 (F := F) d L _)); iexact Ht0'
    isplitl [Ht1']; · iexists _; iapply (Entails.of_eq (pts_scr3 (F := F) d L _)); iexact Ht1'
    isplitl [Hav']; · iexists _; iapply (Entails.of_eq (pts_scr4 (F := F) d L _)); iexact Hav'
    isplitl [Hcv']; · iexists _; iapply (Entails.of_eq (pts_scr5 (F := F) d L _)); iexact Hcv'
    iexact Hbufs
  isplitl [Hm6 Hm7 Hm8 Hm9 Hn0 Hn1 Hsems]
  · isplitl [Hm6]; · iexact Hm6
    isplitl [Hm7]; · iexact Hm7
    isplitl [Hm8]; · iexact Hm8
    isplitl [Hm9]; · iexact Hm9
    isplitl [Hn0]; · iexact Hn0
    isplitl [Hn1]; · iexact Hn1
    iexact Hsems
  iexists _; isplitr
  rotate_left
  · iexact HO
  · ipureintro; intro p hp
    repeat (rcases Finset.mem_insert.mp hp with h | hp; · exact .inr (h ▸ rfl))
    exact .inl hp

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

-- the kernel's memrefs, spelt as the body table passes them
local notation "srcW" => (Memref.whole Cert.Kernel.main_v0_scv : Memref Cert.Kernel.sig Kind.scVector Space.hbm Cert.Kernel.S16384x512 EltTy.f32)
local notation "tarW" => (Memref.whole Cert.Kernel.main_v1_scv : Memref Cert.Kernel.sig Kind.scVector Space.hbm Cert.Kernel.S16384x512 EltTy.f32)
local notation "sumW" => (Memref.whole Cert.Kernel.main_v3_0_scv : Memref Cert.Kernel.sig Kind.scVector Space.hbm Cert.Kernel.S16x16 EltTy.f32)
local notation "cntW" => (Memref.whole Cert.Kernel.main_v3_1_scv : Memref Cert.Kernel.sig Kind.scVector Space.hbm Cert.Kernel.S16x16 EltTy.f32)
local notation "sb0" => (Memref.whole Cert.Kernel.cc1_scratch0 : Memref Cert.Kernel.sig Kind.scVector Space.vmem Cert.Kernel.S32x512 EltTy.f32)
local notation "sb1" => (Memref.whole Cert.Kernel.cc1_scratch1 : Memref Cert.Kernel.sig Kind.scVector Space.vmem Cert.Kernel.S32x512 EltTy.f32)
local notation "tb0" => (Memref.whole Cert.Kernel.cc1_scratch2 : Memref Cert.Kernel.sig Kind.scVector Space.vmem Cert.Kernel.S32x512 EltTy.f32)
local notation "tb1" => (Memref.whole Cert.Kernel.cc1_scratch3 : Memref Cert.Kernel.sig Kind.scVector Space.vmem Cert.Kernel.S32x512 EltTy.f32)
local notation "avW" => (Memref.whole Cert.Kernel.cc1_scratch4 : Memref Cert.Kernel.sig Kind.scVector Space.vmem Cert.Kernel.S16 EltTy.f32)
local notation "cvW" => (Memref.whole Cert.Kernel.cc1_scratch5 : Memref Cert.Kernel.sig Kind.scVector Space.vmem Cert.Kernel.S16 EltTy.f32)

theorem defs₀_vector (c : Fin τ.nSC) (s : Fin τ.nSub) :
    defs₀ (F := F) (.scVector c s) 1 ()
      = SparseCore.onTile hcore1 hsub1 (fun c s => cc1_k (coordsV c s)
          srcW (Memref.isWhole_whole _) tarW (Memref.isWhole_whole _) sumW (Memref.isWhole_whole _) cntW (Memref.isWhole_whole _)
          sb0 (Memref.isWhole_whole _) sb1 (Memref.isWhole_whole _) tb0 (Memref.isWhole_whole _) tb1 (Memref.isWhole_whole _)
          avW (Memref.isWhole_whole _) cvW (Memref.isWhole_whole _) cc1_scratch6 cc1_scratch7 cc1_scratch8 cc1_scratch9 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task at the one vector-subcore call: the body above at the tile's grid coordinates. -/
theorem tileObl (x0 x1 : Big F) : (K (F := F)).TileObl (D (F := F)) 𝒱 (P x0 x1) v₀ 0 := by
  intro d c i O W hO _ _
  -- this kernel owes nothing for a protocol of its own
  simp only [show (P x0 x1).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x0 x1 d (coordsV ⟨_, hc.1⟩ ⟨_, hc.2⟩) facts O W hO).trans (wp_mono frame _ _ fun _ => obl_post)

/-! ## How the SparseCore's operands split among its tiles -/

omit [FloatOps F] in
theorem rowSet_eq (i : Fin 16) : rowSet i = (row i).set := by
  show ((View.whole (main_v3_0_scv : Ref sig .scVector)).slice (row i)).set = _
  rw [View.set_slice]; exact Finset.map_refl
omit [FloatOps F] in
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
omit [FloatOps F] in
theorem rows_cover : (Finset.univ : Finset (Fin 16)).biUnion rowSet = Finset.univ :=
  (Finset.biUnion_congr rfl fun i _ => rowSet_eq i).trans (Rect.biUnion_part hdiv)

omit [FloatOps F] in
/-- A `[16,16]` result whole is its sixteen rows, each at the one whole-array function. -/
theorem sum_rows (d : Dev nD) (f : Small F) :
    (scSumLoc d ↦{fullShare} f : sProp 𝕄) = bigSep Finset.univ fun i : Fin 16 => scSumLoc d ↦[rowSet i]{fullShare} f := by
  rw [← pointsTo_biUnion Finset.univ (ℓ := scSumLoc d) rowSet rows_disjoint, rows_cover]; try rfl
omit [FloatOps F] in
theorem cnt_rows (d : Dev nD) (f : Small F) :
    (scCntLoc d ↦{fullShare} f : sProp 𝕄) = bigSep Finset.univ fun i : Fin 16 => scCntLoc d ↦[rowSet i]{fullShare} f := by
  rw [← pointsTo_biUnion Finset.univ (ℓ := scCntLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem sumRows_ex (d : Dev nD) (f : Small F) :
    (bigSep Finset.univ fun i : Fin 16 => sumRow (F := F) d i f) ⊢ bigSep Finset.univ fun i : Fin 16 => iprop(∃ f, sumRow (F := F) d i f) := by
  refine BI.bigSep_mono fun i _ => (show (sumRow (F := F) d i f : sProp 𝕄) ⊢ iprop(∃ f, sumRow (F := F) d i f) from ?_)
  iintro H; iexists f; iexact H
omit [FloatOps F] in
theorem cntRows_ex (d : Dev nD) (f : Small F) :
    (bigSep Finset.univ fun i : Fin 16 => cntRow (F := F) d i f) ⊢ bigSep Finset.univ fun i : Fin 16 => iprop(∃ f, cntRow (F := F) d i f) := by
  refine BI.bigSep_mono fun i _ => (show (cntRow (F := F) d i f : sProp 𝕄) ⊢ iprop(∃ f, cntRow (F := F) d i f) from ?_)
  iintro H; iexists f; iexact H

/-- The big arrays go out as sixteen read shares (the remainder kept aside until they come back), the results as their
    sixteen rows; the rows come back each at the one whole-array function and join. -/
theorem vecSplit (x0 x1 : Big F) : (K (F := F)).VecSplit' (P x0 x1) 0 := by
  intro d c
  show iprop((srcLoc d ↦{fullShare} x0) ∗ (tarLoc d ↦{fullShare} x1) ∗ (∃ f, scSumLoc d ↦{fullShare} f) ∗ (∃ f, scCntLoc d ↦{fullShare} f))
    ⊢ |={Set.univ}=> iprop(
      (bigSep Finset.univ fun i : Fin ((K (F := F)).nSub 0) => iprop(srcTok x0 d (Fin.cast nSub_zero i) ∗ tarTok x1 d (Fin.cast nSub_zero i) ∗ (∃ f, sumRow d (Fin.cast nSub_zero i) f) ∗ (∃ f, cntRow d (Fin.cast nSub_zero i) f)))
      ∗ ((bigSep Finset.univ fun i : Fin ((K (F := F)).nSub 0) => iprop(srcTok x0 d (Fin.cast nSub_zero i) ∗ tarTok x1 d (Fin.cast nSub_zero i) ∗ sumRow d (Fin.cast nSub_zero i) (scSums x0 x1) ∗ cntRow d (Fin.cast nSub_zero i) (scCnts x0 x1)))
          -∗ iprop((srcLoc d ↦{fullShare} x0) ∗ (tarLoc d ↦{fullShare} x1) ∗ (scSumLoc d ↦{fullShare} scSums x0 x1) ∗ (scCntLoc d ↦{fullShare} scCnts x0 x1))))
  rw [bigSep_tasks (F := F) (fun i => iprop(srcTok x0 d i ∗ tarTok x1 d i ∗ (∃ f, sumRow d i f) ∗ (∃ f, cntRow d i f))),
    bigSep_tasks (F := F) (fun i => iprop(srcTok x0 d i ∗ tarTok x1 d i ∗ sumRow d i (scSums x0 x1) ∗ cntRow d i (scCnts x0 x1))),
    bigSep_sep', bigSep_sep', bigSep_sep', bigSep_sep', bigSep_sep', bigSep_sep']
  iintro ⟨Hsrc, Htar, ⟨%fo, Hsum⟩, ⟨%fc, Hcnt⟩⟩
  ihave Hs := (Transfers.pointsTo_toks_split fullShare 16) $$ Hsrc
  icases Hs with ⟨HsD, HsT⟩
  ihave Ht := (Transfers.pointsTo_toks_split fullShare 16) $$ Htar
  icases Ht with ⟨HtD, HtT⟩
  ihave Hsum' := (Entails.of_eq (sum_rows (F := F) d fo)) $$ Hsum
  ihave Hcnt' := (Entails.of_eq (cnt_rows (F := F) d fc)) $$ Hcnt
  imodintro
  isplitl [HsT HtT Hsum' Hcnt']
  · isplitl [HsT]; · iexact HsT
    isplitl [HtT]; · iexact HtT
    isplitl [Hsum']
    · iapply (sumRows_ex (F := F) d fo); iexact Hsum'
    · iapply (cntRows_ex (F := F) d fc); iexact Hcnt'
  iintro ⟨HsT, HtT, Hsum, Hcnt⟩
  isplitl [HsD HsT]
  · iapply (Transfers.pointsTo_toks_join fullShare 16)
    isplitl [HsD]; · iexact HsD
    iexact HsT
  isplitl [HtD HtT]
  · iapply (Transfers.pointsTo_toks_join fullShare 16)
    isplitl [HtD]; · iexact HtD
    iexact HtT
  isplitl [Hsum]
  · iapply (Entails.of_eq (sum_rows (F := F) d (scSums x0 x1)).symm); iexact Hsum
  · iapply (Entails.of_eq (cnt_rows (F := F) d (scCnts x0 x1)).symm); iexact Hcnt

end Cert.Proof.KB.ScTile

end
-- ==== Proof.LaunchB.lean ====
/-
  @main on the TensorCore and the launch.  @main reshapes the two arguments to [16384, 512], runs the first
  TensorCore region (the partial sums over rows 0 … 14335), starts the SparseCore kernel (the partial sums over the last
  2048 rows, sixteen tiles of 128 rows) and waits for it, runs the second TensorCore region (totals and quotient), and
  reshapes the one-element result to a scalar.
-/
import proofs.«211649_g4638564679882_cont_8to1c4_562_19_alg».proof.Proof.CommonB
import proofs.«211649_g4638564679882_cont_8to1c4_562_19_alg».proof.Proof.Reg0B
import proofs.«211649_g4638564679882_cont_8to1c4_562_19_alg».proof.Proof.Reg2B
import proofs.«211649_g4638564679882_cont_8to1c4_562_19_alg».proof.Proof.ScTileB

set_option maxRecDepth 16384
set_option Elab.async false

noncomputable section

namespace Cert.Proof.KB.Launch

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-! ## The TensorCore's arrays -/

abbrev r_a0 : DevRef τ sig := Proc.devRef .tc (main_arg0 : Ref sig .tc)
abbrev r_a1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v30 : DevRef τ sig := Proc.devRef .tc (main_v3_0 : Ref sig .tc)
abbrev r_v31 : DevRef τ sig := Proc.devRef .tc (main_v3_1 : Ref sig .tc)
abbrev r_v4 : DevRef τ sig := Proc.devRef .tc (main_v4 : Ref sig .tc)
abbrev r_v5 : DevRef τ sig := Proc.devRef .tc (main_v5 : Ref sig .tc)

/-- All nine arrays of @main: every unscoped buffer of the TensorCore. -/
abbrev S9 : Finset (DevRef τ sig) := {r_a0, r_a1, r_v0, r_v1, r_v2, r_v30, r_v31, r_v4, r_v5}

/-- A buffer of device `d`'s TensorCore held whole. -/
abbrev pl (d : Dev nD) (b : Ref sig .tc) (f : Buf (Elt F) ((SparseCore.T d : Thread nD τ).loc b)) : sProp 𝕄 := ((SparseCore.T d : Thread nD τ).loc b) ↦{fullShare} f

/-- The nine arrays held at a valuation, one by one. -/
def all9 (d : Dev nD) (W : Valuation τ sig (Elt F)) : sProp 𝕄 :=
  iprop(pl d main_arg0 (W r_a0) ∗ pl d main_arg1 (W r_a1) ∗ pl d main_v0 (W r_v0) ∗ pl d main_v1 (W r_v1) ∗ pl d main_v2 (W r_v2)
    ∗ pl d main_v3_0 (W r_v30) ∗ pl d main_v3_1 (W r_v31) ∗ pl d main_v4 (W r_v4) ∗ pl d main_v5 (W r_v5))

theorem held_S9 (d : Dev nD) (W : Valuation τ sig (Elt F)) : (held (T d) S9 W : sProp 𝕄) = all9 d W := by
  unfold held S9 all9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(pl d main_arg0 (W main_arg0) ∗ pl d main_arg1 (W main_arg1) ∗ pl d main_v0 (W main_v0) ∗ pl d main_v1 (W main_v1) ∗ pl d main_v2 (W main_v2)
    ∗ pl d main_v3_0 (W main_v3_0) ∗ pl d main_v3_1 (W main_v3_1) ∗ pl d main_v4 (W main_v4) ∗ pl d main_v5 (W main_v5)) := by
  unfold unscopedBufs
  rw [show (Finset.univ.filter fun b : Ref sig .tc => ¬ b.isScoped) = {main_arg0, main_arg1, main_v0, main_v1, main_v2, main_v3_0, main_v3_1, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

variable [FloatOps F]

/-! ## The host operations -/

abbrev opR0 : HloOp τ sig (Elt F) := StableHlo.reshape main_arg0 main_v0 rfl shapeCasts_S32x1x512x512_S16384x512
abbrev opR1 : HloOp τ sig (Elt F) := StableHlo.reshape main_arg1 main_v1 rfl shapeCasts_S32x1x512x512_S16384x512
abbrev opR5 : HloOp τ sig (Elt F) := StableHlo.reshape main_v4 main_v5 rfl shapeCasts_S1_S_

theorem hR0 : (opR0 (F := F)).bufs ⊆ S9 := show ({r_a0, r_v0} : Finset (DevRef τ sig)) ⊆ S9 by decide
theorem hR1 : (opR1 (F := F)).bufs ⊆ S9 := show ({r_a1, r_v1} : Finset (DevRef τ sig)) ⊆ S9 by decide
theorem hR5 : (opR5 (F := F)).bufs ⊆ S9 := show ({r_v4, r_v5} : Finset (DevRef τ sig)) ⊆ S9 by decide

variable (m : (ℓ : Loc nD τ sig) → Buf (Elt F) ℓ) (ρ : Dev nD → PrngReg)

/-- The launch valuation, and the valuations after the two reshapes. -/
def V0 (d : Dev nD) : Valuation τ sig (Elt F) := fun b => m (d, b)
def V1 (d : Dev nD) : Valuation τ sig (Elt F) := (opR0 (F := F)).result (V0 m d)
def V2 (d : Dev nD) : Valuation τ sig (Elt F) := (opR1 (F := F)).result (V1 m d)

theorem unscoped_all9 (d : Dev nD) : (unscopedBufs d (fun b => m ((SparseCore.T d).loc b)) : sProp 𝕄) = all9 d (V0 m d) := by
  rw [unscopedBufs_eq]; rfl

/-! ## What the TensorCore owes, around a region -/

abbrev Lk : GSem nD τ sig → Finset (HIx 1) := (K (F := F)).L
abbrev lvk : GSem nD τ sig → HIx 1 → ℕ := (K (F := F)).lev

/-- The TensorCore of `d` owing what it owes before call `n`, its recorded wait pairs at levels up to `8 n`. -/
def tcOwes (d : Dev nD) (n : ℕ) : sProp 𝕄 :=
  iprop(∃ W, ⌜(K (F := F)).WBelow (T d) W (8 * n)⌝ ∗ owes (T d) ((K (F := F)).Otc d n) W)

/-- The wait pairs at levels up to `8 n`. -/
def Rec (d : Dev nD) (n : ℕ) : Set (SemLoc sig × HIx 1) := {p | (K (F := F)).lev ((T d : Thread nD τ), p.1) p.2 ≤ 8 * n}

theorem owes_in (cfg : Pipeline.Cfg sig Λ₀) (d : Dev nD) (n : ℕ) :
    (tcOwes (F := F) d n : sProp 𝕄) ⊢ Pipeline.owesWithin d ((K (F := F)).Otc d n) (Rec (F := F) d n ∪ cfg.waitPairs none) := by
  unfold tcOwes Pipeline.owesWithin
  iintro ⟨%W, %hW, HO⟩
  iexists W; isplitr
  · ipureintro; exact fun p hp => Or.inl (hW p hp)
  · iexact HO

theorem owes_out (cfg : Pipeline.Cfg sig Λ₀) (d : Dev nD) (n : ℕ) :
    (Pipeline.owesWithin d ((K (F := F)).Otc d n) (Rec (F := F) d n ∪ cfg.waitPairs none) : sProp 𝕄) ⊢ tcOwes (F := F) d n := by
  unfold tcOwes Pipeline.owesWithin
  iintro ⟨%W, %hW, HO⟩
  iexists W; isplitr
  · ipureintro
    intro p hp
    rcases hW hp with h | ⟨w, s, rfl⟩
    · exact h
    · show (K (F := F)).lev _ none ≤ _; rw [SparseCore.Cfg.lev_none]; exact Nat.zero_le _
  · iexact HO

/-- What the TensorCore owes is at a call's index, above level 0. -/
theorem Otc_cut (d : Dev nD) (n : ℕ) (g : GSem nD τ sig) (i : HIx 1) (h : 0 < (K (F := F)).Otc d n g i) :
    i ∈ Lk (F := F) g ∧ 0 < lvk (F := F) g i :=
  ⟨Finset.mem_univ _, lt_of_lt_of_le (by omega) (SparseCore.Cfg.lev_of_Otc_pos (K := K (F := F)) h)⟩

/-! ## The two regions' proof data -/

section Regions

variable (accStep : Reg0.B2048 F → Reg0.B2048 F → Reg0.BAcc F → Reg0.BAcc F) (zeroAcc : Reg0.BAcc F) (totals : Reg0.BAcc F → Reg0.B2 F)
variable (hMid : Reg0.MidSpec accStep) (hFirst : Reg0.FirstSpec accStep zeroAcc) (hLast : Reg0.LastSpec accStep totals)

/-- The arrays as the first region finds them. -/
def Wr2 (d : Dev nD) : (b : Ref sig .tc) → Buf (Elt F) ((d : Thread nD τ).loc b) := fun b => V2 m d (Proc.devRef .tc b)

/-- The first region's proof data: the core owing its start signal throughout. -/
def dat0 (d : Dev nD) : Pipeline.Dat τ (Elt F) (HIx 1) ℕ UU ℕ cfg0 d :=
  Reg0.dat accStep zeroAcc totals d (Wr2 m d) ((K (F := F)).Otc d 0) (Rec (F := F) d 0)

/-- The two partial results as the first region leaves them in their array. -/
def tcPart (d : Dev nD) := (dat0 m accStep zeroAcc totals d).arrAt 2 cfg0.N

/-- The valuation after the first region. -/
def V3 (d : Dev nD) : Valuation τ sig (Elt F) := Function.update (V2 m d) r_v2 (tcPart m accStep zeroAcc totals d)

end Regions

section Regions2

variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)
-- what the SparseCore call leaves in its two result arrays, as functions of the two [16384, 512] arrays
variable (scS scC : (S16384x512.Idx → Elt F .f32) → (S16384x512.Idx → Elt F .f32) → (S16x16.Idx → Elt F .f32))

/-- The valuation after the SparseCore call. -/
def V4 (d : Dev nD) : Valuation τ sig (Elt F) :=
  Function.update (Function.update (V3 m accStep zeroAcc totals d) r_v30 (scS (V2 m d r_v0) (V2 m d r_v1))) r_v31 (scC (V2 m d r_v0) (V2 m d r_v1))

/-- The arrays as the second region finds them. -/
def Wr4 (d : Dev nD) : (b : Ref sig .tc) → Buf (Elt F) ((d : Thread nD τ).loc b) := fun b => V4 m accStep zeroAcc totals scS scC d (Proc.devRef .tc b)

/-- The second region's proof data: the core owing nothing more (its one call is behind it). -/
def dat2 (d : Dev nD) : Pipeline.Dat τ (Elt F) (HIx 1) ℕ UU ℕ cfg2 d :=
  Reg2.dat quotient d (Wr4 m accStep zeroAcc totals scS scC d) ((K (F := F)).Otc d 1) (Rec (F := F) d 1)

/-- The quotient as the second region leaves it in its array. -/
def outVal (d : Dev nD) := (dat2 m accStep zeroAcc totals quotient scS scC d).arrAt 3 cfg2.N

/-- The valuations after the second region and after the last reshape. -/
def V5 (d : Dev nD) : Valuation τ sig (Elt F) := Function.update (V4 m accStep zeroAcc totals scS scC d) r_v4 (outVal m accStep zeroAcc totals quotient scS scC d)
def V6 (d : Dev nD) : Valuation τ sig (Elt F) := (opR5 (F := F)).result (V5 m accStep zeroAcc totals quotient scS scC d)

/-- The proof data of the two pipelines. -/
def pdats : (p : Fin 2) → (c : Dev nD) → Pipeline.Dat τ (Elt F) (HIx 1) ℕ UU ℕ (Pipeline.pin (pcfgs (F := F)) Reg0.adm p) c
  | ⟨0, _⟩ => fun c => dat0 m accStep zeroAcc totals c
  | ⟨1, _⟩ => fun c => dat2 m accStep zeroAcc totals quotient scS scC c

local notation "𝔭" => pdats m accStep zeroAcc totals quotient scS scC

/-- A buffer of core `c` held whole, spelt at the core. -/
abbrev plc (c : Dev nD) (b : Ref sig .tc) (f : Buf (Elt F) ((c : Thread nD τ).loc b)) : sProp 𝕄 := ((c : Thread nD τ).loc b) ↦{fullShare} f

/-- The first region's arrays at contents `Fa`: the two reshaped arguments and the partial results' array. -/
theorem arrays0_eq (c : Dev nD) (Fa) : ((𝔭 0 c).arrays Fa : sProp 𝕄) = iprop(plc c main_v0 (Fa 0) ∗ plc c main_v1 (Fa 1) ∗ plc c main_v2 (Fa 2)) := by
  rw [Pipeline.arrays_eq (Pipeline.pin (pcfgs (F := F)) Reg0.adm) (𝔭) 0 c launch0.arr_whole ((𝔭 0 c).share_full fun _ => rfl) Fa, bigSep_W0]
  rfl

theorem V3_of_ne (c : Dev nD) (b : DevRef τ sig) (h : b ≠ r_v2) : V3 m accStep zeroAcc totals c b = V2 m c b := Function.update_of_ne h ..
theorem V3_v2 (c : Dev nD) : V3 m accStep zeroAcc totals c r_v2 = tcPart m accStep zeroAcc totals c := Function.update_self ..

/-- The first region's input arrays reach its exit as they entered; its result array holds the partial results. -/
theorem arrAt0_0 (c : Dev nD) : (𝔭 0 c).arrAt 0 (Pipeline.pin (pcfgs (F := F)) Reg0.adm 0).N = V2 m c r_v0 :=
  ((dat0 m accStep zeroAcc totals c).arrAt_in 0 rfl _).trans rfl
theorem arrAt0_1 (c : Dev nD) : (𝔭 0 c).arrAt 1 (Pipeline.pin (pcfgs (F := F)) Reg0.adm 0).N = V2 m c r_v1 :=
  ((dat0 m accStep zeroAcc totals c).arrAt_in 1 rfl _).trans rfl
theorem arrAt0_2 (c : Dev nD) : (𝔭 0 c).arrAt 2 (Pipeline.pin (pcfgs (F := F)) Reg0.adm 0).N = tcPart m accStep zeroAcc totals c := rfl

variable (hMid : Reg0.MidSpec accStep) (hFirst : Reg0.FirstSpec accStep zeroAcc) (hLast : Reg0.LastSpec accStep totals)

/-- THE FIRST REGION: the three arrays into the pipeline, the six other arrays bypassing it, the core owing its start
    signal throughout (its staging waits at index none, level 0, below it). -/
def R0 : Pipeline.RegionSeg (pcfgs (F := F)) Reg0.adm (𝔭) none defs₀ 𝒱₀ (Lk (F := F)) (lvk (F := F)) 0 where
  win := launch0.win.to₀
  block_pos := launch0.block_pos
  stage_whole := launch0.stage_whole
  K := PEmpty
  osem k := k.elim
  ho := Pipeline.OwnSemFacts.none _
  hbody c := (Reg0.body_obligation accStep zeroAcc totals c (Wr2 m c) ((K (F := F)).Otc c 0) (Rec (F := F) c 0) hMid hFirst hLast).loose
  hwaits c := Pipeline.cellsWaits_of_cut _ (𝔭) none 0 c (lev := lvk (F := F)) 0 ((K (F := F)).Otc c 0) (fun _ => rfl)
    (fun _ _ => Finset.mem_univ _) (fun _ _ => le_refl _) (fun g i hg => Otc_cut c 0 g i hg)
  pre c := iprop(all9 c (V2 m c) ∗ tcOwes (F := F) c 0)
  post c := iprop(all9 c (V3 m accStep zeroAcc totals c) ∗ tcOwes (F := F) c 0)
  X _ := iprop(emp)
  Y _ := iprop(emp)
  Z c := Pipeline.unscopedRest (Ix := HIx 1) (Name := ℕ) (U := UU) (Lvl := ℕ) spec0 c (Wr2 m c)
  hentry c := by
    rw [Pipeline.ownSems0_none, arrays0_eq, unscopedRest0_eq]
    unfold all9
    iintro ⟨⟨⟨Ha0, Ha1, Hv0, Hv1, Hv2, Hv30, Hv31, Hv4, Hv5⟩, HO⟩, -, -⟩
    imodintro
    isplitl [Hv0 Hv1 Hv2]
    · isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]; · iapply (owes_in (F := F) cfg0 c 0); iexact HO
    isplitr; · iempintro
    isplitl [Ha0]; · iexact Ha0
    isplitl [Ha1]; · iexact Ha1
    isplitl [Hv30]; · iexact Hv30
    isplitl [Hv31]; · iexact Hv31
    isplitl [Hv4]; · iexact Hv4
    iexact Hv5
  hin c := by
    iintro ⟨-, -, Hs⟩
    iapply (show (Pipeline.scopedRest (Ix := HIx 1) (Name := ℕ) (U := UU) (Lvl := ℕ) (Val := Elt F) spec0 c : sProp 𝕄) ⊢ (𝔭 0 c).Φ 0 from
      Reg0.hin0 accStep zeroAcc totals c (Wr2 m c) ((K (F := F)).Otc c 0) (Rec (F := F) c 0))
    iexact Hs
  hout c := by
    rw [Pipeline.ownSems0_none]
    iintro H
    isplitr; · iempintro
    isplitr; · iempintro
    iapply (show (𝔭 0 c).Φ (Fin.last (Pipeline.pin (pcfgs (F := F)) Reg0.adm 0).N) ⊢ (Pipeline.scopedRest (Ix := HIx 1) (Name := ℕ) (U := UU) (Lvl := ℕ) (Val := Elt F) spec0 c : sProp 𝕄) from
      Reg0.hout0 accStep zeroAcc totals c (Wr2 m c) ((K (F := F)).Otc c 0) (Rec (F := F) c 0))
    iexact H
  hexit c := by
    rw [arrays0_eq, unscopedRest0_eq, arrAt0_0, arrAt0_1, arrAt0_2]
    unfold all9 Wr2
    rw [V3_of_ne m accStep zeroAcc totals c r_a0 (by decide), V3_of_ne m accStep zeroAcc totals c r_a1 (by decide),
      V3_of_ne m accStep zeroAcc totals c r_v0 (by decide), V3_of_ne m accStep zeroAcc totals c r_v1 (by decide), V3_v2,
      V3_of_ne m accStep zeroAcc totals c r_v30 (by decide), V3_of_ne m accStep zeroAcc totals c r_v31 (by decide),
      V3_of_ne m accStep zeroAcc totals c r_v4 (by decide), V3_of_ne m accStep zeroAcc totals c r_v5 (by decide)]
    iintro ⟨⟨Hv0, Hv1, Hv2⟩, HO, -, ⟨Ha0, Ha1, Hv30, Hv31, Hv4, Hv5⟩⟩
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv30]; · iexact Hv30
      isplitl [Hv31]; · iexact Hv31
      isplitl [Hv4]; · iexact Hv4
      iexact Hv5
    · iapply (owes_out (F := F) cfg0 c 0); iexact HO

theorem V5_of_ne (c : Dev nD) (b : DevRef τ sig) (h : b ≠ r_v4) :
    V5 m accStep zeroAcc totals quotient scS scC c b = V4 m accStep zeroAcc totals scS scC c b := Function.update_of_ne h ..
theorem V5_v4 (c : Dev nD) : V5 m accStep zeroAcc totals quotient scS scC c r_v4 = outVal m accStep zeroAcc totals quotient scS scC c := Function.update_self ..

/-- The second region's arrays at contents `Fa`: the tiles' sums and counts, the partial results, the result. -/
theorem arrays2_eq (c : Dev nD) (Fa) :
    ((𝔭 1 c).arrays Fa : sProp 𝕄) = iprop(plc c main_v3_0 (Fa 0) ∗ plc c main_v3_1 (Fa 1) ∗ plc c main_v2 (Fa 2) ∗ plc c main_v4 (Fa 3)) := by
  rw [Pipeline.arrays_eq (Pipeline.pin (pcfgs (F := F)) Reg0.adm) (𝔭) 1 c launch2.arr_whole ((𝔭 1 c).share_full fun _ => rfl) Fa, bigSep_W2]
  rfl

theorem arrAt2_0 (c : Dev nD) : (𝔭 1 c).arrAt 0 (Pipeline.pin (pcfgs (F := F)) Reg0.adm 1).N = V4 m accStep zeroAcc totals scS scC c r_v30 :=
  ((dat2 m accStep zeroAcc totals quotient scS scC c).arrAt_in 0 rfl _).trans rfl
theorem arrAt2_1 (c : Dev nD) : (𝔭 1 c).arrAt 1 (Pipeline.pin (pcfgs (F := F)) Reg0.adm 1).N = V4 m accStep zeroAcc totals scS scC c r_v31 :=
  ((dat2 m accStep zeroAcc totals quotient scS scC c).arrAt_in 1 rfl _).trans rfl
theorem arrAt2_2 (c : Dev nD) : (𝔭 1 c).arrAt 2 (Pipeline.pin (pcfgs (F := F)) Reg0.adm 1).N = V4 m accStep zeroAcc totals scS scC c r_v2 :=
  ((dat2 m accStep zeroAcc totals quotient scS scC c).arrAt_in 2 rfl _).trans rfl
theorem arrAt2_3 (c : Dev nD) : (𝔭 1 c).arrAt 3 (Pipeline.pin (pcfgs (F := F)) Reg0.adm 1).N = outVal m accStep zeroAcc totals quotient scS scC c := rfl

variable (hComb : Reg2.CombSpec quotient)

/-- THE SECOND REGION: the four arrays into the pipeline, the five other arrays bypassing it. -/
def R1 : Pipeline.RegionSeg (pcfgs (F := F)) Reg0.adm (𝔭) none defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (Reg2.body_obligation quotient c (Wr4 m accStep zeroAcc totals scS scC c) ((K (F := F)).Otc c 1) (Rec (F := F) c 1) hComb).loose
  hwaits c := Pipeline.cellsWaits_of_cut _ (𝔭) none 1 c (lev := lvk (F := F)) 0 ((K (F := F)).Otc c 1) (fun _ => rfl)
    (fun _ _ => Finset.mem_univ _) (fun _ _ => le_refl _) (fun g i hg => Otc_cut c 1 g i hg)
  pre c := iprop(all9 c (V4 m accStep zeroAcc totals scS scC c) ∗ tcOwes (F := F) c 1)
  post c := iprop(all9 c (V5 m accStep zeroAcc totals quotient scS scC c) ∗ tcOwes (F := F) c 1)
  X _ := iprop(emp)
  Y _ := iprop(emp)
  Z c := Pipeline.unscopedRest (Ix := HIx 1) (Name := ℕ) (U := UU) (Lvl := ℕ) spec2 c (Wr4 m accStep zeroAcc totals scS scC c)
  hentry c := by
    rw [Pipeline.ownSems0_none, arrays2_eq, unscopedRest2_eq]
    unfold all9
    iintro ⟨⟨⟨Ha0, Ha1, Hv0, Hv1, Hv2, Hv30, Hv31, Hv4, Hv5⟩, HO⟩, -, -⟩
    imodintro
    isplitl [Hv30 Hv31 Hv2 Hv4]
    · isplitl [Hv30]; · iexact Hv30
      isplitl [Hv31]; · iexact Hv31
      isplitl [Hv2]; · iexact Hv2
      iexact Hv4
    isplitr; · unfold Pipeline.prefHeld; rw [show (Finset.univ : Finset (Fin 0)) = ∅ from rfl, BI.bigSep_empty]; iempintro
    isplitl [HO]; · iapply (owes_in (F := F) cfg2 c 1); iexact HO
    isplitr; · iempintro
    isplitl [Ha0]; · iexact Ha0
    isplitl [Ha1]; · iexact Ha1
    isplitl [Hv0]; · iexact Hv0
    isplitl [Hv1]; · iexact Hv1
    iexact Hv5
  hin c := by
    iintro ⟨-, -, Hs⟩
    iapply (show (Pipeline.scopedRest (Ix := HIx 1) (Name := ℕ) (U := UU) (Lvl := ℕ) (Val := Elt F) spec2 c : sProp 𝕄) ⊢ (𝔭 1 c).Φ 0 from BI.Entails.refl _)
    iexact Hs
  hout c := by
    rw [Pipeline.ownSems0_none]
    iintro H
    isplitr; · iempintro
    isplitr; · iempintro
    iapply (show (𝔭 1 c).Φ (Fin.last (Pipeline.pin (pcfgs (F := F)) Reg0.adm 1).N) ⊢ (Pipeline.scopedRest (Ix := HIx 1) (Name := ℕ) (U := UU) (Lvl := ℕ) (Val := Elt F) spec2 c : sProp 𝕄) from BI.Entails.refl _)
    iexact H
  hexit c := by
    rw [arrays2_eq, unscopedRest2_eq, arrAt2_0, arrAt2_1, arrAt2_2, arrAt2_3]
    unfold all9 Wr4
    rw [V5_of_ne m accStep zeroAcc totals quotient scS scC c r_a0 (by decide), V5_of_ne m accStep zeroAcc totals quotient scS scC c r_a1 (by decide),
      V5_of_ne m accStep zeroAcc totals quotient scS scC c r_v0 (by decide), V5_of_ne m accStep zeroAcc totals quotient scS scC c r_v1 (by decide),
      V5_of_ne m accStep zeroAcc totals quotient scS scC c r_v2 (by decide),
      V5_of_ne m accStep zeroAcc totals quotient scS scC c r_v30 (by decide), V5_of_ne m accStep zeroAcc totals quotient scS scC c r_v31 (by decide),
      V5_v4, V5_of_ne m accStep zeroAcc totals quotient scS scC c r_v5 (by decide)]
    iintro ⟨⟨Hv30, Hv31, Hv2, Hv4⟩, HO, -, ⟨Ha0, Ha1, Hv0, Hv1, Hv5⟩⟩
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv30]; · iexact Hv30
      isplitl [Hv31]; · iexact Hv31
      isplitl [Hv4]; · iexact Hv4
      iexact Hv5
    · iapply (owes_out (F := F) cfg2 c 1); iexact HO

end Regions2

/-! ## @main on the TensorCore -/

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_split (d : Dev nD) (n : ℕ) : ((K (F := F)).tcSt EH d n : sProp 𝕄) = iprop(tcOwes (F := F) d n ∗ tcRest (F := F) d n) := rfl

section Main

variable [∀ e, Nonempty (Elt F e)]
variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)
/-- The one device of the mesh. -/
abbrev dz : Dev nD := (0 : Fin 1)

/-- The two reshaped arguments, as the SparseCore call finds them. -/
abbrev X0 : ScTile.Big F := V2 m dz r_v0
abbrev X1 : ScTile.Big F := V2 m dz r_v1

/-- The launch handshakes' payloads: the SparseCore call's, at the reshaped arguments. -/
abbrev PP : (K (F := F)).Pay (nD := nD) (Val := Elt F) (Name := ℕ) (U := UU) := ScTile.P (F := F) (X0 m) (X1 m)

local notation "𝔭" => pdats m accStep zeroAcc totals quotient (ScTile.scSums (F := F)) (ScTile.scCnts (F := F))
local notation "𝕍3" => V3 m accStep zeroAcc totals
local notation "𝕍4" => V4 m accStep zeroAcc totals (ScTile.scSums (F := F)) (ScTile.scCnts (F := F))
local notation "𝕍5" => V5 m accStep zeroAcc totals quotient (ScTile.scSums (F := F)) (ScTile.scCnts (F := F))
local notation "𝕍6" => V6 m accStep zeroAcc totals quotient (ScTile.scSums (F := F)) (ScTile.scCnts (F := F))

theorem V4_v30 (c : Dev nD) : 𝕍4 c r_v30 = ScTile.scSums (F := F) (V2 m c r_v0) (V2 m c r_v1) :=
  (Function.update_of_ne (show r_v30 ≠ r_v31 by decide) ..).trans (Function.update_self ..)
theorem V4_v31 (c : Dev nD) : 𝕍4 c r_v31 = ScTile.scCnts (F := F) (V2 m c r_v0) (V2 m c r_v1) := Function.update_self ..
theorem V4_of_ne (c : Dev nD) (b : DevRef τ sig) (h0 : b ≠ r_v30) (h1 : b ≠ r_v31) : 𝕍4 c b = 𝕍3 c b :=
  (Function.update_of_ne h1 ..).trans (Function.update_of_ne h0 ..)

theorem all9_V3 (d : Dev nD) : (all9 d (𝕍3 d) : sProp 𝕄)
    = iprop(pl d main_arg0 (V2 m d r_a0) ∗ pl d main_arg1 (V2 m d r_a1) ∗ pl d main_v0 (V2 m d r_v0) ∗ pl d main_v1 (V2 m d r_v1) ∗ pl d main_v2 (tcPart m accStep zeroAcc totals d)
      ∗ pl d main_v3_0 (V2 m d r_v30) ∗ pl d main_v3_1 (V2 m d r_v31) ∗ pl d main_v4 (V2 m d r_v4) ∗ pl d main_v5 (V2 m d r_v5)) := by
  unfold all9
  rw [V3_of_ne m accStep zeroAcc totals d r_a0 (by decide), V3_of_ne m accStep zeroAcc totals d r_a1 (by decide),
    V3_of_ne m accStep zeroAcc totals d r_v0 (by decide), V3_of_ne m accStep zeroAcc totals d r_v1 (by decide), V3_v2,
    V3_of_ne m accStep zeroAcc totals d r_v30 (by decide), V3_of_ne m accStep zeroAcc totals d r_v31 (by decide),
    V3_of_ne m accStep zeroAcc totals d r_v4 (by decide), V3_of_ne m accStep zeroAcc totals d r_v5 (by decide)]

theorem all9_V4 (d : Dev nD) : (all9 d (𝕍4 d) : sProp 𝕄)
    = iprop(pl d main_arg0 (V2 m d r_a0) ∗ pl d main_arg1 (V2 m d r_a1) ∗ pl d main_v0 (V2 m d r_v0) ∗ pl d main_v1 (V2 m d r_v1) ∗ pl d main_v2 (tcPart m accStep zeroAcc totals d)
      ∗ pl d main_v3_0 (ScTile.scSums (F := F) (V2 m d r_v0) (V2 m d r_v1)) ∗ pl d main_v3_1 (ScTile.scCnts (F := F) (V2 m d r_v0) (V2 m d r_v1)) ∗ pl d main_v4 (V2 m d r_v4) ∗ pl d main_v5 (V2 m d r_v5)) := by
  unfold all9
  rw [V4_v30, V4_v31, V4_of_ne m accStep zeroAcc totals d r_a0 (by decide) (by decide), V4_of_ne m accStep zeroAcc totals d r_a1 (by decide) (by decide),
    V4_of_ne m accStep zeroAcc totals d r_v0 (by decide) (by decide), V4_of_ne m accStep zeroAcc totals d r_v1 (by decide) (by decide),
    V4_of_ne m accStep zeroAcc totals d r_v2 (by decide) (by decide), V4_of_ne m accStep zeroAcc totals d r_v4 (by decide) (by decide),
    V4_of_ne m accStep zeroAcc totals d r_v5 (by decide) (by decide),
    V3_of_ne m accStep zeroAcc totals d r_a0 (by decide), V3_of_ne m accStep zeroAcc totals d r_a1 (by decide),
    V3_of_ne m accStep zeroAcc totals d r_v0 (by decide), V3_of_ne m accStep zeroAcc totals d r_v1 (by decide), V3_v2,
    V3_of_ne m accStep zeroAcc totals d r_v4 (by decide), V3_of_ne m accStep zeroAcc totals d r_v5 (by decide)]

/-- What @main's proof starts from besides the launch's deal: the two pipelines' staging cells' ghost state. -/
def Gd (d : Dev nD) : sProp 𝕄 :=
  iprop((Pipeline.cellsGhost (Pipeline.pin (pcfgs (F := F)) Reg0.adm) EP 0 d ∗ Pipeline.toksInit (Pipeline.pin (pcfgs (F := F)) Reg0.adm) EP 0 d)
    ∗ (Pipeline.cellsGhost (Pipeline.pin (pcfgs (F := F)) Reg0.adm) EP 1 d ∗ Pipeline.toksInit (Pipeline.pin (pcfgs (F := F)) Reg0.adm) EP 1 d))

/-- What @main leaves the claim: the nine arrays at the last valuation. -/
def FIN (d : Dev nD) : sProp 𝕄 := all9 d (𝕍6 d)

set_option maxHeartbeats 1600000 in
/-- @main on the device's TensorCore, statement by statement. -/
theorem hmain (hMid : Reg0.MidSpec accStep) (hFirst : Reg0.FirstSpec accStep zeroAcc) (hLast : Reg0.LastSpec accStep totals) (hComb : Reg2.CombSpec quotient)
    (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m accStep zeroAcc totals quotient d) := by
  obtain rfl : d = dz := Subsingleton.elim _ _
  unfold SparseCore.Cfg.tcRes Gd
  rw [unscoped_all9]
  simp only [main, wp_bind, wp_pure]
  iintro ⟨#Hctx, Hst, ⟨Hb, H9, -, -⟩, ⟨⟨Hg0, Ht0⟩, ⟨Hg1, Ht1⟩⟩⟩
  ihave Hlev := (SparseCore.Cfg.ctx_levAts (K := K (F := F)) κ) $$ Hctx
  -- the two reshapes
  iapply (wp_hlo_within 𝒱 (SparseCore.T dz) none Set.univ (op := opR0 (F := F)) (S := S9) hR0 (V := V0 m dz)) $$ [Hb H9]
  · isplitl [Hb]; · iexact Hb
    rw [held_S9]; iexact H9
  iintro ⟨Hb, H9⟩
  rw [wp_ret]; imodintro
  iapply (wp_hlo_within 𝒱 (SparseCore.T dz) none Set.univ (op := opR1 (F := F)) (S := S9) hR1 (V := V1 m dz)) $$ [Hb H9]
  · isplitl [Hb]; · iexact Hb
    iexact H9
  iintro ⟨Hb, H9⟩
  rw [wp_ret]; imodintro
  ihave H9a := (Entails.of_eq (held_S9 (F := F) dz ((opR1 (F := F)).result (V1 m dz)))) $$ H9
  ihave H9' := (show (all9 dz ((opR1 (F := F)).result (V1 m dz)) : sProp 𝕄) ⊢ all9 dz (V2 m dz) from BI.Entails.refl _) $$ H9a
  -- the first region
  ihave Hst' := (Entails.of_eq (tcSt_split (F := F) dz 0)) $$ Hst
  icases Hst' with ⟨HO, Hrest⟩
  iapply ((K (F := F)).wp_liftProg (D (F := F)) 𝒱 (SparseCore.T dz) Set.univ none (Prog.lift (.customCall (Pipeline.entry 0) ())) _)
  iapply (Pipeline.RegionSeg.wp (pcfgs (F := F)) Reg0.adm (𝔭) none cellOf_inj EP defs₀ 𝒱₀ (Lk (F := F)) (lvk (F := F))
    (R0 m accStep zeroAcc totals quotient (ScTile.scSums (F := F)) (ScTile.scCnts (F := F)) hMid hFirst hLast) dz none (fun u hu => absurd hu (Option.not_mem_none u)) (fun u => .ret u) _)
  isplitr [Hb H9' HO Hg0 Ht0]
  swap
  · isplitl [Hb]; · iexact Hb
    isplitl [H9' HO]
    · iapply (show (iprop(all9 dz (V2 m dz) ∗ tcOwes (F := F) dz 0) : sProp 𝕄) ⊢ (R0 m accStep zeroAcc totals quotient (ScTile.scSums (F := F)) (ScTile.scCnts (F := F)) hMid hFirst hLast).pre dz from BI.Entails.refl _)
      isplitl [H9']; · iexact H9'
      iexact HO
    isplitr; · iexact Hlev
    isplitl [Hg0]; · iexact Hg0
    iexact Ht0
  iintro ⟨Hb, Hpost⟩
  ihave Hp := (show (R0 m accStep zeroAcc totals quotient (ScTile.scSums (F := F)) (ScTile.scCnts (F := F)) hMid hFirst hLast).post dz ⊢ (iprop(all9 dz (𝕍3 dz) ∗ tcOwes (F := F) dz 0) : sProp 𝕄) from BI.Entails.refl _) $$ Hpost
  icases Hp with ⟨H9, HO⟩
  rw [wp_ret]; imodintro
  -- the SparseCore call
  ihave H9u := (Entails.of_eq (all9_V3 m accStep zeroAcc totals dz)) $$ H9
  icases H9u with ⟨Ha0, Ha1, Hv0, Hv1, Hv2, Hv30, Hv31, Hv4, Hv5⟩
  ihave Hst1 := (Entails.of_eq (tcSt_split (F := F) dz 0).symm) $$ [HO Hrest]
  · isplitl [HO]; · iexact HO
    iexact Hrest
  iapply ((K (F := F)).wp_run (D (F := F)) 𝒱 (EH := EH) (P := PP m) κ dz 0) $$ [Hst1 Hv0 Hv1 Hv30 Hv31 Hb Ha0 Ha1 Hv2 Hv4 Hv5 Hg1 Ht1]
  isplitr; · iexact Hctx
  isplitl [Hst1]; · iexact Hst1
  isplitl [Hv0 Hv1 Hv30 Hv31]
  · rw [ScTile.st0_eq]
    isplitl [Hv0]; · iexact Hv0
    isplitl [Hv1]; · iexact Hv1
    isplitl [Hv30]; · iexists _; iexact Hv30
    iexists _; iexact Hv31
  iintro ⟨Hst, Hdn⟩
  ihave Hdn' := (Entails.of_eq (ScTile.dn0_eq (F := F) (X0 m) (X1 m) dz)) $$ Hdn
  icases Hdn' with ⟨Hv0, Hv1, Hv30, Hv31⟩
  ihave H9 := (Entails.of_eq (all9_V4 m accStep zeroAcc totals dz).symm) $$ [Ha0 Ha1 Hv0 Hv1 Hv2 Hv30 Hv31 Hv4 Hv5]
  · isplitl [Ha0]; · iexact Ha0
    isplitl [Ha1]; · iexact Ha1
    isplitl [Hv0]; · iexact Hv0
    isplitl [Hv1]; · iexact Hv1
    isplitl [Hv2]; · iexact Hv2
    isplitl [Hv30]; · iexact Hv30
    isplitl [Hv31]; · iexact Hv31
    isplitl [Hv4]; · iexact Hv4
    iexact Hv5
  -- the second region
  ihave Hst' := (show ((K (F := F)).tcSt EH dz ((0 : Fin 1).val + 1) : sProp 𝕄) ⊢ iprop(tcOwes (F := F) dz 1 ∗ tcRest (F := F) dz 1) from BI.Entails.refl _) $$ Hst
  icases Hst' with ⟨HO, Hrest⟩
  iapply ((K (F := F)).wp_liftProg (D (F := F)) 𝒱 (SparseCore.T dz) Set.univ none (Prog.lift (.customCall (Pipeline.entry 1) ())) _)
  iapply (Pipeline.RegionSeg.wp (pcfgs (F := F)) Reg0.adm (𝔭) none cellOf_inj EP defs₀ 𝒱₀ (Lk (F := F)) (lvk (F := F))
    (R1 m accStep zeroAcc totals quotient (ScTile.scSums (F := F)) (ScTile.scCnts (F := F)) hComb) dz none (fun u hu => absurd hu (Option.not_mem_none u)) (fun u => .ret u) _)
  isplitr [Hb H9 HO Hg1 Ht1]
  swap
  · isplitl [Hb]; · iexact Hb
    isplitl [H9 HO]
    · iapply (show (iprop(all9 dz (𝕍4 dz) ∗ tcOwes (F := F) dz 1) : sProp 𝕄) ⊢ (R1 m accStep zeroAcc totals quotient (ScTile.scSums (F := F)) (ScTile.scCnts (F := F)) hComb).pre dz from BI.Entails.refl _)
      isplitl [H9]; · iexact H9
      iexact HO
    isplitr; · iexact Hlev
    isplitl [Hg1]; · iexact Hg1
    iexact Ht1
  iintro ⟨Hb, Hpost⟩
  ihave Hp := (show (R1 m accStep zeroAcc totals quotient (ScTile.scSums (F := F)) (ScTile.scCnts (F := F)) hComb).post dz ⊢ (iprop(all9 dz (𝕍5 dz) ∗ tcOwes (F := F) dz 1) : sProp 𝕄) from BI.Entails.refl _) $$ Hpost
  icases Hp with ⟨H9, HO⟩
  rw [wp_ret]; imodintro
  -- the last reshape
  ihave H9h := (Entails.of_eq (held_S9 (F := F) dz (𝕍5 dz)).symm) $$ H9
  iapply (wp_hlo_within 𝒱 (SparseCore.T dz) none Set.univ (op := opR5 (F := F)) (S := S9) hR5 (V := 𝕍5 dz)) $$ [Hb H9h]
  · isplitl [Hb]; · iexact Hb
    iexact H9h
  iintro ⟨Hb, H9⟩
  rw [wp_ret]; imodintro; imodintro
  isplitl [HO Hrest]
  · iapply (Entails.of_eq (tcSt_split (F := F) dz 1).symm)
    isplitl [HO]; · iexact HO
    iexact Hrest
  unfold FIN
  ihave H9a := (Entails.of_eq (held_S9 (F := F) dz ((opR5 (F := F)).result (𝕍5 dz)))) $$ H9
  iapply (show (all9 dz ((opR5 (F := F)).result (𝕍5 dz)) : sProp 𝕄) ⊢ all9 dz (𝕍6 dz) from BI.Entails.refl _)
  iexact H9a

end Main

end Cert.Proof.KB.Launch

end
-- ==== Proof.LaunchElemB.lean ====
/-
  The launch element of the program's ghost state: the rounds of the launch handshakes, the rounds of the two TensorCore
  pipelines' staging cells on every device, and a unit for the counters of the tiles' local copies (allocated when a copy
  is issued). It funds the handshakes, each device's share of the pipelines' ghost state and duty tokens, and nothing for
  the SparseCore kernel's own proof, which consumes nothing of the launch's.
-/
import proofs.«211649_g4638564679882_cont_8to1c4_562_19_alg».proof.Proof.CommonB
import proofs.«211649_g4638564679882_cont_8to1c4_562_19_alg».proof.Proof.ScTileB
import proofs.«211649_g4638564679882_cont_8to1c4_562_19_alg».proof.Proof.Reg0B
import Idealize.ShloMosaic.Lib.Pipeline.Sound
import Idealize.ShloMosaic.Lib.Pipeline.Launch

set_option Elab.async false

noncomputable section

namespace Cert.Proof.KB.LaunchElem

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The two TensorCore pipelines, their tables pinned. -/
abbrev cfgs' : Fin 2 → Pipeline.Cfg sig Λ₀ := Pipeline.pin (pcfgs (F := F)) Reg0.adm

/-- What the launch deals device `d`'s TensorCore: the ghost state and the duty tokens of its two pipelines' staging cells. -/
def Gd (d : Dev nD) : sProp 𝕄 :=
  iprop((Pipeline.cellsGhost (cfgs' (F := F)) EP 0 d ∗ Pipeline.toksInit (cfgs' (F := F)) EP 0 d)
    ∗ (Pipeline.cellsGhost (cfgs' (F := F)) EP 1 d ∗ Pipeline.toksInit (cfgs' (F := F)) EP 1 d))

/-- The launch element: the handshakes' rounds, the staging cells' rounds, no counter yet. -/
def u₀ : UU :=
  (initOf (K (F := F)).hsCells (K (F := F)).hsToks,
    (initOf (Pipeline.cells (cfgs' (F := F)) cellOf_inj) (Pipeline.launchToks (cfgs' (F := F)) cellOf_inj), (1 : Counters)))

/-- Per device, the two pipelines' ghost state and tokens regroup into the device's share. -/
theorem Gd_intro :
    iprop((bigSep Finset.univ fun c : Dev nD => bigSep Finset.univ fun p : Fin 2 => Pipeline.cellsGhost (cfgs' (F := F)) EP p c)
        ∗ (bigSep Finset.univ fun c : Dev nD => bigSep Finset.univ fun p : Fin 2 => (Pipeline.toksInit (cfgs' (F := F)) EP p c : sProp 𝕄)))
      ⊢ bigSep Finset.univ (Gd (F := F)) := by
  rw [← bigSep_sep']
  refine BI.bigSep_mono fun d _ => (show iprop((bigSep Finset.univ fun p : Fin 2 => Pipeline.cellsGhost (cfgs' (F := F)) EP p d)
      ∗ (bigSep Finset.univ fun p : Fin 2 => (Pipeline.toksInit (cfgs' (F := F)) EP p d : sProp 𝕄))) ⊢ Gd (F := F) d from ?_)
  rw [bigSep_univ_two, bigSep_univ_two]
  unfold Gd
  iintro ⟨⟨A0, A1⟩, ⟨B0, B1⟩⟩
  isplitl [A0 B0]
  · isplitl [A0] <;> iassumption
  · isplitl [A1] <;> iassumption

variable [FloatOps F]

/-- The launch element funds the handshakes, the two pipelines' staging cells on every device, and nothing for the
    SparseCore kernel's own proof; the counters and what the launch offers besides are dropped. -/
theorem hu₀ (x0 x1 : ScTile.Big F) :
    iprop(ownU (u₀ (F := F)) ∗ (ScTile.P x0 x1).oxCred ∗ (K (F := F)).freeSems0)
      ⊢ |={Set.univ}=> iprop(BI.own (EH (initOf (K (F := F)).hsCells (K (F := F)).hsToks)) ∗ bigSep Finset.univ (Gd (F := F))
          ∗ bigSep Finset.univ fun thr : Thread nD τ => bigSep Finset.univ fun q : Fin 1 => (ScTile.P x0 x1).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (show (BI.own (((Emb.inl : Emb UP (UP × Counters)).trans embR)
      (initOf (Pipeline.cells (cfgs' (F := F)) cellOf_inj) (Pipeline.launchToks (cfgs' (F := F)) cellOf_inj))) : sProp 𝕄)
      ⊢ BI.own (EP (initOf (Pipeline.cells (cfgs' (F := F)) cellOf_inj) (Pipeline.launchToks (cfgs' (F := F)) cellOf_inj))) from Entails.of_eq rfl) $$ HP
  imod (Pipeline.fund_ghost (cfgs' (F := F)) EP cellOf_inj) $$ HP' with ⟨Hg, Ht⟩
  imodintro
  isplitl [HH]
  · iapply (show (BI.own (embL (initOf (K (F := F)).hsCells (K (F := F)).hsToks)) : sProp 𝕄)
      ⊢ BI.own (EH (initOf (K (F := F)).hsCells (K (F := F)).hsToks)) from Entails.of_eq rfl)
    iexact HH
  isplitl [Hg Ht]
  · iapply (Gd_intro (F := F))
    isplitl [Hg] <;> iassumption
  · rw [ScTile.Px_all]; iempintro

end Cert.Proof.KB.LaunchElem

end
-- ==== Proof.RunB.lean ====
/-
  The kernel's run.  The launch theorem for a program with a vector-subcore kernel, applied to: the tile's body
  obligation and the split of a SparseCore's operands among its sixteen tiles; the launch element (the handshakes' rounds
  and the two pipelines' staging cells' ghost state); @main on the TensorCore; and how the final memory is read — the two
  arguments unchanged, the result buffer at the last valuation's value.
-/
import proofs.«211649_g4638564679882_cont_8to1c4_562_19_alg».proof.Proof.LaunchB
import proofs.«211649_g4638564679882_cont_8to1c4_562_19_alg».proof.Proof.LaunchElemB

set_option maxRecDepth 16384
set_option Elab.async false

noncomputable section

namespace Cert.Proof.KB.Run

open Cert.Kernel Cert.Kernel.Gen
open Cert.Proof.KB Cert.Proof.KB.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)
variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)

local notation "𝕍5" => V5 m accStep zeroAcc totals quotient (ScTile.scSums (F := F)) (ScTile.scCnts (F := F))
local notation "𝕍6" => V6 m accStep zeroAcc totals quotient (ScTile.scSums (F := F)) (ScTile.scCnts (F := F))

/-! ## The two arguments are never written -/

theorem V2_of_arg (c : Dev nD) (b : DevRef τ sig) (h0 : b ≠ r_v0) (h1 : b ≠ r_v1) : V2 m c b = m (c, b) := by
  unfold V2 V1 V0
  rw [(opR1 (F := F)).result_of_not_mem _ (b := b) (show b ∉ ({r_v1} : Finset (DevRef τ sig)) from fun h => h1 (Finset.mem_singleton.mp h)),
    (opR0 (F := F)).result_of_not_mem _ (b := b) (show b ∉ ({r_v0} : Finset (DevRef τ sig)) from fun h => h0 (Finset.mem_singleton.mp h))]

theorem V6_of_arg (c : Dev nD) (b : DevRef τ sig) (h0 : b ≠ r_v0) (h1 : b ≠ r_v1) (h2 : b ≠ r_v2) (h30 : b ≠ r_v30) (h31 : b ≠ r_v31)
    (h4 : b ≠ r_v4) (h5 : b ≠ r_v5) : 𝕍6 c b = m (c, b) := by
  unfold V6
  rw [(opR5 (F := F)).result_of_not_mem _ (b := b) (show b ∉ ({r_v5} : Finset (DevRef τ sig)) from fun h => h5 (Finset.mem_singleton.mp h)),
    V5_of_ne m accStep zeroAcc totals quotient _ _ c b h4, V4_of_ne m accStep zeroAcc totals c b h30 h31, V3_of_ne m accStep zeroAcc totals c b h2,
    V2_of_arg m c b h0 h1]

theorem V6_a0 (c : Dev nD) : 𝕍6 c r_a0 = m (a0Loc c) :=
  V6_of_arg m accStep zeroAcc totals quotient c r_a0 (by decide) (by decide) (by decide) (by decide) (by decide) (by decide) (by decide)
theorem V6_a1 (c : Dev nD) : 𝕍6 c r_a1 = m (a1Loc c) :=
  V6_of_arg m accStep zeroAcc totals quotient c r_a1 (by decide) (by decide) (by decide) (by decide) (by decide) (by decide) (by decide)

/-! ## Reading the final memory -/

/-- The result and the two arguments in a final state. -/
def fq (d : Dev nD) (s' : Phys nD τ sig (Elt F)) : Prop :=
  s'.mem.mem (resLoc d) = 𝕍6 d r_v5 ∧ s'.mem.mem (a0Loc d) = 𝕍6 d r_a0 ∧ s'.mem.mem (a1Loc d) = 𝕍6 d r_a1

theorem hfin (d : Dev nD) (s' : Phys nD τ sig (Elt F)) :
    iprop(FIN m accStep zeroAcc totals quotient d ∗ SI s') ⊢ (⌜fq m accStep zeroAcc totals quotient d s'⌝ : sProp 𝕄) := by
  unfold FIN all9
  iintro ⟨⟨Ha0, Ha1, -, -, -, -, -, -, Hv5⟩, HSI⟩
  ihave H := (persistent_entails_right (SI_pointsTo_agree (st := s') (ℓ := resLoc d) (I := Finset.univ) (q := fullShare) (f := 𝕍6 d r_v5))) $$ [HSI Hv5]
  · isplitl [HSI] <;> iassumption
  icases H with ⟨%h1, HSI, -⟩
  ihave H := (persistent_entails_right (SI_pointsTo_agree (st := s') (ℓ := a0Loc d) (I := Finset.univ) (q := fullShare) (f := 𝕍6 d r_a0))) $$ [HSI Ha0]
  · isplitl [HSI] <;> iassumption
  icases H with ⟨%h2, HSI, -⟩
  ihave H := (SI_pointsTo_agree (st := s') (ℓ := a1Loc d) (I := Finset.univ) (q := fullShare) (f := 𝕍6 d r_a1)) $$ [HSI Ha1]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every final state: the result buffer at the last valuation's value, the two arguments as launched. -/
def QC : PUnit × MemSt nD τ sig (Elt F) → Prop := fun r => ∀ c : Dev nD,
  r.2.mem (resLoc c) = 𝕍6 c r_v5 ∧ r.2.mem (a0Loc c) = m (a0Loc c) ∧ r.2.mem (a1Loc c) = m (a1Loc c)

theorem run_main [∀ e, Nonempty (Elt F e)]
    (hMid : Reg0.MidSpec accStep) (hFirst : Reg0.FirstSpec accStep zeroAcc) (hLast : Reg0.LastSpec accStep totals) (hComb : Reg2.CombSpec quotient) :
    θ_run (Cert.Kernel.defs (F := F)) (Cert.Kernel.threads (F := F)) ⟨m, fun _ => 0, ρ⟩ (QC m accStep zeroAcc totals quotient) :=
  SparseCore.Cfg.θ_run_sc (K := K (F := F)) (D := D (F := F)) (𝒱 := 𝒱) (EH := EH) (P := PP m) facts v₀
    (fun q hq => match q with | 0 => nomatch hq)
    (fun q _ => match q with | 0 => ScTile.tileObl (X0 m) (X1 m))
    (fun q _ => match q with | 0 => SparseCore.Cfg.VecSplit.of_plain (ScTile.vecSplit (X0 m) (X1 m)))
    m ρ main (Gd (F := F)) (FIN m accStep zeroAcc totals quotient) (LaunchElem.u₀ (F := F)) (LaunchElem.hu₀ (X0 m) (X1 m))
    (hmain m ρ accStep zeroAcc totals quotient hMid hFirst hLast hComb) (fq m accStep zeroAcc totals quotient) (hfin m accStep zeroAcc totals quotient)
    (QC m accStep zeroAcc totals quotient)
    (fun s' h c => ⟨(h c).1, (h c).2.1.trans (V6_a0 m accStep zeroAcc totals quotient c), (h c).2.2.trans (V6_a1 m accStep zeroAcc totals quotient c)⟩)

end Cert.Proof.KB.Run

end
-- ==== Proof.ClaimB.lean ====
/-
  The claim about the kernel as printed: its frame.  The word-level kernel runs as the idealized one does — the same
  launch, the same two TensorCore regions and the same tile body, every step independent of what a float is — to the end,
  faulting nowhere, and its two arguments are never written.
-/
import proofs.«211649_g4638564679882_cont_8to1c4_562_19_alg».proof.Proof.RunB
import proofs.«211649_g4638564679882_cont_8to1c4_562_19_alg».proof.Proof.Gen.Pre_finite_inputs

set_option Elab.async false

noncomputable section

namespace Cert.Proof.KB.Claim

open Cert.Kernel Cert.Kernel.Gen
open Cert.Proof.KB Cert.Proof.KB.Launch
open Idealize.ShloMosaic Idealize.SL.Sem

/-- The body's runs leave what the four value functions say. -/
theorem hLast : Reg0.LastSpec (F := Bits) TcBody.accStep TcBody.totals :=
  fun c i hi6 M1 h1 M2 h2 M3 h3 M4 h4 f1 f2 f4 =>
    ⟨TcBody.runLast_val4 c i hi6 M1 h1 M2 h2 M3 h3 M4 h4 f1 f2 f4, TcBody.runLast_val3 c i hi6 M1 h1 M2 h2 M3 h3 M4 h4 f1 f2 f4⟩

theorem frame_p : Cert.frame_Kernel := fun m ρ _ =>
  (θ_run Cert.Kernel.defs _ _).mono (fun _ h c => ⟨(h c).2.1, (h c).2.2⟩)
    (Run.run_main (F := Bits) m ρ TcBody.accStep TcBody.zeroAcc TcBody.totals TcBody.quotient
      TcBody.runMid_val TcBody.runFirst_val hLast TcBody.runCombine_val)

end Cert.Proof.KB.Claim

end
-- ==== Proof.CommonI.lean ====
/-
  What every part of the kernel's proof shares: the program as the launch theorem for a program with a
  vector-subcore kernel sees it (its label signature, the SparseCore configuration, the body table, the loop
  variants), the configuration's side facts, and the ghost state: the launch handshakes' rounds beside the rounds
  of the two pipelines' staging cells and the counters of the tiles' own local copies.
-/
import proofs.«211649_g4638564679882_cont_8to1c4_562_19_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211649_g4638564679882_cont_8to1c4_562_19_alg».proof.Proof.Gen.KernelIdeal
import proofs.«211649_g4638564679882_cont_8to1c4_562_19_alg».proof.Proof.Gen.KernelIdeal.Skeleton
import proofs.«211649_g4638564679882_cont_8to1c4_562_19_alg».proof.Proof.Gen.KernelIdeal.Launch
import proofs.«211649_g4638564679882_cont_8to1c4_562_19_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch handshakes' rounds. -/
abbrev UH : Type := URounds (GSem nD τ sig) ℕ
/-- The two pipelines' staging cells' rounds. -/
abbrev UP : Type := URounds (GSem nD τ sig) Unit
/-- Handshakes, staging cells, and the counters of local copies. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The two arguments and the arrays @main makes of them, as locations of device `d` -/

abbrev a0Loc (d : Dev nD) : Loc nD τ sig := (SparseCore.T d).loc main_arg0
abbrev a1Loc (d : Dev nD) : Loc nD τ sig := (SparseCore.T d).loc main_arg1
abbrev srcLoc (d : Dev nD) : Loc nD τ sig := (SparseCore.T d).loc main_v0
abbrev tarLoc (d : Dev nD) : Loc nD τ sig := (SparseCore.T d).loc main_v1
abbrev tcPartLoc (d : Dev nD) : Loc nD τ sig := (SparseCore.T d).loc main_v2
abbrev scSumLoc (d : Dev nD) : Loc nD τ sig := (SparseCore.T d).loc main_v3_0
abbrev scCntLoc (d : Dev nD) : Loc nD τ sig := (SparseCore.T d).loc main_v3_1
abbrev outLoc (d : Dev nD) : Loc nD τ sig := (SparseCore.T d).loc main_v4
abbrev resLoc (d : Dev nD) : Loc nD τ sig := (SparseCore.T d).loc main_v5

end Cert.Proof.KI

end
-- ==== Proof.TcBodyI.lean ====
/-
  The two TensorCore kernel bodies, run once at symbolic operands.

  The accumulating body visits a block of 2048 rows of the source and the target, eight rows at a time: with
  s and t the two row groups it adds (s - t)^2 where t exceeds the threshold, else 0, to plane 0 of the carried
  [2, 8, 512] array, and 1 where t exceeds the threshold, else 0, to plane 1; at the first grid point the carried
  array is zeroed first, at the last the two planes' totals are stored as the two partial results. The combining
  body stores the quotient of the two grand totals. Each run states what the written buffers hold at the return
  as a function of what the read buffers held at entry.
-/
import proofs.«211649_g4638564679882_cont_8to1c4_562_19_alg».proof.Proof.CommonI
import Idealize.ShloMosaic.Lib.Pipeline.FrameBody
import Idealize.ShloMosaic.Lib.Pipeline.Value
import Idealize.ShloMosaic.Lib.ValueIdx
import Idealize.ShloMosaic.Lib.ValueLayout

noncomputable section

namespace Cert.Proof.KI.TcBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {Sh : Shape} {e : EltTy} (M : Memref sig .tc sp Sh e) : Type := Buf (Elt F) (M.view.loc (c : Thread nD τ))
abbrev pt (c : Dev nD) {sp : Space} {Sh : Shape} {e : EltTy} (M : Memref sig .tc sp Sh e) (f : Bf (F := F) c M) : sProp 𝕄 :=
  M.view.loc (c : Thread nD τ) ↦{fullShare} f

/-- The grid coordinate is below seven. -/
theorem i0_lt (i : grid0.Coords) : (i 0).val < 7 := (i 0).isLt

/-- The first conditional (the zeroing of the carried array) is taken exactly at coordinate 0. -/
theorem cond1_iff (i : grid0.Coords) :
    Scalar.cmpi .ne (Scalar.extui (Scalar.cmpi .eq (BitVec.ofNat 32 (i 0).val) 0#32)) 0#32 = 1#1 ↔ (i 0).val = 0 := by
  have hlt := i0_lt i
  generalize (i 0).val = n at hlt ⊢
  interval_cases n <;> decide

/-- The last conditional (the store of the two totals) is taken exactly at coordinate 6. -/
theorem cond2_iff (i : grid0.Coords) : k0_cond2 i = 1#1 ↔ (i 0).val = 6 := by
  have hlt := i0_lt i
  unfold k0_cond2
  generalize (i 0).val = n at hlt ⊢
  interval_cases n <;> decide

set_option maxHeartbeats 4000000 in
/-- A middle grid point (neither first nor last): what the body leaves in the carried array, over the two blocks'
    contents and the carried array's contents at entry. -/
noncomputable def runMid (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    { W : Bf (F := F) c M4 //
      ∀ (f3 : Bf (F := F) c M3) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) E (cc0__tc_body i M1 h1 M2 h2 M3 h3 M4 h4) Q } := by
  have k0_h1 : ¬ Scalar.cmpi .ne (Scalar.extui (Scalar.cmpi .eq (BitVec.ofNat 32 (i 0).val) 0#32)) 0#32 = 1#1 :=
    fun h => hi0 ((cond1_iff i).1 h)
  have k0_h2 : ¬ k0_cond2 i = 1#1 := fun h => hi6 ((cond2_iff i).1 h)
  refine ⟨?_, fun f3 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxHeartbeats 4000000 in
/-- The first grid point: the carried array is zeroed, then accumulated into; what it holds at the return, over the
    two blocks' contents alone. -/
noncomputable def runFirst (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) :
    { W : Bf (F := F) c M4 //
      ∀ (f3 : Bf (F := F) c M3) (f4 : Bf (F := F) c M4) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) E (cc0__tc_body i M1 h1 M2 h2 M3 h3 M4 h4) Q } := by
  have k0_h1 : Scalar.cmpi .ne (Scalar.extui (Scalar.cmpi .eq (BitVec.ofNat 32 (i 0).val) 0#32)) 0#32 = 1#1 :=
    (cond1_iff i).2 hi0
  have k0_h2 : ¬ k0_cond2 i = 1#1 := fun h => by have := (cond2_iff i).1 h; omega
  refine ⟨?_, fun f3 f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxHeartbeats 4000000 in
/-- The last grid point: the carried array is accumulated into and its two planes' totals are stored as the two
    partial results; what the carried array and the results' buffer hold at the return. -/
noncomputable def runLast (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    { W : Bf (F := F) c M4 × Bf (F := F) c M3 //
      ∀ (f3 : Bf (F := F) c M3) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 W.2 ∗ pt c M4 W.1) -∗ Q ⟨⟩))
        ⊢ wp frame (wpE (defs₀ (F := F)) Variants.none c none) E (cc0__tc_body i M1 h1 M2 h2 M3 h3 M4 h4) Q } := by
  have k0_h1 : ¬ Scalar.cmpi .ne (Scalar.extui (Scalar.cmpi .eq (BitVec.ofNat 32 (i 0).val) 0#32)) 0#32 = 1#1 :=
    fun h => by have := (cond1_iff i).1 h; omega
  have k0_h2 : k0_cond2 i = 1#1 := (cond2_iff i).2 hi6
  refine ⟨⟨?_, ?_⟩, fun f3 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

/-- The combining body: it stores the quotient of the two grand totals — each the sum of a [16, 16] array of
    partial sums plus one partial result — as the one result. -/
noncomputable def runCombine (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : Bf (F := F) c A0) (g1 : Bf (F := F) c A1) (g2 : Bf (F := F) c A2) :
    { W : Bf (F := F) c A3 //
      ∀ (g3 : Bf (F := F) c A3) (E : Set ℕ) (Q : PUnit → sProp 𝕄),
        iprop(pt c A0 g0 ∗ pt c A1 g1 ∗ pt c A2 g2 ∗ pt c A3 g3
          ∗ (iprop(pt c A0 g0 ∗ pt c A1 g1 ∗ pt c A2 g2 ∗ pt c A3 W) -∗ Q ⟨⟩))
        ⊢ wp frame (wpE (defs₀ (F := F)) Variants.none c none) E (cc2__combine_body A0 h0 A1 h1 A2 h2 A3 h3) Q } := by
  refine ⟨?_, fun g3 E Q => ?run⟩
  case run =>
    iintro ⟨H0, H1, H2, H3, Hk⟩
    sl_exec_parts!
    sl_step
    iapply Hk
    isplitl [H0]; · iexact H0
    isplitl [H1]; · iexact H1
    isplitl [H2]; · iexact H2
    iexact H3

/-! ## The values

What the runs leave, read through each memref's own view: contents indexed by the memref's shape. -/

open Idealize.ShloMosaic.ValueIdx

/-- Unfold, in the goal, the named values of a run (`<decl>.sl.<name>`) and the printed payload definitions
    (`kK_payN`) to their bodies, all the way down — but the names listed after `except`. -/
syntax (name := openPayloads) "open_payloads" (" except " "[" ident,* "]")? : tactic

open Lean Elab Tactic Meta in
@[tactic openPayloads] def evalOpenPayloads : Tactic := fun stx => do
  let ids : Array Syntax := match stx with
    | `(tactic| open_payloads except [$ids,*]) => ids.getElems.map (·.raw)
    | _ => #[]
  let keep : Array Name ← ids.mapM fun i => realizeGlobalConstNoOverloadWithInfo i
  let g ← getMainGoal
  let isPay (n : Name) : Bool :=
    !keep.contains n &&
    (n.components.dropLast.any (· == `sl) ||
    (match n with
      | .str _ last => last.startsWith "k0_pay" || last.startsWith "k2_pay"
      | _ => false))
  let t ← instantiateMVars (← g.getType)
  let t' ← Meta.deltaExpand t isPay
  replaceMainGoal [← g.replaceTargetDefEq t']

/-- Rows `8k … 8k+7` are inside the `[2048, 512]` block. -/
theorem inb_rows (k : ℕ) (hk : k < 256) : ∀ a, (![8 * k, 0] : Fin 2 → ℕ) a + S8x512.size a ≤ S2048x512.size a := by
  intro a; fin_cases a
  · show 8 * k + 8 ≤ 2048; omega
  · show 0 + 512 ≤ 512; omega

/-- Plane `p` is inside the `[2, 8, 512]` array. -/
theorem inb_plane (p : ℕ) (hp : p < 2) : ∀ a, (![p, 0, 0] : Fin 3 → ℕ) a + S1x8x512.size a ≤ S2x8x512.size a := by
  intro a; fin_cases a
  · show p + 1 ≤ 2; omega
  · show 0 + 8 ≤ 8; omega
  · show 0 + 512 ≤ 512; omega

/-- Rows `8k … 8k+7` of a `[2048, 512]` array, as an `[8, 512]` vector. -/
def rows8 (x : Vec F S2048x512 .f32) (k : ℕ) (hk : k < 256) : FVec F S8x512 .f32 :=
  View.ld x (Rect.unit (s := S2048x512) ![8 * k, 0] S8x512.size (inb_rows k hk))

/-- Plane `p` of a `[2, 8, 512]` array, as an `[8, 512]` vector. -/
def plane (a : Vec F S2x8x512 .f32) (p : ℕ) (hp : p < 2) : FVec F S8x512 .f32 :=
  shapeCast S8x512 (View.ld a (Rect.unit (s := S2x8x512) ![p, 0, 0] S1x8x512.size (inb_plane p hp))) shapeCasts_S1x8x512_S8x512

/-- One step on plane 0: `(s - t)²` where `t` exceeds the threshold, else zero, added to the accumulator. -/
def sqStep (s t acc : FVec F S8x512 .f32) : FVec F S8x512 .f32 :=
  addf acc (select (cmpf .ogt t (broadcast S8x512 (Scalar.ofBits .f32 0x3D4CCCCD#32))) (mulf (subf s t) (subf s t))
    (broadcast S8x512 (Scalar.ofBits .f32 0x00000000#32)))

/-- One step on plane 1: one where `t` exceeds the threshold, else zero, added to the accumulator. -/
def cnStep (t acc : FVec F S8x512 .f32) : FVec F S8x512 .f32 :=
  addf acc (select (cmpf .ogt t (broadcast S8x512 (Scalar.ofBits .f32 0x3D4CCCCD#32)))
    (broadcast S8x512 (Scalar.ofBits .f32 0x3F800000#32)) (broadcast S8x512 (Scalar.ofBits .f32 0x00000000#32)))

/-- Plane 0 after the first `k` row groups, from `a0`: the left fold of `sqStep` over the row groups in order. -/
def sqAcc (x1 x2 : Vec F S2048x512 .f32) (a0 : FVec F S8x512 .f32) : (k : ℕ) → k ≤ 256 → FVec F S8x512 .f32
  | 0, _ => a0
  | k + 1, h => sqStep (rows8 x1 k (by omega)) (rows8 x2 k (by omega)) (sqAcc x1 x2 a0 k (by omega))

/-- Plane 1 after the first `k` row groups, from `a0`. -/
def cnAcc (x2 : Vec F S2048x512 .f32) (a0 : FVec F S8x512 .f32) : (k : ℕ) → k ≤ 256 → FVec F S8x512 .f32
  | 0, _ => a0
  | k + 1, h => cnStep (rows8 x2 k (by omega)) (cnAcc x2 a0 k (by omega))

/-- Two `[8, 512]` planes stacked as a `[2, 8, 512]` array. -/
def stack (V0 V1 : FVec F S8x512 .f32) : Vec F S2x8x512 .f32 := fun j =>
  if (j 0).val = 0 then V0 (ix2 (j 1) (j 2)) else V1 (ix2 (j 1) (j 2))

/-- What one grid point makes of the carried array `a` given the source block `x1` and the target block `x2`:
    plane 0 gains, row group after row group in order, `(s - t)²` where `t` exceeds the threshold; plane 1 gains
    one there. -/
def accStep (x1 x2 : Vec F S2048x512 .f32) (a : Vec F S2x8x512 .f32) : Vec F S2x8x512 .f32 :=
  stack (sqAcc x1 x2 (plane a 0 (by decide)) 256 le_rfl) (cnAcc x2 (plane a 1 (by decide)) 256 le_rfl)

/-- The all-zero carried array, zero spelt as the body spells it. -/
def zeroAcc : Vec F S2x8x512 .f32 := fun _ => Scalar.ofBits .f32 0x00000000#32

/-- The total of an `[8, 512]` plane, as the body reduces it: the sum over both axes from zero. -/
def total (v : FVec F S8x512 .f32) : F .f32 :=
  extractAt ![0, 0, 0]
    (shapeCast S1x1x1 (multiReduction .add [1, 2] S1 (shapeCast S1x8x512 v shapeCasts_S8x512_S1x8x512) 0x00000000#32
      reduces_S1x8x512_S1 (.inl rfl) rfl) shapeCasts_S1_S1x1x1) inpos_S1x1x1_p0_0_0

/-- The two planes' totals: the two partial results. -/
def totals (a : Vec F S2x8x512 .f32) : Vec F S2 .f32 := fun j =>
  if (j 0).val = 0 then total (plane a 0 (by decide)) else total (plane a 1 (by decide))

/-- The total of a `[16, 16]` array, as the combining body reduces it. -/
def total16 (g : Vec F S16x16 .f32) : F .f32 :=
  extractAt ![0, 0, 0]
    (shapeCast S1x1x1 (multiReduction .add [1, 2] S1 (shapeCast S1x16x16 g shapeCasts_S16x16_S1x16x16) 0x00000000#32
      reduces_S1x16x16_S1 (.inl rfl) rfl) shapeCasts_S1_S1x1x1) inpos_S1x1x1_p0_0_0

/-- The combined result: the first grand total over the second. -/
def quotient (g0 g1 : Vec F S16x16 .f32) (g2 : Vec F S2 .f32) : Vec F S1 .f32 := fun _ =>
  Scalar.divf (Scalar.addf (total16 g0) (g2 (ix1 0))) (Scalar.addf (total16 g1) (g2 (ix1 1)))

theorem hz3 : (![0, 0, 0] : Fin 3 → ℕ) = fun _ => 0 := funext fun a => by fin_cases a <;> rfl

/-- Plane `p` at `(r, col)` is the array at `(p, r, col)`. -/
theorem plane_apply (a : Vec F S2x8x512 .f32) (p : ℕ) (hp : p < 2) (r : Fin 8) (col : Fin 512) :
    plane a p hp (ix2 r col) = a (ix3 ⟨p, hp⟩ r col) := by
  unfold plane
  rw [shapeCast_1ab_ab_apply]
  show a _ = a _
  congr 1
  funext d
  match d with
  | ⟨0, _⟩ => exact Fin.ext (by show p + 1 * 0 = p; omega)
  | ⟨1, _⟩ => exact Fin.ext (by show 0 + 1 * r.val = r.val; omega)
  | ⟨2, _⟩ => exact Fin.ext (by show 0 + 1 * col.val = col.val; omega)

/-- Rows `8k … 8k+7` at `(r, col)` are the array at `(8k + r, col)`. -/
theorem rows8_apply (x : Vec F S2048x512 .f32) (k : ℕ) (hk : k < 256) (r : Fin 8) (col : Fin 512) :
    rows8 x k hk (ix2 r col) = x (ix2 ⟨8 * k + r.val, by omega⟩ col) := by
  unfold rows8
  show x _ = x _
  congr 1
  funext d
  match d with
  | ⟨0, _⟩ => exact Fin.ext (by show 8 * k + 1 * r.val = 8 * k + r.val; omega)
  | ⟨1, _⟩ => exact Fin.ext (by show 0 + 1 * col.val = col.val; omega)

theorem stack_apply (V0 V1 : FVec F S8x512 .f32) (p : Fin 2) (r : Fin 8) (col : Fin 512) :
    stack V0 V1 (ix3 p r col) = if p.val = 0 then V0 (ix2 r col) else V1 (ix2 r col) := rfl

theorem emb_plane (p : ℕ) (hp : p < 2) (inb) (r : Fin 8) (col : Fin 512) :
    (Rect.unit (s := S2x8x512) ![p, 0, 0] S1x8x512.size inb).emb (ix3 (0 : Fin 1) r col) = ix3 (⟨p, hp⟩ : Fin 2) r col := by
  funext d
  match d with
  | ⟨0, _⟩ => exact Fin.ext (by show p + 1 * 0 = p; omega)
  | ⟨1, _⟩ => exact Fin.ext (by show 0 + 1 * r.val = r.val; omega)
  | ⟨2, _⟩ => exact Fin.ext (by show 0 + 1 * col.val = col.val; omega)

/-- Under the two plane stores (the later first, whatever was stored before them), plane 1 holds the later store's
    value -/
theorem canon_planes_at1 (V0 V1 : FVec F S8x512 .f32) (inb1 inb0) (hc1 hc0 : S8x512.ShapeCasts S1x8x512)
    (L : List (View.Piece (Elt F) S2x8x512 .f32)) (r : Fin 8) (col : Fin 512) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) (ix3 (⟨1, by decide⟩ : Fin 2) r col)
      = V1 (ix2 r col) := by
  have e := View.canon_cons_emb (Val := Elt F) (Rect.unit (s := S2x8x512) ![1, 0, 0] S1x8x512.size inb1) (shapeCast S1x8x512 V1 hc1)
    ((⟨Rect.unit (s := S2x8x512) ![0, 0, 0] S1x8x512.size inb0, shapeCast S1x8x512 V0 hc0⟩ : View.Piece (Elt F) S2x8x512 .f32) :: L)
    (ix3 (0 : Fin 1) r col)
  rw [emb_plane 1 (by decide) inb1 r col] at e
  exact e.trans (shapeCast_ab_1ab_apply V1 hc1 0 r col)

/-- and plane 0 the earlier store's. -/
theorem canon_planes_at0 (V0 V1 : FVec F S8x512 .f32) (inb1 inb0) (hc1 hc0 : S8x512.ShapeCasts S1x8x512)
    (L : List (View.Piece (Elt F) S2x8x512 .f32)) (r : Fin 8) (col : Fin 512) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) (ix3 (⟨0, by decide⟩ : Fin 2) r col)
      = V0 (ix2 r col) := by
  have hmem : ix3 (⟨0, by decide⟩ : Fin 2) r col ∉ (Rect.unit (s := S2x8x512) ![1, 0, 0] S1x8x512.size inb1).set := by
    rw [Rect.mem_set_unit]; intro h
    have h' : 1 ≤ 0 := (h 0).1
    omega
  have e := View.canon_cons_emb (Val := Elt F) (Rect.unit (s := S2x8x512) ![0, 0, 0] S1x8x512.size inb0) (shapeCast S1x8x512 V0 hc0) L
    (ix3 (0 : Fin 1) r col)
  rw [emb_plane 0 (by decide) inb0 r col] at e
  exact (View.canon_cons_of_not_mem (Val := Elt F)
    (⟨Rect.unit (s := S2x8x512) ![1, 0, 0] S1x8x512.size inb1, shapeCast S1x8x512 V1 hc1⟩ : View.Piece (Elt F) S2x8x512 .f32) _ hmem).trans
    (e.trans (shapeCast_ab_1ab_apply V0 hc0 0 r col))

/-- So the two plane stores leave the two planes stacked. -/
theorem canon_planes (V0 V1 : FVec F S8x512 .f32) (inb1 inb0) (hc1 hc0 : S8x512.ShapeCasts S1x8x512)
    (L : List (View.Piece (Elt F) S2x8x512 .f32)) :
    View.canon ((⟨Rect.unit (s := S2x8x512) ![1, 0, 0] S1x8x512.size inb1, shapeCast S1x8x512 V1 hc1⟩ : View.Piece (Elt F) S2x8x512 .f32)
      :: ⟨Rect.unit (s := S2x8x512) ![0, 0, 0] S1x8x512.size inb0, shapeCast S1x8x512 V0 hc0⟩ :: L) = stack V0 V1 := by
  funext j
  obtain ⟨p, r, col, rfl⟩ : ∃ (p : Fin 2) (r : Fin 8) (col : Fin 512), j = ix3 p r col := ⟨j 0, j 1, j 2, eq_ix3 j⟩
  fin_cases p
  · exact canon_planes_at0 V0 V1 inb1 inb0 hc1 hc0 L r col
  · exact canon_planes_at1 V0 V1 inb1 inb0 hc1 hc0 L r col

theorem hz2 : (![0, 0] : Fin 2 → ℕ) = fun _ => 0 := funext fun a => by fin_cases a <;> rfl
theorem hz1 : (![0] : Fin 1 → ℕ) = fun _ => 0 := funext fun a => by fin_cases a; rfl

theorem plane_stack0 (V0 V1 : FVec F S8x512 .f32) (h : 0 < 2) : plane (stack V0 V1) 0 h = V0 := by
  funext j
  obtain ⟨r, col, rfl⟩ : ∃ (r : Fin 8) (col : Fin 512), j = ix2 r col := ⟨j 0, j 1, eq_ix2 j⟩
  rw [plane_apply]; rfl

theorem plane_stack1 (V0 V1 : FVec F S8x512 .f32) (h : 1 < 2) : plane (stack V0 V1) 1 h = V1 := by
  funext j
  obtain ⟨r, col, rfl⟩ : ∃ (r : Fin 8) (col : Fin 512), j = ix2 r col := ⟨j 0, j 1, eq_ix2 j⟩
  rw [plane_apply]; rfl

/-- A load after one store of the whole `[2, 8, 512]` array reads the stored value at the load's indices. -/
theorem readCov_filled {κ : Kind} {sp : Space} (v : View sig κ sp S2x8x512 .f32) (inb) (w : S2x8x512.Idx → Elt F .f32)
    (B : LoadRect S2x8x512) :
    v.readCov [(⟨Rect.unit (s := S2x8x512) ![0, 0, 0] S2x8x512.size inb, w⟩ : View.Piece (Elt F) S2x8x512 .f32)] B
      = fun j => w (B.idx j) := by
  rw [View.readCov_eq_canon', View.canon_unit_zero hz3]

theorem emb_word (p : ℕ) (hp : p < 2) (inb) :
    (Rect.unit (s := S2) ![p] S1.size inb).emb (ix1 (0 : Fin 1)) = ix1 (⟨p, hp⟩ : Fin 2) := by
  funext d
  match d with
  | ⟨0, _⟩ => exact Fin.ext (by show p + 1 * 0 = p; omega)

/-- The two one-word stores, the later first, leave the two words. -/
theorem canon_words (T0 T1 : Elt F .f32) (inb1 inb0) :
    View.canon [(⟨Rect.unit (s := S2) ![1] S1.size inb1, fun _ => T1⟩ : View.Piece (Elt F) S2 .f32),
      ⟨Rect.unit (s := S2) ![0] S1.size inb0, fun _ => T0⟩] = fun j => if (j 0).val = 0 then T0 else T1 := by
  funext j
  obtain ⟨p, rfl⟩ : ∃ p : Fin 2, j = ix1 p := ⟨j 0, eq_ix1 j⟩
  fin_cases p
  · show View.canon _ (ix1 (⟨0, by decide⟩ : Fin 2)) = T0
    have hmem : ix1 (⟨0, by decide⟩ : Fin 2) ∉ (Rect.unit (s := S2) ![1] S1.size inb1).set := by
      rw [Rect.mem_set_unit]; intro h
      have h' : 1 ≤ 0 := (h 0).1
      omega
    have e := View.canon_cons_emb (Val := Elt F) (Rect.unit (s := S2) ![0] S1.size inb0) (fun _ => T0) [] (ix1 (0 : Fin 1))
    rw [emb_word 0 (by decide) inb0] at e
    exact (View.canon_cons_of_not_mem (Val := Elt F)
      (⟨Rect.unit (s := S2) ![1] S1.size inb1, fun _ => T1⟩ : View.Piece (Elt F) S2 .f32) _ hmem).trans e
  · show View.canon _ (ix1 (⟨1, by decide⟩ : Fin 2)) = T1
    have e := View.canon_cons_emb (Val := Elt F) (Rect.unit (s := S2) ![1] S1.size inb1) (fun _ => T1)
      [(⟨Rect.unit (s := S2) ![0] S1.size inb0, fun _ => T0⟩ : View.Piece (Elt F) S2 .f32)] (ix1 (0 : Fin 1))
    rw [emb_word 1 (by decide) inb1] at e
    exact e

/-- The body's reduction of a loaded plane is the plane's total. -/
theorem pay3_eq (v : Vec F S1x8x512 .f32) : k0_pay3 v = total (shapeCast S8x512 v shapeCasts_S1x8x512_S8x512) := rfl
theorem pay4_eq (v : Vec F S1x8x512 .f32) : k0_pay4 v = total (shapeCast S8x512 v shapeCasts_S1x8x512_S8x512) := rfl

/-- After the two plane stores, a load of plane 1 reads the later store's value and a load of plane 0 the earlier
    store's. -/
theorem read_planes {κ : Kind} {sp : Space} (v : View sig κ sp S2x8x512 .f32) (V0 V1 : FVec F S8x512 .f32) (inb1 inb0)
    (hc1 hc0 : S8x512.ShapeCasts S1x8x512) :
    v.readCov [(⟨Rect.unit (s := S2x8x512) ![1, 0, 0] S1x8x512.size inb1, shapeCast S1x8x512 V1 hc1⟩ : View.Piece (Elt F) S2x8x512 .f32),
        ⟨Rect.unit (s := S2x8x512) ![0, 0, 0] S1x8x512.size inb0, shapeCast S1x8x512 V0 hc0⟩]
        (Rect.unit (s := S2x8x512) ![1, 0, 0] S1x8x512.size inb1).toLoadRect = shapeCast S1x8x512 V1 hc1
    ∧ v.readCov [(⟨Rect.unit (s := S2x8x512) ![1, 0, 0] S1x8x512.size inb1, shapeCast S1x8x512 V1 hc1⟩ : View.Piece (Elt F) S2x8x512 .f32),
        ⟨Rect.unit (s := S2x8x512) ![0, 0, 0] S1x8x512.size inb0, shapeCast S1x8x512 V0 hc0⟩]
        (Rect.unit (s := S2x8x512) ![0, 0, 0] S1x8x512.size inb0).toLoadRect = shapeCast S1x8x512 V0 hc0 := by
  refine ⟨View.readCov_cons_toLoadRect v _ _ _, ?_⟩
  have hd : Disjoint (Rect.unit (s := S2x8x512) ![1, 0, 0] S1x8x512.size inb1).set
      (Rect.unit (s := S2x8x512) ![0, 0, 0] S1x8x512.size inb0).set :=
    Rect.unit_disjoint (s := S2x8x512) (0 : Fin 3) (Or.inr (by show 0 + 1 ≤ 1; omega))
  exact (View.readCov_cons_of_disjoint v
    (⟨Rect.unit (s := S2x8x512) ![1, 0, 0] S1x8x512.size inb1, shapeCast S1x8x512 V1 hc1⟩ : View.Piece (Elt F) S2x8x512 .f32) _ _ hd).trans
    (View.readCov_cons_toLoadRect v _ _ _)

/-- So the two words the last point stores — the body's reductions of the two planes as loaded back — are the two
    totals of the stacked planes. -/
theorem words_of_planes {κ : Kind} {sp : Space} (v : View sig κ sp S2x8x512 .f32) (V0 V1 : FVec F S8x512 .f32) (inb1 inb0)
    (hc1 hc0 : S8x512.ShapeCasts S1x8x512) (i1 i0) :
    View.canon [(⟨Rect.unit (s := S2) ![1] S1.size i1, fun _ => k0_pay4 (v.readCov
        [(⟨Rect.unit (s := S2x8x512) ![1, 0, 0] S1x8x512.size inb1, shapeCast S1x8x512 V1 hc1⟩ : View.Piece (Elt F) S2x8x512 .f32),
          ⟨Rect.unit (s := S2x8x512) ![0, 0, 0] S1x8x512.size inb0, shapeCast S1x8x512 V0 hc0⟩]
        (Rect.unit (s := S2x8x512) ![1, 0, 0] S1x8x512.size inb1).toLoadRect)⟩ : View.Piece (Elt F) S2 .f32),
      ⟨Rect.unit (s := S2) ![0] S1.size i0, fun _ => k0_pay3 (v.readCov
        [(⟨Rect.unit (s := S2x8x512) ![1, 0, 0] S1x8x512.size inb1, shapeCast S1x8x512 V1 hc1⟩ : View.Piece (Elt F) S2x8x512 .f32),
          ⟨Rect.unit (s := S2x8x512) ![0, 0, 0] S1x8x512.size inb0, shapeCast S1x8x512 V0 hc0⟩]
        (Rect.unit (s := S2x8x512) ![0, 0, 0] S1x8x512.size inb0).toLoadRect)⟩]
      = totals (stack V0 V1) := by
  rw [(read_planes v V0 V1 inb1 inb0 hc1 hc0).1, (read_planes v V0 V1 inb1 inb0 hc1 hc0).2, pay3_eq, pay4_eq,
    shapeCast_shapeCast, shapeCast_shapeCast, canon_words]
  unfold totals
  rw [plane_stack0, plane_stack1]

/-! ### What the runs leave -/

set_option maxRecDepth 200000 in
set_option maxHeartbeats 4000000 in
/-- The middle point's two stores: plane 1, then plane 0, each the fold over the 256 row groups. -/
theorem mid_pieces (c : Dev nD) (M1 M2 : Memref sig .tc .vmem S2048x512 .f32) (M4 : Memref sig .tc .vmem S2x8x512 .f32)
    (f1 : Bf (F := F) c M1) (f2 : Bf (F := F) c M2) (f4 : Bf (F := F) c M4) :
    runMid.sl.H4_2 c M1 M2 M4 f1 f2 f4
      = [⟨Rect.unit (s := S2x8x512) ![1, 0, 0] S1x8x512.size inb_S2x8x512_S1x8x512_1_0_0,
          shapeCast S1x8x512 (cnAcc (M2.view.read (Elt F) f2) (plane (M4.view.read (Elt F) f4) 1 (by decide)) 256 le_rfl)
            shapeCasts_S8x512_S1x8x512⟩,
        ⟨Rect.unit (s := S2x8x512) ![0, 0, 0] S1x8x512.size inb_S2x8x512_S1x8x512_0_0_0,
          shapeCast S1x8x512 (sqAcc (M1.view.read (Elt F) f1) (M2.view.read (Elt F) f2)
            (plane (M4.view.read (Elt F) f4) 0 (by decide)) 256 le_rfl) shapeCasts_S8x512_S1x8x512⟩] := by
  open_payloads
  simp only [shapeCast_self, View.readAt_eq_ld]
  generalize M1.view.read (Elt F) f1 = x1
  generalize M2.view.read (Elt F) f2 = x2
  generalize M4.view.read (Elt F) f4 = a
  rfl

/-- A middle point leaves the carried array stepped once. -/
theorem runMid_val (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M4.view.read (Elt F) (runMid c i hi0 hi6 M1 h1 M2 h2 M3 h3 M4 h4 f1 f2 f4).1
      = accStep (M1.view.read (Elt F) f1) (M2.view.read (Elt F) f2) (M4.view.read (Elt F) f4) := by
  unfold runMid
  dsimp only
  rw [View.read_writes_junk_eq_canon, mid_pieces]
  exact canon_planes _ _ _ _ _ _ []

/-- At the first point the two planes are loaded after the zero fill: they are the zero array's planes. -/
theorem first_v3 (M4 : Memref sig .tc .vmem S2x8x512 .f32) :
    shapeCast (s := S1x8x512) S8x512 (runFirst.sl.v3 (F := F) M4) shapeCasts_S1x8x512_S8x512 = plane zeroAcc 0 (by decide) := by
  unfold runFirst.sl.v3 runFirst.sl.H4_1
  rw [readCov_filled]
  unfold k0_pay5
  simp only [shapeCast_self]
  rfl

theorem first_v5 (M4 : Memref sig .tc .vmem S2x8x512 .f32) :
    shapeCast (s := S1x8x512) S8x512 (runFirst.sl.v5 (F := F) M4) shapeCasts_S1x8x512_S8x512 = plane zeroAcc 1 (by decide) := by
  unfold runFirst.sl.v5 runFirst.sl.H4_1
  rw [readCov_filled]
  unfold k0_pay5
  simp only [shapeCast_self]
  rfl

set_option maxRecDepth 200000 in
set_option maxHeartbeats 1000000 in
/-- The first point's stores: the zero fill, then plane 0 and plane 1, each the fold from the zero plane. -/
theorem first_pieces (c : Dev nD) (M1 M2 : Memref sig .tc .vmem S2048x512 .f32) (M4 : Memref sig .tc .vmem S2x8x512 .f32)
    (f1 : Bf (F := F) c M1) (f2 : Bf (F := F) c M2) :
    runFirst.sl.H4_3 c M1 M2 M4 f1 f2
      = ⟨Rect.unit (s := S2x8x512) ![1, 0, 0] S1x8x512.size inb_S2x8x512_S1x8x512_1_0_0,
          shapeCast S1x8x512 (cnAcc (M2.view.read (Elt F) f2) (plane zeroAcc 1 (by decide)) 256 le_rfl)
            shapeCasts_S8x512_S1x8x512⟩ ::
        ⟨Rect.unit (s := S2x8x512) ![0, 0, 0] S1x8x512.size inb_S2x8x512_S1x8x512_0_0_0,
          shapeCast S1x8x512 (sqAcc (M1.view.read (Elt F) f1) (M2.view.read (Elt F) f2)
            (plane zeroAcc 0 (by decide)) 256 le_rfl) shapeCasts_S8x512_S1x8x512⟩ :: runFirst.sl.H4_1 := by
  open_payloads except [runFirst.sl.v3, runFirst.sl.v5, runFirst.sl.H4_1]
  rw [first_v3, first_v5]
  simp only [shapeCast_self, View.readAt_eq_ld]
  generalize M1.view.read (Elt F) f1 = x1
  generalize M2.view.read (Elt F) f2 = x2
  generalize plane (F := F) zeroAcc 0 (by decide) = a0
  generalize plane (F := F) zeroAcc 1 (by decide) = a1
  fail_if_success (unfold runFirst.sl.v3)
  fail_if_success (unfold runFirst.sl.v5)
  rfl

/-- The first point leaves the zero array stepped once. -/
theorem runFirst_val (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) :
    M4.view.read (Elt F) (runFirst c i hi0 M1 h1 M2 h2 M3 h3 M4 h4 f1 f2).1
      = accStep (M1.view.read (Elt F) f1) (M2.view.read (Elt F) f2) zeroAcc := by
  unfold runFirst
  dsimp only
  rw [View.read_writes_junk_eq_canon, first_pieces]
  exact canon_planes _ _ _ _ _ _ _

set_option maxRecDepth 200000 in
set_option maxHeartbeats 1000000 in
/-- The last point's two plane stores, as a middle point's. -/
theorem last_pieces (c : Dev nD) (M1 M2 : Memref sig .tc .vmem S2048x512 .f32) (M4 : Memref sig .tc .vmem S2x8x512 .f32)
    (f1 : Bf (F := F) c M1) (f2 : Bf (F := F) c M2) (f4 : Bf (F := F) c M4) :
    runLast.sl.H4_2 c M1 M2 M4 f1 f2 f4
      = [⟨Rect.unit (s := S2x8x512) ![1, 0, 0] S1x8x512.size inb_S2x8x512_S1x8x512_1_0_0,
          shapeCast S1x8x512 (cnAcc (M2.view.read (Elt F) f2) (plane (M4.view.read (Elt F) f4) 1 (by decide)) 256 le_rfl)
            shapeCasts_S8x512_S1x8x512⟩,
        ⟨Rect.unit (s := S2x8x512) ![0, 0, 0] S1x8x512.size inb_S2x8x512_S1x8x512_0_0_0,
          shapeCast S1x8x512 (sqAcc (M1.view.read (Elt F) f1) (M2.view.read (Elt F) f2)
            (plane (M4.view.read (Elt F) f4) 0 (by decide)) 256 le_rfl) shapeCasts_S8x512_S1x8x512⟩] := by
  open_payloads
  simp only [shapeCast_self, View.readAt_eq_ld]
  generalize M1.view.read (Elt F) f1 = x1
  generalize M2.view.read (Elt F) f2 = x2
  generalize M4.view.read (Elt F) f4 = a
  rfl

/-- The last point leaves the carried array stepped once -/
theorem runLast_val4 (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M4.view.read (Elt F) (runLast c i hi6 M1 h1 M2 h2 M3 h3 M4 h4 f1 f2 f4).1.1
      = accStep (M1.view.read (Elt F) f1) (M2.view.read (Elt F) f2) (M4.view.read (Elt F) f4) := by
  unfold runLast
  dsimp only
  rw [View.read_writes_junk_eq_canon, last_pieces]
  exact canon_planes _ _ _ _ _ _ []

set_option maxHeartbeats 1000000 in
/-- and, as the two partial results, the two totals of the stepped array. -/
theorem runLast_val3 (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : Bf (F := F) c M1) (f2 : Bf (F := F) c M2) (f4 : Bf (F := F) c M4) :
    M3.view.read (Elt F) (runLast c i hi6 M1 h1 M2 h2 M3 h3 M4 h4 f1 f2 f4).1.2
      = totals (accStep (M1.view.read (Elt F) f1) (M2.view.read (Elt F) f2) (M4.view.read (Elt F) f4)) := by
  unfold runLast
  dsimp only
  rw [View.read_writes_junk_eq_canon]
  unfold runLast.sl.H3_2 runLast.sl.v3856 runLast.sl.v3863
  rw [last_pieces]
  exact words_of_planes M4.view _ _ _ _ _ _ _ _

theorem idx_word (p : ℕ) (hp : p < 2) (inb) (h) :
    (Rect.unit (s := S2) ![p] S1.size inb).idx (Shape.Idx.first h) = ix1 (⟨p, hp⟩ : Fin 2) := by
  funext d
  match d with
  | ⟨0, _⟩ => exact Fin.ext (by show p + 1 * 0 = p; omega)

/-- The combining body leaves the quotient of the two grand totals. -/
theorem runCombine_val (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : Bf (F := F) c A0) (g1 : Bf (F := F) c A1) (g2 : Bf (F := F) c A2) :
    A3.view.read (Elt F) (runCombine c A0 h0 A1 h1 A2 h2 A3 h3 g0 g1 g2).1
      = quotient (A0.view.read (Elt F) g0) (A1.view.read (Elt F) g1) (A2.view.read (Elt F) g2) := by
  unfold runCombine
  dsimp only
  rw [View.read_writes_junk_eq_canon]
  open_payloads
  rw [View.canon_unit_zero hz1]
  simp only [shapeCast_self, View.readAt_eq_ld, View.ld_unit_zero (S := S16x16) hz2]
  funext x
  show Scalar.divf (Scalar.addf _ (A2.view.read (Elt F) g2 _)) (Scalar.addf _ (A2.view.read (Elt F) g2 _)) = _
  rw [idx_word 0 (by decide), idx_word 1 (by decide)]
  rfl

end Cert.Proof.KI.TcBody

end
-- ==== Proof.Reg0I.lean ====
/-
  The first TensorCore region as a pipeline: seven grid points, each staging a block of 2048 rows of the source and of
  the target; a [2, 8, 512] scratch carried from point to point (zeroed at the first point, then the block's masked
  squared differences and mask counts added to its two planes); the two-element result window written at the last
  point only, with the two planes' totals.  The proof data say what the staging buffers and the scratch hold after
  each point; the body obligation at a point is the body's run there.
-/
import proofs.«211649_g4638564679882_cont_8to1c4_562_19_alg».proof.Proof.CommonI
import proofs.«211649_g4638564679882_cont_8to1c4_562_19_alg».proof.Proof.TcBodyI
import Idealize.ShloMosaic.Lib.Pipeline.FrameBody

set_option maxRecDepth 16384
set_option Elab.async false

noncomputable section

namespace Cert.Proof.KI.Reg0

open Cert.KernelIdeal Cert.KernelIdeal.Gen
open Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Contents of the three shapes the body reads and writes. -/
abbrev B2048 (F : FTy → Type) : Type := S2048x512.Idx → Elt F .f32
abbrev BAcc (F : FTy → Type) : Type := S2x8x512.Idx → Elt F .f32
abbrev B2 (F : FTy → Type) : Type := S2.Idx → Elt F .f32

/-- The admissible tables: none is prefetched. -/
abbrev adm : (p : Fin 2) → (pcfgs (F := F) p).Adm := fun p => (cfgs p).toPCfg_adm

/-! ## What the body computes, as three functions (their equations with the body's runs are hypotheses here) -/

variable (accStep : B2048 F → B2048 F → BAcc F → BAcc F) (zeroAcc : BAcc F) (totals : BAcc F → B2 F)

-- core `c`'s TensorCore buffers when the region is entered
variable (c : Dev nD) (Wr : (b : Ref sig .tc) → Buf (Elt F) ((c : Thread nD τ).loc b))
-- what the core owes through the region, and a bound on the wait pairs recorded before it
variable (O : CellTallies nD τ sig (HIx 1)) (Rec : Set (SemLoc sig × HIx 1))

/-! ## The windows' blocks -/

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (Wr (Pipeline.arrRef spec0 w))

/-- Each window's current staging memref at point `t`, spelt as the pipeline passes it, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S2 .f32 := win0_2.stage (cfg0.slots t 2)
abbrev hs2 (t : Fin cfg0.N) : (ms2 t).IsWhole := hstage0_2 ((cfg0.slots t 2).cast nbuf0_2)
/-- The carried scratch. -/
abbrev scM : Memref sig .tc .vmem S2x8x512 .f32 := Memref.whole cc0_scratch0

/-! ## The carried scratch after each point -/

/-- After point `n`: the zero array with the blocks of points `0 … n` accumulated into it, in order. -/
def accAt : (n : ℕ) → n < cfg0.N → BAcc F
  | 0, hn => accStep (iblk c Wr 0 ⟨0, hn⟩) (iblk c Wr 1 ⟨0, hn⟩) zeroAcc
  | n + 1, hn => accStep (iblk c Wr 0 ⟨n + 1, hn⟩) (iblk c Wr 1 ⟨n + 1, hn⟩) (accAt n (Nat.lt_of_succ_lt hn))

theorem accAt_zero (hn : 0 < cfg0.N) : accAt accStep zeroAcc c Wr 0 hn = accStep (iblk c Wr 0 ⟨0, hn⟩) (iblk c Wr 1 ⟨0, hn⟩) zeroAcc := rfl
theorem accAt_pos (t : Fin cfg0.N) (h : t.val ≠ 0) :
    accAt accStep zeroAcc c Wr t.val t.isLt = accStep (iblk c Wr 0 t) (iblk c Wr 1 t) (accAt accStep zeroAcc c Wr (t.val - 1) (Nat.lt_of_le_of_lt (Nat.sub_le _ _) t.isLt)) := by
  obtain ⟨n, hn⟩ := t
  cases n with
  | zero => exact absurd rfl h
  | succ n => rfl

/-! ## The invariant: the scoped buffers no window stages, the scratch among them at its contents -/

/-- The second region's four staging buffers, which this region does not touch. -/
def rest4 : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

theorem scopedRest_eq :
    (Pipeline.scopedRest (Ix := HIx 1) (Name := ℕ) (U := UU) (Lvl := ℕ) (Val := Elt F) spec0 c : sProp 𝕄)
      = iprop((∃ a, owns (c : Thread nD τ) scM fullShare a) ∗ rest4 (F := F) c) := by
  rw [scopedRest0_eq]; unfold rest4; simp only [scM, owns_whole]; rfl

/-- Before point `n` (after point `n - 1`): before the first point the scoped rest as the region finds it, then
    the scratch at what the point before left. -/
def PhiS : (n : ℕ) → n ≤ cfg0.N → sProp 𝕄
  | 0, _ => Pipeline.scopedRest (Ix := HIx 1) (Name := ℕ) (U := UU) (Lvl := ℕ) (Val := Elt F) spec0 c
  | n + 1, hn => iprop(owns (c : Thread nD τ) scM fullShare (accAt accStep zeroAcc c Wr n hn) ∗ rest4 (F := F) c)

theorem PhiS_zero (n : ℕ) (h : n ≤ cfg0.N) (hz : n = 0) :
    PhiS accStep zeroAcc c Wr n h = Pipeline.scopedRest (Ix := HIx 1) (Name := ℕ) (U := UU) (Lvl := ℕ) (Val := Elt F) spec0 c := by
  subst hz; rfl
theorem PhiS_succ (n : ℕ) (hn : n < cfg0.N) :
    PhiS accStep zeroAcc c Wr (n + 1) hn = iprop(owns (c : Thread nD τ) scM fullShare (accAt accStep zeroAcc c Wr n hn) ∗ rest4 (F := F) c) := rfl
theorem PhiS_pos (n : ℕ) (h : n ≤ cfg0.N) (hz : n ≠ 0) :
    PhiS accStep zeroAcc c Wr n h = iprop(owns (c : Thread nD τ) scM fullShare (accAt accStep zeroAcc c Wr (n - 1) (by omega)) ∗ rest4 (F := F) c) := by
  cases n with
  | zero => exact absurd rfl hz
  | succ n => rfl

/-! ## The proof data -/

/-- The arrays as the region finds them; after the body at point `t` each input's buffer at its block, the result
    window's at the totals of the scratch (read only where it is written back, at the last point); the invariant
    above; the core owing `O` throughout. -/
def dat : Dat τ (Elt F) (HIx 1) ℕ UU ℕ cfg0 c where
  A w := Wr (Pipeline.arrRef spec0 w)
  after w t := match w with
    | ⟨0, _⟩ => iblk c Wr 0 t
    | ⟨1, _⟩ => iblk c Wr 1 t
    | ⟨2, _⟩ => totals (accAt accStep zeroAcc c Wr t.val t.isLt)
  Φ t := PhiS accStep zeroAcc c Wr t.val (Nat.le_of_lt_succ t.isLt)
  q _ := fullShare
  owed _ := O
  recorded _ := Rec

local notation "𝔡" => dat accStep zeroAcc totals c Wr O Rec

theorem A_eq (w : Fin cfg0.W) : (𝔡).A w = Wr (Pipeline.arrRef spec0 w) := by dsimp only [dat]
theorem Phi_castSucc (t : Fin cfg0.N) : (𝔡).Φ t.castSucc = PhiS accStep zeroAcc c Wr t.val (Nat.le_of_lt t.isLt) := by
  dsimp only [dat]; simp only [Fin.coe_castSucc]
theorem after_0 (t : Fin cfg0.N) : (𝔡).after 0 t = iblk c Wr 0 t := by dsimp only [dat]
theorem after_1 (t : Fin cfg0.N) : (𝔡).after 1 t = iblk c Wr 1 t := by dsimp only [dat]
theorem after_2 (t : Fin cfg0.N) : (𝔡).after 2 t = totals (accAt accStep zeroAcc c Wr t.val t.isLt) := by dsimp only [dat]

/-- Each input's current staging buffer holds its block at every point. -/
theorem before_0 (t : Fin cfg0.N) (d) : (𝔡).before 0 t d = iblk c Wr 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (𝔡).before 1 t d = iblk c Wr 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body's runs over owned memrefs -/

/-- A whole memref owned at contents `X` is its buffer held whole at some contents it reads as `X`. -/
theorem owns_isWhole {sp : Space} {Sh : Shape} {e : EltTy} (M : Memref sig .tc sp Sh e) (h : M.IsWhole) (X : Sh.Idx → Elt F e) :
    (owns (Ix := HIx 1) (Name := ℕ) (U := UU) (Lvl := ℕ) (c : Thread nD τ) M fullShare X : sProp 𝕄)
      = iprop(∃ f : TcBody.Bf (F := F) c M, ⌜M.view.read (Elt F) f = X⌝ ∗ TcBody.pt c M f) := by
  unfold owns TcBody.pt; rw [h.set_eq_univ]

/-- A middle point's run leaves the scratch at `accStep` of the two blocks and what it held. -/
def MidSpec : Prop := (∀ (c : Dev nD) (i : grid0.Coords) (hi0 : (i 0).val ≠ 0) (hi6 : (i 0).val ≠ 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2) (f4 : TcBody.Bf (F := F) c M4),
    M4.view.read (Elt F) (TcBody.runMid c i hi0 hi6 M1 h1 M2 h2 M3 h3 M4 h4 f1 f2 f4).1
      = accStep (M1.view.read (Elt F) f1) (M2.view.read (Elt F) f2) (M4.view.read (Elt F) f4))
/-- The first point's run leaves it at `accStep` of the two blocks and the zero array. -/
def FirstSpec : Prop := (∀ (c : Dev nD) (i : grid0.Coords) (hi0 : (i 0).val = 0)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2),
    M4.view.read (Elt F) (TcBody.runFirst c i hi0 M1 h1 M2 h2 M3 h3 M4 h4 f1 f2).1
      = accStep (M1.view.read (Elt F) f1) (M2.view.read (Elt F) f2) zeroAcc)
/-- The last point's run steps the scratch and leaves the result window at its `totals`. -/
def LastSpec : Prop := (∀ (c : Dev nD) (i : grid0.Coords) (hi6 : (i 0).val = 6)
    (M1 : Memref sig .tc .vmem S2048x512 .f32) (h1 : M1.IsWhole) (M2 : Memref sig .tc .vmem S2048x512 .f32) (h2 : M2.IsWhole)
    (M3 : Memref sig .tc .smem S2 .f32) (h3 : M3.IsWhole) (M4 : Memref sig .tc .vmem S2x8x512 .f32) (h4 : M4.IsWhole)
    (f1 : TcBody.Bf (F := F) c M1) (f2 : TcBody.Bf (F := F) c M2) (f4 : TcBody.Bf (F := F) c M4),
    M4.view.read (Elt F) (TcBody.runLast c i hi6 M1 h1 M2 h2 M3 h3 M4 h4 f1 f2 f4).1.1
        = accStep (M1.view.read (Elt F) f1) (M2.view.read (Elt F) f2) (M4.view.read (Elt F) f4)
      ∧ M3.view.read (Elt F) (TcBody.runLast c i hi6 M1 h1 M2 h2 M3 h3 M4 h4 f1 f2 f4).1.2
        = totals (accStep (M1.view.read (Elt F) f1) (M2.view.read (Elt F) f2) (M4.view.read (Elt F) f4)))

section Runs

variable (i : grid0.Coords)
  (M1 : Memref sig .tc .vmem S2048x512 .f32) (h1 : M1.IsWhole) (M2 : Memref sig .tc .vmem S2048x512 .f32) (h2 : M2.IsWhole)
  (M3 : Memref sig .tc .smem S2 .f32) (h3 : M3.IsWhole) (M4 : Memref sig .tc .vmem S2x8x512 .f32) (h4 : M4.IsWhole)
  (x1 x2 : B2048 F)

/-- A middle point: the blocks and the result window as they were, the scratch stepped. -/
theorem ownsMid (hMid : MidSpec accStep) (hi0 : (i 0).val ≠ 0) (hi6 : (i 0).val ≠ 6) (a : BAcc F) (y : B2 F) (Ψ : PUnit → sProp 𝕄) :
    iprop(owns (c : Thread nD τ) M1 fullShare x1 ∗ owns (c : Thread nD τ) M2 fullShare x2 ∗ owns (c : Thread nD τ) M3 fullShare y
        ∗ owns (c : Thread nD τ) M4 fullShare a
        ∗ (iprop(owns (c : Thread nD τ) M1 fullShare x1 ∗ owns (c : Thread nD τ) M2 fullShare x2 ∗ owns (c : Thread nD τ) M3 fullShare y
            ∗ owns (c : Thread nD τ) M4 fullShare (accStep x1 x2 a)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%f3, %e3, H3⟩, ⟨%f4, %e4, H4⟩, Hk⟩
  iapply ((TcBody.runMid c i hi0 hi6 M1 h1 M2 h2 M3 h3 M4 h4 f1 f2 f4).2 f3 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  iexists _; isplitr
  · ipureintro; rw [hMid c i hi0 hi6 M1 h1 M2 h2 M3 h3 M4 h4 f1 f2 f4, e1, e2, e4]
  iexact H4

/-- The first point: the scratch at whatever it held is overwritten. -/
theorem ownsFirst (hFirst : FirstSpec accStep zeroAcc) (hi0 : (i 0).val = 0) (y : B2 F) (Ψ : PUnit → sProp 𝕄) :
    iprop(owns (c : Thread nD τ) M1 fullShare x1 ∗ owns (c : Thread nD τ) M2 fullShare x2 ∗ owns (c : Thread nD τ) M3 fullShare y
        ∗ (∃ a, owns (c : Thread nD τ) M4 fullShare a)
        ∗ (iprop(owns (c : Thread nD τ) M1 fullShare x1 ∗ owns (c : Thread nD τ) M2 fullShare x2 ∗ owns (c : Thread nD τ) M3 fullShare y
            ∗ owns (c : Thread nD τ) M4 fullShare (accStep x1 x2 zeroAcc)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%f3, %e3, H3⟩, ⟨%a, %f4, %e4, H4⟩, Hk⟩
  iapply ((TcBody.runFirst c i hi0 M1 h1 M2 h2 M3 h3 M4 h4 f1 f2).2 f3 f4 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  iexists _; isplitr
  · ipureintro; rw [hFirst c i hi0 M1 h1 M2 h2 M3 h3 M4 h4 f1 f2, e1, e2]
  iexact H4

/-- The last point: the scratch stepped, the result window at its totals. -/
theorem ownsLast (hLast : LastSpec accStep totals) (hi6 : (i 0).val = 6) (a : BAcc F) (Ψ : PUnit → sProp 𝕄) :
    iprop(owns (c : Thread nD τ) M1 fullShare x1 ∗ owns (c : Thread nD τ) M2 fullShare x2 ∗ (∃ y, owns (c : Thread nD τ) M3 fullShare y)
        ∗ owns (c : Thread nD τ) M4 fullShare a
        ∗ (iprop(owns (c : Thread nD τ) M1 fullShare x1 ∗ owns (c : Thread nD τ) M2 fullShare x2
            ∗ owns (c : Thread nD τ) M3 fullShare (totals (accStep x1 x2 a))
            ∗ owns (c : Thread nD τ) M4 fullShare (accStep x1 x2 a)) -∗ Ψ ⟨⟩))
      ⊢ wp frame (wpE (defs₀ (F := F)) Variants.none c none) Set.univ (cc0__tc_body i M1 h1 M2 h2 M3 h3 M4 h4) Ψ := by
  simp only [owns_isWhole c M1 h1, owns_isWhole c M2 h2, owns_isWhole c M3 h3, owns_isWhole c M4 h4]
  iintro ⟨⟨%f1, %e1, H1⟩, ⟨%f2, %e2, H2⟩, ⟨%y, %f3, %e3, H3⟩, ⟨%f4, %e4, H4⟩, Hk⟩
  iapply ((TcBody.runLast c i hi6 M1 h1 M2 h2 M3 h3 M4 h4 f1 f2 f4).2 f3 Set.univ Ψ)
  isplitl [H1]; · iexact H1
  isplitl [H2]; · iexact H2
  isplitl [H3]; · iexact H3
  isplitl [H4]; · iexact H4
  iintro ⟨H1, H2, H3, H4⟩
  iapply Hk
  isplitl [H1]
  · iexists f1; isplitr
    · ipureintro; exact e1
    · iexact H1
  isplitl [H2]
  · iexists f2; isplitr
    · ipureintro; exact e2
    · iexact H2
  isplitl [H3]
  · iexists _; isplitr
    · ipureintro; rw [(hLast c i hi6 M1 h1 M2 h2 M3 h3 M4 h4 f1 f2 f4).2, e1, e2, e4]
    iexact H3
  iexists _; isplitr
  · ipureintro; rw [(hLast c i hi6 M1 h1 M2 h2 M3 h3 M4 h4 f1 f2 f4).1, e1, e2, e4]
  iexact H4

end Runs

/-! ## Where the windows are idle, where the result window is written back -/

theorem coord_val : ∀ t : Fin cfg0.N, ((grid0.coords t) 0).val = t.val :=
  (by decide +kernel : ∀ t : Fin grid0.N, ((grid0.coords t) 0).val = t.val)
theorem live0 : ∀ t : Fin cfg0.N, cfg0.idle 0 (grid0.coords t) = false :=
  (by decide +kernel : ∀ t : Fin grid0.N, cfg0.idle 0 (grid0.coords t) = false)
theorem live1 : ∀ t : Fin cfg0.N, cfg0.idle 1 (grid0.coords t) = false :=
  (by decide +kernel : ∀ t : Fin grid0.N, cfg0.idle 1 (grid0.coords t) = false)
/-- Away from the last point the body stores nothing into the result window and the pipeline does not write it back. -/
theorem idle2 : ∀ t : Fin cfg0.N, t.val ≠ 6 → cfg0.idle 2 (grid0.coords t) = true :=
  (by decide +kernel : ∀ t : Fin grid0.N, t.val ≠ 6 → cfg0.idle 2 (grid0.coords t) = true)
theorem noFlush2 : ∀ t : Fin cfg0.N, t.val ≠ 6 → (cfg0.win 2).flush t = false :=
  (by decide +kernel : ∀ t : Fin grid0.N, t.val ≠ 6 → win0_2.flush t = false)
theorem live2 : ∀ t : Fin cfg0.N, t.val = 6 → cfg0.idle 2 (grid0.coords t) = false :=
  (by decide +kernel : ∀ t : Fin grid0.N, t.val = 6 → cfg0.idle 2 (grid0.coords t) = false)

theorem accAt_first (t : Fin cfg0.N) (h : t.val = 0) :
    accAt accStep zeroAcc c Wr t.val t.isLt = accStep (iblk c Wr 0 t) (iblk c Wr 1 t) zeroAcc := by
  obtain ⟨n, hn⟩ := t
  cases n with
  | zero => rfl
  | succ n => exact absurd h (Nat.succ_ne_zero n)

/-! ## The body obligation, at a generic point -/

/-- What the body is called with at point `t`, the windows one by one, -/
def bodyPre (t : Fin cfg0.N) : sProp 𝕄 :=
  iprop((𝔡).Φ t.castSucc ∗ (𝔡).owesAt none t.castSucc
    ∗ (∃ d, owns (c : Thread nD τ) (ms0 t) fullShare ((𝔡).before 0 t d))
    ∗ (∃ d, owns (c : Thread nD τ) (ms1 t) fullShare ((𝔡).before 1 t d))
    ∗ (∃ d, owns (c : Thread nD τ) (ms2 t) fullShare ((𝔡).before 2 t d)))

/-- and what it returns. -/
def bodyPost (t : Fin cfg0.N) : sProp 𝕄 :=
  iprop((𝔡).Φ t.succ ∗ (𝔡).owesAt none t.succ
    ∗ (𝔡).leavesExact 0 t ∗ (𝔡).leavesExact 1 t ∗ (𝔡).leavesExact 2 t)

set_option maxHeartbeats 1600000 in
/-- The body at any point: the inputs' memrefs hold their blocks; the point is the first, the last or one between;
    the invariant hands the body the scratch at what the point before left (at anything at the first point) and takes
    it back stepped; the result window is left alone but at the last point, where it takes the scratch's totals. -/
theorem sound_body (hMid : MidSpec accStep) (hFirst : FirstSpec accStep zeroAcc) (hLast : LastSpec accStep totals) (t : Fin cfg0.N) :
    bodyPre accStep zeroAcc totals c Wr O Rec t
      ⊢ wp frame (wpE (defs₀ (F := F)) Variants.none c none) Set.univ (bodyAt0 t) (fun _ => bodyPost accStep zeroAcc totals c Wr O Rec t) := by
  unfold bodyPre bodyPost bodyAt0
  simp only [before_0, before_1]
  rw [show (𝔡).owesAt none t.succ = (𝔡).owesAt none t.castSucc from rfl]
  rw [show (𝔡).Φ t.succ = PhiS accStep zeroAcc c Wr (t.val + 1) t.isLt from rfl, PhiS_succ]
  rw [show (𝔡).leavesExact 0 t = owns (c : Thread nD τ) (ms0 t) fullShare ((𝔡).after 0 t) from by
      unfold Dat.leavesExact; rw [live0 t], after_0]
  rw [show (𝔡).leavesExact 1 t = owns (c : Thread nD τ) (ms1 t) fullShare ((𝔡).after 1 t) from by
      unfold Dat.leavesExact; rw [live1 t], after_1]
  have hN : t.val < 7 := lt_of_lt_of_eq t.isLt (show cfg0.N = 7 from N_0)
  have hco := coord_val t
  by_cases h0 : t.val = 0
  · rw [Dat.leavesExact_idle (𝔡) 2 t (idle2 t (by omega)) (noFlush2 t (by omega))]
    rw [Phi_castSucc, PhiS_zero accStep zeroAcc c Wr _ _ h0, scopedRest_eq, accAt_first accStep zeroAcc c Wr t h0]
    iintro ⟨⟨HS, Hr4⟩, Ho, ⟨%d0, H0⟩, ⟨%d1, H1⟩, ⟨%d2, H2⟩⟩
    iapply (ownsFirst accStep zeroAcc c (i := grid0.coords t) (M1 := ms0 t) (h1 := hs0 t) (M2 := ms1 t) (h2 := hs1 t) (M3 := ms2 t) (h3 := hs2 t)
      (M4 := scM) (h4 := Memref.isWhole_whole _) (x1 := iblk c Wr 0 t) (x2 := iblk c Wr 1 t) (hFirst := hFirst) (hi0 := by rw [hco]; exact h0))
    isplitl [H0]; · iexact H0
    isplitl [H1]; · iexact H1
    isplitl [H2]; · iexact H2
    isplitl [HS]; · iexact HS
    iintro ⟨H0, H1, H2, HS⟩
    isplitl [HS Hr4]
    · isplitl [HS]
      · iexact HS
      · iexact Hr4
    isplitl [Ho]; · iexact Ho
    isplitl [H0]; · iexact H0
    isplitl [H1]; · iexact H1
    iexists _; iexact H2
  · rw [Phi_castSucc, PhiS_pos accStep zeroAcc c Wr _ _ h0, accAt_pos accStep zeroAcc c Wr t h0]
    by_cases h6 : t.val = 6
    · rw [show (𝔡).leavesExact 2 t = owns (c : Thread nD τ) (ms2 t) fullShare ((𝔡).after 2 t) from by
          unfold Dat.leavesExact; rw [live2 t h6], after_2, accAt_pos accStep zeroAcc c Wr t h0]
      iintro ⟨⟨HS, Hr4⟩, Ho, ⟨%d0, H0⟩, ⟨%d1, H1⟩, ⟨%d2, H2⟩⟩
      iapply (ownsLast accStep totals c (i := grid0.coords t) (M1 := ms0 t) (h1 := hs0 t) (M2 := ms1 t) (h2 := hs1 t) (M3 := ms2 t) (h3 := hs2 t)
        (M4 := scM) (h4 := Memref.isWhole_whole _) (x1 := iblk c Wr 0 t) (x2 := iblk c Wr 1 t) (hLast := hLast) (hi6 := by rw [hco]; exact h6))
      isplitl [H0]; · iexact H0
      isplitl [H1]; · iexact H1
      isplitl [H2]; · iexists _; iexact H2
      isplitl [HS]; · iexact HS
      iintro ⟨H0, H1, H2, HS⟩
      isplitl [HS Hr4]
      · isplitl [HS]
        · iexact HS
        · iexact Hr4
      isplitl [Ho]; · iexact Ho
      isplitl [H0]; · iexact H0
      isplitl [H1]; · iexact H1
      iexact H2
    · rw [Dat.leavesExact_idle (𝔡) 2 t (idle2 t h6) (noFlush2 t h6)]
      iintro ⟨⟨HS, Hr4⟩, Ho, ⟨%d0, H0⟩, ⟨%d1, H1⟩, ⟨%d2, H2⟩⟩
      iapply (ownsMid accStep c (i := grid0.coords t) (M1 := ms0 t) (h1 := hs0 t) (M2 := ms1 t) (h2 := hs1 t) (M3 := ms2 t) (h3 := hs2 t)
        (M4 := scM) (h4 := Memref.isWhole_whole _) (x1 := iblk c Wr 0 t) (x2 := iblk c Wr 1 t) (hMid := hMid) (hi0 := by rw [hco]; exact h0) (hi6 := by rw [hco]; exact h6))
      isplitl [H0]; · iexact H0
      isplitl [H1]; · iexact H1
      isplitl [H2]; · iexact H2
      isplitl [HS]; · iexact HS
      iintro ⟨H0, H1, H2, HS⟩
      isplitl [HS Hr4]
      · isplitl [HS]
        · iexact HS
        · iexact Hr4
      isplitl [Ho]; · iexact Ho
      isplitl [H0]; · iexact H0
      isplitl [H1]; · iexact H1
      iexists _; iexact H2

/-- The library's body obligation, at every point. -/
theorem body_obligation (hMid : MidSpec accStep) (hFirst : FirstSpec accStep zeroAcc) (hLast : LastSpec accStep totals) : BodyObligation (𝔡) (defs₀ (F := F)) Variants.none none Set.univ := fun t => by
  rw [bigSep_W0, bigSep_W0]
  exact sound_body accStep zeroAcc totals c Wr O Rec hMid hFirst hLast t

/-- The scoped rest as the region finds it is the invariant before the first point. -/
theorem hin0 : (Pipeline.scopedRest (Ix := HIx 1) (Name := ℕ) (U := UU) (Lvl := ℕ) (Val := Elt F) spec0 c : sProp 𝕄) ⊢ (𝔡).Φ 0 := by
  rw [show (𝔡).Φ 0 = PhiS accStep zeroAcc c Wr 0 (Nat.zero_le _) from rfl, PhiS_zero accStep zeroAcc c Wr 0 _ rfl]

/-- After the last point the invariant gives the scoped rest back: the scratch's contents are forgotten. -/
theorem hout0 : (𝔡).Φ (Fin.last cfg0.N) ⊢ (Pipeline.scopedRest (Ix := HIx 1) (Name := ℕ) (U := UU) (Lvl := ℕ) (Val := Elt F) spec0 c : sProp 𝕄) := by
  rw [show (𝔡).Φ (Fin.last cfg0.N) = PhiS accStep zeroAcc c Wr (Fin.last cfg0.N).val (Nat.le_of_lt_succ (Fin.last cfg0.N).isLt) from rfl,
    PhiS_pos accStep zeroAcc c Wr _ _ (by rw [Fin.val_last]; have : cfg0.N = 7 := N_0; omega), scopedRest_eq]
  iintro ⟨HS, Hr⟩
  isplitl [HS]
  · iexists _; iexact HS
  · iexact Hr

end Cert.Proof.KI.Reg0

end
-- ==== Proof.Reg2I.lean ====
/-
  The second TensorCore region as a pipeline: no grid (one point); three input windows (the sixteen tiles' partial sums
  and counts, [16, 16] each, and the first region's two partial results) and the one-element result window, which takes
  the quotient of the two grand totals.
-/
import proofs.«211649_g4638564679882_cont_8to1c4_562_19_alg».proof.Proof.CommonI
import proofs.«211649_g4638564679882_cont_8to1c4_562_19_alg».proof.Proof.TcBodyI
import Idealize.ShloMosaic.Lib.Pipeline.FrameBody

set_option maxRecDepth 16384
set_option Elab.async false

noncomputable section

namespace Cert.Proof.KI.Reg2

open Cert.KernelIdeal Cert.KernelIdeal.Gen
open Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev B16 (F : FTy → Type) : Type := S16x16.Idx → Elt F .f32
abbrev B2 (F : FTy → Type) : Type := S2.Idx → Elt F .f32
abbrev B1 (F : FTy → Type) : Type := S1.Idx → Elt F .f32

/-! ## What the body computes (its equation with the body's run is a hypothesis here) -/

variable (quotient : B16 F → B16 F → B2 F → B1 F)

-- core `c`'s TensorCore buffers when the region is entered
variable (c : Dev nD) (Wr : (b : Ref sig .tc) → Buf (Elt F) ((c : Thread nD τ).loc b))
-- what the core owes through the region, and a bound on the wait pairs recorded before it
variable (O : CellTallies nD τ sig (HIx 1)) (Rec : Set (SemLoc sig × HIx 1))

/-- Window `w`'s block (the whole array) read off its array as the region finds it. -/
def iblk (w : Fin cfg2.W) (t : Fin cfg2.N) : ((cfg2.win w).xblock (cfg2.grid.coords t)).Idx → Elt F (cfg2.win w).elt :=
  ((cfg2.win w).blk t).view.read (Elt F) (Wr (Pipeline.arrRef spec2 w))

abbrev ms0 (t : Fin cfg2.N) : Memref sig .tc .vmem S16x16 .f32 := win2_0.stage (cfg2.slots t 0)
abbrev ms1 (t : Fin cfg2.N) : Memref sig .tc .vmem S16x16 .f32 := win2_1.stage (cfg2.slots t 1)
abbrev ms2 (t : Fin cfg2.N) : Memref sig .tc .smem S2 .f32 := win2_2.stage (cfg2.slots t 2)
abbrev ms3 (t : Fin cfg2.N) : Memref sig .tc .smem S1 .f32 := win2_3.stage (cfg2.slots t 3)

/-- The arrays as the region finds them; after the body each input's buffer at its array, the result's at the quotient;
    the invariant the scoped buffers no window stages; the core owing `O` throughout. -/
def dat : Dat τ (Elt F) (HIx 1) ℕ UU ℕ cfg2 c where
  A w := Wr (Pipeline.arrRef spec2 w)
  after w t := match w with
    | ⟨0, _⟩ => iblk c Wr 0 t
    | ⟨1, _⟩ => iblk c Wr 1 t
    | ⟨2, _⟩ => iblk c Wr 2 t
    | ⟨3, _⟩ => quotient (iblk c Wr 0 t) (iblk c Wr 1 t) (iblk c Wr 2 t)
  Φ _ := Pipeline.scopedRest (Ix := HIx 1) (Name := ℕ) (U := UU) (Lvl := ℕ) (Val := Elt F) spec2 c
  q _ := fullShare
  owed _ := O
  recorded _ := Rec

local notation "𝔡" => dat quotient c Wr O Rec

theorem A_eq (w : Fin cfg2.W) : (𝔡).A w = Wr (Pipeline.arrRef spec2 w) := by dsimp only [dat]
theorem after_0 (t : Fin cfg2.N) : (𝔡).after 0 t = iblk c Wr 0 t := by dsimp only [dat]
theorem after_1 (t : Fin cfg2.N) : (𝔡).after 1 t = iblk c Wr 1 t := by dsimp only [dat]
theorem after_2 (t : Fin cfg2.N) : (𝔡).after 2 t = iblk c Wr 2 t := by dsimp only [dat]
theorem after_3 (t : Fin cfg2.N) : (𝔡).after 3 t = quotient (iblk c Wr 0 t) (iblk c Wr 1 t) (iblk c Wr 2 t) := by dsimp only [dat]

theorem before_0 (t : Fin cfg2.N) (d) : (𝔡).before 0 t d = iblk c Wr 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg2.N) (d) : (𝔡).before 1 t d = iblk c Wr 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg2.N) (d) : (𝔡).before 2 t d = iblk c Wr 2 t :=
  ((𝔡).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body's run over owned memrefs -/

theorem owns_isWhole {sp : Space} {Sh : Shape} {e : EltTy} (M : Memref sig .tc sp Sh e) (h : M.IsWhole) (X : Sh.Idx → Elt F e) :
    (owns (Ix := HIx 1) (Name := ℕ) (U := UU) (Lvl := ℕ) (c : Thread nD τ) M fullShare X : sProp 𝕄)
      = iprop(∃ f : TcBody.Bf (F := F) c M, ⌜M.view.read (Elt F) f = X⌝ ∗ TcBody.pt c M f) := by
  unfold owns TcBody.pt; rw [h.set_eq_univ]

/-- The run leaves the result window at `quotient` of the three inputs. -/
def CombSpec : Prop := ∀ (c : Dev nD)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (g0 : TcBody.Bf (F := F) c A0) (g1 : TcBody.Bf (F := F) c A1) (g2 : TcBody.Bf (F := F) c A2),
    A3.view.read (Elt F) (TcBody.runCombine c A0 h0 A1 h1 A2 h2 A3 h3 g0 g1 g2).1
      = quotient (A0.view.read (Elt F) g0) (A1.view.read (Elt F) g1) (A2.view.read (Elt F) g2)

theorem ownsCombine (hComb : CombSpec quotient)
    (A0 : Memref sig .tc .vmem S16x16 .f32) (h0 : A0.IsWhole) (A1 : Memref sig .tc .vmem S16x16 .f32) (h1 : A1.IsWhole)
    (A2 : Memref sig .tc .smem S2 .f32) (h2 : A2.IsWhole) (A3 : Memref sig .tc .smem S1 .f32) (h3 : A3.IsWhole)
    (x0 x1 : B16 F) (x2 : B2 F) (Ψ : PUnit → sProp 𝕄) :
    iprop(owns (c : Thread nD τ) A0 fullShare x0 ∗ owns (c : Thread nD τ) A1 fullShare x1 ∗ owns (c : Thread nD τ) A2 fullShare x2
        ∗ (∃ y, owns (c : Thread nD τ) A3 fullShare y)
        ∗ (iprop(owns (c : Thread nD τ) A0 fullShare x0 ∗ owns (c : Thread nD τ) A1 fullShare x1 ∗ owns (c : Thread nD τ) A2 fullShare x2
            ∗ owns (c : Thread nD τ) A3 fullShare (quotient x0 x1 x2)) -∗ Ψ ⟨⟩))
      ⊢ wp frame (wpE (defs₀ (F := F)) Variants.none c none) Set.univ (cc2__combine_body A0 h0 A1 h1 A2 h2 A3 h3) Ψ := by
  simp only [owns_isWhole c A0 h0, owns_isWhole c A1 h1, owns_isWhole c A2 h2, owns_isWhole c A3 h3]
  iintro ⟨⟨%g0, %e0, H0⟩, ⟨%g1, %e1, H1⟩, ⟨%g2, %e2, H2⟩, ⟨%y, %g3, %e3, H3⟩, Hk⟩
  iapply ((TcBody.runCombine c A0 h0 A1 h1 A2 h2 A3 h3 g0 g1 g2).2 g3 Set.univ Ψ)
  isplitl [H0]; · iexact H0
  isplitl [H1]; · iexact H1
  isplitl [H2]; · iexact H2
  isplitl [H3]; · iexact H3
  iintro ⟨H0, H1, H2, H3⟩
  iapply Hk
  isplitl [H0]
  · iexists g0; isplitr
    · ipureintro; exact e0
    · iexact H0
  isplitl [H1]
  · iexists g1; isplitr
    · ipureintro; exact e1
    · iexact H1
  isplitl [H2]
  · iexists g2; isplitr
    · ipureintro; exact e2
    · iexact H2
  iexists _; isplitr
  · ipureintro; rw [hComb c A0 h0 A1 h1 A2 h2 A3 h3 g0 g1 g2, e0, e1, e2]
  · iexact H3

/-! ## The body obligation -/

theorem live : ∀ (w : Fin cfg2.W) (t : Fin cfg2.N), cfg2.idle w (cfg2.grid.coords t) = false := fun _ _ => rfl

def bodyPre (t : Fin cfg2.N) : sProp 𝕄 :=
  iprop((𝔡).Φ t.castSucc ∗ (𝔡).owesAt none t.castSucc
    ∗ (∃ d, owns (c : Thread nD τ) (ms0 t) fullShare ((𝔡).before 0 t d))
    ∗ (∃ d, owns (c : Thread nD τ) (ms1 t) fullShare ((𝔡).before 1 t d))
    ∗ (∃ d, owns (c : Thread nD τ) (ms2 t) fullShare ((𝔡).before 2 t d))
    ∗ (∃ d, owns (c : Thread nD τ) (ms3 t) fullShare ((𝔡).before 3 t d)))

def bodyPost (t : Fin cfg2.N) : sProp 𝕄 :=
  iprop((𝔡).Φ t.succ ∗ (𝔡).owesAt none t.succ
    ∗ owns (c : Thread nD τ) (ms0 t) fullShare ((𝔡).after 0 t) ∗ owns (c : Thread nD τ) (ms1 t) fullShare ((𝔡).after 1 t)
    ∗ owns (c : Thread nD τ) (ms2 t) fullShare ((𝔡).after 2 t) ∗ owns (c : Thread nD τ) (ms3 t) fullShare ((𝔡).after 3 t))

theorem sound_body (hComb : CombSpec quotient) (t : Fin cfg2.N) :
    bodyPre quotient c Wr O Rec t
      ⊢ wp frame (wpE (defs₀ (F := F)) Variants.none c none) Set.univ (bodyAt2 t) (fun _ => bodyPost quotient c Wr O Rec t) := by
  unfold bodyPre bodyPost bodyAt2
  simp only [before_0, before_1, before_2, after_0, after_1, after_2, after_3]
  rw [show (𝔡).owesAt none t.succ = (𝔡).owesAt none t.castSucc from rfl, show (𝔡).Φ t.succ = (𝔡).Φ t.castSucc from rfl]
  iintro ⟨HΦ, Ho, ⟨%d0, H0⟩, ⟨%d1, H1⟩, ⟨%d2, H2⟩, ⟨%d3, H3⟩⟩
  iapply (ownsCombine quotient c hComb (ms0 t) (hstage2_0 0) (ms1 t) (hstage2_1 0) (ms2 t) (hstage2_2 0) (ms3 t) (hstage2_3 0)
    (iblk c Wr 0 t) (iblk c Wr 1 t) (iblk c Wr 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (hComb : CombSpec quotient) : BodyObligation (𝔡) (defs₀ (F := F)) Variants.none none Set.univ := fun t => by
  rw [bigSep_W2, bigSep_W2]
  exact sound_body quotient c Wr O Rec hComb t

end Cert.Proof.KI.Reg2

end
-- ==== Proof.ScTileI.lean ====
/-
  The SparseCore side of the kernel's proof. Sixteen tiles each take 128 rows of the two `[16384,512]` arrays, in four
  chunks of 32 rows copied into two pairs of scratches (a chunk's copies issued while the chunk before it is worked on,
  each copy alone on its semaphore), and fold over rows and sixteen-lane column blocks two sixteen-lane accumulators:
  where the second array's lane exceeds the threshold, the squared difference of the two lanes and one; elsewhere zero.
  Each tile writes its two accumulators to its own row of the two `[16,16]` results.

  Here: that value, in the kernel's own order (`tileSum`, `tileCnt`, `scSums`, `scCnts`); what the launch handshakes
  carry (`P`: the big arrays as read shares, the results row by row); the tile's body once at a symbolic tile
  (`tile_body`, `tileObl`: the loops at invariants that carry the recurrence so far); and how the SparseCore's operands
  split among its tiles and join again (`vecSplit`).
-/
import proofs.«211649_g4638564679882_cont_8to1c4_562_19_alg».proof.Proof.CommonI
import Idealize.ShloMosaic.Lib.ValueIdx

noncomputable section

namespace Cert.Proof.KI.ScTile

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The value: the tile's two accumulators, in the kernel's own order -/

/-- Contents of the two big arrays and of the two small results. -/
abbrev Big (F : FTy → Type) : Type := S16384x512.Idx → Elt F .f32
abbrev Small (F : FTy → Type) : Type := S16x16.Idx → Elt F .f32
/-- The two carried vectors: the masked squared differences' sums and the mask's counts, sixteen lanes each. -/
abbrev QN (F : FTy → Type) : Type := FVec F S16 .f32 × FVec F S16 .f32

/-- One column block: with `s`, `t` its sixteen lanes of the two arrays, the lanes where `t` exceeds the threshold add
    `(s - t)²` to the first accumulator and one to the second; the other lanes add zero. -/
def stepQN (s t : FVec F S16 .f32) (p : QN F) : QN F :=
  (addf p.1 (select (cmpf .ogt t (broadcast S16 (Scalar.ofBits .f32 0x3D4CCCCD#32))) (mulf (subf s t) (subf s t)) (broadcast S16 (Scalar.ofBits .f32 0x00000000#32))),
   addf p.2 (select (cmpf .ogt t (broadcast S16 (Scalar.ofBits .f32 0x3D4CCCCD#32))) (broadcast S16 (Scalar.ofBits .f32 0x3F800000#32)) (broadcast S16 (Scalar.ofBits .f32 0x00000000#32))))

/-- Both accumulators start from zero. -/
def qn0 : QN F := (broadcast S16 (Scalar.ofBits .f32 0x00000000#32), broadcast S16 (Scalar.ofBits .f32 0x00000000#32))

/-- Chunk 0: the sixteen lanes at row `r`, column block `j` of a chunk held in a scratch, as a load reads them. -/
def blkS0 (fs : S32x512.Idx → Elt F .f32) (r : Fin k1_t1_loop.trips) (j : Fin k1_t2_loop.trips) : FVec F S16 .f32 :=
  shapeCast S16 ((Memref.whole cc1_scratch0 : Memref sig .scVector .vmem S32x512 .f32).view.readAt (Elt F) (Rect.unit (s := S32x512) (k1_off2 r j) S1x16.size (k1_off2_inb r j)).toLoadRect fs) shapeCasts_S1x16_S16
def blkT0 (ft : S32x512.Idx → Elt F .f32) (r : Fin k1_t1_loop.trips) (j : Fin k1_t2_loop.trips) : FVec F S16 .f32 :=
  shapeCast S16 ((Memref.whole cc1_scratch2 : Memref sig .scVector .vmem S32x512 .f32).view.readAt (Elt F) (Rect.unit (s := S32x512) (k1_off2 r j) S1x16.size (k1_off2_inb r j)).toLoadRect ft) shapeCasts_S1x16_S16
/-- The accumulators after the first `j` column blocks of row `r`. -/
def colFold0 (fs ft : S32x512.Idx → Elt F .f32) (r : Fin k1_t1_loop.trips) : ℕ → QN F → QN F
  | 0, p => p
  | j + 1, p => if h : j < k1_t2_loop.trips then stepQN (blkS0 fs r ⟨j, h⟩) (blkT0 ft r ⟨j, h⟩) (colFold0 fs ft r j p) else colFold0 fs ft r j p
/-- The accumulators after the first `r` rows. -/
def rowFold0 (fs ft : S32x512.Idx → Elt F .f32) : ℕ → QN F → QN F
  | 0, p => p
  | r + 1, p => if h : r < k1_t1_loop.trips then colFold0 fs ft ⟨r, h⟩ k1_t2_loop.trips (rowFold0 fs ft r p) else rowFold0 fs ft r p

/-- Chunk 1: the sixteen lanes at row `r`, column block `j` of a chunk held in a scratch, as a load reads them. -/
def blkS1 (fs : S32x512.Idx → Elt F .f32) (r : Fin k1_t3_loop.trips) (j : Fin k1_t4_loop.trips) : FVec F S16 .f32 :=
  shapeCast S16 ((Memref.whole cc1_scratch1 : Memref sig .scVector .vmem S32x512 .f32).view.readAt (Elt F) (Rect.unit (s := S32x512) (k1_off3 r j) S1x16.size (k1_off3_inb r j)).toLoadRect fs) shapeCasts_S1x16_S16
def blkT1 (ft : S32x512.Idx → Elt F .f32) (r : Fin k1_t3_loop.trips) (j : Fin k1_t4_loop.trips) : FVec F S16 .f32 :=
  shapeCast S16 ((Memref.whole cc1_scratch3 : Memref sig .scVector .vmem S32x512 .f32).view.readAt (Elt F) (Rect.unit (s := S32x512) (k1_off3 r j) S1x16.size (k1_off3_inb r j)).toLoadRect ft) shapeCasts_S1x16_S16
/-- The accumulators after the first `j` column blocks of row `r`. -/
def colFold1 (fs ft : S32x512.Idx → Elt F .f32) (r : Fin k1_t3_loop.trips) : ℕ → QN F → QN F
  | 0, p => p
  | j + 1, p => if h : j < k1_t4_loop.trips then stepQN (blkS1 fs r ⟨j, h⟩) (blkT1 ft r ⟨j, h⟩) (colFold1 fs ft r j p) else colFold1 fs ft r j p
/-- The accumulators after the first `r` rows. -/
def rowFold1 (fs ft : S32x512.Idx → Elt F .f32) : ℕ → QN F → QN F
  | 0, p => p
  | r + 1, p => if h : r < k1_t3_loop.trips then colFold1 fs ft ⟨r, h⟩ k1_t4_loop.trips (rowFold1 fs ft r p) else rowFold1 fs ft r p

/-- Chunk 2: the sixteen lanes at row `r`, column block `j` of a chunk held in a scratch, as a load reads them. -/
def blkS2 (fs : S32x512.Idx → Elt F .f32) (r : Fin k1_t5_loop.trips) (j : Fin k1_t6_loop.trips) : FVec F S16 .f32 :=
  shapeCast S16 ((Memref.whole cc1_scratch0 : Memref sig .scVector .vmem S32x512 .f32).view.readAt (Elt F) (Rect.unit (s := S32x512) (k1_off4 r j) S1x16.size (k1_off4_inb r j)).toLoadRect fs) shapeCasts_S1x16_S16
def blkT2 (ft : S32x512.Idx → Elt F .f32) (r : Fin k1_t5_loop.trips) (j : Fin k1_t6_loop.trips) : FVec F S16 .f32 :=
  shapeCast S16 ((Memref.whole cc1_scratch2 : Memref sig .scVector .vmem S32x512 .f32).view.readAt (Elt F) (Rect.unit (s := S32x512) (k1_off4 r j) S1x16.size (k1_off4_inb r j)).toLoadRect ft) shapeCasts_S1x16_S16
/-- The accumulators after the first `j` column blocks of row `r`. -/
def colFold2 (fs ft : S32x512.Idx → Elt F .f32) (r : Fin k1_t5_loop.trips) : ℕ → QN F → QN F
  | 0, p => p
  | j + 1, p => if h : j < k1_t6_loop.trips then stepQN (blkS2 fs r ⟨j, h⟩) (blkT2 ft r ⟨j, h⟩) (colFold2 fs ft r j p) else colFold2 fs ft r j p
/-- The accumulators after the first `r` rows. -/
def rowFold2 (fs ft : S32x512.Idx → Elt F .f32) : ℕ → QN F → QN F
  | 0, p => p
  | r + 1, p => if h : r < k1_t5_loop.trips then colFold2 fs ft ⟨r, h⟩ k1_t6_loop.trips (rowFold2 fs ft r p) else rowFold2 fs ft r p

/-- Chunk 3: the sixteen lanes at row `r`, column block `j` of a chunk held in a scratch, as a load reads them. -/
def blkS3 (fs : S32x512.Idx → Elt F .f32) (r : Fin k1_t7_loop.trips) (j : Fin k1_t8_loop.trips) : FVec F S16 .f32 :=
  shapeCast S16 ((Memref.whole cc1_scratch1 : Memref sig .scVector .vmem S32x512 .f32).view.readAt (Elt F) (Rect.unit (s := S32x512) (k1_off5 r j) S1x16.size (k1_off5_inb r j)).toLoadRect fs) shapeCasts_S1x16_S16
def blkT3 (ft : S32x512.Idx → Elt F .f32) (r : Fin k1_t7_loop.trips) (j : Fin k1_t8_loop.trips) : FVec F S16 .f32 :=
  shapeCast S16 ((Memref.whole cc1_scratch3 : Memref sig .scVector .vmem S32x512 .f32).view.readAt (Elt F) (Rect.unit (s := S32x512) (k1_off5 r j) S1x16.size (k1_off5_inb r j)).toLoadRect ft) shapeCasts_S1x16_S16
/-- The accumulators after the first `j` column blocks of row `r`. -/
def colFold3 (fs ft : S32x512.Idx → Elt F .f32) (r : Fin k1_t7_loop.trips) : ℕ → QN F → QN F
  | 0, p => p
  | j + 1, p => if h : j < k1_t8_loop.trips then stepQN (blkS3 fs r ⟨j, h⟩) (blkT3 ft r ⟨j, h⟩) (colFold3 fs ft r j p) else colFold3 fs ft r j p
/-- The accumulators after the first `r` rows. -/
def rowFold3 (fs ft : S32x512.Idx → Elt F .f32) : ℕ → QN F → QN F
  | 0, p => p
  | r + 1, p => if h : r < k1_t7_loop.trips then colFold3 fs ft ⟨r, h⟩ k1_t8_loop.trips (rowFold3 fs ft r p) else rowFold3 fs ft r p

/-- The rows of chunk `c` of tile `L` in a big array: thirty-two rows from row `14336 + 128 · L 1 + 32 · c`. -/
abbrev chunkR (L : grid1.Coords) (c : Fin 4) : Rect S16384x512 :=
  Rect.unit (s := S16384x512) (k1_off1 L (BitVec.ofNat 32 (32 * c.val))) S32x512.size (k1_off1_inb L c)
/-- What a copy of that chunk lands in a scratch. -/
def chunkS (x0 : Big F) (L : grid1.Coords) (c : Fin 4) : S32x512.Idx → Elt F .f32 :=
  ((Memref.whole main_v0_scv : Memref sig .scVector .hbm S16384x512 .f32).slice (chunkR L c) (fun _ => rfl)).view.read (Elt F) x0
def chunkT (x1 : Big F) (L : grid1.Coords) (c : Fin 4) : S32x512.Idx → Elt F .f32 :=
  ((Memref.whole main_v1_scv : Memref sig .scVector .hbm S16384x512 .f32).slice (chunkR L c) (fun _ => rfl)).view.read (Elt F) x1

/-- The tile's two accumulators after its four chunks, each chunk's rows folded onto the chunks before it, from zero. -/
def tileAcc (x0 x1 : Big F) (L : grid1.Coords) : QN F :=
  rowFold3 (chunkS x0 L 3) (chunkT x1 L 3) k1_t7_loop.trips
    (rowFold2 (chunkS x0 L 2) (chunkT x1 L 2) k1_t5_loop.trips
      (rowFold1 (chunkS x0 L 1) (chunkT x1 L 1) k1_t3_loop.trips
        (rowFold0 (chunkS x0 L 0) (chunkT x1 L 0) k1_t1_loop.trips qn0)))

/-- The grid coordinates of tile `w` of the one SparseCore. -/
def coordsW (w : Fin 16) : grid1.Coords :=
  fun | 0 => (⟨0, by decide⟩ : Fin 1) | 1 => w | ⟨_ + 2, h⟩ => absurd h (Nat.not_lt.2 (Nat.le_add_left _ _))

/-- Tile `w`'s sums and counts. -/
def tileSum (x0 x1 : Big F) (w : Fin 16) : FVec F S16 .f32 := (tileAcc x0 x1 (coordsW w)).1
def tileCnt (x0 x1 : Big F) (w : Fin 16) : FVec F S16 .f32 := (tileAcc x0 x1 (coordsW w)).2
/-- The two results: row `w` is tile `w`'s. -/
def scSums (x0 x1 : Big F) : Small F := fun idx => tileSum x0 x1 (idx 0) (ValueIdx.ix1 (idx 1))
def scCnts (x0 x1 : Big F) : Small F := fun idx => tileCnt x0 x1 (idx 0) (ValueIdx.ix1 (idx 1))

/-! ## What the handshakes carry -/

theorem hdiv : 16 ∣ S16x16.size 0 := ⟨1, rfl⟩
/-- Row `i` of a `[16,16]` array. -/
abbrev row (i : Fin 16) : Rect S16x16 := Rect.part (s := S16x16) (a₀ := 0) hdiv i
abbrev rowSet (i : Fin 16) : Finset S16x16.Idx := ((Memref.whole main_v3_0_scv : Memref sig .scVector .hbm S16x16 .f32).view.slice (row i)).set

/-- Tile `i`'s read share of a big array. -/
abbrev tok (i : Fin 16) : PosShare TreeShare := Transfers.shareTok fullShare 16 i

abbrev srcTok (x0 : Big F) (d : Dev nD) (i : Fin 16) : sProp 𝕄 := srcLoc d ↦{tok i} x0
abbrev tarTok (x1 : Big F) (d : Dev nD) (i : Fin 16) : sProp 𝕄 := tarLoc d ↦{tok i} x1
abbrev sumRow (d : Dev nD) (i : Fin 16) (f : Small F) : sProp 𝕄 := scSumLoc d ↦[rowSet i]{fullShare} f
abbrev cntRow (d : Dev nD) (i : Fin 16) (f : Small F) : sProp 𝕄 := scCntLoc d ↦[rowSet i]{fullShare} f

/-- The call hands the SparseCore the two big arrays whole at `x0`, `x1` and the two results whole at anything, and takes
    them back with the results at the tiles' sums and counts; tile `i` is handed a read share of each big array and row
    `i` of each result, and hands them back with its row at its own sums and counts. -/
def P (x0 x1 : Big F) : (K (F := F)).Pay (nD := nD) (Val := Elt F) (Name := ℕ) (U := UU) where
  st := fun q d _ => match q with
    | 0 => iprop((srcLoc d ↦{fullShare} x0) ∗ (tarLoc d ↦{fullShare} x1) ∗ (∃ f, scSumLoc d ↦{fullShare} f) ∗ (∃ f, scCntLoc d ↦{fullShare} f))
  dn := fun q d _ => match q with
    | 0 => iprop((srcLoc d ↦{fullShare} x0) ∗ (tarLoc d ↦{fullShare} x1) ∗ (scSumLoc d ↦{fullShare} scSums x0 x1) ∗ (scCntLoc d ↦{fullShare} scCnts x0 x1))
  go := fun q d _ i => match q with
    | 0 => iprop(srcTok x0 d (Fin.cast nSub_zero i) ∗ tarTok x1 d (Fin.cast nSub_zero i) ∗ (∃ f, sumRow d (Fin.cast nSub_zero i) f) ∗ (∃ f, cntRow d (Fin.cast nSub_zero i) f))
  td := fun q d _ i => match q with
    | 0 => iprop(srcTok x0 d (Fin.cast nSub_zero i) ∗ tarTok x1 d (Fin.cast nSub_zero i) ∗ sumRow d (Fin.cast nSub_zero i) (scSums x0 x1) ∗ cntRow d (Fin.cast nSub_zero i) (scCnts x0 x1))
  x := fun _ _ => iprop(emp)

instance P_storable (x0 x1 : Big F) : (P (F := F) x0 x1).IsStorable where
  st q d _ := match q with
    | 0 => (inferInstance : BI.Storable (upEmb : UEmb _ 𝕄) iprop((srcLoc d ↦{fullShare} x0) ∗ (tarLoc d ↦{fullShare} x1) ∗ (∃ f, scSumLoc d ↦{fullShare} f) ∗ (∃ f, scCntLoc d ↦{fullShare} f)))
  dn q d _ := match q with
    | 0 => (inferInstance : BI.Storable (upEmb : UEmb _ 𝕄) iprop((srcLoc d ↦{fullShare} x0) ∗ (tarLoc d ↦{fullShare} x1) ∗ (scSumLoc d ↦{fullShare} scSums x0 x1) ∗ (scCntLoc d ↦{fullShare} scCnts x0 x1)))
  go q d _ i := match q with
    | 0 => (inferInstance : BI.Storable (upEmb : UEmb _ 𝕄)
        iprop(srcTok x0 d (Fin.cast nSub_zero i) ∗ tarTok x1 d (Fin.cast nSub_zero i) ∗ (∃ f, sumRow d (Fin.cast nSub_zero i) f) ∗ (∃ f, cntRow d (Fin.cast nSub_zero i) f)))
  td q d _ i := match q with
    | 0 => (inferInstance : BI.Storable (upEmb : UEmb _ 𝕄)
        iprop(srcTok x0 d (Fin.cast nSub_zero i) ∗ tarTok x1 d (Fin.cast nSub_zero i) ∗ sumRow d (Fin.cast nSub_zero i) (scSums x0 x1) ∗ cntRow d (Fin.cast nSub_zero i) (scCnts x0 x1)))

/-- What the call takes and gives back, the one SparseCore's. -/
theorem st0_eq (x0 x1 : Big F) (d : Dev nD) :
    (bigSep Finset.univ fun c : Fin ((K (F := F)).nCore 0) => (P x0 x1).st 0 d c)
      = iprop((srcLoc d ↦{fullShare} x0) ∗ (tarLoc d ↦{fullShare} x1) ∗ (∃ f, scSumLoc d ↦{fullShare} f) ∗ (∃ f, scCntLoc d ↦{fullShare} f)) :=
  bigSep_univ_of_subsingleton (0 : Fin 1)
theorem dn0_eq (x0 x1 : Big F) (d : Dev nD) :
    (bigSep Finset.univ fun c : Fin ((K (F := F)).nCore 0) => (P x0 x1).dn 0 d c)
      = iprop((srcLoc d ↦{fullShare} x0) ∗ (tarLoc d ↦{fullShare} x1) ∗ (scSumLoc d ↦{fullShare} scSums x0 x1) ∗ (scCntLoc d ↦{fullShare} scCnts x0 x1)) :=
  bigSep_univ_of_subsingleton (0 : Fin 1)

/-- The launch deals the kernel's proof nothing. -/
theorem Px_thr (x0 x1 : Big F) (thr : Thread nD τ) : (bigSep Finset.univ fun q : Fin 1 => (P (F := F) x0 x1).x q thr) = iprop(emp) :=
  bigSep_univ_of_subsingleton (0 : Fin 1)
theorem Px_all (x0 x1 : Big F) :
    (bigSep Finset.univ fun thr : Thread nD τ => bigSep Finset.univ fun q : Fin 1 => (P (F := F) x0 x1).x q thr) = (iprop(emp) : sProp 𝕄) := by
  rw [bigSep_congr fun thr _ => Px_thr x0 x1 thr]; exact bigSep_emp_const _

/-! ## The tile -/

section Tile

variable (x0 x1 : Big F) (d : Dev nD) (L : grid1.Coords)

abbrev cV (L : grid1.Coords) : Fin τ.nSC := (L 0).castLE hcore1
abbrev jV (L : grid1.Coords) : Fin τ.nSub := (L 1).castLE hsub1
omit [FloatOps F] in
theorem bound_one : grid1.bound 1 = 16 := rfl
abbrev jL (L : grid1.Coords) : Fin 16 := Fin.cast bound_one (L 1)

-- the kernel's memrefs, spelt as the body table passes them
local notation "srcW" => (Memref.whole Cert.KernelIdeal.main_v0_scv : Memref Cert.KernelIdeal.sig Kind.scVector Space.hbm Cert.KernelIdeal.S16384x512 EltTy.f32)
local notation "tarW" => (Memref.whole Cert.KernelIdeal.main_v1_scv : Memref Cert.KernelIdeal.sig Kind.scVector Space.hbm Cert.KernelIdeal.S16384x512 EltTy.f32)
local notation "sumW" => (Memref.whole Cert.KernelIdeal.main_v3_0_scv : Memref Cert.KernelIdeal.sig Kind.scVector Space.hbm Cert.KernelIdeal.S16x16 EltTy.f32)
local notation "cntW" => (Memref.whole Cert.KernelIdeal.main_v3_1_scv : Memref Cert.KernelIdeal.sig Kind.scVector Space.hbm Cert.KernelIdeal.S16x16 EltTy.f32)
local notation "sb0" => (Memref.whole Cert.KernelIdeal.cc1_scratch0 : Memref Cert.KernelIdeal.sig Kind.scVector Space.vmem Cert.KernelIdeal.S32x512 EltTy.f32)
local notation "sb1" => (Memref.whole Cert.KernelIdeal.cc1_scratch1 : Memref Cert.KernelIdeal.sig Kind.scVector Space.vmem Cert.KernelIdeal.S32x512 EltTy.f32)
local notation "tb0" => (Memref.whole Cert.KernelIdeal.cc1_scratch2 : Memref Cert.KernelIdeal.sig Kind.scVector Space.vmem Cert.KernelIdeal.S32x512 EltTy.f32)
local notation "tb1" => (Memref.whole Cert.KernelIdeal.cc1_scratch3 : Memref Cert.KernelIdeal.sig Kind.scVector Space.vmem Cert.KernelIdeal.S32x512 EltTy.f32)
local notation "avW" => (Memref.whole Cert.KernelIdeal.cc1_scratch4 : Memref Cert.KernelIdeal.sig Kind.scVector Space.vmem Cert.KernelIdeal.S16 EltTy.f32)
local notation "cvW" => (Memref.whole Cert.KernelIdeal.cc1_scratch5 : Memref Cert.KernelIdeal.sig Kind.scVector Space.vmem Cert.KernelIdeal.S16 EltTy.f32)

/-- Row `L 1` of a result as the tile slices it, squeezed. -/
abbrev rowK (L : grid1.Coords) : Rect S16x16 := Rect.unit (s := S16x16) (k1_off6 L) S1x16.size (k1_off6_inb L)
abbrev sumRowK (L : grid1.Coords) : Memref sig .scVector .hbm S16 .f32 := ((sumW).slice (rowK L) (fun _ => rfl)).squeeze S16 squeezes_S1x16_S16
abbrev cntRowK (L : grid1.Coords) : Memref sig .scVector .hbm S16 .f32 := ((cntW).slice (rowK L) (fun _ => rfl)).squeeze S16 squeezes_S1x16_S16

omit [FloatOps F] in
theorem rowK_eq : rowK L = row (jL L) := by
  unfold rowK row Rect.part Rect.block
  congr 1 <;> funext a
  · rw [k1_off6_eq]
    match a with
    | 0 => simp [Shape.partIx, Shape.partSize]
    | 1 => simp [Shape.partIx, Shape.partSize]
  · match a with
    | 0 => simp [Shape.partSize]
    | 1 => simp [Shape.partSize]

omit [FloatOps F] in
theorem set_sumRowK : (sumRowK L).view.set = rowSet (jL L) := by
  show (((sumW).view.slice (rowK L)).reshape S16 squeezes_S1x16_S16.numel_eq).set = ((sumW).view.slice (row (jL L))).set
  rw [View.set_reshape]
  exact rowK_eq L ▸ rfl
omit [FloatOps F] in
theorem set_cntRowK : (cntRowK L).view.set = rowSet (jL L) := by
  show (((cntW).view.slice (rowK L)).reshape S16 squeezes_S1x16_S16.numel_eq).set = ((sumW).view.slice (row (jL L))).set
  rw [View.set_reshape]
  exact rowK_eq L ▸ rfl

omit [FloatOps F] in
theorem pts_sumRowK (f : Small F) :
    ((sumRowK L).view.loc (V d (cV L) (jV L)) ↦[(sumRowK L).view.set]{fullShare} f : sProp 𝕄) = scSumLoc d ↦[rowSet (jL L)]{fullShare} f := by
  rw [set_sumRowK]
omit [FloatOps F] in
theorem pts_cntRowK (f : Small F) :
    ((cntRowK L).view.loc (V d (cV L) (jV L)) ↦[(cntRowK L).view.set]{fullShare} f : sProp 𝕄) = scCntLoc d ↦[rowSet (jL L)]{fullShare} f := by
  rw [set_cntRowK]
omit [FloatOps F] in
theorem pts_src (q : PosShare TreeShare) (f : Big F) :
    ((srcW).view.loc (V d (cV L) (jV L)) ↦{q} f : sProp 𝕄) = srcLoc d ↦{q} f := by
  simp only [Memref.view_whole, View.set_whole]
omit [FloatOps F] in
theorem pts_tar (q : PosShare TreeShare) (f : Big F) :
    ((tarW).view.loc (V d (cV L) (jV L)) ↦{q} f : sProp 𝕄) = tarLoc d ↦{q} f := by
  simp only [Memref.view_whole, View.set_whole]

omit [FloatOps F] in
theorem ownSems0_V :
    (ownSems0 (V d (cV L) (jV L)) : sProp 𝕄)
      = iprop(semVal (((V d (cV L) (jV L)), SemLoc.dma cc1_scratch6.sem) : GSem nD τ sig) 0 ∗ semVal (((V d (cV L) (jV L)), SemLoc.dma cc1_scratch7.sem) : GSem nD τ sig) 0 ∗ semVal (((V d (cV L) (jV L)), SemLoc.dma cc1_scratch8.sem) : GSem nD τ sig) 0 ∗ semVal (((V d (cV L) (jV L)), SemLoc.dma cc1_scratch9.sem) : GSem nD τ sig) 0 ∗ semVal (((V d (cV L) (jV L)), SemLoc.dma cc1_scoped0.sem) : GSem nD τ sig) 0 ∗ semVal (((V d (cV L) (jV L)), SemLoc.dma cc1_scoped1.sem) : GSem nD τ sig) 0
          ∗ bigSep (((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scoped0.sem) : GSem nD τ sig)).erase (((V d (cV L) (jV L)), SemLoc.dma cc1_scoped1.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨(fun e => absurd (Prod.mk.inj e).2 (show (SemLoc.dma cc1_scratch7.sem : SemLoc sig) ≠ SemLoc.dma cc1_scratch6.sem by decide)), (mem_ownCells (g := (((V d (cV L) (jV L)), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨(fun e => absurd (Prod.mk.inj e).2 (show (SemLoc.dma cc1_scratch8.sem : SemLoc sig) ≠ SemLoc.dma cc1_scratch7.sem by decide)), Finset.mem_erase.mpr ⟨(fun e => absurd (Prod.mk.inj e).2 (show (SemLoc.dma cc1_scratch8.sem : SemLoc sig) ≠ SemLoc.dma cc1_scratch6.sem by decide)), (mem_ownCells (g := (((V d (cV L) (jV L)), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨(fun e => absurd (Prod.mk.inj e).2 (show (SemLoc.dma cc1_scratch9.sem : SemLoc sig) ≠ SemLoc.dma cc1_scratch8.sem by decide)), Finset.mem_erase.mpr ⟨(fun e => absurd (Prod.mk.inj e).2 (show (SemLoc.dma cc1_scratch9.sem : SemLoc sig) ≠ SemLoc.dma cc1_scratch7.sem by decide)), Finset.mem_erase.mpr ⟨(fun e => absurd (Prod.mk.inj e).2 (show (SemLoc.dma cc1_scratch9.sem : SemLoc sig) ≠ SemLoc.dma cc1_scratch6.sem by decide)), (mem_ownCells (g := (((V d (cV L) (jV L)), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨(fun e => absurd (Prod.mk.inj e).2 (show (SemLoc.dma cc1_scoped0.sem : SemLoc sig) ≠ SemLoc.dma cc1_scratch9.sem by decide)), Finset.mem_erase.mpr ⟨(fun e => absurd (Prod.mk.inj e).2 (show (SemLoc.dma cc1_scoped0.sem : SemLoc sig) ≠ SemLoc.dma cc1_scratch8.sem by decide)), Finset.mem_erase.mpr ⟨(fun e => absurd (Prod.mk.inj e).2 (show (SemLoc.dma cc1_scoped0.sem : SemLoc sig) ≠ SemLoc.dma cc1_scratch7.sem by decide)), Finset.mem_erase.mpr ⟨(fun e => absurd (Prod.mk.inj e).2 (show (SemLoc.dma cc1_scoped0.sem : SemLoc sig) ≠ SemLoc.dma cc1_scratch6.sem by decide)), (mem_ownCells (g := (((V d (cV L) (jV L)), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨(fun e => absurd (Prod.mk.inj e).2 (show (SemLoc.dma cc1_scoped1.sem : SemLoc sig) ≠ SemLoc.dma cc1_scoped0.sem by decide)), Finset.mem_erase.mpr ⟨(fun e => absurd (Prod.mk.inj e).2 (show (SemLoc.dma cc1_scoped1.sem : SemLoc sig) ≠ SemLoc.dma cc1_scratch9.sem by decide)), Finset.mem_erase.mpr ⟨(fun e => absurd (Prod.mk.inj e).2 (show (SemLoc.dma cc1_scoped1.sem : SemLoc sig) ≠ SemLoc.dma cc1_scratch8.sem by decide)), Finset.mem_erase.mpr ⟨(fun e => absurd (Prod.mk.inj e).2 (show (SemLoc.dma cc1_scoped1.sem : SemLoc sig) ≠ SemLoc.dma cc1_scratch7.sem by decide)), Finset.mem_erase.mpr ⟨(fun e => absurd (Prod.mk.inj e).2 (show (SemLoc.dma cc1_scoped1.sem : SemLoc sig) ≠ SemLoc.dma cc1_scratch6.sem by decide)), (mem_ownCells (g := (((V d (cV L) (jV L)), SemLoc.dma cc1_scoped1.sem) : GSem nD τ sig))).mpr ⟨rfl, by show (SemLoc.dma cc1_scoped1.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

/-- Chunk 0's loops: the two scratches hold the chunk; the carried pair is the recurrence so far. -/
def invRow0 (d : Dev nD) (c : Fin τ.nSC) (i : Fin τ.nSub) (fs ft : S32x512.Idx → Elt F .f32) (p0 : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = rowFold0 fs ft k p0⌝)
def invCol0 (d : Dev nD) (c : Fin τ.nSC) (i : Fin τ.nSub) (fs ft : S32x512.Idx → Elt F .f32) (r : Fin k1_t1_loop.trips) (p : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = colFold0 fs ft r k p⌝)

/-- Chunk 1's loops: the two scratches hold the chunk; the carried pair is the recurrence so far. -/
def invRow1 (d : Dev nD) (c : Fin τ.nSC) (i : Fin τ.nSub) (fs ft : S32x512.Idx → Elt F .f32) (p0 : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = rowFold1 fs ft k p0⌝)
def invCol1 (d : Dev nD) (c : Fin τ.nSC) (i : Fin τ.nSub) (fs ft : S32x512.Idx → Elt F .f32) (r : Fin k1_t3_loop.trips) (p : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = colFold1 fs ft r k p⌝)

/-- Chunk 2's loops: the two scratches hold the chunk; the carried pair is the recurrence so far. -/
def invRow2 (d : Dev nD) (c : Fin τ.nSC) (i : Fin τ.nSub) (fs ft : S32x512.Idx → Elt F .f32) (p0 : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = rowFold2 fs ft k p0⌝)
def invCol2 (d : Dev nD) (c : Fin τ.nSC) (i : Fin τ.nSub) (fs ft : S32x512.Idx → Elt F .f32) (r : Fin k1_t5_loop.trips) (p : QN F) (k : Nat) (acc : QN F) : sProp 𝕄 :=
  iprop(((Memref.whole cc1_scratch0 : Memref sig .scVector .vmem S32x512 .f32).view.loc (V d c i) ↦{fullShare} fs)
    ∗ ((Memref.whole cc1_scratch2 : Memref sig .scVector .vmem S32x512 .f32).view.loc (V d c i) ↦{fullShare} ft) ∗ ⌜acc = colFold2 fs ft r k p⌝)

/-- Chunk 3's loops: the two scratches hold the chunk; the carried pair is the recurrence so far. -/
def invRow3 (d : Dev nD) (c : Fin τ.nSC) (i : Fin τ.nSub) (fs ft : S32x512.Idx → Elt F .f32) (p0 : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = rowFold3 fs ft k p0⌝)
def invCol3 (d : Dev nD) (c : Fin τ.nSC) (i : Fin τ.nSub) (fs ft : S32x512.Idx → Elt F .f32) (r : Fin k1_t7_loop.trips) (p : QN F) (k : Nat) (acc : QN F) : sProp 𝕄 :=
  iprop(((Memref.whole cc1_scratch1 : Memref sig .scVector .vmem S32x512 .f32).view.loc (V d c i) ↦{fullShare} fs)
    ∗ ((Memref.whole cc1_scratch3 : Memref sig .scVector .vmem S32x512 .f32).view.loc (V d c i) ↦{fullShare} ft) ∗ ⌜acc = colFold3 fs ft r k p⌝)

omit [FloatOps F] in
theorem pts_scr0 (f : Buf (Elt F) ((V d (cV L) (jV L)).loc cc1_scratch0)) :
    (((Memref.whole cc1_scratch0 : Memref sig .scVector .vmem S32x512 .f32).view.loc (V d (cV L) (jV L)) ↦{fullShare} f : sProp 𝕄)) = (V d (cV L) (jV L)).loc cc1_scratch0 ↦{fullShare} f := rfl
omit [FloatOps F] in
theorem pts_scr1 (f : Buf (Elt F) ((V d (cV L) (jV L)).loc cc1_scratch1)) :
    (((Memref.whole cc1_scratch1 : Memref sig .scVector .vmem S32x512 .f32).view.loc (V d (cV L) (jV L)) ↦{fullShare} f : sProp 𝕄)) = (V d (cV L) (jV L)).loc cc1_scratch1 ↦{fullShare} f := rfl
omit [FloatOps F] in
theorem pts_scr2 (f : Buf (Elt F) ((V d (cV L) (jV L)).loc cc1_scratch2)) :
    (((Memref.whole cc1_scratch2 : Memref sig .scVector .vmem S32x512 .f32).view.loc (V d (cV L) (jV L)) ↦{fullShare} f : sProp 𝕄)) = (V d (cV L) (jV L)).loc cc1_scratch2 ↦{fullShare} f := rfl
omit [FloatOps F] in
theorem pts_scr3 (f : Buf (Elt F) ((V d (cV L) (jV L)).loc cc1_scratch3)) :
    (((Memref.whole cc1_scratch3 : Memref sig .scVector .vmem S32x512 .f32).view.loc (V d (cV L) (jV L)) ↦{fullShare} f : sProp 𝕄)) = (V d (cV L) (jV L)).loc cc1_scratch3 ↦{fullShare} f := rfl
omit [FloatOps F] in
theorem pts_scr4 (f : Buf (Elt F) ((V d (cV L) (jV L)).loc cc1_scratch4)) :
    (((Memref.whole cc1_scratch4 : Memref sig .scVector .vmem S16 .f32).view.loc (V d (cV L) (jV L)) ↦{fullShare} f : sProp 𝕄)) = (V d (cV L) (jV L)).loc cc1_scratch4 ↦{fullShare} f := rfl
omit [FloatOps F] in
theorem pts_scr5 (f : Buf (Elt F) ((V d (cV L) (jV L)).loc cc1_scratch5)) :
    (((Memref.whole cc1_scratch5 : Memref sig .scVector .vmem S16 .f32).view.loc (V d (cV L) (jV L)) ↦{fullShare} f : sProp 𝕄)) = (V d (cV L) (jV L)).loc cc1_scratch5 ↦{fullShare} f := rfl
omit [FloatOps F] in
theorem pts_land0 (f : Buf (Elt F) ((V d (cV L) (jV L)).loc cc1_scratch0)) (w : S32x512.Idx → Elt F .f32) :
    (((Memref.whole cc1_scratch0 : Memref sig .scVector .vmem S32x512 .f32).view.loc (V d (cV L) (jV L)) ↦{fullShare}
        View.write (Elt F) (Memref.whole cc1_scratch0 : Memref sig .scVector .vmem S32x512 .f32).view f w Finset.univ : sProp 𝕄))
      = ((Memref.whole cc1_scratch0 : Memref sig .scVector .vmem S32x512 .f32).view.loc (V d (cV L) (jV L)) ↦{fullShare} w) := by
  rw [View.write_whole_univ]
omit [FloatOps F] in
theorem pts_land1 (f : Buf (Elt F) ((V d (cV L) (jV L)).loc cc1_scratch1)) (w : S32x512.Idx → Elt F .f32) :
    (((Memref.whole cc1_scratch1 : Memref sig .scVector .vmem S32x512 .f32).view.loc (V d (cV L) (jV L)) ↦{fullShare}
        View.write (Elt F) (Memref.whole cc1_scratch1 : Memref sig .scVector .vmem S32x512 .f32).view f w Finset.univ : sProp 𝕄))
      = ((Memref.whole cc1_scratch1 : Memref sig .scVector .vmem S32x512 .f32).view.loc (V d (cV L) (jV L)) ↦{fullShare} w) := by
  rw [View.write_whole_univ]
omit [FloatOps F] in
theorem pts_land2 (f : Buf (Elt F) ((V d (cV L) (jV L)).loc cc1_scratch2)) (w : S32x512.Idx → Elt F .f32) :
    (((Memref.whole cc1_scratch2 : Memref sig .scVector .vmem S32x512 .f32).view.loc (V d (cV L) (jV L)) ↦{fullShare}
        View.write (Elt F) (Memref.whole cc1_scratch2 : Memref sig .scVector .vmem S32x512 .f32).view f w Finset.univ : sProp 𝕄))
      = ((Memref.whole cc1_scratch2 : Memref sig .scVector .vmem S32x512 .f32).view.loc (V d (cV L) (jV L)) ↦{fullShare} w) := by
  rw [View.write_whole_univ]
omit [FloatOps F] in
theorem pts_land3 (f : Buf (Elt F) ((V d (cV L) (jV L)).loc cc1_scratch3)) (w : S32x512.Idx → Elt F .f32) :
    (((Memref.whole cc1_scratch3 : Memref sig .scVector .vmem S32x512 .f32).view.loc (V d (cV L) (jV L)) ↦{fullShare}
        View.write (Elt F) (Memref.whole cc1_scratch3 : Memref sig .scVector .vmem S32x512 .f32).view f w Finset.univ : sProp 𝕄))
      = ((Memref.whole cc1_scratch3 : Memref sig .scVector .vmem S32x512 .f32).view.loc (V d (cV L) (jV L)) ↦{fullShare} w) := by
  rw [View.write_whole_univ]

omit [FloatOps F] in
/-- The whole-vector rectangle of a sixteen-lane scratch places each lane at itself. -/
theorem rS_emb (x : S16.Idx) : (Rect.unit (s := S16) ![0] S16.size inb_S16_S16_0).emb x = x := by
  funext a; apply Fin.ext
  rw [Rect.emb_apply, Subsingleton.elim a 0]
  show 0 + 1 * (x 0).val = (x 0).val
  simp

/-- What the write-out reads off a sixteen-lane scratch after the store of `v`: `v`. -/
theorem pay_av (f4 : S16.Idx → Elt F .f32) (v : FVec F S16 .f32) (x : S16.Idx) :
    (avW).view.read (Elt F) ((avW).view.writes (Elt F) f4 [⟨Rect.unit (s := S16) ![0] S16.size inb_S16_S16_0, k1_pay5 v⟩]) x = v x := by
  have h := View.read_writes_cons_emb (avW).view f4 (Rect.unit (s := S16) ![0] S16.size inb_S16_S16_0) (k1_pay5 v) [] x
  rw [rS_emb] at h
  rw [h]
  simp [k1_pay5, shapeCast]
theorem pay_cv (f5 : S16.Idx → Elt F .f32) (v : FVec F S16 .f32) (x : S16.Idx) :
    (cvW).view.read (Elt F) ((cvW).view.writes (Elt F) f5 [⟨Rect.unit (s := S16) ![0] S16.size inb_S16_S16_0, k1_pay6 v⟩]) x = v x := by
  have h := View.read_writes_cons_emb (cvW).view f5 (Rect.unit (s := S16) ![0] S16.size inb_S16_S16_0) (k1_pay6 v) [] x
  rw [rS_emb] at h
  rw [h]
  simp [k1_pay6, shapeCast]

omit [FloatOps F] in
/-- Lane `x` of the tile's squeezed row of a result is the result's element at row `L 1`, column `x`. -/
theorem emb_sumRowK (x : S16.Idx) : (sumRowK L).view.emb x = ValueIdx.ix2 (jL L) (x 0) := by
  show (rowK L).emb (Shape.reshapeEquiv squeezes_S1x16_S16.numel_eq x) = _
  have hc := Shape.reshapeEquiv_cons_one (n := 1) (d := ![16]) squeezes_S1x16_S16.numel_eq x
  funext a
  apply Fin.ext
  rw [Rect.emb_apply]
  show k1_off6 L a + 1 * ((Shape.reshapeEquiv squeezes_S1x16_S16.numel_eq x a : Fin _) : ℕ) = _
  rw [k1_off6_eq, hc]
  match a with
  | ⟨0, _⟩ => show (L 1).val + 1 * 0 = (L 1).val; omega
  | ⟨1, _⟩ => show 0 + 1 * (x 0).val = (x 0).val; omega
omit [FloatOps F] in
theorem emb_cntRowK (x : S16.Idx) : (cntRowK L).view.emb x = ValueIdx.ix2 (jL L) (x 0) := by
  show (rowK L).emb (Shape.reshapeEquiv squeezes_S1x16_S16.numel_eq x) = _
  have hc := Shape.reshapeEquiv_cons_one (n := 1) (d := ![16]) squeezes_S1x16_S16.numel_eq x
  funext a
  apply Fin.ext
  rw [Rect.emb_apply]
  show k1_off6 L a + 1 * ((Shape.reshapeEquiv squeezes_S1x16_S16.numel_eq x a : Fin _) : ℕ) = _
  rw [k1_off6_eq, hc]
  match a with
  | ⟨0, _⟩ => show (L 1).val + 1 * 0 = (L 1).val; omega
  | ⟨1, _⟩ => show 0 + 1 * (x 0).val = (x 0).val; omega

/-- The recurrences read the big arrays through the tile's row offset only. -/
theorem tileAcc_coordsW : tileAcc x0 x1 (coordsW (jL L)) = tileAcc x0 x1 L := rfl

/-- Row `L 1` of the sums after the tile's write-out of its first accumulator. -/
theorem sum_val (fo : Small F) (pay : S16.Idx → Elt F .f32) (acc : QN F) (hp : ∀ x, pay x = acc.1 x)
    (hacc : tileAcc x0 x1 L = acc) :
    ∀ idx ∈ (sumRowK L).view.set, (sumRowK L).view.writes (Elt F) fo [⟨Rect.whole S16, pay⟩] idx = scSums x0 x1 idx := by
  intro idx hi
  obtain ⟨x, -, rfl⟩ := Finset.mem_map.mp hi
  rw [View.writes_singleton]
  have e : (sumRowK L).view.emb x = ((sumRowK L).view.slice (Rect.whole S16)).emb x := by
    rw [View.emb_slice]; simp [Rect.emb_whole_apply]
  conv_lhs => rw [e, View.write_emb_of_mem _ _ (Finset.mem_univ _)]
  rw [emb_sumRowK, hp, cast_eq]
  show acc.1 x = (tileAcc x0 x1 (coordsW (jL L))).1 (ValueIdx.ix1 (x 0))
  rw [tileAcc_coordsW, hacc]
  exact congrArg acc.1 (ValueIdx.eq_ix1 x)
theorem cnt_val (fc : Small F) (pay : S16.Idx → Elt F .f32) (acc : QN F) (hp : ∀ x, pay x = acc.2 x)
    (hacc : tileAcc x0 x1 L = acc) :
    ∀ idx ∈ (cntRowK L).view.set, (cntRowK L).view.writes (Elt F) fc [⟨Rect.whole S16, pay⟩] idx = scCnts x0 x1 idx := by
  intro idx hi
  obtain ⟨x, -, rfl⟩ := Finset.mem_map.mp hi
  rw [View.writes_singleton]
  have e : (cntRowK L).view.emb x = ((cntRowK L).view.slice (Rect.whole S16)).emb x := by
    rw [View.emb_slice]; simp [Rect.emb_whole_apply]
  conv_lhs => rw [e, View.write_emb_of_mem _ _ (Finset.mem_univ _)]
  rw [emb_cntRowK, hp, cast_eq]
  show acc.2 x = (tileAcc x0 x1 (coordsW (jL L))).2 (ValueIdx.ix1 (x 0))
  rw [tileAcc_coordsW, hacc]
  exact congrArg acc.2 (ValueIdx.eq_ix1 x)

set_option maxRecDepth 65536 in
theorem tile_body (hF : (K (F := F)).Facts) (O : CellTallies nD τ sig (HIx 1)) (W : Waits sig (HIx 1)) (hO : ∀ g, O g none = 0) :
    iprop(levAts (K (F := F)).L (K (F := F)).lev ∗ emp
        ∗ (srcTok x0 d (jL L) ∗ tarTok x1 d (jL L) ∗ (∃ f, sumRow d (jL L) f) ∗ (∃ f, cntRow d (jL L) f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L srcW (Memref.isWhole_whole _) tarW (Memref.isWhole_whole _) sumW (Memref.isWhole_whole _) cntW (Memref.isWhole_whole _)
            sb0 (Memref.isWhole_whole _) sb1 (Memref.isWhole_whole _) tb0 (Memref.isWhole_whole _) tb1 (Memref.isWhole_whole _)
            avW (Memref.isWhole_whole _) cvW (Memref.isWhole_whole _) cc1_scratch6 cc1_scratch7 cc1_scratch8 cc1_scratch9 cc1_scoped0 cc1_scoped1)
          fun _ => iprop((srcTok x0 d (jL L) ∗ tarTok x1 d (jL L) ∗ sumRow d (jL L) (scSums x0 x1) ∗ cntRow d (jL L) (scCnts x0 x1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  simp only [k1_part1_eq_skeleton, k1_part2_eq_skeleton]
  rw [(K (F := F)).scopedBufs_V hF d (cV L) (jV L), SparseCore.Cfg.scopedSems0_V (Val := Elt F) d (cV L) (jV L), ownSems0_V, ownBufs_V]
  iintro ⟨#Hlv, -, ⟨Hsrc, Htar, ⟨%fo, Hsum⟩, ⟨%fc, Hcnt⟩⟩,
    ⟨⟨%f0, Hs0⟩, ⟨%f1, Hs1⟩, ⟨%f2, Ht0⟩, ⟨%f3, Ht1⟩, ⟨%f4, Hav⟩, ⟨%f5, Hcv⟩, Hbufs⟩, ⟨Hm6, Hm7, Hm8, Hm9, Hn0, Hn1, Hsems⟩, HO⟩
  ihave Hmw := ((K (F := F)).mayWaits_none (thr := V d (cV L) (jV L)) hO) $$ Hlv
  -- the read share of each big array, in two halves: one per scratch a copy of it lands in
  ihave Hsrc2 := (pointsTo_share (PosShare.mem_left_op_right (tok (jL L)))).1 $$ Hsrc
  icases Hsrc2 with ⟨HsrcA, HsrcB⟩
  ihave Htar2 := (pointsTo_share (PosShare.mem_left_op_right (tok (jL L)))).1 $$ Htar
  icases Htar2 with ⟨HtarA, HtarB⟩
  ihave HsrcA' := (Entails.of_eq (pts_src (F := F) d L _ _).symm) $$ HsrcA
  ihave HsrcB' := (Entails.of_eq (pts_src (F := F) d L _ _).symm) $$ HsrcB
  ihave HtarA' := (Entails.of_eq (pts_tar (F := F) d L _ _).symm) $$ HtarA
  ihave HtarB' := (Entails.of_eq (pts_tar (F := F) d L _ _).symm) $$ HtarB
  ihave Hsum' := (Entails.of_eq (pts_sumRowK (F := F) d L _).symm) $$ Hsum
  ihave Hcnt' := (Entails.of_eq (pts_cntRowK (F := F) d L _).symm) $$ Hcnt
  ihave Hs0' := (Entails.of_eq (pts_scr0 (F := F) d L _).symm) $$ Hs0
  ihave Hs1' := (Entails.of_eq (pts_scr1 (F := F) d L _).symm) $$ Hs1
  ihave Ht0' := (Entails.of_eq (pts_scr2 (F := F) d L _).symm) $$ Ht0
  ihave Ht1' := (Entails.of_eq (pts_scr3 (F := F) d L _).symm) $$ Ht1
  ihave Hav' := (Entails.of_eq (pts_scr4 (F := F) d L _).symm) $$ Hav
  ihave Hcv' := (Entails.of_eq (pts_scr5 (F := F) d L _).symm) $$ Hcv
  sl_exec
  -- chunk 0: its two scratches hold the chunk; the loops by the recurrence
  ihave Hs0c := (Entails.of_eq (pts_land0 (F := F) d L _ _)) $$ Hs0'
  ihave Ht0c := (Entails.of_eq (pts_land2 (F := F) d L _ _)) $$ Ht0'
  sl_for (invRow0 d (cV L) (jV L) (chunkS x0 L 0) (chunkT x1 L 0) qn0) $$ [Hs0c Ht0c]
  case region =>
    intro k acc
    unfold invRow0
    iintro ⟨Hs, Ht, %hacc⟩
    sl_exec
    sl_for (invCol0 d (cV L) (jV L) (chunkS x0 L 0) (chunkT x1 L 0) k acc) $$ [Hs Ht]
    case region =>
      intro j acc2
      unfold invCol0
      iintro ⟨Hs, Ht, %hacc2⟩
      sl_exec
      sl_step
      isplitl [Hs]; · iexact Hs
      isplitl [Ht]; · iexact Ht
      ipureintro
      simp only [colFold0, dif_pos j.isLt]
      rw [← hacc2]; rfl
    · unfold invCol0
      isplitl [Hs]; · iexact Hs
      isplitl [Ht]; · iexact Ht
      ipureintro; rfl
    iintro %acc2 HI
    unfold invCol0
    icases HI with ⟨Hs, Ht, %hacc2⟩
    sl_exec
    sl_step
    isplitl [Hs]; · iexact Hs
    isplitl [Ht]; · iexact Ht
    ipureintro
    simp only [rowFold0, dif_pos k.isLt]
    rw [← hacc, ← hacc2]
  · unfold invRow0
    isplitl [Hs0c]; · iexact Hs0c
    isplitl [Ht0c]; · iexact Ht0c
    ipureintro; rfl
  iintro %acc0 HI
  unfold invRow0
  icases HI with ⟨Hs0', Ht0', %hacc0⟩
  sl_exec

  -- chunk 1: its two scratches hold the chunk; the loops by the recurrence
  ihave Hs1c := (Entails.of_eq (pts_land1 (F := F) d L _ _)) $$ Hs1'
  ihave Ht1c := (Entails.of_eq (pts_land3 (F := F) d L _ _)) $$ Ht1'
  sl_for (invRow1 d (cV L) (jV L) (chunkS x0 L 1) (chunkT x1 L 1) acc0) $$ [Hs1c Ht1c]
  case region =>
    intro k acc
    unfold invRow1
    iintro ⟨Hs, Ht, %hacc⟩
    sl_exec
    sl_for (invCol1 d (cV L) (jV L) (chunkS x0 L 1) (chunkT x1 L 1) k acc) $$ [Hs Ht]
    case region =>
      intro j acc2
      unfold invCol1
      iintro ⟨Hs, Ht, %hacc2⟩
      sl_exec
      sl_step
      isplitl [Hs]; · iexact Hs
      isplitl [Ht]; · iexact Ht
      ipureintro
      simp only [colFold1, dif_pos j.isLt]
      rw [← hacc2]; rfl
    · unfold invCol1
      isplitl [Hs]; · iexact Hs
      isplitl [Ht]; · iexact Ht
      ipureintro; rfl
    iintro %acc2 HI
    unfold invCol1
    icases HI with ⟨Hs, Ht, %hacc2⟩
    sl_exec
    sl_step
    isplitl [Hs]; · iexact Hs
    isplitl [Ht]; · iexact Ht
    ipureintro
    simp only [rowFold1, dif_pos k.isLt]
    rw [← hacc, ← hacc2]
  · unfold invRow1
    isplitl [Hs1c]; · iexact Hs1c
    isplitl [Ht1c]; · iexact Ht1c
    ipureintro; rfl
  iintro %acc1 HI
  unfold invRow1
  icases HI with ⟨Hs1', Ht1', %hacc1⟩
  sl_exec

  -- chunk 2: its two scratches hold the chunk; the loops by the recurrence
  ihave Hs0c := (Entails.of_eq (pts_land0 (F := F) d L _ _)) $$ Hs0'
  ihave Ht0c := (Entails.of_eq (pts_land2 (F := F) d L _ _)) $$ Ht0'
  sl_for (invRow2 d (cV L) (jV L) (chunkS x0 L 2) (chunkT x1 L 2) acc1) $$ [Hs0c Ht0c]
  case region =>
    intro k acc
    unfold invRow2
    iintro ⟨Hs, Ht, %hacc⟩
    sl_exec
    sl_for (invCol2 d (cV L) (jV L) (chunkS x0 L 2) (chunkT x1 L 2) k acc) $$ [Hs Ht]
    case region =>
      intro j acc2
      unfold invCol2
      iintro ⟨Hs, Ht, %hacc2⟩
      sl_exec
      sl_step
      isplitl [Hs]; · iexact Hs
      isplitl [Ht]; · iexact Ht
      ipureintro
      simp only [colFold2, dif_pos j.isLt]
      rw [← hacc2]; rfl
    · unfold invCol2
      isplitl [Hs]; · iexact Hs
      isplitl [Ht]; · iexact Ht
      ipureintro; rfl
    iintro %acc2 HI
    unfold invCol2
    icases HI with ⟨Hs, Ht, %hacc2⟩
    sl_exec
    sl_step
    isplitl [Hs]; · iexact Hs
    isplitl [Ht]; · iexact Ht
    ipureintro
    simp only [rowFold2, dif_pos k.isLt]
    rw [← hacc, ← hacc2]
  · unfold invRow2
    isplitl [Hs0c]; · iexact Hs0c
    isplitl [Ht0c]; · iexact Ht0c
    ipureintro; rfl
  iintro %acc2 HI
  unfold invRow2
  icases HI with ⟨Hs0', Ht0', %hacc2⟩
  sl_exec

  -- chunk 3: its two scratches hold the chunk; the loops by the recurrence
  ihave Hs1c := (Entails.of_eq (pts_land1 (F := F) d L _ _)) $$ Hs1'
  ihave Ht1c := (Entails.of_eq (pts_land3 (F := F) d L _ _)) $$ Ht1'
  sl_for (invRow3 d (cV L) (jV L) (chunkS x0 L 3) (chunkT x1 L 3) acc2) $$ [Hs1c Ht1c]
  case region =>
    intro k acc
    unfold invRow3
    iintro ⟨Hs, Ht, %hacc⟩
    sl_exec
    sl_for (invCol3 d (cV L) (jV L) (chunkS x0 L 3) (chunkT x1 L 3) k acc) $$ [Hs Ht]
    case region =>
      intro j acc2
      unfold invCol3
      iintro ⟨Hs, Ht, %hacc2⟩
      sl_exec
      sl_step
      isplitl [Hs]; · iexact Hs
      isplitl [Ht]; · iexact Ht
      ipureintro
      simp only [colFold3, dif_pos j.isLt]
      rw [← hacc2]; rfl
    · unfold invCol3
      isplitl [Hs]; · iexact Hs
      isplitl [Ht]; · iexact Ht
      ipureintro; rfl
    iintro %acc2 HI
    unfold invCol3
    icases HI with ⟨Hs, Ht, %hacc2⟩
    sl_exec
    sl_step
    isplitl [Hs]; · iexact Hs
    isplitl [Ht]; · iexact Ht
    ipureintro
    simp only [rowFold3, dif_pos k.isLt]
    rw [← hacc, ← hacc2]
  · unfold invRow3
    isplitl [Hs1c]; · iexact Hs1c
    isplitl [Ht1c]; · iexact Ht1c
    ipureintro; rfl
  iintro %acc3 HI
  unfold invRow3
  icases HI with ⟨Hs1', Ht1', %hacc3⟩
  sl_exec
  have hT : tileAcc x0 x1 L = acc3 := by subst hacc3 hacc2 hacc1 hacc0; rfl
  sl_step
  isplitl [HsrcA' HsrcB' HtarA' HtarB' Hsum' Hcnt']
  · isplitl [HsrcA' HsrcB']
    · ihave A := (Entails.of_eq (pts_src (F := F) d L _ _)) $$ HsrcA'
      ihave B := (Entails.of_eq (pts_src (F := F) d L _ _)) $$ HsrcB'
      iapply (pointsTo_share (PosShare.mem_left_op_right (tok (jL L)))).2
      isplitl [A]; · iexact A
      iexact B
    isplitl [HtarA' HtarB']
    · ihave A := (Entails.of_eq (pts_tar (F := F) d L _ _)) $$ HtarA'
      ihave B := (Entails.of_eq (pts_tar (F := F) d L _ _)) $$ HtarB'
      iapply (pointsTo_share (PosShare.mem_left_op_right (tok (jL L)))).2
      isplitl [A]; · iexact A
      iexact B
    isplitl [Hsum']
    · ihave S := (Entails.of_eq ((pointsTo_congr (sum_val (F := F) x0 x1 L fo _ acc3 ?hpS hT)).trans
        (pts_sumRowK (F := F) d L _))) $$ Hsum'
      case hpS => intro x; exact pay_av (F := F) f4 acc3.1 x
      iexact S
    · ihave S := (Entails.of_eq ((pointsTo_congr (cnt_val (F := F) x0 x1 L fc _ acc3 ?hpC hT)).trans
        (pts_cntRowK (F := F) d L _))) $$ Hcnt'
      case hpC => intro x; exact pay_cv (F := F) f5 acc3.2 x
      iexact S
  isplitl [Hs0' Hs1' Ht0' Ht1' Hav' Hcv' Hbufs]
  · isplitl [Hs0']; · iexists _; iapply (Entails.of_eq (pts_scr0 (F := F) d L _)); iexact Hs0'
    isplitl [Hs1']; · iexists _; iapply (Entails.of_eq (pts_scr1 (F := F) d L _)); iexact Hs1'
    isplitl [Ht0']; · iexists _; iapply (Entails.of_eq (pts_scr2 (F := F) d L _)); iexact Ht0'
    isplitl [Ht1']; · iexists _; iapply (Entails.of_eq (pts_scr3 (F := F) d L _)); iexact Ht1'
    isplitl [Hav']; · iexists _; iapply (Entails.of_eq (pts_scr4 (F := F) d L _)); iexact Hav'
    isplitl [Hcv']; · iexists _; iapply (Entails.of_eq (pts_scr5 (F := F) d L _)); iexact Hcv'
    iexact Hbufs
  isplitl [Hm6 Hm7 Hm8 Hm9 Hn0 Hn1 Hsems]
  · isplitl [Hm6]; · iexact Hm6
    isplitl [Hm7]; · iexact Hm7
    isplitl [Hm8]; · iexact Hm8
    isplitl [Hm9]; · iexact Hm9
    isplitl [Hn0]; · iexact Hn0
    isplitl [Hn1]; · iexact Hn1
    iexact Hsems
  iexists _; isplitr
  rotate_left
  · iexact HO
  · ipureintro; intro p hp
    repeat (rcases Finset.mem_insert.mp hp with h | hp; · exact .inr (h ▸ rfl))
    exact .inl hp

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

-- the kernel's memrefs, spelt as the body table passes them
local notation "srcW" => (Memref.whole Cert.KernelIdeal.main_v0_scv : Memref Cert.KernelIdeal.sig Kind.scVector Space.hbm Cert.KernelIdeal.S16384x512 EltTy.f32)
local notation "tarW" => (Memref.whole Cert.KernelIdeal.main_v1_scv : Memref Cert.KernelIdeal.sig Kind.scVector Space.hbm Cert.KernelIdeal.S16384x512 EltTy.f32)
local notation "sumW" => (Memref.whole Cert.KernelIdeal.main_v3_0_scv : Memref Cert.KernelIdeal.sig Kind.scVector Space.hbm Cert.KernelIdeal.S16x16 EltTy.f32)
local notation "cntW" => (Memref.whole Cert.KernelIdeal.main_v3_1_scv : Memref Cert.KernelIdeal.sig Kind.scVector Space.hbm Cert.KernelIdeal.S16x16 EltTy.f32)
local notation "sb0" => (Memref.whole Cert.KernelIdeal.cc1_scratch0 : Memref Cert.KernelIdeal.sig Kind.scVector Space.vmem Cert.KernelIdeal.S32x512 EltTy.f32)
local notation "sb1" => (Memref.whole Cert.KernelIdeal.cc1_scratch1 : Memref Cert.KernelIdeal.sig Kind.scVector Space.vmem Cert.KernelIdeal.S32x512 EltTy.f32)
local notation "tb0" => (Memref.whole Cert.KernelIdeal.cc1_scratch2 : Memref Cert.KernelIdeal.sig Kind.scVector Space.vmem Cert.KernelIdeal.S32x512 EltTy.f32)
local notation "tb1" => (Memref.whole Cert.KernelIdeal.cc1_scratch3 : Memref Cert.KernelIdeal.sig Kind.scVector Space.vmem Cert.KernelIdeal.S32x512 EltTy.f32)
local notation "avW" => (Memref.whole Cert.KernelIdeal.cc1_scratch4 : Memref Cert.KernelIdeal.sig Kind.scVector Space.vmem Cert.KernelIdeal.S16 EltTy.f32)
local notation "cvW" => (Memref.whole Cert.KernelIdeal.cc1_scratch5 : Memref Cert.KernelIdeal.sig Kind.scVector Space.vmem Cert.KernelIdeal.S16 EltTy.f32)

theorem defs₀_vector (c : Fin τ.nSC) (s : Fin τ.nSub) :
    defs₀ (F := F) (.scVector c s) 1 ()
      = SparseCore.onTile hcore1 hsub1 (fun c s => cc1_k (coordsV c s)
          srcW (Memref.isWhole_whole _) tarW (Memref.isWhole_whole _) sumW (Memref.isWhole_whole _) cntW (Memref.isWhole_whole _)
          sb0 (Memref.isWhole_whole _) sb1 (Memref.isWhole_whole _) tb0 (Memref.isWhole_whole _) tb1 (Memref.isWhole_whole _)
          avW (Memref.isWhole_whole _) cvW (Memref.isWhole_whole _) cc1_scratch6 cc1_scratch7 cc1_scratch8 cc1_scratch9 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task at the one vector-subcore call: the body above at the tile's grid coordinates. -/
theorem tileObl (x0 x1 : Big F) : (K (F := F)).TileObl (D (F := F)) 𝒱 (P x0 x1) v₀ 0 := by
  intro d c i O W hO _ _
  -- this kernel owes nothing for a protocol of its own
  simp only [show (P x0 x1).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x0 x1 d (coordsV ⟨_, hc.1⟩ ⟨_, hc.2⟩) facts O W hO).trans (wp_mono frame _ _ fun _ => obl_post)

/-! ## How the SparseCore's operands split among its tiles -/

omit [FloatOps F] in
theorem rowSet_eq (i : Fin 16) : rowSet i = (row i).set := by
  show ((View.whole (main_v3_0_scv : Ref sig .scVector)).slice (row i)).set = _
  rw [View.set_slice]; exact Finset.map_refl
omit [FloatOps F] in
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
omit [FloatOps F] in
theorem rows_cover : (Finset.univ : Finset (Fin 16)).biUnion rowSet = Finset.univ :=
  (Finset.biUnion_congr rfl fun i _ => rowSet_eq i).trans (Rect.biUnion_part hdiv)

omit [FloatOps F] in
/-- A `[16,16]` result whole is its sixteen rows, each at the one whole-array function. -/
theorem sum_rows (d : Dev nD) (f : Small F) :
    (scSumLoc d ↦{fullShare} f : sProp 𝕄) = bigSep Finset.univ fun i : Fin 16 => scSumLoc d ↦[rowSet i]{fullShare} f := by
  rw [← pointsTo_biUnion Finset.univ (ℓ := scSumLoc d) rowSet rows_disjoint, rows_cover]; try rfl
omit [FloatOps F] in
theorem cnt_rows (d : Dev nD) (f : Small F) :
    (scCntLoc d ↦{fullShare} f : sProp 𝕄) = bigSep Finset.univ fun i : Fin 16 => scCntLoc d ↦[rowSet i]{fullShare} f := by
  rw [← pointsTo_biUnion Finset.univ (ℓ := scCntLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem sumRows_ex (d : Dev nD) (f : Small F) :
    (bigSep Finset.univ fun i : Fin 16 => sumRow (F := F) d i f) ⊢ bigSep Finset.univ fun i : Fin 16 => iprop(∃ f, sumRow (F := F) d i f) := by
  refine BI.bigSep_mono fun i _ => (show (sumRow (F := F) d i f : sProp 𝕄) ⊢ iprop(∃ f, sumRow (F := F) d i f) from ?_)
  iintro H; iexists f; iexact H
omit [FloatOps F] in
theorem cntRows_ex (d : Dev nD) (f : Small F) :
    (bigSep Finset.univ fun i : Fin 16 => cntRow (F := F) d i f) ⊢ bigSep Finset.univ fun i : Fin 16 => iprop(∃ f, cntRow (F := F) d i f) := by
  refine BI.bigSep_mono fun i _ => (show (cntRow (F := F) d i f : sProp 𝕄) ⊢ iprop(∃ f, cntRow (F := F) d i f) from ?_)
  iintro H; iexists f; iexact H

/-- The big arrays go out as sixteen read shares (the remainder kept aside until they come back), the results as their
    sixteen rows; the rows come back each at the one whole-array function and join. -/
theorem vecSplit (x0 x1 : Big F) : (K (F := F)).VecSplit' (P x0 x1) 0 := by
  intro d c
  show iprop((srcLoc d ↦{fullShare} x0) ∗ (tarLoc d ↦{fullShare} x1) ∗ (∃ f, scSumLoc d ↦{fullShare} f) ∗ (∃ f, scCntLoc d ↦{fullShare} f))
    ⊢ |={Set.univ}=> iprop(
      (bigSep Finset.univ fun i : Fin ((K (F := F)).nSub 0) => iprop(srcTok x0 d (Fin.cast nSub_zero i) ∗ tarTok x1 d (Fin.cast nSub_zero i) ∗ (∃ f, sumRow d (Fin.cast nSub_zero i) f) ∗ (∃ f, cntRow d (Fin.cast nSub_zero i) f)))
      ∗ ((bigSep Finset.univ fun i : Fin ((K (F := F)).nSub 0) => iprop(srcTok x0 d (Fin.cast nSub_zero i) ∗ tarTok x1 d (Fin.cast nSub_zero i) ∗ sumRow d (Fin.cast nSub_zero i) (scSums x0 x1) ∗ cntRow d (Fin.cast nSub_zero i) (scCnts x0 x1)))
          -∗ iprop((srcLoc d ↦{fullShare} x0) ∗ (tarLoc d ↦{fullShare} x1) ∗ (scSumLoc d ↦{fullShare} scSums x0 x1) ∗ (scCntLoc d ↦{fullShare} scCnts x0 x1))))
  rw [bigSep_tasks (F := F) (fun i => iprop(srcTok x0 d i ∗ tarTok x1 d i ∗ (∃ f, sumRow d i f) ∗ (∃ f, cntRow d i f))),
    bigSep_tasks (F := F) (fun i => iprop(srcTok x0 d i ∗ tarTok x1 d i ∗ sumRow d i (scSums x0 x1) ∗ cntRow d i (scCnts x0 x1))),
    bigSep_sep', bigSep_sep', bigSep_sep', bigSep_sep', bigSep_sep', bigSep_sep']
  iintro ⟨Hsrc, Htar, ⟨%fo, Hsum⟩, ⟨%fc, Hcnt⟩⟩
  ihave Hs := (Transfers.pointsTo_toks_split fullShare 16) $$ Hsrc
  icases Hs with ⟨HsD, HsT⟩
  ihave Ht := (Transfers.pointsTo_toks_split fullShare 16) $$ Htar
  icases Ht with ⟨HtD, HtT⟩
  ihave Hsum' := (Entails.of_eq (sum_rows (F := F) d fo)) $$ Hsum
  ihave Hcnt' := (Entails.of_eq (cnt_rows (F := F) d fc)) $$ Hcnt
  imodintro
  isplitl [HsT HtT Hsum' Hcnt']
  · isplitl [HsT]; · iexact HsT
    isplitl [HtT]; · iexact HtT
    isplitl [Hsum']
    · iapply (sumRows_ex (F := F) d fo); iexact Hsum'
    · iapply (cntRows_ex (F := F) d fc); iexact Hcnt'
  iintro ⟨HsT, HtT, Hsum, Hcnt⟩
  isplitl [HsD HsT]
  · iapply (Transfers.pointsTo_toks_join fullShare 16)
    isplitl [HsD]; · iexact HsD
    iexact HsT
  isplitl [HtD HtT]
  · iapply (Transfers.pointsTo_toks_join fullShare 16)
    isplitl [HtD]; · iexact HtD
    iexact HtT
  isplitl [Hsum]
  · iapply (Entails.of_eq (sum_rows (F := F) d (scSums x0 x1)).symm); iexact Hsum
  · iapply (Entails.of_eq (cnt_rows (F := F) d (scCnts x0 x1)).symm); iexact Hcnt

end Cert.Proof.KI.ScTile

end
-- ==== Proof.LaunchI.lean ====
/-
  @main on the TensorCore and the launch.  @main reshapes the two arguments to [16384, 512], runs the first
  TensorCore region (the partial sums over rows 0 … 14335), starts the SparseCore kernel (the partial sums over the last
  2048 rows, sixteen tiles of 128 rows) and waits for it, runs the second TensorCore region (totals and quotient), and
  reshapes the one-element result to a scalar.
-/
import proofs.«211649_g4638564679882_cont_8to1c4_562_19_alg».proof.Proof.CommonI
import proofs.«211649_g4638564679882_cont_8to1c4_562_19_alg».proof.Proof.Reg0I
import proofs.«211649_g4638564679882_cont_8to1c4_562_19_alg».proof.Proof.Reg2I
import proofs.«211649_g4638564679882_cont_8to1c4_562_19_alg».proof.Proof.ScTileI

set_option maxRecDepth 16384
set_option Elab.async false

noncomputable section

namespace Cert.Proof.KI.Launch

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-! ## The TensorCore's arrays -/

abbrev r_a0 : DevRef τ sig := Proc.devRef .tc (main_arg0 : Ref sig .tc)
abbrev r_a1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v30 : DevRef τ sig := Proc.devRef .tc (main_v3_0 : Ref sig .tc)
abbrev r_v31 : DevRef τ sig := Proc.devRef .tc (main_v3_1 : Ref sig .tc)
abbrev r_v4 : DevRef τ sig := Proc.devRef .tc (main_v4 : Ref sig .tc)
abbrev r_v5 : DevRef τ sig := Proc.devRef .tc (main_v5 : Ref sig .tc)

/-- All nine arrays of @main: every unscoped buffer of the TensorCore. -/
abbrev S9 : Finset (DevRef τ sig) := {r_a0, r_a1, r_v0, r_v1, r_v2, r_v30, r_v31, r_v4, r_v5}

/-- A buffer of device `d`'s TensorCore held whole. -/
abbrev pl (d : Dev nD) (b : Ref sig .tc) (f : Buf (Elt F) ((SparseCore.T d : Thread nD τ).loc b)) : sProp 𝕄 := ((SparseCore.T d : Thread nD τ).loc b) ↦{fullShare} f

/-- The nine arrays held at a valuation, one by one. -/
def all9 (d : Dev nD) (W : Valuation τ sig (Elt F)) : sProp 𝕄 :=
  iprop(pl d main_arg0 (W r_a0) ∗ pl d main_arg1 (W r_a1) ∗ pl d main_v0 (W r_v0) ∗ pl d main_v1 (W r_v1) ∗ pl d main_v2 (W r_v2)
    ∗ pl d main_v3_0 (W r_v30) ∗ pl d main_v3_1 (W r_v31) ∗ pl d main_v4 (W r_v4) ∗ pl d main_v5 (W r_v5))

theorem held_S9 (d : Dev nD) (W : Valuation τ sig (Elt F)) : (held (T d) S9 W : sProp 𝕄) = all9 d W := by
  unfold held S9 all9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(pl d main_arg0 (W main_arg0) ∗ pl d main_arg1 (W main_arg1) ∗ pl d main_v0 (W main_v0) ∗ pl d main_v1 (W main_v1) ∗ pl d main_v2 (W main_v2)
    ∗ pl d main_v3_0 (W main_v3_0) ∗ pl d main_v3_1 (W main_v3_1) ∗ pl d main_v4 (W main_v4) ∗ pl d main_v5 (W main_v5)) := by
  unfold unscopedBufs
  rw [show (Finset.univ.filter fun b : Ref sig .tc => ¬ b.isScoped) = {main_arg0, main_arg1, main_v0, main_v1, main_v2, main_v3_0, main_v3_1, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

variable [FloatOps F]

/-! ## The host operations -/

abbrev opR0 : HloOp τ sig (Elt F) := StableHlo.reshape main_arg0 main_v0 rfl shapeCasts_S32x1x512x512_S16384x512
abbrev opR1 : HloOp τ sig (Elt F) := StableHlo.reshape main_arg1 main_v1 rfl shapeCasts_S32x1x512x512_S16384x512
abbrev opR5 : HloOp τ sig (Elt F) := StableHlo.reshape main_v4 main_v5 rfl shapeCasts_S1_S_

theorem hR0 : (opR0 (F := F)).bufs ⊆ S9 := show ({r_a0, r_v0} : Finset (DevRef τ sig)) ⊆ S9 by decide
theorem hR1 : (opR1 (F := F)).bufs ⊆ S9 := show ({r_a1, r_v1} : Finset (DevRef τ sig)) ⊆ S9 by decide
theorem hR5 : (opR5 (F := F)).bufs ⊆ S9 := show ({r_v4, r_v5} : Finset (DevRef τ sig)) ⊆ S9 by decide

variable (m : (ℓ : Loc nD τ sig) → Buf (Elt F) ℓ) (ρ : Dev nD → PrngReg)

/-- The launch valuation, and the valuations after the two reshapes. -/
def V0 (d : Dev nD) : Valuation τ sig (Elt F) := fun b => m (d, b)
def V1 (d : Dev nD) : Valuation τ sig (Elt F) := (opR0 (F := F)).result (V0 m d)
def V2 (d : Dev nD) : Valuation τ sig (Elt F) := (opR1 (F := F)).result (V1 m d)

theorem unscoped_all9 (d : Dev nD) : (unscopedBufs d (fun b => m ((SparseCore.T d).loc b)) : sProp 𝕄) = all9 d (V0 m d) := by
  rw [unscopedBufs_eq]; rfl

/-! ## What the TensorCore owes, around a region -/

abbrev Lk : GSem nD τ sig → Finset (HIx 1) := (K (F := F)).L
abbrev lvk : GSem nD τ sig → HIx 1 → ℕ := (K (F := F)).lev

/-- The TensorCore of `d` owing what it owes before call `n`, its recorded wait pairs at levels up to `8 n`. -/
def tcOwes (d : Dev nD) (n : ℕ) : sProp 𝕄 :=
  iprop(∃ W, ⌜(K (F := F)).WBelow (T d) W (8 * n)⌝ ∗ owes (T d) ((K (F := F)).Otc d n) W)

/-- The wait pairs at levels up to `8 n`. -/
def Rec (d : Dev nD) (n : ℕ) : Set (SemLoc sig × HIx 1) := {p | (K (F := F)).lev ((T d : Thread nD τ), p.1) p.2 ≤ 8 * n}

theorem owes_in (cfg : Pipeline.Cfg sig Λ₀) (d : Dev nD) (n : ℕ) :
    (tcOwes (F := F) d n : sProp 𝕄) ⊢ Pipeline.owesWithin d ((K (F := F)).Otc d n) (Rec (F := F) d n ∪ cfg.waitPairs none) := by
  unfold tcOwes Pipeline.owesWithin
  iintro ⟨%W, %hW, HO⟩
  iexists W; isplitr
  · ipureintro; exact fun p hp => Or.inl (hW p hp)
  · iexact HO

theorem owes_out (cfg : Pipeline.Cfg sig Λ₀) (d : Dev nD) (n : ℕ) :
    (Pipeline.owesWithin d ((K (F := F)).Otc d n) (Rec (F := F) d n ∪ cfg.waitPairs none) : sProp 𝕄) ⊢ tcOwes (F := F) d n := by
  unfold tcOwes Pipeline.owesWithin
  iintro ⟨%W, %hW, HO⟩
  iexists W; isplitr
  · ipureintro
    intro p hp
    rcases hW hp with h | ⟨w, s, rfl⟩
    · exact h
    · show (K (F := F)).lev _ none ≤ _; rw [SparseCore.Cfg.lev_none]; exact Nat.zero_le _
  · iexact HO

/-- What the TensorCore owes is at a call's index, above level 0. -/
theorem Otc_cut (d : Dev nD) (n : ℕ) (g : GSem nD τ sig) (i : HIx 1) (h : 0 < (K (F := F)).Otc d n g i) :
    i ∈ Lk (F := F) g ∧ 0 < lvk (F := F) g i :=
  ⟨Finset.mem_univ _, lt_of_lt_of_le (by omega) (SparseCore.Cfg.lev_of_Otc_pos (K := K (F := F)) h)⟩

/-! ## The two regions' proof data -/

section Regions

variable (accStep : Reg0.B2048 F → Reg0.B2048 F → Reg0.BAcc F → Reg0.BAcc F) (zeroAcc : Reg0.BAcc F) (totals : Reg0.BAcc F → Reg0.B2 F)
variable (hMid : Reg0.MidSpec accStep) (hFirst : Reg0.FirstSpec accStep zeroAcc) (hLast : Reg0.LastSpec accStep totals)

/-- The arrays as the first region finds them. -/
def Wr2 (d : Dev nD) : (b : Ref sig .tc) → Buf (Elt F) ((d : Thread nD τ).loc b) := fun b => V2 m d (Proc.devRef .tc b)

/-- The first region's proof data: the core owing its start signal throughout. -/
def dat0 (d : Dev nD) : Pipeline.Dat τ (Elt F) (HIx 1) ℕ UU ℕ cfg0 d :=
  Reg0.dat accStep zeroAcc totals d (Wr2 m d) ((K (F := F)).Otc d 0) (Rec (F := F) d 0)

/-- The two partial results as the first region leaves them in their array. -/
def tcPart (d : Dev nD) := (dat0 m accStep zeroAcc totals d).arrAt 2 cfg0.N

/-- The valuation after the first region. -/
def V3 (d : Dev nD) : Valuation τ sig (Elt F) := Function.update (V2 m d) r_v2 (tcPart m accStep zeroAcc totals d)

end Regions

section Regions2

variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)
-- what the SparseCore call leaves in its two result arrays, as functions of the two [16384, 512] arrays
variable (scS scC : (S16384x512.Idx → Elt F .f32) → (S16384x512.Idx → Elt F .f32) → (S16x16.Idx → Elt F .f32))

/-- The valuation after the SparseCore call. -/
def V4 (d : Dev nD) : Valuation τ sig (Elt F) :=
  Function.update (Function.update (V3 m accStep zeroAcc totals d) r_v30 (scS (V2 m d r_v0) (V2 m d r_v1))) r_v31 (scC (V2 m d r_v0) (V2 m d r_v1))

/-- The arrays as the second region finds them. -/
def Wr4 (d : Dev nD) : (b : Ref sig .tc) → Buf (Elt F) ((d : Thread nD τ).loc b) := fun b => V4 m accStep zeroAcc totals scS scC d (Proc.devRef .tc b)

/-- The second region's proof data: the core owing nothing more (its one call is behind it). -/
def dat2 (d : Dev nD) : Pipeline.Dat τ (Elt F) (HIx 1) ℕ UU ℕ cfg2 d :=
  Reg2.dat quotient d (Wr4 m accStep zeroAcc totals scS scC d) ((K (F := F)).Otc d 1) (Rec (F := F) d 1)

/-- The quotient as the second region leaves it in its array. -/
def outVal (d : Dev nD) := (dat2 m accStep zeroAcc totals quotient scS scC d).arrAt 3 cfg2.N

/-- The valuations after the second region and after the last reshape. -/
def V5 (d : Dev nD) : Valuation τ sig (Elt F) := Function.update (V4 m accStep zeroAcc totals scS scC d) r_v4 (outVal m accStep zeroAcc totals quotient scS scC d)
def V6 (d : Dev nD) : Valuation τ sig (Elt F) := (opR5 (F := F)).result (V5 m accStep zeroAcc totals quotient scS scC d)

/-- The proof data of the two pipelines. -/
def pdats : (p : Fin 2) → (c : Dev nD) → Pipeline.Dat τ (Elt F) (HIx 1) ℕ UU ℕ (Pipeline.pin (pcfgs (F := F)) Reg0.adm p) c
  | ⟨0, _⟩ => fun c => dat0 m accStep zeroAcc totals c
  | ⟨1, _⟩ => fun c => dat2 m accStep zeroAcc totals quotient scS scC c

local notation "𝔭" => pdats m accStep zeroAcc totals quotient scS scC

/-- A buffer of core `c` held whole, spelt at the core. -/
abbrev plc (c : Dev nD) (b : Ref sig .tc) (f : Buf (Elt F) ((c : Thread nD τ).loc b)) : sProp 𝕄 := ((c : Thread nD τ).loc b) ↦{fullShare} f

/-- The first region's arrays at contents `Fa`: the two reshaped arguments and the partial results' array. -/
theorem arrays0_eq (c : Dev nD) (Fa) : ((𝔭 0 c).arrays Fa : sProp 𝕄) = iprop(plc c main_v0 (Fa 0) ∗ plc c main_v1 (Fa 1) ∗ plc c main_v2 (Fa 2)) := by
  rw [Pipeline.arrays_eq (Pipeline.pin (pcfgs (F := F)) Reg0.adm) (𝔭) 0 c launch0.arr_whole ((𝔭 0 c).share_full fun _ => rfl) Fa, bigSep_W0]
  rfl

theorem V3_of_ne (c : Dev nD) (b : DevRef τ sig) (h : b ≠ r_v2) : V3 m accStep zeroAcc totals c b = V2 m c b := Function.update_of_ne h ..
theorem V3_v2 (c : Dev nD) : V3 m accStep zeroAcc totals c r_v2 = tcPart m accStep zeroAcc totals c := Function.update_self ..

/-- The first region's input arrays reach its exit as they entered; its result array holds the partial results. -/
theorem arrAt0_0 (c : Dev nD) : (𝔭 0 c).arrAt 0 (Pipeline.pin (pcfgs (F := F)) Reg0.adm 0).N = V2 m c r_v0 :=
  ((dat0 m accStep zeroAcc totals c).arrAt_in 0 rfl _).trans rfl
theorem arrAt0_1 (c : Dev nD) : (𝔭 0 c).arrAt 1 (Pipeline.pin (pcfgs (F := F)) Reg0.adm 0).N = V2 m c r_v1 :=
  ((dat0 m accStep zeroAcc totals c).arrAt_in 1 rfl _).trans rfl
theorem arrAt0_2 (c : Dev nD) : (𝔭 0 c).arrAt 2 (Pipeline.pin (pcfgs (F := F)) Reg0.adm 0).N = tcPart m accStep zeroAcc totals c := rfl

variable (hMid : Reg0.MidSpec accStep) (hFirst : Reg0.FirstSpec accStep zeroAcc) (hLast : Reg0.LastSpec accStep totals)

/-- THE FIRST REGION: the three arrays into the pipeline, the six other arrays bypassing it, the core owing its start
    signal throughout (its staging waits at index none, level 0, below it). -/
def R0 : Pipeline.RegionSeg (pcfgs (F := F)) Reg0.adm (𝔭) none defs₀ 𝒱₀ (Lk (F := F)) (lvk (F := F)) 0 where
  win := launch0.win.to₀
  block_pos := launch0.block_pos
  stage_whole := launch0.stage_whole
  K := PEmpty
  osem k := k.elim
  ho := Pipeline.OwnSemFacts.none _
  hbody c := (Reg0.body_obligation accStep zeroAcc totals c (Wr2 m c) ((K (F := F)).Otc c 0) (Rec (F := F) c 0) hMid hFirst hLast).loose
  hwaits c := Pipeline.cellsWaits_of_cut _ (𝔭) none 0 c (lev := lvk (F := F)) 0 ((K (F := F)).Otc c 0) (fun _ => rfl)
    (fun _ _ => Finset.mem_univ _) (fun _ _ => le_refl _) (fun g i hg => Otc_cut c 0 g i hg)
  pre c := iprop(all9 c (V2 m c) ∗ tcOwes (F := F) c 0)
  post c := iprop(all9 c (V3 m accStep zeroAcc totals c) ∗ tcOwes (F := F) c 0)
  X _ := iprop(emp)
  Y _ := iprop(emp)
  Z c := Pipeline.unscopedRest (Ix := HIx 1) (Name := ℕ) (U := UU) (Lvl := ℕ) spec0 c (Wr2 m c)
  hentry c := by
    rw [Pipeline.ownSems0_none, arrays0_eq, unscopedRest0_eq]
    unfold all9
    iintro ⟨⟨⟨Ha0, Ha1, Hv0, Hv1, Hv2, Hv30, Hv31, Hv4, Hv5⟩, HO⟩, -, -⟩
    imodintro
    isplitl [Hv0 Hv1 Hv2]
    · isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]; · iapply (owes_in (F := F) cfg0 c 0); iexact HO
    isplitr; · iempintro
    isplitl [Ha0]; · iexact Ha0
    isplitl [Ha1]; · iexact Ha1
    isplitl [Hv30]; · iexact Hv30
    isplitl [Hv31]; · iexact Hv31
    isplitl [Hv4]; · iexact Hv4
    iexact Hv5
  hin c := by
    iintro ⟨-, -, Hs⟩
    iapply (show (Pipeline.scopedRest (Ix := HIx 1) (Name := ℕ) (U := UU) (Lvl := ℕ) (Val := Elt F) spec0 c : sProp 𝕄) ⊢ (𝔭 0 c).Φ 0 from
      Reg0.hin0 accStep zeroAcc totals c (Wr2 m c) ((K (F := F)).Otc c 0) (Rec (F := F) c 0))
    iexact Hs
  hout c := by
    rw [Pipeline.ownSems0_none]
    iintro H
    isplitr; · iempintro
    isplitr; · iempintro
    iapply (show (𝔭 0 c).Φ (Fin.last (Pipeline.pin (pcfgs (F := F)) Reg0.adm 0).N) ⊢ (Pipeline.scopedRest (Ix := HIx 1) (Name := ℕ) (U := UU) (Lvl := ℕ) (Val := Elt F) spec0 c : sProp 𝕄) from
      Reg0.hout0 accStep zeroAcc totals c (Wr2 m c) ((K (F := F)).Otc c 0) (Rec (F := F) c 0))
    iexact H
  hexit c := by
    rw [arrays0_eq, unscopedRest0_eq, arrAt0_0, arrAt0_1, arrAt0_2]
    unfold all9 Wr2
    rw [V3_of_ne m accStep zeroAcc totals c r_a0 (by decide), V3_of_ne m accStep zeroAcc totals c r_a1 (by decide),
      V3_of_ne m accStep zeroAcc totals c r_v0 (by decide), V3_of_ne m accStep zeroAcc totals c r_v1 (by decide), V3_v2,
      V3_of_ne m accStep zeroAcc totals c r_v30 (by decide), V3_of_ne m accStep zeroAcc totals c r_v31 (by decide),
      V3_of_ne m accStep zeroAcc totals c r_v4 (by decide), V3_of_ne m accStep zeroAcc totals c r_v5 (by decide)]
    iintro ⟨⟨Hv0, Hv1, Hv2⟩, HO, -, ⟨Ha0, Ha1, Hv30, Hv31, Hv4, Hv5⟩⟩
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv30]; · iexact Hv30
      isplitl [Hv31]; · iexact Hv31
      isplitl [Hv4]; · iexact Hv4
      iexact Hv5
    · iapply (owes_out (F := F) cfg0 c 0); iexact HO

theorem V5_of_ne (c : Dev nD) (b : DevRef τ sig) (h : b ≠ r_v4) :
    V5 m accStep zeroAcc totals quotient scS scC c b = V4 m accStep zeroAcc totals scS scC c b := Function.update_of_ne h ..
theorem V5_v4 (c : Dev nD) : V5 m accStep zeroAcc totals quotient scS scC c r_v4 = outVal m accStep zeroAcc totals quotient scS scC c := Function.update_self ..

/-- The second region's arrays at contents `Fa`: the tiles' sums and counts, the partial results, the result. -/
theorem arrays2_eq (c : Dev nD) (Fa) :
    ((𝔭 1 c).arrays Fa : sProp 𝕄) = iprop(plc c main_v3_0 (Fa 0) ∗ plc c main_v3_1 (Fa 1) ∗ plc c main_v2 (Fa 2) ∗ plc c main_v4 (Fa 3)) := by
  rw [Pipeline.arrays_eq (Pipeline.pin (pcfgs (F := F)) Reg0.adm) (𝔭) 1 c launch2.arr_whole ((𝔭 1 c).share_full fun _ => rfl) Fa, bigSep_W2]
  rfl

theorem arrAt2_0 (c : Dev nD) : (𝔭 1 c).arrAt 0 (Pipeline.pin (pcfgs (F := F)) Reg0.adm 1).N = V4 m accStep zeroAcc totals scS scC c r_v30 :=
  ((dat2 m accStep zeroAcc totals quotient scS scC c).arrAt_in 0 rfl _).trans rfl
theorem arrAt2_1 (c : Dev nD) : (𝔭 1 c).arrAt 1 (Pipeline.pin (pcfgs (F := F)) Reg0.adm 1).N = V4 m accStep zeroAcc totals scS scC c r_v31 :=
  ((dat2 m accStep zeroAcc totals quotient scS scC c).arrAt_in 1 rfl _).trans rfl
theorem arrAt2_2 (c : Dev nD) : (𝔭 1 c).arrAt 2 (Pipeline.pin (pcfgs (F := F)) Reg0.adm 1).N = V4 m accStep zeroAcc totals scS scC c r_v2 :=
  ((dat2 m accStep zeroAcc totals quotient scS scC c).arrAt_in 2 rfl _).trans rfl
theorem arrAt2_3 (c : Dev nD) : (𝔭 1 c).arrAt 3 (Pipeline.pin (pcfgs (F := F)) Reg0.adm 1).N = outVal m accStep zeroAcc totals quotient scS scC c := rfl

variable (hComb : Reg2.CombSpec quotient)

/-- THE SECOND REGION: the four arrays into the pipeline, the five other arrays bypassing it. -/
def R1 : Pipeline.RegionSeg (pcfgs (F := F)) Reg0.adm (𝔭) none defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (Reg2.body_obligation quotient c (Wr4 m accStep zeroAcc totals scS scC c) ((K (F := F)).Otc c 1) (Rec (F := F) c 1) hComb).loose
  hwaits c := Pipeline.cellsWaits_of_cut _ (𝔭) none 1 c (lev := lvk (F := F)) 0 ((K (F := F)).Otc c 1) (fun _ => rfl)
    (fun _ _ => Finset.mem_univ _) (fun _ _ => le_refl _) (fun g i hg => Otc_cut c 1 g i hg)
  pre c := iprop(all9 c (V4 m accStep zeroAcc totals scS scC c) ∗ tcOwes (F := F) c 1)
  post c := iprop(all9 c (V5 m accStep zeroAcc totals quotient scS scC c) ∗ tcOwes (F := F) c 1)
  X _ := iprop(emp)
  Y _ := iprop(emp)
  Z c := Pipeline.unscopedRest (Ix := HIx 1) (Name := ℕ) (U := UU) (Lvl := ℕ) spec2 c (Wr4 m accStep zeroAcc totals scS scC c)
  hentry c := by
    rw [Pipeline.ownSems0_none, arrays2_eq, unscopedRest2_eq]
    unfold all9
    iintro ⟨⟨⟨Ha0, Ha1, Hv0, Hv1, Hv2, Hv30, Hv31, Hv4, Hv5⟩, HO⟩, -, -⟩
    imodintro
    isplitl [Hv30 Hv31 Hv2 Hv4]
    · isplitl [Hv30]; · iexact Hv30
      isplitl [Hv31]; · iexact Hv31
      isplitl [Hv2]; · iexact Hv2
      iexact Hv4
    isplitr; · unfold Pipeline.prefHeld; rw [show (Finset.univ : Finset (Fin 0)) = ∅ from rfl, BI.bigSep_empty]; iempintro
    isplitl [HO]; · iapply (owes_in (F := F) cfg2 c 1); iexact HO
    isplitr; · iempintro
    isplitl [Ha0]; · iexact Ha0
    isplitl [Ha1]; · iexact Ha1
    isplitl [Hv0]; · iexact Hv0
    isplitl [Hv1]; · iexact Hv1
    iexact Hv5
  hin c := by
    iintro ⟨-, -, Hs⟩
    iapply (show (Pipeline.scopedRest (Ix := HIx 1) (Name := ℕ) (U := UU) (Lvl := ℕ) (Val := Elt F) spec2 c : sProp 𝕄) ⊢ (𝔭 1 c).Φ 0 from BI.Entails.refl _)
    iexact Hs
  hout c := by
    rw [Pipeline.ownSems0_none]
    iintro H
    isplitr; · iempintro
    isplitr; · iempintro
    iapply (show (𝔭 1 c).Φ (Fin.last (Pipeline.pin (pcfgs (F := F)) Reg0.adm 1).N) ⊢ (Pipeline.scopedRest (Ix := HIx 1) (Name := ℕ) (U := UU) (Lvl := ℕ) (Val := Elt F) spec2 c : sProp 𝕄) from BI.Entails.refl _)
    iexact H
  hexit c := by
    rw [arrays2_eq, unscopedRest2_eq, arrAt2_0, arrAt2_1, arrAt2_2, arrAt2_3]
    unfold all9 Wr4
    rw [V5_of_ne m accStep zeroAcc totals quotient scS scC c r_a0 (by decide), V5_of_ne m accStep zeroAcc totals quotient scS scC c r_a1 (by decide),
      V5_of_ne m accStep zeroAcc totals quotient scS scC c r_v0 (by decide), V5_of_ne m accStep zeroAcc totals quotient scS scC c r_v1 (by decide),
      V5_of_ne m accStep zeroAcc totals quotient scS scC c r_v2 (by decide),
      V5_of_ne m accStep zeroAcc totals quotient scS scC c r_v30 (by decide), V5_of_ne m accStep zeroAcc totals quotient scS scC c r_v31 (by decide),
      V5_v4, V5_of_ne m accStep zeroAcc totals quotient scS scC c r_v5 (by decide)]
    iintro ⟨⟨Hv30, Hv31, Hv2, Hv4⟩, HO, -, ⟨Ha0, Ha1, Hv0, Hv1, Hv5⟩⟩
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv30]; · iexact Hv30
      isplitl [Hv31]; · iexact Hv31
      isplitl [Hv4]; · iexact Hv4
      iexact Hv5
    · iapply (owes_out (F := F) cfg2 c 1); iexact HO

end Regions2

/-! ## @main on the TensorCore -/

/-- The TensorCore's handshake state before call `n` but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_split (d : Dev nD) (n : ℕ) : ((K (F := F)).tcSt EH d n : sProp 𝕄) = iprop(tcOwes (F := F) d n ∗ tcRest (F := F) d n) := rfl

section Main

variable [∀ e, Nonempty (Elt F e)]
variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)
/-- The one device of the mesh. -/
abbrev dz : Dev nD := (0 : Fin 1)

/-- The two reshaped arguments, as the SparseCore call finds them. -/
abbrev X0 : ScTile.Big F := V2 m dz r_v0
abbrev X1 : ScTile.Big F := V2 m dz r_v1

/-- The launch handshakes' payloads: the SparseCore call's, at the reshaped arguments. -/
abbrev PP : (K (F := F)).Pay (nD := nD) (Val := Elt F) (Name := ℕ) (U := UU) := ScTile.P (F := F) (X0 m) (X1 m)

local notation "𝔭" => pdats m accStep zeroAcc totals quotient (ScTile.scSums (F := F)) (ScTile.scCnts (F := F))
local notation "𝕍3" => V3 m accStep zeroAcc totals
local notation "𝕍4" => V4 m accStep zeroAcc totals (ScTile.scSums (F := F)) (ScTile.scCnts (F := F))
local notation "𝕍5" => V5 m accStep zeroAcc totals quotient (ScTile.scSums (F := F)) (ScTile.scCnts (F := F))
local notation "𝕍6" => V6 m accStep zeroAcc totals quotient (ScTile.scSums (F := F)) (ScTile.scCnts (F := F))

theorem V4_v30 (c : Dev nD) : 𝕍4 c r_v30 = ScTile.scSums (F := F) (V2 m c r_v0) (V2 m c r_v1) :=
  (Function.update_of_ne (show r_v30 ≠ r_v31 by decide) ..).trans (Function.update_self ..)
theorem V4_v31 (c : Dev nD) : 𝕍4 c r_v31 = ScTile.scCnts (F := F) (V2 m c r_v0) (V2 m c r_v1) := Function.update_self ..
theorem V4_of_ne (c : Dev nD) (b : DevRef τ sig) (h0 : b ≠ r_v30) (h1 : b ≠ r_v31) : 𝕍4 c b = 𝕍3 c b :=
  (Function.update_of_ne h1 ..).trans (Function.update_of_ne h0 ..)

theorem all9_V3 (d : Dev nD) : (all9 d (𝕍3 d) : sProp 𝕄)
    = iprop(pl d main_arg0 (V2 m d r_a0) ∗ pl d main_arg1 (V2 m d r_a1) ∗ pl d main_v0 (V2 m d r_v0) ∗ pl d main_v1 (V2 m d r_v1) ∗ pl d main_v2 (tcPart m accStep zeroAcc totals d)
      ∗ pl d main_v3_0 (V2 m d r_v30) ∗ pl d main_v3_1 (V2 m d r_v31) ∗ pl d main_v4 (V2 m d r_v4) ∗ pl d main_v5 (V2 m d r_v5)) := by
  unfold all9
  rw [V3_of_ne m accStep zeroAcc totals d r_a0 (by decide), V3_of_ne m accStep zeroAcc totals d r_a1 (by decide),
    V3_of_ne m accStep zeroAcc totals d r_v0 (by decide), V3_of_ne m accStep zeroAcc totals d r_v1 (by decide), V3_v2,
    V3_of_ne m accStep zeroAcc totals d r_v30 (by decide), V3_of_ne m accStep zeroAcc totals d r_v31 (by decide),
    V3_of_ne m accStep zeroAcc totals d r_v4 (by decide), V3_of_ne m accStep zeroAcc totals d r_v5 (by decide)]

theorem all9_V4 (d : Dev nD) : (all9 d (𝕍4 d) : sProp 𝕄)
    = iprop(pl d main_arg0 (V2 m d r_a0) ∗ pl d main_arg1 (V2 m d r_a1) ∗ pl d main_v0 (V2 m d r_v0) ∗ pl d main_v1 (V2 m d r_v1) ∗ pl d main_v2 (tcPart m accStep zeroAcc totals d)
      ∗ pl d main_v3_0 (ScTile.scSums (F := F) (V2 m d r_v0) (V2 m d r_v1)) ∗ pl d main_v3_1 (ScTile.scCnts (F := F) (V2 m d r_v0) (V2 m d r_v1)) ∗ pl d main_v4 (V2 m d r_v4) ∗ pl d main_v5 (V2 m d r_v5)) := by
  unfold all9
  rw [V4_v30, V4_v31, V4_of_ne m accStep zeroAcc totals d r_a0 (by decide) (by decide), V4_of_ne m accStep zeroAcc totals d r_a1 (by decide) (by decide),
    V4_of_ne m accStep zeroAcc totals d r_v0 (by decide) (by decide), V4_of_ne m accStep zeroAcc totals d r_v1 (by decide) (by decide),
    V4_of_ne m accStep zeroAcc totals d r_v2 (by decide) (by decide), V4_of_ne m accStep zeroAcc totals d r_v4 (by decide) (by decide),
    V4_of_ne m accStep zeroAcc totals d r_v5 (by decide) (by decide),
    V3_of_ne m accStep zeroAcc totals d r_a0 (by decide), V3_of_ne m accStep zeroAcc totals d r_a1 (by decide),
    V3_of_ne m accStep zeroAcc totals d r_v0 (by decide), V3_of_ne m accStep zeroAcc totals d r_v1 (by decide), V3_v2,
    V3_of_ne m accStep zeroAcc totals d r_v4 (by decide), V3_of_ne m accStep zeroAcc totals d r_v5 (by decide)]

/-- What @main's proof starts from besides the launch's deal: the two pipelines' staging cells' ghost state. -/
def Gd (d : Dev nD) : sProp 𝕄 :=
  iprop((Pipeline.cellsGhost (Pipeline.pin (pcfgs (F := F)) Reg0.adm) EP 0 d ∗ Pipeline.toksInit (Pipeline.pin (pcfgs (F := F)) Reg0.adm) EP 0 d)
    ∗ (Pipeline.cellsGhost (Pipeline.pin (pcfgs (F := F)) Reg0.adm) EP 1 d ∗ Pipeline.toksInit (Pipeline.pin (pcfgs (F := F)) Reg0.adm) EP 1 d))

/-- What @main leaves the claim: the nine arrays at the last valuation. -/
def FIN (d : Dev nD) : sProp 𝕄 := all9 d (𝕍6 d)

set_option maxHeartbeats 1600000 in
/-- @main on the device's TensorCore, statement by statement. -/
theorem hmain (hMid : Reg0.MidSpec accStep) (hFirst : Reg0.FirstSpec accStep zeroAcc) (hLast : Reg0.LastSpec accStep totals) (hComb : Reg2.CombSpec quotient)
    (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m accStep zeroAcc totals quotient d) := by
  obtain rfl : d = dz := Subsingleton.elim _ _
  unfold SparseCore.Cfg.tcRes Gd
  rw [unscoped_all9]
  simp only [main, wp_bind, wp_pure]
  iintro ⟨#Hctx, Hst, ⟨Hb, H9, -, -⟩, ⟨⟨Hg0, Ht0⟩, ⟨Hg1, Ht1⟩⟩⟩
  ihave Hlev := (SparseCore.Cfg.ctx_levAts (K := K (F := F)) κ) $$ Hctx
  -- the two reshapes
  iapply (wp_hlo_within 𝒱 (SparseCore.T dz) none Set.univ (op := opR0 (F := F)) (S := S9) hR0 (V := V0 m dz)) $$ [Hb H9]
  · isplitl [Hb]; · iexact Hb
    rw [held_S9]; iexact H9
  iintro ⟨Hb, H9⟩
  rw [wp_ret]; imodintro
  iapply (wp_hlo_within 𝒱 (SparseCore.T dz) none Set.univ (op := opR1 (F := F)) (S := S9) hR1 (V := V1 m dz)) $$ [Hb H9]
  · isplitl [Hb]; · iexact Hb
    iexact H9
  iintro ⟨Hb, H9⟩
  rw [wp_ret]; imodintro
  ihave H9a := (Entails.of_eq (held_S9 (F := F) dz ((opR1 (F := F)).result (V1 m dz)))) $$ H9
  ihave H9' := (show (all9 dz ((opR1 (F := F)).result (V1 m dz)) : sProp 𝕄) ⊢ all9 dz (V2 m dz) from BI.Entails.refl _) $$ H9a
  -- the first region
  ihave Hst' := (Entails.of_eq (tcSt_split (F := F) dz 0)) $$ Hst
  icases Hst' with ⟨HO, Hrest⟩
  iapply ((K (F := F)).wp_liftProg (D (F := F)) 𝒱 (SparseCore.T dz) Set.univ none (Prog.lift (.customCall (Pipeline.entry 0) ())) _)
  iapply (Pipeline.RegionSeg.wp (pcfgs (F := F)) Reg0.adm (𝔭) none cellOf_inj EP defs₀ 𝒱₀ (Lk (F := F)) (lvk (F := F))
    (R0 m accStep zeroAcc totals quotient (ScTile.scSums (F := F)) (ScTile.scCnts (F := F)) hMid hFirst hLast) dz none (fun u hu => absurd hu (Option.not_mem_none u)) (fun u => .ret u) _)
  isplitr [Hb H9' HO Hg0 Ht0]
  swap
  · isplitl [Hb]; · iexact Hb
    isplitl [H9' HO]
    · iapply (show (iprop(all9 dz (V2 m dz) ∗ tcOwes (F := F) dz 0) : sProp 𝕄) ⊢ (R0 m accStep zeroAcc totals quotient (ScTile.scSums (F := F)) (ScTile.scCnts (F := F)) hMid hFirst hLast).pre dz from BI.Entails.refl _)
      isplitl [H9']; · iexact H9'
      iexact HO
    isplitr; · iexact Hlev
    isplitl [Hg0]; · iexact Hg0
    iexact Ht0
  iintro ⟨Hb, Hpost⟩
  ihave Hp := (show (R0 m accStep zeroAcc totals quotient (ScTile.scSums (F := F)) (ScTile.scCnts (F := F)) hMid hFirst hLast).post dz ⊢ (iprop(all9 dz (𝕍3 dz) ∗ tcOwes (F := F) dz 0) : sProp 𝕄) from BI.Entails.refl _) $$ Hpost
  icases Hp with ⟨H9, HO⟩
  rw [wp_ret]; imodintro
  -- the SparseCore call
  ihave H9u := (Entails.of_eq (all9_V3 m accStep zeroAcc totals dz)) $$ H9
  icases H9u with ⟨Ha0, Ha1, Hv0, Hv1, Hv2, Hv30, Hv31, Hv4, Hv5⟩
  ihave Hst1 := (Entails.of_eq (tcSt_split (F := F) dz 0).symm) $$ [HO Hrest]
  · isplitl [HO]; · iexact HO
    iexact Hrest
  iapply ((K (F := F)).wp_run (D (F := F)) 𝒱 (EH := EH) (P := PP m) κ dz 0) $$ [Hst1 Hv0 Hv1 Hv30 Hv31 Hb Ha0 Ha1 Hv2 Hv4 Hv5 Hg1 Ht1]
  isplitr; · iexact Hctx
  isplitl [Hst1]; · iexact Hst1
  isplitl [Hv0 Hv1 Hv30 Hv31]
  · rw [ScTile.st0_eq]
    isplitl [Hv0]; · iexact Hv0
    isplitl [Hv1]; · iexact Hv1
    isplitl [Hv30]; · iexists _; iexact Hv30
    iexists _; iexact Hv31
  iintro ⟨Hst, Hdn⟩
  ihave Hdn' := (Entails.of_eq (ScTile.dn0_eq (F := F) (X0 m) (X1 m) dz)) $$ Hdn
  icases Hdn' with ⟨Hv0, Hv1, Hv30, Hv31⟩
  ihave H9 := (Entails.of_eq (all9_V4 m accStep zeroAcc totals dz).symm) $$ [Ha0 Ha1 Hv0 Hv1 Hv2 Hv30 Hv31 Hv4 Hv5]
  · isplitl [Ha0]; · iexact Ha0
    isplitl [Ha1]; · iexact Ha1
    isplitl [Hv0]; · iexact Hv0
    isplitl [Hv1]; · iexact Hv1
    isplitl [Hv2]; · iexact Hv2
    isplitl [Hv30]; · iexact Hv30
    isplitl [Hv31]; · iexact Hv31
    isplitl [Hv4]; · iexact Hv4
    iexact Hv5
  -- the second region
  ihave Hst' := (show ((K (F := F)).tcSt EH dz ((0 : Fin 1).val + 1) : sProp 𝕄) ⊢ iprop(tcOwes (F := F) dz 1 ∗ tcRest (F := F) dz 1) from BI.Entails.refl _) $$ Hst
  icases Hst' with ⟨HO, Hrest⟩
  iapply ((K (F := F)).wp_liftProg (D (F := F)) 𝒱 (SparseCore.T dz) Set.univ none (Prog.lift (.customCall (Pipeline.entry 1) ())) _)
  iapply (Pipeline.RegionSeg.wp (pcfgs (F := F)) Reg0.adm (𝔭) none cellOf_inj EP defs₀ 𝒱₀ (Lk (F := F)) (lvk (F := F))
    (R1 m accStep zeroAcc totals quotient (ScTile.scSums (F := F)) (ScTile.scCnts (F := F)) hComb) dz none (fun u hu => absurd hu (Option.not_mem_none u)) (fun u => .ret u) _)
  isplitr [Hb H9 HO Hg1 Ht1]
  swap
  · isplitl [Hb]; · iexact Hb
    isplitl [H9 HO]
    · iapply (show (iprop(all9 dz (𝕍4 dz) ∗ tcOwes (F := F) dz 1) : sProp 𝕄) ⊢ (R1 m accStep zeroAcc totals quotient (ScTile.scSums (F := F)) (ScTile.scCnts (F := F)) hComb).pre dz from BI.Entails.refl _)
      isplitl [H9]; · iexact H9
      iexact HO
    isplitr; · iexact Hlev
    isplitl [Hg1]; · iexact Hg1
    iexact Ht1
  iintro ⟨Hb, Hpost⟩
  ihave Hp := (show (R1 m accStep zeroAcc totals quotient (ScTile.scSums (F := F)) (ScTile.scCnts (F := F)) hComb).post dz ⊢ (iprop(all9 dz (𝕍5 dz) ∗ tcOwes (F := F) dz 1) : sProp 𝕄) from BI.Entails.refl _) $$ Hpost
  icases Hp with ⟨H9, HO⟩
  rw [wp_ret]; imodintro
  -- the last reshape
  ihave H9h := (Entails.of_eq (held_S9 (F := F) dz (𝕍5 dz)).symm) $$ H9
  iapply (wp_hlo_within 𝒱 (SparseCore.T dz) none Set.univ (op := opR5 (F := F)) (S := S9) hR5 (V := 𝕍5 dz)) $$ [Hb H9h]
  · isplitl [Hb]; · iexact Hb
    iexact H9h
  iintro ⟨Hb, H9⟩
  rw [wp_ret]; imodintro; imodintro
  isplitl [HO Hrest]
  · iapply (Entails.of_eq (tcSt_split (F := F) dz 1).symm)
    isplitl [HO]; · iexact HO
    iexact Hrest
  unfold FIN
  ihave H9a := (Entails.of_eq (held_S9 (F := F) dz ((opR5 (F := F)).result (𝕍5 dz)))) $$ H9
  iapply (show (all9 dz ((opR5 (F := F)).result (𝕍5 dz)) : sProp 𝕄) ⊢ all9 dz (𝕍6 dz) from BI.Entails.refl _)
  iexact H9a

end Main

end Cert.Proof.KI.Launch

end
-- ==== Proof.LaunchElemI.lean ====
/-
  The launch element of the program's ghost state: the rounds of the launch handshakes, the rounds of the two TensorCore
  pipelines' staging cells on every device, and a unit for the counters of the tiles' local copies (allocated when a copy
  is issued). It funds the handshakes, each device's share of the pipelines' ghost state and duty tokens, and nothing for
  the SparseCore kernel's own proof, which consumes nothing of the launch's.
-/
import proofs.«211649_g4638564679882_cont_8to1c4_562_19_alg».proof.Proof.CommonI
import proofs.«211649_g4638564679882_cont_8to1c4_562_19_alg».proof.Proof.ScTileI
import proofs.«211649_g4638564679882_cont_8to1c4_562_19_alg».proof.Proof.Reg0I
import Idealize.ShloMosaic.Lib.Pipeline.Sound
import Idealize.ShloMosaic.Lib.Pipeline.Launch

set_option Elab.async false

noncomputable section

namespace Cert.Proof.KI.LaunchElem

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The two TensorCore pipelines, their tables pinned. -/
abbrev cfgs' : Fin 2 → Pipeline.Cfg sig Λ₀ := Pipeline.pin (pcfgs (F := F)) Reg0.adm

/-- What the launch deals device `d`'s TensorCore: the ghost state and the duty tokens of its two pipelines' staging cells. -/
def Gd (d : Dev nD) : sProp 𝕄 :=
  iprop((Pipeline.cellsGhost (cfgs' (F := F)) EP 0 d ∗ Pipeline.toksInit (cfgs' (F := F)) EP 0 d)
    ∗ (Pipeline.cellsGhost (cfgs' (F := F)) EP 1 d ∗ Pipeline.toksInit (cfgs' (F := F)) EP 1 d))

/-- The launch element: the handshakes' rounds, the staging cells' rounds, no counter yet. -/
def u₀ : UU :=
  (initOf (K (F := F)).hsCells (K (F := F)).hsToks,
    (initOf (Pipeline.cells (cfgs' (F := F)) cellOf_inj) (Pipeline.launchToks (cfgs' (F := F)) cellOf_inj), (1 : Counters)))

/-- Per device, the two pipelines' ghost state and tokens regroup into the device's share. -/
theorem Gd_intro :
    iprop((bigSep Finset.univ fun c : Dev nD => bigSep Finset.univ fun p : Fin 2 => Pipeline.cellsGhost (cfgs' (F := F)) EP p c)
        ∗ (bigSep Finset.univ fun c : Dev nD => bigSep Finset.univ fun p : Fin 2 => (Pipeline.toksInit (cfgs' (F := F)) EP p c : sProp 𝕄)))
      ⊢ bigSep Finset.univ (Gd (F := F)) := by
  rw [← bigSep_sep']
  refine BI.bigSep_mono fun d _ => (show iprop((bigSep Finset.univ fun p : Fin 2 => Pipeline.cellsGhost (cfgs' (F := F)) EP p d)
      ∗ (bigSep Finset.univ fun p : Fin 2 => (Pipeline.toksInit (cfgs' (F := F)) EP p d : sProp 𝕄))) ⊢ Gd (F := F) d from ?_)
  rw [bigSep_univ_two, bigSep_univ_two]
  unfold Gd
  iintro ⟨⟨A0, A1⟩, ⟨B0, B1⟩⟩
  isplitl [A0 B0]
  · isplitl [A0] <;> iassumption
  · isplitl [A1] <;> iassumption

variable [FloatOps F]

/-- The launch element funds the handshakes, the two pipelines' staging cells on every device, and nothing for the
    SparseCore kernel's own proof; the counters and what the launch offers besides are dropped. -/
theorem hu₀ (x0 x1 : ScTile.Big F) :
    iprop(ownU (u₀ (F := F)) ∗ (ScTile.P x0 x1).oxCred ∗ (K (F := F)).freeSems0)
      ⊢ |={Set.univ}=> iprop(BI.own (EH (initOf (K (F := F)).hsCells (K (F := F)).hsToks)) ∗ bigSep Finset.univ (Gd (F := F))
          ∗ bigSep Finset.univ fun thr : Thread nD τ => bigSep Finset.univ fun q : Fin 1 => (ScTile.P x0 x1).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (show (BI.own (((Emb.inl : Emb UP (UP × Counters)).trans embR)
      (initOf (Pipeline.cells (cfgs' (F := F)) cellOf_inj) (Pipeline.launchToks (cfgs' (F := F)) cellOf_inj))) : sProp 𝕄)
      ⊢ BI.own (EP (initOf (Pipeline.cells (cfgs' (F := F)) cellOf_inj) (Pipeline.launchToks (cfgs' (F := F)) cellOf_inj))) from Entails.of_eq rfl) $$ HP
  imod (Pipeline.fund_ghost (cfgs' (F := F)) EP cellOf_inj) $$ HP' with ⟨Hg, Ht⟩
  imodintro
  isplitl [HH]
  · iapply (show (BI.own (embL (initOf (K (F := F)).hsCells (K (F := F)).hsToks)) : sProp 𝕄)
      ⊢ BI.own (EH (initOf (K (F := F)).hsCells (K (F := F)).hsToks)) from Entails.of_eq rfl)
    iexact HH
  isplitl [Hg Ht]
  · iapply (Gd_intro (F := F))
    isplitl [Hg] <;> iassumption
  · rw [ScTile.Px_all]; iempintro

end Cert.Proof.KI.LaunchElem

end
-- ==== Proof.RunI.lean ====
/-
  The kernel's run.  The launch theorem for a program with a vector-subcore kernel, applied to: the tile's body
  obligation and the split of a SparseCore's operands among its sixteen tiles; the launch element (the handshakes' rounds
  and the two pipelines' staging cells' ghost state); @main on the TensorCore; and how the final memory is read — the two
  arguments unchanged, the result buffer at the last valuation's value.
-/
import proofs.«211649_g4638564679882_cont_8to1c4_562_19_alg».proof.Proof.LaunchI
import proofs.«211649_g4638564679882_cont_8to1c4_562_19_alg».proof.Proof.LaunchElemI

set_option maxRecDepth 16384
set_option Elab.async false

noncomputable section

namespace Cert.Proof.KI.Run

open Cert.KernelIdeal Cert.KernelIdeal.Gen
open Cert.Proof.KI Cert.Proof.KI.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)
variable (accStep : Reg0.B2048 F → Reg0.B2048 F → Reg0.BAcc F → Reg0.BAcc F) (zeroAcc : Reg0.BAcc F) (totals : Reg0.BAcc F → Reg0.B2 F)
variable (quotient : Reg2.B16 F → Reg2.B16 F → Reg2.B2 F → Reg2.B1 F)

local notation "𝕍5" => V5 m accStep zeroAcc totals quotient (ScTile.scSums (F := F)) (ScTile.scCnts (F := F))
local notation "𝕍6" => V6 m accStep zeroAcc totals quotient (ScTile.scSums (F := F)) (ScTile.scCnts (F := F))

/-! ## The two arguments are never written -/

theorem V2_of_arg (c : Dev nD) (b : DevRef τ sig) (h0 : b ≠ r_v0) (h1 : b ≠ r_v1) : V2 m c b = m (c, b) := by
  unfold V2 V1 V0
  rw [(opR1 (F := F)).result_of_not_mem _ (b := b) (show b ∉ ({r_v1} : Finset (DevRef τ sig)) from fun h => h1 (Finset.mem_singleton.mp h)),
    (opR0 (F := F)).result_of_not_mem _ (b := b) (show b ∉ ({r_v0} : Finset (DevRef τ sig)) from fun h => h0 (Finset.mem_singleton.mp h))]

theorem V6_of_arg (c : Dev nD) (b : DevRef τ sig) (h0 : b ≠ r_v0) (h1 : b ≠ r_v1) (h2 : b ≠ r_v2) (h30 : b ≠ r_v30) (h31 : b ≠ r_v31)
    (h4 : b ≠ r_v4) (h5 : b ≠ r_v5) : 𝕍6 c b = m (c, b) := by
  unfold V6
  rw [(opR5 (F := F)).result_of_not_mem _ (b := b) (show b ∉ ({r_v5} : Finset (DevRef τ sig)) from fun h => h5 (Finset.mem_singleton.mp h)),
    V5_of_ne m accStep zeroAcc totals quotient _ _ c b h4, V4_of_ne m accStep zeroAcc totals c b h30 h31, V3_of_ne m accStep zeroAcc totals c b h2,
    V2_of_arg m c b h0 h1]

theorem V6_a0 (c : Dev nD) : 𝕍6 c r_a0 = m (a0Loc c) :=
  V6_of_arg m accStep zeroAcc totals quotient c r_a0 (by decide) (by decide) (by decide) (by decide) (by decide) (by decide) (by decide)
theorem V6_a1 (c : Dev nD) : 𝕍6 c r_a1 = m (a1Loc c) :=
  V6_of_arg m accStep zeroAcc totals quotient c r_a1 (by decide) (by decide) (by decide) (by decide) (by decide) (by decide) (by decide)

/-! ## Reading the final memory -/

/-- The result and the two arguments in a final state. -/
def fq (d : Dev nD) (s' : Phys nD τ sig (Elt F)) : Prop :=
  s'.mem.mem (resLoc d) = 𝕍6 d r_v5 ∧ s'.mem.mem (a0Loc d) = 𝕍6 d r_a0 ∧ s'.mem.mem (a1Loc d) = 𝕍6 d r_a1

theorem hfin (d : Dev nD) (s' : Phys nD τ sig (Elt F)) :
    iprop(FIN m accStep zeroAcc totals quotient d ∗ SI s') ⊢ (⌜fq m accStep zeroAcc totals quotient d s'⌝ : sProp 𝕄) := by
  unfold FIN all9
  iintro ⟨⟨Ha0, Ha1, -, -, -, -, -, -, Hv5⟩, HSI⟩
  ihave H := (persistent_entails_right (SI_pointsTo_agree (st := s') (ℓ := resLoc d) (I := Finset.univ) (q := fullShare) (f := 𝕍6 d r_v5))) $$ [HSI Hv5]
  · isplitl [HSI] <;> iassumption
  icases H with ⟨%h1, HSI, -⟩
  ihave H := (persistent_entails_right (SI_pointsTo_agree (st := s') (ℓ := a0Loc d) (I := Finset.univ) (q := fullShare) (f := 𝕍6 d r_a0))) $$ [HSI Ha0]
  · isplitl [HSI] <;> iassumption
  icases H with ⟨%h2, HSI, -⟩
  ihave H := (SI_pointsTo_agree (st := s') (ℓ := a1Loc d) (I := Finset.univ) (q := fullShare) (f := 𝕍6 d r_a1)) $$ [HSI Ha1]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every final state: the result buffer at the last valuation's value, the two arguments as launched. -/
def QC : PUnit × MemSt nD τ sig (Elt F) → Prop := fun r => ∀ c : Dev nD,
  r.2.mem (resLoc c) = 𝕍6 c r_v5 ∧ r.2.mem (a0Loc c) = m (a0Loc c) ∧ r.2.mem (a1Loc c) = m (a1Loc c)

theorem run_main [∀ e, Nonempty (Elt F e)]
    (hMid : Reg0.MidSpec accStep) (hFirst : Reg0.FirstSpec accStep zeroAcc) (hLast : Reg0.LastSpec accStep totals) (hComb : Reg2.CombSpec quotient) :
    θ_run (Cert.KernelIdeal.defs (F := F)) (Cert.KernelIdeal.threads (F := F)) ⟨m, fun _ => 0, ρ⟩ (QC m accStep zeroAcc totals quotient) :=
  SparseCore.Cfg.θ_run_sc (K := K (F := F)) (D := D (F := F)) (𝒱 := 𝒱) (EH := EH) (P := PP m) facts v₀
    (fun q hq => match q with | 0 => nomatch hq)
    (fun q _ => match q with | 0 => ScTile.tileObl (X0 m) (X1 m))
    (fun q _ => match q with | 0 => SparseCore.Cfg.VecSplit.of_plain (ScTile.vecSplit (X0 m) (X1 m)))
    m ρ main (Gd (F := F)) (FIN m accStep zeroAcc totals quotient) (LaunchElem.u₀ (F := F)) (LaunchElem.hu₀ (X0 m) (X1 m))
    (hmain m ρ accStep zeroAcc totals quotient hMid hFirst hLast hComb) (fq m accStep zeroAcc totals quotient) (hfin m accStep zeroAcc totals quotient)
    (QC m accStep zeroAcc totals quotient)
    (fun s' h c => ⟨(h c).1, (h c).2.1.trans (V6_a0 m accStep zeroAcc totals quotient c), (h c).2.2.trans (V6_a1 m accStep zeroAcc totals quotient c)⟩)

end Cert.Proof.KI.Run

end
-- ==== Proof.RegValueI.lean ====
/-
  What the two TensorCore regions leave in their result arrays, read off the pipelines' proof data. The first region's
  two input windows are the seven blocks of 2048 rows of the two big arrays (block `t` at point `t`); its result window
  is the whole two-element array, written back once, at the last point, with the totals of the carried scratch after
  all seven points. The second region's windows are whole arrays at its one point; its one-element result is the
  quotient of its three inputs as the region finds them.
-/
import proofs.«211649_g4638564679882_cont_8to1c4_562_19_alg».proof.Proof.Reg0I
import proofs.«211649_g4638564679882_cont_8to1c4_562_19_alg».proof.Proof.Reg2I
import Idealize.ShloMosaic.Lib.Pipeline.Value
import Idealize.ShloMosaic.Lib.ValueIdx

set_option maxRecDepth 16384
set_option Elab.async false

noncomputable section

namespace Cert.Proof.KI.RegValue

open Cert.KernelIdeal Cert.KernelIdeal.Gen
open Cert.Proof.KI

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

variable (c : Dev nD) (Wr : (b : Ref sig .tc) → Buf (Elt F) ((c : Thread nD τ).loc b))

/-! ## The first region's input blocks: 2048 rows of the big arrays each -/

/-- The printed index maps of the two input windows, decided over the seven points: block `t` of rows, the one block of columns. -/
theorem idx_in0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem iblk0 (t : Fin cfg0.N) :
    (Reg0.iblk c Wr 0 t : Reg0.B2048 F) = fun j => Wr main_v0 (ValueIdx.ix2
      (⟨2048 * t.val + (j 0).val, by have h1 : t.val < 7 := t.isLt; have h2 : (j 0).val < 2048 := (j 0).isLt; omega⟩ : Fin 16384)
      (⟨(j 1).val, (j 1).isLt⟩ : Fin 512)) := by
  funext j
  unfold Reg0.iblk
  rw [View.read_apply, cast_eq]
  show Wr main_v0 (((cfg0.win 0).blk t).view.emb j) = _
  congr 1
  funext a
  apply Fin.ext
  obtain ⟨e0, e1, e2, e3⟩ := idx_in0 t
  match a with
  | ⟨0, _⟩ => show win0_0.index t (0 : Fin 2) * 2048 + 1 * (j 0).val = 2048 * t.val + (j 0).val; omega
  | ⟨1, _⟩ => show win0_0.index t (1 : Fin 2) * 512 + 1 * (j 1).val = (j 1).val; omega

theorem iblk1 (t : Fin cfg0.N) :
    (Reg0.iblk c Wr 1 t : Reg0.B2048 F) = fun j => Wr main_v1 (ValueIdx.ix2
      (⟨2048 * t.val + (j 0).val, by have h1 : t.val < 7 := t.isLt; have h2 : (j 0).val < 2048 := (j 0).isLt; omega⟩ : Fin 16384)
      (⟨(j 1).val, (j 1).isLt⟩ : Fin 512)) := by
  funext j
  unfold Reg0.iblk
  rw [View.read_apply, cast_eq]
  show Wr main_v1 (((cfg0.win 1).blk t).view.emb j) = _
  congr 1
  funext a
  apply Fin.ext
  obtain ⟨e0, e1, e2, e3⟩ := idx_in0 t
  match a with
  | ⟨0, _⟩ => show win0_1.index t (0 : Fin 2) * 2048 + 1 * (j 0).val = 2048 * t.val + (j 0).val; omega
  | ⟨1, _⟩ => show win0_1.index t (1 : Fin 2) * 512 + 1 * (j 1).val = (j 1).val; omega

/-! ## The first region's result: the two totals, written back whole at the last point -/

section Region0
variable (accStep : Reg0.B2048 F → Reg0.B2048 F → Reg0.BAcc F → Reg0.BAcc F) (zeroAcc : Reg0.BAcc F) (totals : Reg0.BAcc F → Reg0.B2 F)
variable (O : CellTallies nD τ sig (HIx 1)) (Rec : Set (SemLoc sig × HIx 1))

/-- The result window's one block is the whole two-element array at every point. -/
theorem idx_out0 : ∀ t : Fin cfg0.N, win0_2.index t (0 : Fin 1) = 0 :=
  (by decide +kernel : ∀ t : Fin grid0.N, _)

/-- An index of the two-element array is in point `t`'s block iff its coordinate is in the block's range. -/
theorem mem_blk0_2 (t : Fin cfg0.N) (i : S2.Idx) :
    i ∈ ((cfg0.win 2).blk t).view.set ↔ ∀ a : Fin 1, win0_2.index t a * S2.size a ≤ (i a).val ∧ (i a).val < win0_2.index t a * S2.size a + S2.size a := by
  show i ∈ ((View.whole main_v2).slice (win0_2.rect t)).set ↔ _
  rw [View.set_slice_whole, Rect.mem_set_unit]
  exact Iff.rfl

theorem arrAt0_2 :
    (Reg0.dat accStep zeroAcc totals c Wr O Rec).arrAt 2 cfg0.N = totals (Reg0.accAt accStep zeroAcc c Wr 6 (by decide)) := by
  refine (Reg0.dat accStep zeroAcc totals c Wr O Rec).arrAt_eq_of_cover 2 (totals (Reg0.accAt accStep zeroAcc c Wr 6 (by decide))) ?hG ?hcover
  case hG =>
    intro t hf
    have h6 : t.val = 6 := by have := (flush0_2 t).mp hf; have h7 : t.val < 7 := t.isLt; omega
    obtain ⟨n, hn⟩ := t
    simp only at h6
    subst h6
    show (cfg0.win 2).cut (grid0.coords ⟨6, hn⟩) ((Reg0.dat accStep zeroAcc totals c Wr O Rec).after 2 ⟨6, hn⟩) = _
    rw [Reg0.after_2]
    funext y
    rw [View.read_apply, cast_eq]
    show totals (Reg0.accAt accStep zeroAcc c Wr 6 hn) y = totals (Reg0.accAt accStep zeroAcc c Wr 6 hn) (((cfg0.win 2).blk ⟨6, hn⟩).view.emb y)
    congr 1
    funext a
    apply Fin.ext
    have e0 := idx_out0 ⟨6, hn⟩
    match a with
    | ⟨0, _⟩ => show (y 0).val = win0_2.index ⟨6, hn⟩ (0 : Fin 1) * 2 + 1 * (y 0).val; omega
  case hcover =>
    intro i
    refine ⟨⟨6, by decide⟩, (flush0_2 _).mpr rfl, ?_⟩
    rw [mem_blk0_2]
    intro a
    have e0 := idx_out0 ⟨6, by decide⟩
    match a with
    | ⟨0, _⟩ => show win0_2.index ⟨6, _⟩ (0 : Fin 1) * 2 ≤ (i 0).val ∧ (i 0).val < win0_2.index ⟨6, _⟩ (0 : Fin 1) * 2 + 2; have hi : (i 0).val < 2 := (i 0).isLt; omega

end Region0

/-! ## The second region: whole-array windows, one point -/

/-- Every window of the second region is its whole array: block index zero on every axis, at the one point. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 :=
  (by decide +kernel : ∀ t : Fin grid2.N, _)

theorem iblk2_0 (t : Fin cfg2.N) : (Reg2.iblk c Wr 0 t : Reg2.B16 F) = Wr main_v3_0 := by
  funext y
  unfold Reg2.iblk
  rw [View.read_apply, cast_eq]
  show Wr main_v3_0 (((cfg2.win 0).blk t).view.emb y) = Wr main_v3_0 y
  congr 1
  funext a
  apply Fin.ext
  obtain ⟨e00, e01, e10, e11, e20, e30⟩ := idx2 t
  match a with
  | ⟨0, _⟩ => show win2_0.index t (0 : Fin 2) * 16 + 1 * (y 0).val = (y 0).val; omega
  | ⟨1, _⟩ => show win2_0.index t (1 : Fin 2) * 16 + 1 * (y 1).val = (y 1).val; omega

theorem iblk2_1 (t : Fin cfg2.N) : (Reg2.iblk c Wr 1 t : Reg2.B16 F) = Wr main_v3_1 := by
  funext y
  unfold Reg2.iblk
  rw [View.read_apply, cast_eq]
  show Wr main_v3_1 (((cfg2.win 1).blk t).view.emb y) = Wr main_v3_1 y
  congr 1
  funext a
  apply Fin.ext
  obtain ⟨e00, e01, e10, e11, e20, e30⟩ := idx2 t
  match a with
  | ⟨0, _⟩ => show win2_1.index t (0 : Fin 2) * 16 + 1 * (y 0).val = (y 0).val; omega
  | ⟨1, _⟩ => show win2_1.index t (1 : Fin 2) * 16 + 1 * (y 1).val = (y 1).val; omega

theorem iblk2_2 (t : Fin cfg2.N) : (Reg2.iblk c Wr 2 t : Reg2.B2 F) = Wr main_v2 := by
  funext y
  unfold Reg2.iblk
  rw [View.read_apply, cast_eq]
  show Wr main_v2 (((cfg2.win 2).blk t).view.emb y) = Wr main_v2 y
  congr 1
  funext a
  apply Fin.ext
  obtain ⟨e00, e01, e10, e11, e20, e30⟩ := idx2 t
  match a with
  | ⟨0, _⟩ => show win2_2.index t (0 : Fin 1) * 2 + 1 * (y 0).val = (y 0).val; omega

section Region2
variable (quotient : Reg2.B16 F → Reg2.B16 F → Reg2.B2 F → Reg2.B1 F)
variable (O : CellTallies nD τ sig (HIx 1)) (Rec : Set (SemLoc sig × HIx 1))

/-- An index of the one-element result is in the point's block iff its coordinate is in the block's range. -/
theorem mem_blk2_3 (t : Fin cfg2.N) (i : S1.Idx) :
    i ∈ ((cfg2.win 3).blk t).view.set ↔ ∀ a : Fin 1, win2_3.index t a * S1.size a ≤ (i a).val ∧ (i a).val < win2_3.index t a * S1.size a + S1.size a := by
  show i ∈ ((View.whole main_v4).slice (win2_3.rect t)).set ↔ _
  rw [View.set_slice_whole, Rect.mem_set_unit]
  exact Iff.rfl

theorem arrAt2_3 :
    (Reg2.dat quotient c Wr O Rec).arrAt 3 cfg2.N = quotient (Wr main_v3_0) (Wr main_v3_1) (Wr main_v2) := by
  refine (Reg2.dat quotient c Wr O Rec).arrAt_eq_of_cover 3 (quotient (Wr main_v3_0) (Wr main_v3_1) (Wr main_v2)) ?hG ?hcover
  case hG =>
    intro t hf
    show (cfg2.win 3).cut (grid2.coords t) ((Reg2.dat quotient c Wr O Rec).after 3 t) = _
    rw [Reg2.after_3, iblk2_0, iblk2_1, iblk2_2]
    funext y
    rw [View.read_apply, cast_eq]
    show quotient (Wr main_v3_0) (Wr main_v3_1) (Wr main_v2) y = quotient (Wr main_v3_0) (Wr main_v3_1) (Wr main_v2) (((cfg2.win 3).blk t).view.emb y)
    congr 1
    funext a
    apply Fin.ext
    obtain ⟨e00, e01, e10, e11, e20, e30⟩ := idx2 t
    match a with
    | ⟨0, _⟩ => show (y 0).val = win2_3.index t (0 : Fin 1) * 1 + 1 * (y 0).val; omega
  case hcover =>
    intro i
    refine ⟨⟨0, by decide⟩, flush2_3 _, ?_⟩
    rw [mem_blk2_3]
    intro a
    obtain ⟨e00, e01, e10, e11, e20, e30⟩ := idx2 ⟨0, by decide⟩
    match a with
    | ⟨0, _⟩ => show win2_3.index ⟨0, _⟩ (0 : Fin 1) * 1 ≤ (i 0).val ∧ (i 0).val < win2_3.index ⟨0, _⟩ (0 : Fin 1) * 1 + 1; have hi : (i 0).val < 1 := (i 0).isLt; omega

end Region2

/-! ## The first region's scratch as a recursion over the big arrays themselves -/

/-- Rows `2048 n … 2048 n + 2047` of a big array (the remainder only makes it total in `n`; for `n ≤ 7` it changes nothing). -/
def blkRows (x : S16384x512.Idx → Elt F .f32) (n : ℕ) : Reg0.B2048 F :=
  fun j => x (ValueIdx.ix2 (⟨(2048 * n + (j 0).val) % 16384, Nat.mod_lt _ (by decide)⟩ : Fin 16384) (⟨(j 1).val, (j 1).isLt⟩ : Fin 512))

/-- The carried scratch after points `0 … n`: the blocks of rows accumulated in order, from the zero array. -/
def accN (accStep : Reg0.B2048 F → Reg0.B2048 F → Reg0.BAcc F → Reg0.BAcc F) (zeroAcc : Reg0.BAcc F)
    (x0 x1 : S16384x512.Idx → Elt F .f32) : ℕ → Reg0.BAcc F
  | 0 => accStep (blkRows x0 0) (blkRows x1 0) zeroAcc
  | n + 1 => accStep (blkRows x0 (n + 1)) (blkRows x1 (n + 1)) (accN accStep zeroAcc x0 x1 n)

/-- Below the eighth block the remainder drops: block `n`'s row `ρ` is row `2048 n + ρ`. -/
theorem blkRows_apply (x : S16384x512.Idx → Elt F .f32) (n : ℕ) (hn : n < 8) (j : S2048x512.Idx) :
    blkRows x n j = x (ValueIdx.ix2 (⟨2048 * n + (j 0).val, by have h2 : (j 0).val < 2048 := (j 0).isLt; omega⟩ : Fin 16384)
      (⟨(j 1).val, (j 1).isLt⟩ : Fin 512)) := by
  unfold blkRows
  congr 2
  apply Fin.ext
  show (2048 * n + (j 0).val) % 16384 = 2048 * n + (j 0).val
  have h2 : (j 0).val < 2048 := (j 0).isLt
  exact Nat.mod_eq_of_lt (by omega)

theorem iblk0_rows (t : Fin cfg0.N) : (Reg0.iblk c Wr 0 t : Reg0.B2048 F) = blkRows (Wr main_v0) t.val := by
  rw [iblk0]
  funext j
  unfold blkRows
  congr 2
  apply Fin.ext
  show 2048 * t.val + (j 0).val = (2048 * t.val + (j 0).val) % 16384
  have h1 : t.val < 7 := t.isLt
  have h2 : (j 0).val < 2048 := (j 0).isLt
  rw [Nat.mod_eq_of_lt (by omega)]
theorem iblk1_rows (t : Fin cfg0.N) : (Reg0.iblk c Wr 1 t : Reg0.B2048 F) = blkRows (Wr main_v1) t.val := by
  rw [iblk1]
  funext j
  unfold blkRows
  congr 2
  apply Fin.ext
  show 2048 * t.val + (j 0).val = (2048 * t.val + (j 0).val) % 16384
  have h1 : t.val < 7 := t.isLt
  have h2 : (j 0).val < 2048 := (j 0).isLt
  rw [Nat.mod_eq_of_lt (by omega)]

section Region0'
variable (accStep : Reg0.B2048 F → Reg0.B2048 F → Reg0.BAcc F → Reg0.BAcc F) (zeroAcc : Reg0.BAcc F) (totals : Reg0.BAcc F → Reg0.B2 F)
variable (O : CellTallies nD τ sig (HIx 1)) (Rec : Set (SemLoc sig × HIx 1))

/-- The proof data's scratch is that recursion over the two big arrays as the region finds them. -/
theorem accAt_eq : ∀ (n : ℕ) (hn : n < cfg0.N), Reg0.accAt accStep zeroAcc c Wr n hn = accN accStep zeroAcc (Wr main_v0) (Wr main_v1) n
  | 0, hn => by
    show accStep (Reg0.iblk c Wr 0 ⟨0, hn⟩) (Reg0.iblk c Wr 1 ⟨0, hn⟩) zeroAcc = _
    rw [iblk0_rows, iblk1_rows]; rfl
  | n + 1, hn => by
    show accStep (Reg0.iblk c Wr 0 ⟨n + 1, hn⟩) (Reg0.iblk c Wr 1 ⟨n + 1, hn⟩) (Reg0.accAt accStep zeroAcc c Wr n (Nat.lt_of_succ_lt hn)) = _
    rw [iblk0_rows, iblk1_rows, accAt_eq n (Nat.lt_of_succ_lt hn)]; rfl

theorem arrAt0_2' :
    (Reg0.dat accStep zeroAcc totals c Wr O Rec).arrAt 2 cfg0.N = totals (accN accStep zeroAcc (Wr main_v0) (Wr main_v1) 6) := by
  rw [arrAt0_2, accAt_eq]

end Region0'

end Cert.Proof.KI.RegValue

end
-- ==== Proof.SpecI.lean ====
/-
  The mathematics the kernel and the reference share, over the extended reals.  With s and t an entry of the source and
  of the target, the entry contributes (s - t)^2 to the masked sum of squares and 1 to the mask count when t exceeds the
  threshold (the f32 value nearest 0.05), and nothing otherwise; the loss is the quotient of the two sums over all
  16384 × 512 entries.  The kernel splits the rows into 0 … 14335 (seven blocks of 2048 on the TensorCore) and
  14336 … 16383 (sixteen tiles of 128 on the SparseCore); the reference sums everything at once.
-/
import Idealize.ShloMosaic.PureOps.Ideal
import Idealize.ShloMosaic.Lib.ValueIdx

noncomputable section

namespace Cert.Proof.Spec

open Idealize.ShloMosaic

/-- The threshold. -/
def c05 : EReal := Ideal.ofBits .f32 0x3D4CCCCD#32

/-- One entry's contribution to the masked sum of squared differences, -/
def sqK (s t : EReal) : EReal := if c05 < t then (s - t) * (s - t) else 0
/-- and to the mask count. -/
def cnK (t : EReal) : EReal := if c05 < t then 1 else 0

/-- A [16384, 512] array of extended reals. -/
abbrev Big : Type := (⟨2, ![16384, 512]⟩ : Shape).Idx → EReal

/-- The masked sum of squares over the rows `lo ≤ r < hi`, all 512 columns, -/
def sqRows (x0 x1 : Big) (lo hi : ℕ) : EReal :=
  ∑ r : Fin 16384, if lo ≤ r.val ∧ r.val < hi then ∑ c : Fin 512, sqK (x0 (ValueIdx.ix2 r c)) (x1 (ValueIdx.ix2 r c)) else 0
/-- and the mask count over them. -/
def cnRows (x1 : Big) (lo hi : ℕ) : EReal :=
  ∑ r : Fin 16384, if lo ≤ r.val ∧ r.val < hi then ∑ c : Fin 512, cnK (x1 (ValueIdx.ix2 r c)) else 0

/-- The loss. -/
def loss (x0 x1 : Big) : EReal := Ideal.div (sqRows x0 x1 0 16384) (cnRows x1 0 16384)

/-- Every entry is a real number. -/
def AllReal (x : Big) : Prop := ∀ i, ∃ v : ℝ, x i = (v : EReal)

end Cert.Proof.Spec

end
-- ==== Proof.LibFinite.lean ====
/-
  Finiteness is preserved by every operation between the inputs and the first linear layer's output, on the extended reals.

  An extended real IS REAL when it is the coercion of a real number (it is neither infinity); an array IS REAL when every
  entry is. Sums, differences and products of real numbers are real, so a finite sum of real entries is real; hence so are
  the entries of an elementwise sum, difference or product of real arrays, of a matrix product of real arrays (a finite
  sum of products, plus the accumulator's entry), of a sum over some axes, and of a scatter with addition (the operand's
  entry plus a finite sum of update entries). A gather, a broadcast, a transposition, a reshape and a slice only re-index:
  each entry of the result is an entry of the operand — whatever the start indices hold, since an out-of-range start index is
  clamped into the operand — so the result of a real operand is real. A quotient by a nonzero real number is real, and
  a change of float format is the identity.
-/
import Idealize.ShloMosaic.PureOps.Ideal.Laws
import Idealize.ShloMosaic.Lib.ValueIdx

noncomputable section

namespace Cert.Finite

open Idealize.ShloMosaic
open scoped BigOperators

/-! ## Real values -/

/-- An extended real that is (the coercion of) a real number. -/
def IsRealVal (x : EReal) : Prop := ∃ q : ℝ, x = (q : EReal)

/-- An array of extended reals every entry of which is a real number. -/
def IsReal {ι : Type*} (v : ι → EReal) : Prop := ∀ i, ∃ q : ℝ, v i = (q : EReal)

theorem IsReal.apply {ι : Type*} {v : ι → EReal} (h : IsReal v) (i : ι) : IsRealVal (v i) := h i

theorem isReal_iff {ι : Type*} (v : ι → EReal) : IsReal v ↔ ∀ i, IsRealVal (v i) := Iff.rfl

theorem IsRealVal.coe (q : ℝ) : IsRealVal (q : EReal) := ⟨q, rfl⟩

theorem IsRealVal.zero : IsRealVal 0 := ⟨0, EReal.coe_zero.symm⟩

theorem IsRealVal.one : IsRealVal 1 := ⟨1, EReal.coe_one.symm⟩

theorem IsRealVal.add {x y : EReal} (hx : IsRealVal x) (hy : IsRealVal y) : IsRealVal (x + y) := by
  obtain ⟨a, rfl⟩ := hx; obtain ⟨b, rfl⟩ := hy
  exact ⟨a + b, (EReal.coe_add a b).symm⟩

theorem IsRealVal.sub {x y : EReal} (hx : IsRealVal x) (hy : IsRealVal y) : IsRealVal (x - y) := by
  obtain ⟨a, rfl⟩ := hx; obtain ⟨b, rfl⟩ := hy
  exact ⟨a - b, (EReal.coe_sub a b).symm⟩

theorem IsRealVal.mul {x y : EReal} (hx : IsRealVal x) (hy : IsRealVal y) : IsRealVal (x * y) := by
  obtain ⟨a, rfl⟩ := hx; obtain ⟨b, rfl⟩ := hy
  exact ⟨a * b, (EReal.coe_mul a b).symm⟩

theorem IsRealVal.neg {x : EReal} (hx : IsRealVal x) : IsRealVal (-x) := by
  obtain ⟨a, rfl⟩ := hx
  exact ⟨-a, (EReal.coe_neg a).symm⟩

theorem IsRealVal.ne_top {x : EReal} (hx : IsRealVal x) : x ≠ ⊤ := by
  obtain ⟨a, rfl⟩ := hx; exact EReal.coe_ne_top a

theorem IsRealVal.ne_bot {x : EReal} (hx : IsRealVal x) : x ≠ ⊥ := by
  obtain ⟨a, rfl⟩ := hx; exact EReal.coe_ne_bot a

/-- An extended real other than the two infinities is a real number. -/
theorem isRealVal_of_ne {x : EReal} (ht : x ≠ ⊤) (hb : x ≠ ⊥) : IsRealVal x := by
  induction x using EReal.rec with
  | bot => exact absurd rfl hb
  | top => exact absurd rfl ht
  | coe r => exact ⟨r, rfl⟩

/-- An extended real whose absolute value `max x (-x)` is below `+∞` is a real number. -/
theorem isRealVal_of_abs_lt_top {x : EReal} (h : max x (-x) < ⊤) : IsRealVal x := by
  induction x using EReal.rec with
  | bot => simp at h
  | top => simp at h
  | coe r => exact ⟨r, rfl⟩

/-- The precondition's test, on one element: the host's `|x| < t` answers `1` for a bound `t` that denotes `+∞` only
    at a real number `x`. -/
theorem isRealVal_of_cmpf_abs {φ : FTy} (x t : Ideal φ) (ht : t = (⊤ : EReal))
    (h : FloatOps.cmpf .olt (FloatOps.hostAbsf x) t = 1#1) : IsRealVal x := by
  subst ht
  apply isRealVal_of_abs_lt_top
  by_contra hn
  have : FloatOps.cmpf (F := Ideal) (φ := φ) .olt (FloatOps.hostAbsf x) (⊤ : EReal) = 0#1 := by
    show Ideal.cmp .olt (max x (-x)) ⊤ = 0#1
    simp only [Ideal.cmp]
    rw [decide_eq_false hn]; rfl
  rw [this] at h
  exact absurd h (by decide)

/-- A finite sum of real numbers is a real number. -/
theorem IsRealVal.sum {ι : Type*} (s : Finset ι) (f : ι → EReal) (hf : ∀ i ∈ s, IsRealVal (f i)) :
    IsRealVal (∑ i ∈ s, f i) := by
  classical
  induction s using Finset.induction_on with
  | empty => rw [Finset.sum_empty]; exact IsRealVal.zero
  | insert a s ha ih =>
    rw [Finset.sum_insert ha]
    exact (hf a (Finset.mem_insert_self a s)).add (ih fun i hi => hf i (Finset.mem_insert_of_mem hi))

/-- A quotient of a real number by a nonzero real number is a real number. -/
theorem IsRealVal.div_coe {x : EReal} (hx : IsRealVal x) {N : ℝ} (hN : N ≠ 0) : IsRealVal (Ideal.div x (N : EReal)) := by
  rw [Ideal.div_coe hN]
  exact hx.mul (IsRealVal.coe _)

/-! ## Re-indexings: each entry of the result is an entry of the operand -/

/-- Reading a real array through any map of indices gives a real array. -/
theorem IsReal.comp {ι κ : Type*} {v : ι → EReal} (hv : IsReal v) (f : κ → ι) : IsReal (fun j => v (f j)) :=
  fun j => hv (f j)

/-- A gather's entry is the operand's at the operand index of the result index: the start index read off the index array,
    clamped so that the slice fits, plus the batch and offset coordinates — an index of the operand whatever the start
    indices hold. -/
theorem gather_apply {α : Type} {s si t : Shape} {w : Nat} (d : GatherDims s si t) (x : s.Idx → α) (idx : IVec si w) (j : t.Idx) :
    Host.gather d x idx j = x (d.operandIdx j idx) := rfl

/-- So a gather of a real array is real, at any dimension numbers and any start indices. -/
theorem IsReal.gather {s si t : Shape} {w : Nat} {φ : FTy} (d : GatherDims s si t) {x : FVec Ideal s φ} (hx : IsReal x)
    (idx : IVec si w) : IsReal (Host.gather d x idx) :=
  fun j => hx (d.operandIdx j idx)

theorem IsReal.broadcastInDim {s t : Shape} {φ : FTy} (dims : Fin s.rank → Fin t.rank) (h : s.BroadcastsInDim t dims)
    {x : FVec Ideal s φ} (hx : IsReal x) : IsReal (broadcastInDim t dims h x) :=
  fun _ => hx _

theorem IsReal.transpose {s t : Shape} {φ : FTy} (perm : List (Fin s.rank)) (h : s.Transposes perm t)
    {x : FVec Ideal s φ} (hx : IsReal x) : IsReal (transpose t perm x h) :=
  fun _ => hx _

theorem IsReal.shapeCast {s t : Shape} {φ : FTy} (h : s.ShapeCasts t) {x : FVec Ideal s φ} (hx : IsReal x) :
    IsReal (shapeCast t x h) :=
  fun _ => hx _

theorem IsReal.extractStridedSlice {s t : Shape} {φ : FTy} (off : Fin s.rank → Nat) (h : s.Slices off t)
    {x : FVec Ideal s φ} (hx : IsReal x) : IsReal (extractStridedSlice t off x h) :=
  fun _ => hx _

/-- A constant array is real when its pattern denotes a real number. -/
theorem IsReal.constant (s : Shape) (φ : FTy) (b : BitVec φ.bits) (hb : IsRealVal (Ideal.ofBits φ b)) :
    IsReal (constant (F := Ideal) s φ b) :=
  fun _ => hb

/-- The zero array (the pattern `+0.0` at `f32`) is real. -/
theorem IsReal.constant_zero_f32 (s : Shape) : IsReal (Idealize.ShloMosaic.constant (F := Ideal) s .f32 0x00000000#32) :=
  fun _ => ⟨0, by show Ideal.ofBits .f32 0x00000000#32 = _; rw [Ideal.ofBits_zero_f32, EReal.coe_zero]⟩

/-- A change of float format is the identity on the extended reals. -/
theorem IsReal.truncf {s : Shape} {φ ψ : FTy} {x : FVec Ideal s φ} (hx : IsReal x) (h : ψ.bits < φ.bits) :
    IsReal (truncf ψ x h : FVec Ideal s ψ) :=
  fun i => hx i

theorem IsReal.extf {s : Shape} {φ ψ : FTy} {x : FVec Ideal s φ} (hx : IsReal x) (h : φ.bits < ψ.bits) :
    IsReal (extf ψ x h : FVec Ideal s ψ) :=
  fun i => hx i

/-! ## Elementwise arithmetic -/

theorem IsReal.addf {s : Shape} {φ : FTy} {a b : FVec Ideal s φ} (ha : IsReal a) (hb : IsReal b) : IsReal (addf a b) :=
  fun i => (ha.apply i).add (hb.apply i)

theorem IsReal.subf {s : Shape} {φ : FTy} {a b : FVec Ideal s φ} (ha : IsReal a) (hb : IsReal b) : IsReal (subf a b) :=
  fun i => (ha.apply i).sub (hb.apply i)

theorem IsReal.mulf {s : Shape} {φ : FTy} {a b : FVec Ideal s φ} (ha : IsReal a) (hb : IsReal b) : IsReal (mulf a b) :=
  fun i => (ha.apply i).mul (hb.apply i)

/-- The host's quotient by an array whose entries are one nonzero real number. -/
theorem IsReal.hostDivf_coe {s : Shape} {φ : FTy} {a b : FVec Ideal s φ} (ha : IsReal a) {N : ℝ} (hN : N ≠ 0)
    (hb : ∀ i, b i = (N : EReal)) : IsReal (Host.divf a b) := fun i => by
  show IsRealVal (Ideal.div (a i) (b i))
  rw [hb i]
  exact (ha.apply i).div_coe hN

/-! ## Contractions and sums -/

/-- A kernel's matrix product of real arrays onto a real accumulator is real: at an index, the accumulator's entry plus the
    finite sum over the contraction index of the products of the operands' entries. -/
theorem IsReal.matmul {sl sr so : Shape} {φ₁ φ₂ : FTy} (d : DotDims sl sr so) (prec : Option ContractPrecision)
    {lhs : FVec Ideal sl φ₁} {rhs : FVec Ideal sr φ₂} {acc : FVec Ideal so .f32} (hl : IsReal lhs) (hr : IsReal rhs)
    (ha : IsReal acc) : IsReal (FloatOps.matmul d prec lhs rhs acc) := fun j => by
  rw [Ideal.matmul_apply]
  exact (ha.apply j).add (IsRealVal.sum _ _ fun k _ => (hl.apply _).mul (hr.apply _))

/-- The host's `dot_general` of real arrays is real: the same finite sum of products, onto zero. -/
theorem IsReal.dotGeneral {sl sr so : Shape} {φ₁ φ₂ : FTy} (d : DotDims sl sr so) (prec : Option ContractPrecision)
    (sched : HostSchedule) {lhs : FVec Ideal sl φ₁} {rhs : FVec Ideal sr φ₂} (hl : IsReal lhs) (hr : IsReal rhs) :
    IsReal (FloatOps.dotGeneral d prec sched lhs rhs) := fun j => by
  rw [Ideal.dotGeneral_apply]
  exact IsRealVal.sum _ _ fun k _ => (hl.apply _).mul (hr.apply _)

/-- The host's sum over some axes of a real array from a real initial value is real: at an index, the initial value plus
    the finite sum of the operand's entries that reduce to it. -/
theorem IsReal.hostReduceAdd {s t u : Shape} {φ : FTy} {axes : List (Fin s.rank)} {x : FVec Ideal s φ} (hx : IsReal x)
    {init : u.Idx → Ideal φ} (hi : IsReal init) (h : s.ReducesTo axes t) (hu : 0 < u.numel) :
    IsReal (Host.reduceAdd x init h hu) := fun j => by
  show IsRealVal (Ideal.hostReduceAdd h x (init (Shape.Idx.first hu)) j)
  unfold Ideal.hostReduceAdd
  exact (hi.apply _).add (IsRealVal.sum _ _ fun i _ => hx.apply i)

/-- A kernel's sum over some axes of a real array is real. -/
theorem IsReal.reduceAdd {s t : Shape} {axes : List (Fin s.rank)} (h : s.Reduces axes t) {x : s.Idx → EReal} (hx : IsReal x) :
    IsReal (Ideal.reduceAdd h x) := fun j => by
  unfold Ideal.reduceAdd
  exact IsRealVal.sum _ _ fun i _ => hx.apply i

/-- … as the printed `vector.multi_reduction <add>` spells it. -/
theorem IsReal.multiReduction_add {s t : Shape} {φ : FTy} {axes : List (Fin s.rank)} {src : FVec Ideal s φ} (hx : IsReal src)
    (acc : BitVec φ.bits) (h : s.Reduces axes t) (hφ : FKind.Formats φ) (hacc : acc = FKind.add.neutral φ hφ) :
    IsReal (multiReduction .add axes t src acc h hφ hacc) :=
  IsReal.reduceAdd h hx

/-- A scatter with addition, read at an index: the operand's entry plus the finite sum of the update entries whose result
    index is that index (an update that lands outside the operand is dropped). -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- So a scatter with addition of real updates into a real operand is real, at any dimension numbers and any indices. -/
theorem IsReal.scatterAdd {s si u : Shape} {w : Nat} {φ : FTy} (d : ScatterDims s si u) {x : FVec Ideal s φ} (hx : IsReal x)
    (idx : IVec si w) {upd : FVec Ideal u φ} (hu : IsReal upd) : IsReal (Host.scatterAdd d x idx upd) := fun i => by
  rw [scatterAdd_apply]
  exact (hx.apply i).add (IsRealVal.sum _ _ fun j _ => hu.apply j)

end Cert.Finite

end
-- ==== Proof.RefValueI.lean ====
/-
  The reference's value, and the mathematics the two sides share, over the extended reals.

  The reference reads both [32, 1, 512, 512] arrays entry by entry: the mask is 1 where the target exceeds the
  threshold and 0 elsewhere, the masked square is (s - t)^2 times the mask, and the loss is the quotient of the sum of
  the masked squares by the sum of the mask.  A product with the mask 0 is 0 and with the mask 1 is the other factor, on
  every extended real, so each entry contributes exactly `sqK s t` and `cnK t`.  Reshaping to [16384, 512] keeps the
  row-major order, entry (b, 0, h, w) going to (512 b + h, w); it is a bijection of the index sets, and addition on the
  extended reals is commutative and associative, so the sum over all entries is the sum over the 16384 rows of the sums
  over the 512 columns.  Splitting a range of rows at a point splits the sum.  When every entry is a real number, so is
  every one of these sums.
-/
import proofs.«211649_g4638564679882_cont_8to1c4_562_19_alg».proof.Proof.SpecI
import proofs.«211649_g4638564679882_cont_8to1c4_562_19_alg».proof.Proof.LibFinite
import proofs.«211649_g4638564679882_cont_8to1c4_562_19_alg».proof.Proof.Gen.ReferenceIdeal.Read
import proofs.«211649_g4638564679882_cont_8to1c4_562_19_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Proof.RefValue

open Idealize.ShloMosaic Idealize.ShloMosaic.ValueIdx Cert.Proof Cert.Finite
open scoped BigOperators

/-- A [32, 1, 512, 512] array of extended reals: the type of the reference's arguments. -/
abbrev A : Type := (⟨Cert.ReferenceIdeal.S32x1x512x512, .f32⟩ : BufTy).Contents (Elt Ideal)

/-! ## The reshape to [16384, 512] -/

/-- Both shapes have 32 · 512 · 512 entries. -/
theorem casts : (⟨4, ![32, 1, 512, 512]⟩ : Shape).ShapeCasts (⟨2, ![16384, 512]⟩ : Shape) := by decide

/-- The array reshaped to [16384, 512]: the same entries in row-major order. -/
def flat (a : A) : Spec.Big := shapeCast (⟨2, ![16384, 512]⟩ : Shape) a casts

/-- Entry (r, c) of the reshaped array is entry (r / 512, 0, r mod 512, c) of the array. -/
theorem flat_apply (a : A) (r : Fin 16384) (c : Fin 512) :
    flat a (ix2 r c)
      = a (ix4 (⟨r.val / 512, by have := r.isLt; omega⟩ : Fin 32) (0 : Fin 1) (⟨r.val % 512, by omega⟩ : Fin 512) c) := by
  unfold flat
  refine shapeCast_apply a casts (ix2 r c) _ ?_
  rw [Shape.rowMajor_val_four, Shape.rowMajor_val_two]
  show ((r.val / 512 * 1 + 0) * 512 + r.val % 512) * 512 + c.val = r.val * 512 + c.val
  omega

/-- The reshaped array read through the bijection of the two index sets. -/
theorem flat_eq (a : A) (i : (⟨2, ![16384, 512]⟩ : Shape).Idx) : flat a i = a (Shape.reshapeEquiv casts i) := rfl

/-- Reshaping only re-indexes: the reshaped array of an array of real numbers is one. -/
theorem allReal_flat (a : A) (h : ∀ i, ∃ v : ℝ, a i = (v : EReal)) : Spec.AllReal (flat a) :=
  fun i => h (Shape.reshapeEquiv casts i)

/-! ## Sums over a range of rows: splitting, and real-ness -/

/-- A sum over the rows `a ≤ r < c` splits at any `b` between. -/
theorem rows_split (f : Fin 16384 → EReal) (a b c : ℕ) (hab : a ≤ b) (hbc : b ≤ c) :
    (∑ r : Fin 16384, if a ≤ r.val ∧ r.val < b then f r else 0) + (∑ r : Fin 16384, if b ≤ r.val ∧ r.val < c then f r else 0)
      = ∑ r : Fin 16384, if a ≤ r.val ∧ r.val < c then f r else 0 := by
  rw [← Finset.sum_add_distrib]
  refine Finset.sum_congr rfl fun r _ => ?_
  by_cases h1 : a ≤ r.val ∧ r.val < b
  · rw [if_pos h1, if_neg (by omega), if_pos (by omega), add_zero]
  · by_cases h2 : b ≤ r.val ∧ r.val < c
    · rw [if_neg h1, if_pos h2, if_pos (by omega), zero_add]
    · rw [if_neg h1, if_neg h2, if_neg (by omega), add_zero]

/-- The masked sum of squares over rows `a ≤ r < c` is the sum over `a ≤ r < b` plus the sum over `b ≤ r < c`. -/
theorem sqRows_split (x0 x1 : Spec.Big) (a b c : ℕ) (hab : a ≤ b) (hbc : b ≤ c) :
    Spec.sqRows x0 x1 a b + Spec.sqRows x0 x1 b c = Spec.sqRows x0 x1 a c :=
  rows_split (fun r => ∑ c : Fin 512, Spec.sqK (x0 (ix2 r c)) (x1 (ix2 r c))) a b c hab hbc

/-- The mask count over rows `a ≤ r < c` is the count over `a ≤ r < b` plus the count over `b ≤ r < c`. -/
theorem cnRows_split (x1 : Spec.Big) (a b c : ℕ) (hab : a ≤ b) (hbc : b ≤ c) :
    Spec.cnRows x1 a b + Spec.cnRows x1 b c = Spec.cnRows x1 a c :=
  rows_split (fun r => ∑ c : Fin 512, Spec.cnK (x1 (ix2 r c))) a b c hab hbc

/-- One entry's masked square is a real number when both entries are. -/
theorem sqK_real {s t : EReal} (hs : IsRealVal s) (ht : IsRealVal t) : IsRealVal (Spec.sqK s t) := by
  unfold Spec.sqK
  split_ifs
  · exact (hs.sub ht).mul (hs.sub ht)
  · exact IsRealVal.zero

/-- One entry's mask is 0 or 1, a real number. -/
theorem cnK_real (t : EReal) : IsRealVal (Spec.cnK t) := by
  unfold Spec.cnK
  split_ifs
  · exact IsRealVal.one
  · exact IsRealVal.zero

/-- The masked sum of squares over any range of rows of arrays of real numbers is a real number. -/
theorem sqRows_real (x0 x1 : Spec.Big) (h0 : Spec.AllReal x0) (h1 : Spec.AllReal x1) (a b : ℕ) :
    ∃ v : ℝ, Spec.sqRows x0 x1 a b = (v : EReal) := by
  unfold Spec.sqRows
  refine IsRealVal.sum _ _ fun r _ => ?_
  split_ifs
  · exact IsRealVal.sum _ _ fun c _ => sqK_real (h0 _) (h1 _)
  · exact IsRealVal.zero

/-- The mask count over any range of rows is a real number. -/
theorem cnRows_real (x1 : Spec.Big) (a b : ℕ) : ∃ v : ℝ, Spec.cnRows x1 a b = (v : EReal) := by
  unfold Spec.cnRows
  refine IsRealVal.sum _ _ fun r _ => ?_
  split_ifs
  · exact IsRealVal.sum _ _ fun c _ => cnK_real _
  · exact IsRealVal.zero

/-! ## Ranges of rows: the empty range, one row, and consecutive blocks -/

/-- A sum over an empty range of rows is 0. -/
theorem rows_empty (f : Fin 16384 → EReal) (a b : ℕ) (h : b ≤ a) :
    (∑ r : Fin 16384, if a ≤ r.val ∧ r.val < b then f r else 0) = 0 :=
  Finset.sum_eq_zero fun r _ => if_neg (by omega)

/-- A sum over the one row `r` is that row's term. -/
theorem rows_single (f : Fin 16384 → EReal) (r : Fin 16384) :
    (∑ q : Fin 16384, if r.val ≤ q.val ∧ q.val < r.val + 1 then f q else 0) = f r := by
  rw [Finset.sum_eq_single r]
  · rw [if_pos ⟨le_refl _, Nat.lt_succ_self _⟩]
  · intro q _ hq
    exact if_neg fun h => hq (Fin.ext (by omega))
  · intro h
    exact absurd (Finset.mem_univ r) h

/-- The sums over `n` consecutive blocks of `w` rows starting at row `base` add up to the sum over the rows
    `base ≤ r < base + w n`. -/
theorem rows_blocks (f : Fin 16384 → EReal) (base w n : ℕ) :
    ∑ k : Fin n, (∑ r : Fin 16384, if base + w * k.val ≤ r.val ∧ r.val < base + w * (k.val + 1) then f r else 0)
      = ∑ r : Fin 16384, if base ≤ r.val ∧ r.val < base + w * n then f r else 0 := by
  induction n with
  | zero => rw [Fin.sum_univ_zero]; exact (rows_empty f base (base + w * 0) (by omega)).symm
  | succ n ih =>
    rw [Fin.sum_univ_castSucc]
    simp only [Fin.val_castSucc, Fin.val_last]
    rw [ih]
    exact rows_split f base (base + w * n) (base + w * (n + 1)) (by omega) (by rw [Nat.mul_succ]; omega)

theorem sqRows_empty (x0 x1 : Spec.Big) (a b : ℕ) (h : b ≤ a) : Spec.sqRows x0 x1 a b = 0 := rows_empty _ a b h

theorem cnRows_empty (x1 : Spec.Big) (a b : ℕ) (h : b ≤ a) : Spec.cnRows x1 a b = 0 := rows_empty _ a b h

/-- The masked sum of squares over the one row `r`. -/
theorem sqRows_single (x0 x1 : Spec.Big) (r : Fin 16384) :
    Spec.sqRows x0 x1 r.val (r.val + 1) = ∑ c : Fin 512, Spec.sqK (x0 (ix2 r c)) (x1 (ix2 r c)) :=
  rows_single (fun r => ∑ c : Fin 512, Spec.sqK (x0 (ix2 r c)) (x1 (ix2 r c))) r

/-- The mask count over the one row `r`. -/
theorem cnRows_single (x1 : Spec.Big) (r : Fin 16384) :
    Spec.cnRows x1 r.val (r.val + 1) = ∑ c : Fin 512, Spec.cnK (x1 (ix2 r c)) :=
  rows_single (fun r => ∑ c : Fin 512, Spec.cnK (x1 (ix2 r c))) r

/-- One more row: the sum over `a ≤ q < r + 1` is the sum over `a ≤ q < r` plus row `r`'s. -/
theorem sqRows_succ (x0 x1 : Spec.Big) (a : ℕ) (r : Fin 16384) (har : a ≤ r.val) :
    Spec.sqRows x0 x1 a (r.val + 1)
      = Spec.sqRows x0 x1 a r.val + ∑ c : Fin 512, Spec.sqK (x0 (ix2 r c)) (x1 (ix2 r c)) := by
  rw [← sqRows_single, sqRows_split x0 x1 a r.val (r.val + 1) har (Nat.le_succ _)]

theorem cnRows_succ (x1 : Spec.Big) (a : ℕ) (r : Fin 16384) (har : a ≤ r.val) :
    Spec.cnRows x1 a (r.val + 1) = Spec.cnRows x1 a r.val + ∑ c : Fin 512, Spec.cnK (x1 (ix2 r c)) := by
  rw [← cnRows_single, cnRows_split x1 a r.val (r.val + 1) har (Nat.le_succ _)]

/-- The masked sums of squares over `n` consecutive blocks of `w` rows from row `base` add up to the sum over the
    rows `base ≤ r < base + w n` … -/
theorem sqRows_blocks (x0 x1 : Spec.Big) (base w n : ℕ) :
    ∑ k : Fin n, Spec.sqRows x0 x1 (base + w * k.val) (base + w * (k.val + 1)) = Spec.sqRows x0 x1 base (base + w * n) :=
  rows_blocks (fun r => ∑ c : Fin 512, Spec.sqK (x0 (ix2 r c)) (x1 (ix2 r c))) base w n

/-- … and so do the mask counts. -/
theorem cnRows_blocks (x1 : Spec.Big) (base w n : ℕ) :
    ∑ k : Fin n, Spec.cnRows x1 (base + w * k.val) (base + w * (k.val + 1)) = Spec.cnRows x1 base (base + w * n) :=
  rows_blocks (fun r => ∑ c : Fin 512, Spec.cnK (x1 (ix2 r c))) base w n

/-- The loss from the two parts the rows are cut into: rows 0 … 14335 (seven blocks of 2048) and rows 14336 … 16383
    (sixteen blocks of 128). -/
theorem loss_parts (x0 x1 : Spec.Big) :
    Spec.loss x0 x1
      = Ideal.div (Spec.sqRows x0 x1 0 14336 + Spec.sqRows x0 x1 14336 16384)
          (Spec.cnRows x1 0 14336 + Spec.cnRows x1 14336 16384) := by
  rw [sqRows_split x0 x1 0 14336 16384 (by omega) (by omega), cnRows_split x1 0 14336 16384 (by omega) (by omega)]
  rfl

/-- The first part as seven blocks of 2048 rows, the second as sixteen blocks of 128 rows. -/
theorem sqRows_tc (x0 x1 : Spec.Big) :
    ∑ k : Fin 7, Spec.sqRows x0 x1 (0 + 2048 * k.val) (0 + 2048 * (k.val + 1)) = Spec.sqRows x0 x1 0 14336 :=
  sqRows_blocks x0 x1 0 2048 7

theorem cnRows_tc (x1 : Spec.Big) :
    ∑ k : Fin 7, Spec.cnRows x1 (0 + 2048 * k.val) (0 + 2048 * (k.val + 1)) = Spec.cnRows x1 0 14336 :=
  cnRows_blocks x1 0 2048 7

theorem sqRows_sc (x0 x1 : Spec.Big) :
    ∑ k : Fin 16, Spec.sqRows x0 x1 (14336 + 128 * k.val) (14336 + 128 * (k.val + 1)) = Spec.sqRows x0 x1 14336 16384 :=
  sqRows_blocks x0 x1 14336 128 16

theorem cnRows_sc (x1 : Spec.Big) :
    ∑ k : Fin 16, Spec.cnRows x1 (14336 + 128 * k.val) (14336 + 128 * (k.val + 1)) = Spec.cnRows x1 14336 16384 :=
  cnRows_blocks x1 14336 128 16

/-! ## The precondition: every entry of both arguments is a real number -/

/-- The word 0x7F800000 denotes +∞. -/
theorem ofBits_inf : Ideal.ofBits .f32 0x7F800000#32 = (⊤ : EReal) := by simp [Ideal.ofBits, Ideal.ieee]

/-- The precondition tests `|x| < +∞` at every entry of both arguments and takes the conjunction; when it answers 1,
    every entry passed the test, so every entry is a real number. -/
theorem real_of_pre (a0 a1 : A) (h : Cert.Pre_finite_inputs.fn (F := Ideal) a0 a1 = fun _ => 1#1) :
    (∀ i, ∃ v : ℝ, a0 i = (v : EReal)) ∧ (∀ i, ∃ v : ℝ, a1 i = (v : EReal)) := by
  have h' : IntOp.andi _ _ = 1#1 := congrFun h ix0
  obtain ⟨e0, e1⟩ := IntOp.andi_eq_one.1 h'
  refine ⟨fun i => ?_, fun i => ?_⟩
  · have e := Host.reduce_andi_all _ _ _ _ _ e0 i
    exact isRealVal_of_cmpf_abs (a0 i) (Ideal.ofBits .f32 0x7F800000#32) ofBits_inf e
  · have e := Host.reduce_andi_all _ _ _ _ _ e1 i
    exact isRealVal_of_cmpf_abs (a1 i) (Ideal.ofBits .f32 0x7F800000#32) ofBits_inf e

/-- Under the precondition both reshaped arguments are arrays of real numbers. -/
theorem finite_of_pre (a0 a1 : A) (h : Cert.Pre_finite_inputs.fn (F := Ideal) a0 a1 = fun _ => 1#1) :
    Spec.AllReal (flat a0) ∧ Spec.AllReal (flat a1) :=
  ⟨allReal_flat a0 (real_of_pre a0 a1 h).1, allReal_flat a1 (real_of_pre a0 a1 h).2⟩

/-! ## The reference's value -/

/-- The mask as the reference computes it, the comparison's bit read as an unsigned integer, is `cnK`. -/
theorem mask_eq (t : EReal) :
    FloatOps.uitofp (F := Ideal) .f32 (FloatOps.cmpf (F := Ideal) (φ := .f32) .ogt t (Ideal.ofBits .f32 0x3D4CCCCD#32))
      = Spec.cnK t := by
  show (((BitVec.ofBool (decide (Spec.c05 < t))).toNat : ℝ) : EReal) = Spec.cnK t
  unfold Spec.cnK
  by_cases hlt : Spec.c05 < t
  · rw [if_pos hlt]; simp [hlt]
  · rw [if_neg hlt]; simp [hlt]

/-- The masked square as the reference computes it, the square times the mask, is `sqK`: on every extended real a
    product with 1 is the other factor and a product with 0 is 0. -/
theorem sq_mask_eq (s t : EReal) : (s - t) * (s - t) * Spec.cnK t = Spec.sqK s t := by
  unfold Spec.sqK Spec.cnK
  split_ifs
  · rw [mul_one]
  · rw [mul_zero]

/-- The reference's mask at an entry. -/
theorem mask_apply (a1 : A) (j : Cert.ReferenceIdeal.S32x1x512x512.Idx) :
    Cert.ReferenceIdeal.Read.val_main_v2 (F := Ideal) a1 j = Spec.cnK (a1 j) := by
  rw [Cert.ReferenceIdeal.Read.val_main_v2_apply, Cert.ReferenceIdeal.Read.val_main_v1_apply,
    Cert.ReferenceIdeal.Read.val_main_v0_apply, Cert.ReferenceIdeal.Read.val_main_cst_apply]
  exact mask_eq (a1 j)

/-- The reference's masked square at an entry. -/
theorem sq_apply (a0 a1 : A) (j : Cert.ReferenceIdeal.S32x1x512x512.Idx) :
    Cert.ReferenceIdeal.Read.val_main_v5 (F := Ideal) a0 a1 j = Spec.sqK (a0 j) (a1 j) := by
  rw [Cert.ReferenceIdeal.Read.val_main_v5_apply, Cert.ReferenceIdeal.Read.val_main_v4_apply,
    Cert.ReferenceIdeal.Read.val_main_v3_apply, mask_apply]
  exact sq_mask_eq (a0 j) (a1 j)

/-- Over all 16384 rows the range condition always holds. -/
theorem rows_all (f : Fin 16384 → EReal) :
    (∑ r : Fin 16384, if 0 ≤ r.val ∧ r.val < 16384 then f r else 0) = ∑ r : Fin 16384, f r :=
  Finset.sum_congr rfl fun r _ => if_pos ⟨Nat.zero_le _, r.isLt⟩

/-- The sum of the masked squares over all entries of the two arrays is the sum over all rows of the reshaped arrays:
    the reshape is a bijection of the index sets, and a [16384, 512] index is a row and a column. -/
theorem sq_total (a0 a1 : A) :
    ∑ j : Cert.ReferenceIdeal.S32x1x512x512.Idx, Spec.sqK (a0 j) (a1 j) = Spec.sqRows (flat a0) (flat a1) 0 16384 := by
  unfold Spec.sqRows
  rw [rows_all]
  exact (Equiv.sum_comp (Shape.reshapeEquiv casts) (fun j => Spec.sqK (a0 j) (a1 j))).symm.trans
    (sum_idx2 (fun i => Spec.sqK (flat a0 i) (flat a1 i)))

/-- The same for the mask count. -/
theorem cn_total (a1 : A) :
    ∑ j : Cert.ReferenceIdeal.S32x1x512x512.Idx, Spec.cnK (a1 j) = Spec.cnRows (flat a1) 0 16384 := by
  unfold Spec.cnRows
  rw [rows_all]
  exact (Equiv.sum_comp (Shape.reshapeEquiv casts) (fun j => Spec.cnK (a1 j))).symm.trans
    (sum_idx2 (fun i => Spec.cnK (flat a1 i)))

/-- THE REFERENCE'S RESULT is the loss of the reshaped arguments, whatever the entries are. -/
theorem ref_value (a0 a1 : A) :
    Cert.ReferenceIdeal.Read.val_main_v8 (F := Ideal) a0 a1 = fun _ => Spec.loss (flat a0) (flat a1) := by
  funext i
  rw [Cert.ReferenceIdeal.Read.val_main_v8_apply, Cert.ReferenceIdeal.Read.val_main_v6_apply,
    Cert.ReferenceIdeal.Read.val_main_v7_apply, Cert.ReferenceIdeal.Read.val_main_cst_0_apply,
    Cert.ReferenceIdeal.Read.val_main_cst_1_apply]
  simp only [sq_apply, mask_apply, sq_total, cn_total]
  rw [Ideal.ofBits_def, Ideal.ofBits_zero_f32, zero_add, zero_add]
  rfl

/-- The same, stated for arguments of real numbers (the hypotheses are not used: the identity holds on all extended
    reals). -/
theorem ref_eq_loss (a0 a1 : A) (_h0 : Spec.AllReal (flat a0)) (_h1 : Spec.AllReal (flat a1)) :
    Cert.ReferenceIdeal.Read.val_main_v8 (F := Ideal) a0 a1 = fun _ => Spec.loss (flat a0) (flat a1) :=
  ref_value a0 a1

/-! ## Regrouping: positions by residue, and a window of rows -/

/-- `m j + l` is below `n m` for `l < m` and `j < n`. -/
theorem residue_lt {m n l j : ℕ} (hl : l < m) (hj : j < n) : m * j + l < n * m :=
  calc m * j + l < m * j + m := Nat.add_lt_add_left hl _
    _ = m * (j + 1) := (Nat.mul_succ m j).symm
    _ ≤ m * n := Nat.mul_le_mul_left m hj
    _ = n * m := Nat.mul_comm m n

/-- The positions below `n m` are the numbers `m j + l` with `l < m` and `j < n`, each once: a sum over them of a
    function of the position is the sum over the residues `l` of the sums over the quotients `j`. -/
theorem sum_by_residue {M : Type*} [AddCommMonoid M] (m n : ℕ) (g : ℕ → M) :
    ∑ c : Fin (n * m), g c.val = ∑ l : Fin m, ∑ j : Fin n, g (m * j.val + l.val) := by
  rw [Finset.sum_comm, ← Fintype.sum_prod_type', ← Equiv.sum_comp (finProdFinEquiv (m := n) (n := m))]
  refine Finset.sum_congr rfl fun p _ => ?_
  show g (p.2.val + m * p.1.val) = g (m * p.1.val + p.2.val)
  rw [Nat.add_comm]

/-- The same for a function on `Fin N` with `N = n m`. -/
theorem sum_fin_by_residue {M : Type*} [AddCommMonoid M] {N : ℕ} (m n : ℕ) (hN : n * m = N) (g : Fin N → M) :
    ∑ c : Fin N, g c = ∑ l : Fin m, ∑ j : Fin n, g ⟨m * j.val + l.val, hN ▸ residue_lt l.isLt j.isLt⟩ := by
  subst hN
  have h := sum_by_residue m n (fun q => if h : q < n * m then g ⟨q, h⟩ else 0)
  simp only [Fin.is_lt, dite_true, Fin.eta] at h
  rw [h]
  refine Finset.sum_congr rfl fun l _ => Finset.sum_congr rfl fun j _ => ?_
  rw [dif_pos (residue_lt l.isLt j.isLt)]

/-- The rows `8 k + r` with `r < 8` and `k < 256` are the 2048 rows of a block, each once. -/
theorem sum_rows8 (G : Fin 2048 → EReal) :
    ∑ r : Fin 8, ∑ k : Fin 256, G ⟨8 * k.val + r.val, by have := k.isLt; have := r.isLt; omega⟩ = ∑ ρ : Fin 2048, G ρ :=
  (sum_fin_by_residue 8 256 rfl G).symm

/-- The columns `16 j + l` with `l < 16` and `j < 32` are the 512 columns, each once. -/
theorem sum_cols16 (g : Fin 512 → EReal) :
    ∑ l : Fin 16, ∑ j : Fin 32, g ⟨16 * j.val + l.val, by have := j.isLt; have := l.isLt; omega⟩ = ∑ c : Fin 512, g c :=
  (sum_fin_by_residue 16 32 rfl g).symm

/-- A sum over the window of `w` rows from row `base` is the sum over the positions in the window. -/
theorem rows_window_gen (f : Fin 16384 → EReal) (base w : ℕ) (hb : base + w ≤ 16384) :
    (∑ r : Fin 16384, if base ≤ r.val ∧ r.val < base + w then f r else 0)
      = ∑ ρ : Fin w, f ⟨base + ρ.val, by have := ρ.isLt; omega⟩ := by
  rw [← Finset.sum_filter]
  symm
  refine Finset.sum_bij (fun ρ _ => (⟨base + ρ.val, by have := ρ.isLt; omega⟩ : Fin 16384)) ?_ ?_ ?_ ?_
  · intro ρ _
    rw [Finset.mem_filter]
    refine ⟨Finset.mem_univ _, ?_⟩
    show base ≤ base + ρ.val ∧ base + ρ.val < base + w
    have := ρ.isLt
    omega
  · intro ρ _ σ _ hρσ
    have e : base + ρ.val = base + σ.val := congrArg Fin.val hρσ
    exact Fin.ext (by omega)
  · intro r hr
    rw [Finset.mem_filter] at hr
    exact ⟨⟨r.val - base, by omega⟩, Finset.mem_univ _, Fin.ext (by show base + (r.val - base) = r.val; omega)⟩
  · intro ρ _
    rfl

/-- The window of 2048 rows from row `base`. -/
theorem rows_window (f : Fin 16384 → EReal) (base : ℕ) (hb : base + 2048 ≤ 16384) :
    (∑ r : Fin 16384, if base ≤ r.val ∧ r.val < base + 2048 then f r else 0)
      = ∑ ρ : Fin 2048, f ⟨base + ρ.val, by have := ρ.isLt; omega⟩ :=
  rows_window_gen f base 2048 hb

/-- The masked sum of squares over the window of 2048 rows from row `base`, row by row of the window … -/
theorem sqRows_window (x0 x1 : Spec.Big) (base : ℕ) (hb : base + 2048 ≤ 16384) :
    Spec.sqRows x0 x1 base (base + 2048)
      = ∑ ρ : Fin 2048, ∑ c : Fin 512,
          Spec.sqK (x0 (ix2 (⟨base + ρ.val, by have := ρ.isLt; omega⟩ : Fin 16384) c))
            (x1 (ix2 (⟨base + ρ.val, by have := ρ.isLt; omega⟩ : Fin 16384) c)) :=
  rows_window (fun r => ∑ c : Fin 512, Spec.sqK (x0 (ix2 r c)) (x1 (ix2 r c))) base hb

/-- … and the mask count. -/
theorem cnRows_window (x1 : Spec.Big) (base : ℕ) (hb : base + 2048 ≤ 16384) :
    Spec.cnRows x1 base (base + 2048)
      = ∑ ρ : Fin 2048, ∑ c : Fin 512, Spec.cnK (x1 (ix2 (⟨base + ρ.val, by have := ρ.isLt; omega⟩ : Fin 16384) c)) :=
  rows_window (fun r => ∑ c : Fin 512, Spec.cnK (x1 (ix2 r c))) base hb

end Cert.Proof.RefValue

end
-- ==== Proof.ScValueI.lean ====
/-
  The SparseCore tiles' value over the extended reals. Lane `l` of tile `w` accumulates, over the tile's four chunks of
  thirty-two rows and the thirty-two column blocks, the entries at row `14336 + 128 w + 32 c + r`, column `16 j + l`: where
  the second array's entry exceeds the threshold, the squared difference and one; elsewhere zero. Addition of extended
  reals is associative and commutative, so the folds are sums, and the sixteen tiles' sixteen lanes together run once over
  every entry of the rows from 14336 on: the tiles' sums add up to the masked sum of squares over those rows (`sc_sums`),
  their counts to the mask count (`sc_cnts`). On the way, for every float instance: the sixteen lanes a load reads off a
  landed chunk are explicit entries of the big array (`blkS0_apply` … `blkT3_apply`).
-/
import proofs.«211649_g4638564679882_cont_8to1c4_562_19_alg».proof.Proof.ScTileI
import proofs.«211649_g4638564679882_cont_8to1c4_562_19_alg».proof.Proof.SpecI

noncomputable section

namespace Cert.Proof.KI.ScTile

open Cert.KernelIdeal Cert.KernelIdeal.Gen
open Cert.Proof.KI
open Cert.Proof

open Idealize.ShloMosaic
open Idealize.ShloMosaic.ValueIdx
open scoped BigOperators

/-! ## Where a tile's lanes sit in the big arrays -/

/-- Column block `j`, lane `l`: column `16 j + l`. -/
def colOf (j : Fin 32) (l : Fin 16) : Fin 512 := ⟨l.val + 16 * j.val, by have := j.isLt; have := l.isLt; omega⟩
/-- Tile `w`, chunk `c`, row `r` of the chunk: row `14336 + 128 w + 32 c + r`. -/
def rowOf (w : Fin 16) (c : Fin 4) (r : Fin 32) : Fin 16384 :=
  ⟨14336 + (r.val + 32 * (c.val + 4 * w.val)), by have := w.isLt; have := c.isLt; have := r.isLt; omega⟩

section AnyF
variable {F : FTy → Type} [FloatOps F]

theorem blkS0_apply (x : Big F) (L : grid1.Coords) (r : Fin k1_t1_loop.trips) (j : Fin k1_t2_loop.trips) (l : S16.Idx) :
    blkS0 (chunkS x L 0) r j l = x (ix2 (rowOf (jL L) 0 ⟨r.val, r.isLt⟩) (colOf ⟨j.val, j.isLt⟩ (l 0))) := by
  unfold blkS0 chunkS shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (0 : Fin 4).val)) a + 1 * (k1_off2 r j a + 1 * ((Shape.reshapeEquiv shapeCasts_S1x16_S16 l a : Fin _) : ℕ)) = _
  rw [k1_off1_eq L 0, k1_off2_eq, hc]
  match a with
  | ⟨0, _⟩ => show 128 * (L 1).val + 32 * 0 + 14336 + 1 * (r.val + 1 * 0) = 14336 + (r.val + 32 * (0 + 4 * (L 1).val)); omega
  | ⟨1, _⟩ => show 0 + 1 * (16 * j.val + 1 * (l 0).val) = (l 0).val + 16 * j.val; omega

theorem blkT0_apply (x : Big F) (L : grid1.Coords) (r : Fin k1_t1_loop.trips) (j : Fin k1_t2_loop.trips) (l : S16.Idx) :
    blkT0 (chunkT x L 0) r j l = x (ix2 (rowOf (jL L) 0 ⟨r.val, r.isLt⟩) (colOf ⟨j.val, j.isLt⟩ (l 0))) := by
  unfold blkT0 chunkT shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (0 : Fin 4).val)) a + 1 * (k1_off2 r j a + 1 * ((Shape.reshapeEquiv shapeCasts_S1x16_S16 l a : Fin _) : ℕ)) = _
  rw [k1_off1_eq L 0, k1_off2_eq, hc]
  match a with
  | ⟨0, _⟩ => show 128 * (L 1).val + 32 * 0 + 14336 + 1 * (r.val + 1 * 0) = 14336 + (r.val + 32 * (0 + 4 * (L 1).val)); omega
  | ⟨1, _⟩ => show 0 + 1 * (16 * j.val + 1 * (l 0).val) = (l 0).val + 16 * j.val; omega

theorem blkS1_apply (x : Big F) (L : grid1.Coords) (r : Fin k1_t3_loop.trips) (j : Fin k1_t4_loop.trips) (l : S16.Idx) :
    blkS1 (chunkS x L 1) r j l = x (ix2 (rowOf (jL L) 1 ⟨r.val, r.isLt⟩) (colOf ⟨j.val, j.isLt⟩ (l 0))) := by
  unfold blkS1 chunkS shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (1 : Fin 4).val)) a + 1 * (k1_off3 r j a + 1 * ((Shape.reshapeEquiv shapeCasts_S1x16_S16 l a : Fin _) : ℕ)) = _
  rw [k1_off1_eq L 1, k1_off3_eq, hc]
  match a with
  | ⟨0, _⟩ => show 128 * (L 1).val + 32 * 1 + 14336 + 1 * (r.val + 1 * 0) = 14336 + (r.val + 32 * (1 + 4 * (L 1).val)); omega
  | ⟨1, _⟩ => show 0 + 1 * (16 * j.val + 1 * (l 0).val) = (l 0).val + 16 * j.val; omega

theorem blkT1_apply (x : Big F) (L : grid1.Coords) (r : Fin k1_t3_loop.trips) (j : Fin k1_t4_loop.trips) (l : S16.Idx) :
    blkT1 (chunkT x L 1) r j l = x (ix2 (rowOf (jL L) 1 ⟨r.val, r.isLt⟩) (colOf ⟨j.val, j.isLt⟩ (l 0))) := by
  unfold blkT1 chunkT shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (1 : Fin 4).val)) a + 1 * (k1_off3 r j a + 1 * ((Shape.reshapeEquiv shapeCasts_S1x16_S16 l a : Fin _) : ℕ)) = _
  rw [k1_off1_eq L 1, k1_off3_eq, hc]
  match a with
  | ⟨0, _⟩ => show 128 * (L 1).val + 32 * 1 + 14336 + 1 * (r.val + 1 * 0) = 14336 + (r.val + 32 * (1 + 4 * (L 1).val)); omega
  | ⟨1, _⟩ => show 0 + 1 * (16 * j.val + 1 * (l 0).val) = (l 0).val + 16 * j.val; omega

theorem blkS2_apply (x : Big F) (L : grid1.Coords) (r : Fin k1_t5_loop.trips) (j : Fin k1_t6_loop.trips) (l : S16.Idx) :
    blkS2 (chunkS x L 2) r j l = x (ix2 (rowOf (jL L) 2 ⟨r.val, r.isLt⟩) (colOf ⟨j.val, j.isLt⟩ (l 0))) := by
  unfold blkS2 chunkS shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (2 : Fin 4).val)) a + 1 * (k1_off4 r j a + 1 * ((Shape.reshapeEquiv shapeCasts_S1x16_S16 l a : Fin _) : ℕ)) = _
  rw [k1_off1_eq L 2, k1_off4_eq, hc]
  match a with
  | ⟨0, _⟩ => show 128 * (L 1).val + 32 * 2 + 14336 + 1 * (r.val + 1 * 0) = 14336 + (r.val + 32 * (2 + 4 * (L 1).val)); omega
  | ⟨1, _⟩ => show 0 + 1 * (16 * j.val + 1 * (l 0).val) = (l 0).val + 16 * j.val; omega

theorem blkT2_apply (x : Big F) (L : grid1.Coords) (r : Fin k1_t5_loop.trips) (j : Fin k1_t6_loop.trips) (l : S16.Idx) :
    blkT2 (chunkT x L 2) r j l = x (ix2 (rowOf (jL L) 2 ⟨r.val, r.isLt⟩) (colOf ⟨j.val, j.isLt⟩ (l 0))) := by
  unfold blkT2 chunkT shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (2 : Fin 4).val)) a + 1 * (k1_off4 r j a + 1 * ((Shape.reshapeEquiv shapeCasts_S1x16_S16 l a : Fin _) : ℕ)) = _
  rw [k1_off1_eq L 2, k1_off4_eq, hc]
  match a with
  | ⟨0, _⟩ => show 128 * (L 1).val + 32 * 2 + 14336 + 1 * (r.val + 1 * 0) = 14336 + (r.val + 32 * (2 + 4 * (L 1).val)); omega
  | ⟨1, _⟩ => show 0 + 1 * (16 * j.val + 1 * (l 0).val) = (l 0).val + 16 * j.val; omega

theorem blkS3_apply (x : Big F) (L : grid1.Coords) (r : Fin k1_t7_loop.trips) (j : Fin k1_t8_loop.trips) (l : S16.Idx) :
    blkS3 (chunkS x L 3) r j l = x (ix2 (rowOf (jL L) 3 ⟨r.val, r.isLt⟩) (colOf ⟨j.val, j.isLt⟩ (l 0))) := by
  unfold blkS3 chunkS shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (3 : Fin 4).val)) a + 1 * (k1_off5 r j a + 1 * ((Shape.reshapeEquiv shapeCasts_S1x16_S16 l a : Fin _) : ℕ)) = _
  rw [k1_off1_eq L 3, k1_off5_eq, hc]
  match a with
  | ⟨0, _⟩ => show 128 * (L 1).val + 32 * 3 + 14336 + 1 * (r.val + 1 * 0) = 14336 + (r.val + 32 * (3 + 4 * (L 1).val)); omega
  | ⟨1, _⟩ => show 0 + 1 * (16 * j.val + 1 * (l 0).val) = (l 0).val + 16 * j.val; omega

theorem blkT3_apply (x : Big F) (L : grid1.Coords) (r : Fin k1_t7_loop.trips) (j : Fin k1_t8_loop.trips) (l : S16.Idx) :
    blkT3 (chunkT x L 3) r j l = x (ix2 (rowOf (jL L) 3 ⟨r.val, r.isLt⟩) (colOf ⟨j.val, j.isLt⟩ (l 0))) := by
  unfold blkT3 chunkT shapeCast
  rw [View.readAt_apply, View.read_apply, View.read_apply]
  simp only [cast_eq]
  congr 1
  funext a
  apply Fin.ext
  have hc := Shape.reshapeEquiv_cons_one (n := 1) (d := ![16]) shapeCasts_S1x16_S16 l
  show k1_off1 L (BitVec.ofNat 32 (32 * (3 : Fin 4).val)) a + 1 * (k1_off5 r j a + 1 * ((Shape.reshapeEquiv shapeCasts_S1x16_S16 l a : Fin _) : ℕ)) = _
  rw [k1_off1_eq L 3, k1_off5_eq, hc]
  match a with
  | ⟨0, _⟩ => show 128 * (L 1).val + 32 * 3 + 14336 + 1 * (r.val + 1 * 0) = 14336 + (r.val + 32 * (3 + 4 * (L 1).val)); omega
  | ⟨1, _⟩ => show 0 + 1 * (16 * j.val + 1 * (l 0).val) = (l 0).val + 16 * j.val; omega

end AnyF

/-! ## One column block, over the extended reals -/

theorem stepQN_fst (s t : FVec Ideal S16 .f32) (p : QN Ideal) (l : S16.Idx) :
    (stepQN s t p).1 l = p.1 l + Spec.sqK (s l) (t l) := by
  show p.1 l + Scalar.select (Ideal.cmp .ogt (t l) (Ideal.ofBits .f32 0x3D4CCCCD#32)) ((s l - t l) * (s l - t l)) (Ideal.ofBits .f32 0x00000000#32) = _
  unfold Spec.sqK Spec.c05
  by_cases h : Ideal.ofBits .f32 0x3D4CCCCD#32 < t l
  · rw [show Ideal.cmp .ogt (t l) (Ideal.ofBits .f32 0x3D4CCCCD#32) = 1#1 by simp [Ideal.cmp, h], select_one, if_pos h]
  · rw [show Ideal.cmp .ogt (t l) (Ideal.ofBits .f32 0x3D4CCCCD#32) = 0#1 by simp [Ideal.cmp, h], select_zero, if_neg h]
    exact congrArg (p.1 l + ·) (IdealRules.sign_bit.ideal_zero .f32)

theorem stepQN_snd (s t : FVec Ideal S16 .f32) (p : QN Ideal) (l : S16.Idx) :
    (stepQN s t p).2 l = p.2 l + Spec.cnK (t l) := by
  show p.2 l + Scalar.select (Ideal.cmp .ogt (t l) (Ideal.ofBits .f32 0x3D4CCCCD#32)) (Ideal.ofBits .f32 0x3F800000#32) (Ideal.ofBits .f32 0x00000000#32) = _
  unfold Spec.cnK Spec.c05
  by_cases h : Ideal.ofBits .f32 0x3D4CCCCD#32 < t l
  · rw [show Ideal.cmp .ogt (t l) (Ideal.ofBits .f32 0x3D4CCCCD#32) = 1#1 by simp [Ideal.cmp, h], select_one, if_pos h]
    exact congrArg (p.2 l + ·) (IdealRules.sign_bit.ideal_onePat .f32)
  · rw [show Ideal.cmp .ogt (t l) (Ideal.ofBits .f32 0x3D4CCCCD#32) = 0#1 by simp [Ideal.cmp, h], select_zero, if_neg h]
    exact congrArg (p.2 l + ·) (IdealRules.sign_bit.ideal_zero .f32)

theorem qn0_fst (l : S16.Idx) : (qn0 (F := Ideal)).1 l = 0 := IdealRules.sign_bit.ideal_zero .f32
theorem qn0_snd (l : S16.Idx) : (qn0 (F := Ideal)).2 l = 0 := IdealRules.sign_bit.ideal_zero .f32

/-- Chunk 0, one row and column block's term of the sum of squares (zero off the loops' ranges). -/
def sqT0 (fs ft : S32x512.Idx → EReal) (r j : ℕ) (l : S16.Idx) : EReal :=
  if h : r < k1_t1_loop.trips ∧ j < k1_t2_loop.trips then Spec.sqK (blkS0 (F := Ideal) fs ⟨r, h.1⟩ ⟨j, h.2⟩ l) (blkT0 (F := Ideal) ft ⟨r, h.1⟩ ⟨j, h.2⟩ l) else 0

theorem colFold0_fst (fs ft : S32x512.Idx → EReal) (r : Fin k1_t1_loop.trips) (l : S16.Idx) :
    ∀ (n : ℕ) (p : QN Ideal), (colFold0 (F := Ideal) fs ft r n p).1 l = p.1 l + ∑ j ∈ Finset.range n, sqT0 fs ft r.val j l
  | 0, p => by simp [colFold0]
  | n + 1, p => by
    rw [Finset.sum_range_succ, ← add_assoc, ← colFold0_fst fs ft r l n p]
    by_cases h : n < k1_t2_loop.trips
    · rw [colFold0, dif_pos h, stepQN_fst, sqT0, dif_pos ⟨r.isLt, h⟩]
    · rw [colFold0, dif_neg h, sqT0, dif_neg (fun hh => h hh.2), add_zero]

theorem rowFold0_fst (fs ft : S32x512.Idx → EReal) (l : S16.Idx) :
    ∀ (n : ℕ) (p : QN Ideal), (rowFold0 (F := Ideal) fs ft n p).1 l
      = p.1 l + ∑ r ∈ Finset.range n, ∑ j ∈ Finset.range k1_t2_loop.trips, sqT0 fs ft r j l
  | 0, p => by simp [rowFold0]
  | n + 1, p => by
    rw [Finset.sum_range_succ, ← add_assoc, ← rowFold0_fst fs ft l n p]
    by_cases h : n < k1_t1_loop.trips
    · rw [rowFold0, dif_pos h, colFold0_fst]
    · rw [rowFold0, dif_neg h, Finset.sum_eq_zero (fun j _ => by rw [sqT0, dif_neg (fun hh => h hh.1)]), add_zero]

/-- Chunk 0, one row and column block's term of the count (zero off the loops' ranges). -/
def cnT0 (fs ft : S32x512.Idx → EReal) (r j : ℕ) (l : S16.Idx) : EReal :=
  if h : r < k1_t1_loop.trips ∧ j < k1_t2_loop.trips then Spec.cnK (blkT0 (F := Ideal) ft ⟨r, h.1⟩ ⟨j, h.2⟩ l) else 0

theorem colFold0_snd (fs ft : S32x512.Idx → EReal) (r : Fin k1_t1_loop.trips) (l : S16.Idx) :
    ∀ (n : ℕ) (p : QN Ideal), (colFold0 (F := Ideal) fs ft r n p).2 l = p.2 l + ∑ j ∈ Finset.range n, cnT0 fs ft r.val j l
  | 0, p => by simp [colFold0]
  | n + 1, p => by
    rw [Finset.sum_range_succ, ← add_assoc, ← colFold0_snd fs ft r l n p]
    by_cases h : n < k1_t2_loop.trips
    · rw [colFold0, dif_pos h, stepQN_snd, cnT0, dif_pos ⟨r.isLt, h⟩]
    · rw [colFold0, dif_neg h, cnT0, dif_neg (fun hh => h hh.2), add_zero]

theorem rowFold0_snd (fs ft : S32x512.Idx → EReal) (l : S16.Idx) :
    ∀ (n : ℕ) (p : QN Ideal), (rowFold0 (F := Ideal) fs ft n p).2 l
      = p.2 l + ∑ r ∈ Finset.range n, ∑ j ∈ Finset.range k1_t2_loop.trips, cnT0 fs ft r j l
  | 0, p => by simp [rowFold0]
  | n + 1, p => by
    rw [Finset.sum_range_succ, ← add_assoc, ← rowFold0_snd fs ft l n p]
    by_cases h : n < k1_t1_loop.trips
    · rw [rowFold0, dif_pos h, colFold0_snd]
    · rw [rowFold0, dif_neg h, Finset.sum_eq_zero (fun j _ => by rw [cnT0, dif_neg (fun hh => h hh.1)]), add_zero]

/-- Chunk 1, one row and column block's term of the sum of squares (zero off the loops' ranges). -/
def sqT1 (fs ft : S32x512.Idx → EReal) (r j : ℕ) (l : S16.Idx) : EReal :=
  if h : r < k1_t3_loop.trips ∧ j < k1_t4_loop.trips then Spec.sqK (blkS1 (F := Ideal) fs ⟨r, h.1⟩ ⟨j, h.2⟩ l) (blkT1 (F := Ideal) ft ⟨r, h.1⟩ ⟨j, h.2⟩ l) else 0

theorem colFold1_fst (fs ft : S32x512.Idx → EReal) (r : Fin k1_t3_loop.trips) (l : S16.Idx) :
    ∀ (n : ℕ) (p : QN Ideal), (colFold1 (F := Ideal) fs ft r n p).1 l = p.1 l + ∑ j ∈ Finset.range n, sqT1 fs ft r.val j l
  | 0, p => by simp [colFold1]
  | n + 1, p => by
    rw [Finset.sum_range_succ, ← add_assoc, ← colFold1_fst fs ft r l n p]
    by_cases h : n < k1_t4_loop.trips
    · rw [colFold1, dif_pos h, stepQN_fst, sqT1, dif_pos ⟨r.isLt, h⟩]
    · rw [colFold1, dif_neg h, sqT1, dif_neg (fun hh => h hh.2), add_zero]

theorem rowFold1_fst (fs ft : S32x512.Idx → EReal) (l : S16.Idx) :
    ∀ (n : ℕ) (p : QN Ideal), (rowFold1 (F := Ideal) fs ft n p).1 l
      = p.1 l + ∑ r ∈ Finset.range n, ∑ j ∈ Finset.range k1_t4_loop.trips, sqT1 fs ft r j l
  | 0, p => by simp [rowFold1]
  | n + 1, p => by
    rw [Finset.sum_range_succ, ← add_assoc, ← rowFold1_fst fs ft l n p]
    by_cases h : n < k1_t3_loop.trips
    · rw [rowFold1, dif_pos h, colFold1_fst]
    · rw [rowFold1, dif_neg h, Finset.sum_eq_zero (fun j _ => by rw [sqT1, dif_neg (fun hh => h hh.1)]), add_zero]

/-- Chunk 1, one row and column block's term of the count (zero off the loops' ranges). -/
def cnT1 (fs ft : S32x512.Idx → EReal) (r j : ℕ) (l : S16.Idx) : EReal :=
  if h : r < k1_t3_loop.trips ∧ j < k1_t4_loop.trips then Spec.cnK (blkT1 (F := Ideal) ft ⟨r, h.1⟩ ⟨j, h.2⟩ l) else 0

theorem colFold1_snd (fs ft : S32x512.Idx → EReal) (r : Fin k1_t3_loop.trips) (l : S16.Idx) :
    ∀ (n : ℕ) (p : QN Ideal), (colFold1 (F := Ideal) fs ft r n p).2 l = p.2 l + ∑ j ∈ Finset.range n, cnT1 fs ft r.val j l
  | 0, p => by simp [colFold1]
  | n + 1, p => by
    rw [Finset.sum_range_succ, ← add_assoc, ← colFold1_snd fs ft r l n p]
    by_cases h : n < k1_t4_loop.trips
    · rw [colFold1, dif_pos h, stepQN_snd, cnT1, dif_pos ⟨r.isLt, h⟩]
    · rw [colFold1, dif_neg h, cnT1, dif_neg (fun hh => h hh.2), add_zero]

theorem rowFold1_snd (fs ft : S32x512.Idx → EReal) (l : S16.Idx) :
    ∀ (n : ℕ) (p : QN Ideal), (rowFold1 (F := Ideal) fs ft n p).2 l
      = p.2 l + ∑ r ∈ Finset.range n, ∑ j ∈ Finset.range k1_t4_loop.trips, cnT1 fs ft r j l
  | 0, p => by simp [rowFold1]
  | n + 1, p => by
    rw [Finset.sum_range_succ, ← add_assoc, ← rowFold1_snd fs ft l n p]
    by_cases h : n < k1_t3_loop.trips
    · rw [rowFold1, dif_pos h, colFold1_snd]
    · rw [rowFold1, dif_neg h, Finset.sum_eq_zero (fun j _ => by rw [cnT1, dif_neg (fun hh => h hh.1)]), add_zero]

/-- Chunk 2, one row and column block's term of the sum of squares (zero off the loops' ranges). -/
def sqT2 (fs ft : S32x512.Idx → EReal) (r j : ℕ) (l : S16.Idx) : EReal :=
  if h : r < k1_t5_loop.trips ∧ j < k1_t6_loop.trips then Spec.sqK (blkS2 (F := Ideal) fs ⟨r, h.1⟩ ⟨j, h.2⟩ l) (blkT2 (F := Ideal) ft ⟨r, h.1⟩ ⟨j, h.2⟩ l) else 0

theorem colFold2_fst (fs ft : S32x512.Idx → EReal) (r : Fin k1_t5_loop.trips) (l : S16.Idx) :
    ∀ (n : ℕ) (p : QN Ideal), (colFold2 (F := Ideal) fs ft r n p).1 l = p.1 l + ∑ j ∈ Finset.range n, sqT2 fs ft r.val j l
  | 0, p => by simp [colFold2]
  | n + 1, p => by
    rw [Finset.sum_range_succ, ← add_assoc, ← colFold2_fst fs ft r l n p]
    by_cases h : n < k1_t6_loop.trips
    · rw [colFold2, dif_pos h, stepQN_fst, sqT2, dif_pos ⟨r.isLt, h⟩]
    · rw [colFold2, dif_neg h, sqT2, dif_neg (fun hh => h hh.2), add_zero]

theorem rowFold2_fst (fs ft : S32x512.Idx → EReal) (l : S16.Idx) :
    ∀ (n : ℕ) (p : QN Ideal), (rowFold2 (F := Ideal) fs ft n p).1 l
      = p.1 l + ∑ r ∈ Finset.range n, ∑ j ∈ Finset.range k1_t6_loop.trips, sqT2 fs ft r j l
  | 0, p => by simp [rowFold2]
  | n + 1, p => by
    rw [Finset.sum_range_succ, ← add_assoc, ← rowFold2_fst fs ft l n p]
    by_cases h : n < k1_t5_loop.trips
    · rw [rowFold2, dif_pos h, colFold2_fst]
    · rw [rowFold2, dif_neg h, Finset.sum_eq_zero (fun j _ => by rw [sqT2, dif_neg (fun hh => h hh.1)]), add_zero]

/-- Chunk 2, one row and column block's term of the count (zero off the loops' ranges). -/
def cnT2 (fs ft : S32x512.Idx → EReal) (r j : ℕ) (l : S16.Idx) : EReal :=
  if h : r < k1_t5_loop.trips ∧ j < k1_t6_loop.trips then Spec.cnK (blkT2 (F := Ideal) ft ⟨r, h.1⟩ ⟨j, h.2⟩ l) else 0

theorem colFold2_snd (fs ft : S32x512.Idx → EReal) (r : Fin k1_t5_loop.trips) (l : S16.Idx) :
    ∀ (n : ℕ) (p : QN Ideal), (colFold2 (F := Ideal) fs ft r n p).2 l = p.2 l + ∑ j ∈ Finset.range n, cnT2 fs ft r.val j l
  | 0, p => by simp [colFold2]
  | n + 1, p => by
    rw [Finset.sum_range_succ, ← add_assoc, ← colFold2_snd fs ft r l n p]
    by_cases h : n < k1_t6_loop.trips
    · rw [colFold2, dif_pos h, stepQN_snd, cnT2, dif_pos ⟨r.isLt, h⟩]
    · rw [colFold2, dif_neg h, cnT2, dif_neg (fun hh => h hh.2), add_zero]

theorem rowFold2_snd (fs ft : S32x512.Idx → EReal) (l : S16.Idx) :
    ∀ (n : ℕ) (p : QN Ideal), (rowFold2 (F := Ideal) fs ft n p).2 l
      = p.2 l + ∑ r ∈ Finset.range n, ∑ j ∈ Finset.range k1_t6_loop.trips, cnT2 fs ft r j l
  | 0, p => by simp [rowFold2]
  | n + 1, p => by
    rw [Finset.sum_range_succ, ← add_assoc, ← rowFold2_snd fs ft l n p]
    by_cases h : n < k1_t5_loop.trips
    · rw [rowFold2, dif_pos h, colFold2_snd]
    · rw [rowFold2, dif_neg h, Finset.sum_eq_zero (fun j _ => by rw [cnT2, dif_neg (fun hh => h hh.1)]), add_zero]

/-- Chunk 3, one row and column block's term of the sum of squares (zero off the loops' ranges). -/
def sqT3 (fs ft : S32x512.Idx → EReal) (r j : ℕ) (l : S16.Idx) : EReal :=
  if h : r < k1_t7_loop.trips ∧ j < k1_t8_loop.trips then Spec.sqK (blkS3 (F := Ideal) fs ⟨r, h.1⟩ ⟨j, h.2⟩ l) (blkT3 (F := Ideal) ft ⟨r, h.1⟩ ⟨j, h.2⟩ l) else 0

theorem colFold3_fst (fs ft : S32x512.Idx → EReal) (r : Fin k1_t7_loop.trips) (l : S16.Idx) :
    ∀ (n : ℕ) (p : QN Ideal), (colFold3 (F := Ideal) fs ft r n p).1 l = p.1 l + ∑ j ∈ Finset.range n, sqT3 fs ft r.val j l
  | 0, p => by simp [colFold3]
  | n + 1, p => by
    rw [Finset.sum_range_succ, ← add_assoc, ← colFold3_fst fs ft r l n p]
    by_cases h : n < k1_t8_loop.trips
    · rw [colFold3, dif_pos h, stepQN_fst, sqT3, dif_pos ⟨r.isLt, h⟩]
    · rw [colFold3, dif_neg h, sqT3, dif_neg (fun hh => h hh.2), add_zero]

theorem rowFold3_fst (fs ft : S32x512.Idx → EReal) (l : S16.Idx) :
    ∀ (n : ℕ) (p : QN Ideal), (rowFold3 (F := Ideal) fs ft n p).1 l
      = p.1 l + ∑ r ∈ Finset.range n, ∑ j ∈ Finset.range k1_t8_loop.trips, sqT3 fs ft r j l
  | 0, p => by simp [rowFold3]
  | n + 1, p => by
    rw [Finset.sum_range_succ, ← add_assoc, ← rowFold3_fst fs ft l n p]
    by_cases h : n < k1_t7_loop.trips
    · rw [rowFold3, dif_pos h, colFold3_fst]
    · rw [rowFold3, dif_neg h, Finset.sum_eq_zero (fun j _ => by rw [sqT3, dif_neg (fun hh => h hh.1)]), add_zero]

/-- Chunk 3, one row and column block's term of the count (zero off the loops' ranges). -/
def cnT3 (fs ft : S32x512.Idx → EReal) (r j : ℕ) (l : S16.Idx) : EReal :=
  if h : r < k1_t7_loop.trips ∧ j < k1_t8_loop.trips then Spec.cnK (blkT3 (F := Ideal) ft ⟨r, h.1⟩ ⟨j, h.2⟩ l) else 0

theorem colFold3_snd (fs ft : S32x512.Idx → EReal) (r : Fin k1_t7_loop.trips) (l : S16.Idx) :
    ∀ (n : ℕ) (p : QN Ideal), (colFold3 (F := Ideal) fs ft r n p).2 l = p.2 l + ∑ j ∈ Finset.range n, cnT3 fs ft r.val j l
  | 0, p => by simp [colFold3]
  | n + 1, p => by
    rw [Finset.sum_range_succ, ← add_assoc, ← colFold3_snd fs ft r l n p]
    by_cases h : n < k1_t8_loop.trips
    · rw [colFold3, dif_pos h, stepQN_snd, cnT3, dif_pos ⟨r.isLt, h⟩]
    · rw [colFold3, dif_neg h, cnT3, dif_neg (fun hh => h hh.2), add_zero]

theorem rowFold3_snd (fs ft : S32x512.Idx → EReal) (l : S16.Idx) :
    ∀ (n : ℕ) (p : QN Ideal), (rowFold3 (F := Ideal) fs ft n p).2 l
      = p.2 l + ∑ r ∈ Finset.range n, ∑ j ∈ Finset.range k1_t8_loop.trips, cnT3 fs ft r j l
  | 0, p => by simp [rowFold3]
  | n + 1, p => by
    rw [Finset.sum_range_succ, ← add_assoc, ← rowFold3_snd fs ft l n p]
    by_cases h : n < k1_t7_loop.trips
    · rw [rowFold3, dif_pos h, colFold3_snd]
    · rw [rowFold3, dif_neg h, Finset.sum_eq_zero (fun j _ => by rw [cnT3, dif_neg (fun hh => h hh.1)]), add_zero]

/-! ## Sums over rows and columns, regrouped -/

theorem sum_fin_mul {M : Type} [AddCommMonoid M] (m n : ℕ) (f : Fin (m * n) → M) :
    ∑ i : Fin (m * n), f i = ∑ a : Fin m, ∑ b : Fin n, f (finProdFinEquiv (a, b)) := by
  rw [← Equiv.sum_comp finProdFinEquiv f, Fintype.sum_prod_type]

/-- The 512 columns are the 32 column blocks' 16 lanes. -/
theorem cols_reindex {M : Type} [AddCommMonoid M] (g : Fin 512 → M) :
    ∑ col : Fin 512, g col = ∑ j : Fin 32, ∑ l : Fin 16, g (colOf j l) :=
  sum_fin_mul 32 16 g

/-- The rows from 14336 on are the 16 tiles' 4 chunks' 32 rows. -/
theorem rows_reindex {M : Type} [AddCommMonoid M] (G : Fin 16384 → M) :
    (∑ row : Fin 16384, if 14336 ≤ row.val ∧ row.val < 16384 then G row else 0) = ∑ w : Fin 16, ∑ c : Fin 4, ∑ r : Fin 32, G (rowOf w c r) := by
  have h1 : (∑ row : Fin (14336 + 2048), if 14336 ≤ row.val ∧ row.val < 16384 then G row else 0)
      = ∑ i : Fin 2048, G (Fin.natAdd 14336 i) := by
    rw [Fin.sum_univ_add, Finset.sum_eq_zero (fun i _ => if_neg (by have := i.isLt; simp only [Fin.coe_castAdd]; omega)), zero_add]
    exact Finset.sum_congr rfl fun i _ => if_pos (by have := i.isLt; simp only [Fin.coe_natAdd]; omega)
  refine h1.trans ?_
  rw [show (∑ i : Fin 2048, G (Fin.natAdd 14336 i)) = ∑ a : Fin (16 * 4), ∑ r : Fin 32, G (Fin.natAdd 14336 (finProdFinEquiv (a, r)))
    from sum_fin_mul (16 * 4) 32 fun i => G (Fin.natAdd 14336 i), sum_fin_mul 16 4]
  rfl

/-! ## The tiles' sums and counts as sums over the big arrays' entries -/

theorem chunk0_sq (x0 x1 : Big Ideal) (w : Fin 16) (l : Fin 16) :
    (∑ r ∈ Finset.range k1_t1_loop.trips, ∑ j ∈ Finset.range k1_t2_loop.trips, sqT0 (chunkS x0 (coordsW w) 0) (chunkT x1 (coordsW w) 0) r j (ix1 l))
      = ∑ r : Fin 32, ∑ j : Fin 32, Spec.sqK (x0 (ix2 (rowOf w 0 r) (colOf j l))) (x1 (ix2 (rowOf w 0 r) (colOf j l))) := by
  rw [Finset.sum_range]; refine Finset.sum_congr rfl fun r _ => ?_
  rw [Finset.sum_range]; refine Finset.sum_congr rfl fun j _ => ?_
  rw [sqT0, dif_pos ⟨r.isLt, j.isLt⟩, blkS0_apply, blkT0_apply]
  rfl
theorem chunk0_cn (x0 x1 : Big Ideal) (w : Fin 16) (l : Fin 16) :
    (∑ r ∈ Finset.range k1_t1_loop.trips, ∑ j ∈ Finset.range k1_t2_loop.trips, cnT0 (chunkS x0 (coordsW w) 0) (chunkT x1 (coordsW w) 0) r j (ix1 l))
      = ∑ r : Fin 32, ∑ j : Fin 32, Spec.cnK (x1 (ix2 (rowOf w 0 r) (colOf j l))) := by
  rw [Finset.sum_range]; refine Finset.sum_congr rfl fun r _ => ?_
  rw [Finset.sum_range]; refine Finset.sum_congr rfl fun j _ => ?_
  rw [cnT0, dif_pos ⟨r.isLt, j.isLt⟩, blkT0_apply]
  rfl
theorem chunk1_sq (x0 x1 : Big Ideal) (w : Fin 16) (l : Fin 16) :
    (∑ r ∈ Finset.range k1_t3_loop.trips, ∑ j ∈ Finset.range k1_t4_loop.trips, sqT1 (chunkS x0 (coordsW w) 1) (chunkT x1 (coordsW w) 1) r j (ix1 l))
      = ∑ r : Fin 32, ∑ j : Fin 32, Spec.sqK (x0 (ix2 (rowOf w 1 r) (colOf j l))) (x1 (ix2 (rowOf w 1 r) (colOf j l))) := by
  rw [Finset.sum_range]; refine Finset.sum_congr rfl fun r _ => ?_
  rw [Finset.sum_range]; refine Finset.sum_congr rfl fun j _ => ?_
  rw [sqT1, dif_pos ⟨r.isLt, j.isLt⟩, blkS1_apply, blkT1_apply]
  rfl
theorem chunk1_cn (x0 x1 : Big Ideal) (w : Fin 16) (l : Fin 16) :
    (∑ r ∈ Finset.range k1_t3_loop.trips, ∑ j ∈ Finset.range k1_t4_loop.trips, cnT1 (chunkS x0 (coordsW w) 1) (chunkT x1 (coordsW w) 1) r j (ix1 l))
      = ∑ r : Fin 32, ∑ j : Fin 32, Spec.cnK (x1 (ix2 (rowOf w 1 r) (colOf j l))) := by
  rw [Finset.sum_range]; refine Finset.sum_congr rfl fun r _ => ?_
  rw [Finset.sum_range]; refine Finset.sum_congr rfl fun j _ => ?_
  rw [cnT1, dif_pos ⟨r.isLt, j.isLt⟩, blkT1_apply]
  rfl
theorem chunk2_sq (x0 x1 : Big Ideal) (w : Fin 16) (l : Fin 16) :
    (∑ r ∈ Finset.range k1_t5_loop.trips, ∑ j ∈ Finset.range k1_t6_loop.trips, sqT2 (chunkS x0 (coordsW w) 2) (chunkT x1 (coordsW w) 2) r j (ix1 l))
      = ∑ r : Fin 32, ∑ j : Fin 32, Spec.sqK (x0 (ix2 (rowOf w 2 r) (colOf j l))) (x1 (ix2 (rowOf w 2 r) (colOf j l))) := by
  rw [Finset.sum_range]; refine Finset.sum_congr rfl fun r _ => ?_
  rw [Finset.sum_range]; refine Finset.sum_congr rfl fun j _ => ?_
  rw [sqT2, dif_pos ⟨r.isLt, j.isLt⟩, blkS2_apply, blkT2_apply]
  rfl
theorem chunk2_cn (x0 x1 : Big Ideal) (w : Fin 16) (l : Fin 16) :
    (∑ r ∈ Finset.range k1_t5_loop.trips, ∑ j ∈ Finset.range k1_t6_loop.trips, cnT2 (chunkS x0 (coordsW w) 2) (chunkT x1 (coordsW w) 2) r j (ix1 l))
      = ∑ r : Fin 32, ∑ j : Fin 32, Spec.cnK (x1 (ix2 (rowOf w 2 r) (colOf j l))) := by
  rw [Finset.sum_range]; refine Finset.sum_congr rfl fun r _ => ?_
  rw [Finset.sum_range]; refine Finset.sum_congr rfl fun j _ => ?_
  rw [cnT2, dif_pos ⟨r.isLt, j.isLt⟩, blkT2_apply]
  rfl
theorem chunk3_sq (x0 x1 : Big Ideal) (w : Fin 16) (l : Fin 16) :
    (∑ r ∈ Finset.range k1_t7_loop.trips, ∑ j ∈ Finset.range k1_t8_loop.trips, sqT3 (chunkS x0 (coordsW w) 3) (chunkT x1 (coordsW w) 3) r j (ix1 l))
      = ∑ r : Fin 32, ∑ j : Fin 32, Spec.sqK (x0 (ix2 (rowOf w 3 r) (colOf j l))) (x1 (ix2 (rowOf w 3 r) (colOf j l))) := by
  rw [Finset.sum_range]; refine Finset.sum_congr rfl fun r _ => ?_
  rw [Finset.sum_range]; refine Finset.sum_congr rfl fun j _ => ?_
  rw [sqT3, dif_pos ⟨r.isLt, j.isLt⟩, blkS3_apply, blkT3_apply]
  rfl
theorem chunk3_cn (x0 x1 : Big Ideal) (w : Fin 16) (l : Fin 16) :
    (∑ r ∈ Finset.range k1_t7_loop.trips, ∑ j ∈ Finset.range k1_t8_loop.trips, cnT3 (chunkS x0 (coordsW w) 3) (chunkT x1 (coordsW w) 3) r j (ix1 l))
      = ∑ r : Fin 32, ∑ j : Fin 32, Spec.cnK (x1 (ix2 (rowOf w 3 r) (colOf j l))) := by
  rw [Finset.sum_range]; refine Finset.sum_congr rfl fun r _ => ?_
  rw [Finset.sum_range]; refine Finset.sum_congr rfl fun j _ => ?_
  rw [cnT3, dif_pos ⟨r.isLt, j.isLt⟩, blkT3_apply]
  rfl

/-- Lane `l` of tile `w`'s first accumulator: the masked squared differences over the tile's rows, at the columns `16 j + l`. -/
theorem tileSum_eq (x0 x1 : Big Ideal) (w : Fin 16) (l : Fin 16) :
    tileSum x0 x1 w (ix1 l)
      = ∑ c : Fin 4, ∑ r : Fin 32, ∑ j : Fin 32, Spec.sqK (x0 (ix2 (rowOf w c r) (colOf j l))) (x1 (ix2 (rowOf w c r) (colOf j l))) := by
  unfold tileSum tileAcc
  rw [rowFold3_fst, rowFold2_fst, rowFold1_fst, rowFold0_fst, qn0_fst, zero_add, Fin.sum_univ_four,
    chunk0_sq, chunk1_sq, chunk2_sq, chunk3_sq]
theorem tileCnt_eq (x0 x1 : Big Ideal) (w : Fin 16) (l : Fin 16) :
    tileCnt x0 x1 w (ix1 l) = ∑ c : Fin 4, ∑ r : Fin 32, ∑ j : Fin 32, Spec.cnK (x1 (ix2 (rowOf w c r) (colOf j l))) := by
  unfold tileCnt tileAcc
  rw [rowFold3_snd, rowFold2_snd, rowFold1_snd, rowFold0_snd, qn0_snd, zero_add, Fin.sum_univ_four,
    chunk0_cn, chunk1_cn, chunk2_cn, chunk3_cn]

/-- The sixteen tiles' sums add up to the masked sum of squares over the rows from 14336 on. -/
theorem sc_sums (x0 x1 : Spec.Big) (_h0 : Spec.AllReal x0) (_h1 : Spec.AllReal x1) :
    (∑ i : S16x16.Idx, scSums (F := Ideal) x0 x1 i) = Spec.sqRows x0 x1 14336 16384 := by
  rw [show (∑ i : S16x16.Idx, scSums (F := Ideal) x0 x1 i) = ∑ w : Fin 16, ∑ l : Fin 16, scSums (F := Ideal) x0 x1 (ix2 w l) from sum_idx2 _]
  simp only [show ∀ (w l : Fin 16), scSums (F := Ideal) x0 x1 (ix2 w l) = tileSum (F := Ideal) x0 x1 w (ix1 l) from fun _ _ => rfl, tileSum_eq]
  unfold Spec.sqRows
  rw [rows_reindex (fun row => ∑ col : Fin 512, Spec.sqK (x0 (ix2 row col)) (x1 (ix2 row col)))]
  refine Finset.sum_congr rfl fun w _ => ?_
  rw [Finset.sum_comm]
  refine Finset.sum_congr rfl fun c _ => ?_
  rw [Finset.sum_comm]
  refine Finset.sum_congr rfl fun r _ => ?_
  rw [Finset.sum_comm, cols_reindex]
/-- and their counts to the mask count over those rows. -/
theorem sc_cnts (x0 x1 : Spec.Big) (_h0 : Spec.AllReal x0) (_h1 : Spec.AllReal x1) :
    (∑ i : S16x16.Idx, scCnts (F := Ideal) x0 x1 i) = Spec.cnRows x1 14336 16384 := by
  rw [show (∑ i : S16x16.Idx, scCnts (F := Ideal) x0 x1 i) = ∑ w : Fin 16, ∑ l : Fin 16, scCnts (F := Ideal) x0 x1 (ix2 w l) from sum_idx2 _]
  simp only [show ∀ (w l : Fin 16), scCnts (F := Ideal) x0 x1 (ix2 w l) = tileCnt (F := Ideal) x0 x1 w (ix1 l) from fun _ _ => rfl, tileCnt_eq]
  unfold Spec.cnRows
  rw [rows_reindex (fun row => ∑ col : Fin 512, Spec.cnK (x1 (ix2 row col)))]
  refine Finset.sum_congr rfl fun w _ => ?_
  rw [Finset.sum_comm]
  refine Finset.sum_congr rfl fun c _ => ?_
  rw [Finset.sum_comm]
  refine Finset.sum_congr rfl fun r _ => ?_
  rw [Finset.sum_comm, cols_reindex]

end Cert.Proof.KI.ScTile
end
-- ==== Proof.FinalValueI.lean ====
/-
  The last pure step: the kernel's value is the reference's.

  The kernel's result is the quotient of two grand totals.  Each is the sum of the sixteen tiles' sixteen lanes — the
  masked sum of squares, or the mask count, over the rows from 14336 on — plus the total of one plane of the array the
  seven blocks of 2048 rows were accumulated into — the same over the rows below 14336.  The two ranges of rows make up
  all 16384 rows, so the grand totals are the masked sum of squares and the mask count over the whole reshaped arrays,
  and their quotient is the loss; the reference's result is the loss of the reshaped arguments too.
-/
import proofs.«211649_g4638564679882_cont_8to1c4_562_19_alg».proof.Proof.RefValueI
import proofs.«211649_g4638564679882_cont_8to1c4_562_19_alg».proof.Proof.ScValueI

noncomputable section

namespace Cert.Proof.FinalValue

open Cert.KernelIdeal
open Cert.Proof Cert.Proof.KI Cert.Proof.RefValue
open Idealize.ShloMosaic Idealize.ShloMosaic.ValueIdx
open scoped BigOperators

/-- The quotient of the two grand totals is the loss: the tiles' lanes cover the rows from 14336 on, the two plane
    totals `t0` and `t1` the rows below. -/
theorem combine_eq_loss (x0 x1 : Spec.Big) (h0 : Spec.AllReal x0) (h1 : Spec.AllReal x1) (t0 t1 : EReal)
    (ht0 : t0 = Spec.sqRows x0 x1 0 14336) (ht1 : t1 = Spec.cnRows x1 0 14336) :
    Ideal.div ((∑ i : S16x16.Idx, ScTile.scSums (F := Ideal) x0 x1 i) + t0)
        ((∑ i : S16x16.Idx, ScTile.scCnts (F := Ideal) x0 x1 i) + t1)
      = Spec.loss x0 x1 := by
  rw [ScTile.sc_sums x0 x1 h0 h1, ScTile.sc_cnts x0 x1 h0 h1, ht0, ht1, loss_parts,
    add_comm (Spec.sqRows x0 x1 14336 16384), add_comm (Spec.cnRows x1 14336 16384)]

/-- A value that is the quotient of the tiles' sums plus the first plane total by the tiles' counts plus the second,
    at the reshaped arguments, is the reference's result, under the precondition. -/
theorem kernel_eq_ref_of (a0 a1 : RefValue.A) (h : Cert.Pre_finite_inputs.fn (F := Ideal) a0 a1 = fun _ => 1#1)
    (kv : EReal) (tot : S2.Idx → EReal)
    (hq : kv = Ideal.div ((∑ i : S16x16.Idx, ScTile.scSums (F := Ideal) (flat a0) (flat a1) i) + tot (ix1 0))
        ((∑ i : S16x16.Idx, ScTile.scCnts (F := Ideal) (flat a0) (flat a1) i) + tot (ix1 1)))
    (ht : tot (ix1 0) = Spec.sqRows (flat a0) (flat a1) 0 14336 ∧ tot (ix1 1) = Spec.cnRows (flat a1) 0 14336) :
    kv = Cert.ReferenceIdeal.Read.val_main_v8 (F := Ideal) a0 a1 ix0 := by
  obtain ⟨h0, h1⟩ := finite_of_pre a0 a1 h
  rw [hq, combine_eq_loss (flat a0) (flat a1) h0 h1 _ _ ht.1 ht.2, ref_value a0 a1]

end Cert.Proof.FinalValue

end
-- ==== Proof.ResultValueI.lean ====
/-
  The kernel's result as a function of its two arguments, over the extended reals: the two arguments reshaped to
  [16384, 512] (the same entries in row-major order); the first TensorCore region's two totals of the carried scratch
  over the rows below 14336; the sixteen tiles' sums and counts over the rows from 14336 on; the second region's quotient
  of the grand totals; the one-element array reshaped to the scalar result.
-/
import proofs.«211649_g4638564679882_cont_8to1c4_562_19_alg».proof.Proof.LaunchI
import proofs.«211649_g4638564679882_cont_8to1c4_562_19_alg».proof.Proof.RegValueI
import proofs.«211649_g4638564679882_cont_8to1c4_562_19_alg».proof.Proof.RefValueI
import proofs.«211649_g4638564679882_cont_8to1c4_562_19_alg».proof.Proof.FinalValueI

set_option maxRecDepth 16384
set_option Elab.async false

noncomputable section

namespace Cert.Proof.KI.ResultValue

open Cert.KernelIdeal Cert.KernelIdeal.Gen
open Cert.Proof.KI
open Cert.Proof.KI.Launch
open Cert.Proof

open Idealize.ShloMosaic Idealize.ShloMosaic.TcCoe
open Idealize.ShloMosaic.SparseCore.Cfg (HIx)
open Idealize.SL Idealize.SL.RA Idealize.SL.BI

variable (m : (ℓ : Loc nD τ sig) → Buf (Elt Ideal) ℓ)

/-! ## The two reshaped arguments -/

theorem V2_v0 (c : Dev nD) : V2 (F := Ideal) m c r_v0 = RefValue.flat (m (a0Loc c)) := by
  unfold V2 opR1
  rw [StableHlo.reshape_result_ne (r := main_v0) (h := by decide)]
  unfold V1 opR0
  rw [StableHlo.reshape_result']
  rfl
theorem V2_v1 (c : Dev nD) : V2 (F := Ideal) m c r_v1 = RefValue.flat (m (a1Loc c)) := by
  unfold V2 opR1
  rw [StableHlo.reshape_result']
  unfold V1 opR0
  rw [StableHlo.reshape_result_ne (r := main_arg1) (h := by decide)]
  rfl

/-! ## The result: the quotient of the grand totals, at the two reshaped arguments -/

section Result
variable (accStep : Reg0.B2048 Ideal → Reg0.B2048 Ideal → Reg0.BAcc Ideal → Reg0.BAcc Ideal) (zeroAcc : Reg0.BAcc Ideal)
  (totals : Reg0.BAcc Ideal → Reg0.B2 Ideal) (quotient : Reg2.B16 Ideal → Reg2.B16 Ideal → Reg2.B2 Ideal → Reg2.B1 Ideal)

theorem result_eq (c : Dev nD) :
    V6 m accStep zeroAcc totals quotient (ScTile.scSums (F := Ideal)) (ScTile.scCnts (F := Ideal)) c r_v5
      = fun _ => quotient (ScTile.scSums (F := Ideal) (RefValue.flat (m (a0Loc c))) (RefValue.flat (m (a1Loc c))))
          (ScTile.scCnts (F := Ideal) (RefValue.flat (m (a0Loc c))) (RefValue.flat (m (a1Loc c))))
          (totals (RegValue.accN accStep zeroAcc (RefValue.flat (m (a0Loc c))) (RefValue.flat (m (a1Loc c))) 6)) (ValueIdx.ix1 0) := by
  unfold V6 opR5
  rw [StableHlo.reshape_result']
  funext i
  rw [V5_v4]
  unfold outVal dat2
  rw [RegValue.arrAt2_3]
  unfold Wr4
  rw [V4_v30, V4_v31, V4_of_ne m accStep zeroAcc totals c r_v2 (by decide) (by decide), V3_v2]
  unfold tcPart dat0
  rw [RegValue.arrAt0_2']
  unfold Wr2
  rw [V2_v0, V2_v1]
  generalize quotient _ _ _ = G
  show G (Shape.reshapeEquiv shapeCasts_S1_S_ i) = G (ValueIdx.ix1 0)
  congr 1
  funext a
  apply Fin.ext
  match a with
  | ⟨0, _⟩ =>
    have h : ((Shape.reshapeEquiv shapeCasts_S1_S_ i) 0).val < 1 := ((Shape.reshapeEquiv shapeCasts_S1_S_ i) 0).isLt
    show ((Shape.reshapeEquiv shapeCasts_S1_S_ i) 0).val = 0
    omega

end Result

/-! ## The result is the reference's, given the second region's formula and the first region's totals -/

section Ref
variable (accStep : Reg0.B2048 Ideal → Reg0.B2048 Ideal → Reg0.BAcc Ideal → Reg0.BAcc Ideal) (zeroAcc : Reg0.BAcc Ideal)
  (totals : Reg0.BAcc Ideal → Reg0.B2 Ideal) (quotient : Reg2.B16 Ideal → Reg2.B16 Ideal → Reg2.B2 Ideal → Reg2.B1 Ideal)

open scoped BigOperators in
/-- If the second region's body divides the tiles' sums plus the first partial total by the tiles' counts plus the
    second, and the first region's totals are the masked sum of squares and the mask count over the rows below 14336,
    the kernel's result is the reference's, under the precondition. -/
theorem result_ref_of (c : Dev nD)
    (hpre : Cert.Pre_finite_inputs.fn (F := Ideal) (m (a0Loc c)) (m (a1Loc c)) = fun _ => 1#1)
    (hquot : ∀ (ss cc : Reg2.B16 Ideal) (tp : Reg2.B2 Ideal),
      quotient ss cc tp (ValueIdx.ix1 0) = Ideal.div ((∑ i : S16x16.Idx, ss i) + tp (ValueIdx.ix1 0)) ((∑ i : S16x16.Idx, cc i) + tp (ValueIdx.ix1 1)))
    (htot : totals (RegValue.accN accStep zeroAcc (RefValue.flat (m (a0Loc c))) (RefValue.flat (m (a1Loc c))) 6) (ValueIdx.ix1 0)
          = Spec.sqRows (RefValue.flat (m (a0Loc c))) (RefValue.flat (m (a1Loc c))) 0 14336
        ∧ totals (RegValue.accN accStep zeroAcc (RefValue.flat (m (a0Loc c))) (RefValue.flat (m (a1Loc c))) 6) (ValueIdx.ix1 1)
          = Spec.cnRows (RefValue.flat (m (a1Loc c))) 0 14336) :
    V6 m accStep zeroAcc totals quotient (ScTile.scSums (F := Ideal)) (ScTile.scCnts (F := Ideal)) c r_v5
      = Cert.ReferenceIdeal.Read.val_main_v8 (F := Ideal) (m (a0Loc c)) (m (a1Loc c)) := by
  rw [result_eq]
  funext i
  rw [ValueIdx.eq_ix0 i]
  exact FinalValue.kernel_eq_ref_of (m (a0Loc c)) (m (a1Loc c)) hpre _
    (totals (RegValue.accN accStep zeroAcc (RefValue.flat (m (a0Loc c))) (RefValue.flat (m (a1Loc c))) 6))
    (hquot _ _ _) htot

end Ref

end Cert.Proof.KI.ResultValue

end
-- ==== Proof.TcValueI.lean ====
/-
  The two TensorCore kernel bodies' values over the extended reals.

  Read entry by entry with exact arithmetic, one step of the accumulating body adds to entry (r, col) of plane 0 the
  256 terms (s - t)^2-where-t-exceeds-the-threshold of rows 8k + r, k = 0 … 255, of its block, and to plane 1 the
  256 mask values; a plane's total is the sum of its 8 × 512 entries, so one step adds to plane 0's total the block's
  2048 × 512 terms — the rows 8k + r being all 2048 rows — and seven steps from the zero array leave in the two
  totals the masked sum of squares and the mask count over rows 0 … 14335. The combining body's result is the
  quotient of the two grand totals, each a [16, 16] array's sum plus one partial result.
-/
import proofs.«211649_g4638564679882_cont_8to1c4_562_19_alg».proof.Proof.RegValueI
import proofs.«211649_g4638564679882_cont_8to1c4_562_19_alg».proof.Proof.SpecI
import proofs.«211649_g4638564679882_cont_8to1c4_562_19_alg».proof.Proof.RefValueI
import Idealize.ShloMosaic.Lib.IdealHost
import Idealize.ShloMosaic.PureOps.Ideal.Laws

noncomputable section

namespace Cert.Proof.KI.TcValue

open Cert.KernelIdeal Cert.KernelIdeal.Gen

open Idealize.ShloMosaic Idealize.ShloMosaic.ValueIdx
open Cert.Proof Cert.Proof.KI Cert.Proof.KI.TcBody
open scoped BigOperators

/-! ## One step, entry by entry, over the extended reals -/

/-- The body's select on "the target exceeds the threshold". -/
theorem sel_gt (t a b : EReal) :
    Scalar.select (Ideal.cmp .ogt t Spec.c05) a b = if Spec.c05 < t then a else b := by
  unfold Scalar.select Ideal.cmp
  by_cases h : Spec.c05 < t
  · simp [h]
  · simp [h]

theorem sqStep_apply (s t acc : FVec Ideal S8x512 .f32) (j : S8x512.Idx) :
    sqStep s t acc j = acc j + Spec.sqK (s j) (t j) := by
  show acc j + Scalar.select (Ideal.cmp .ogt (t j) Spec.c05) ((s j - t j) * (s j - t j)) (Ideal.ofBits .f32 0x00000000#32) = _
  rw [sel_gt, Ideal.ofBits_zero_f32]
  rfl

theorem cnStep_apply (t acc : FVec Ideal S8x512 .f32) (j : S8x512.Idx) :
    cnStep t acc j = acc j + Spec.cnK (t j) := by
  show acc j + Scalar.select (Ideal.cmp .ogt (t j) Spec.c05) (Ideal.ofBits .f32 0x3F800000#32) (Ideal.ofBits .f32 0x00000000#32) = _
  rw [sel_gt, Ideal.ofBits_zero_f32, Ideal.ofBits_one_f32]
  rfl

/-- Plane 0 after `k` row groups: the start plus the `k` contributions, entry by entry. -/
theorem sqAcc_apply (x1 x2 : Vec Ideal S2048x512 .f32) (a0 : FVec Ideal S8x512 .f32) (j : S8x512.Idx) :
    ∀ (k : ℕ) (h : k ≤ 256), sqAcc x1 x2 a0 k h j
      = a0 j + ∑ k' : Fin k, Spec.sqK (rows8 x1 k'.val (lt_of_lt_of_le k'.isLt h) j) (rows8 x2 k'.val (lt_of_lt_of_le k'.isLt h) j)
  | 0, _ => by
    show a0 j = _
    rw [Finset.univ_eq_empty, Finset.sum_empty, add_zero]
  | k + 1, h => by
    show sqStep (rows8 x1 k (by omega)) (rows8 x2 k (by omega)) (sqAcc x1 x2 a0 k (by omega)) j = _
    rw [sqStep_apply, sqAcc_apply x1 x2 a0 j k (by omega), Fin.sum_univ_castSucc, add_assoc]
    rfl

theorem cnAcc_apply (x2 : Vec Ideal S2048x512 .f32) (a0 : FVec Ideal S8x512 .f32) (j : S8x512.Idx) :
    ∀ (k : ℕ) (h : k ≤ 256), cnAcc x2 a0 k h j
      = a0 j + ∑ k' : Fin k, Spec.cnK (rows8 x2 k'.val (lt_of_lt_of_le k'.isLt h) j)
  | 0, _ => by
    show a0 j = _
    rw [Finset.univ_eq_empty, Finset.sum_empty, add_zero]
  | k + 1, h => by
    show cnStep (rows8 x2 k (by omega)) (cnAcc x2 a0 k (by omega)) j = _
    rw [cnStep_apply, cnAcc_apply x2 a0 j k (by omega), Fin.sum_univ_castSucc, add_assoc]
    rfl

/-! ## Totals -/

/-- The body's total of a plane is the sum of its 8 × 512 entries. -/
theorem total_eq (v : FVec Ideal S8x512 .f32) : total v = ∑ r : Fin 8, ∑ col : Fin 512, v (ix2 r col) := by
  have h1 : total v = ∑ i : S1x8x512.Idx, shapeCast S1x8x512 v shapeCasts_S8x512_S1x8x512 i :=
    Ideal.reduceAdd_total reduces_S1x8x512_S1 (fun b => by fin_cases b; rfl) _ _
  rw [h1]
  show ∑ i : S1x8x512.Idx, v (Shape.reshapeEquiv shapeCasts_S8x512_S1x8x512 i) = _
  rw [Equiv.sum_comp (Shape.reshapeEquiv shapeCasts_S8x512_S1x8x512) v]
  exact sum_idx2 v

/-- One step adds to plane 0's total the block's 2048 × 512 contributions. -/
theorem total_sqAcc (x1 x2 : Vec Ideal S2048x512 .f32) (a0 : FVec Ideal S8x512 .f32) :
    total (sqAcc x1 x2 a0 256 le_rfl)
      = total a0 + ∑ ρ : Fin 2048, ∑ col : Fin 512, Spec.sqK (x1 (ix2 ρ col)) (x2 (ix2 ρ col)) := by
  rw [total_eq, total_eq]
  simp only [sqAcc_apply, rows8_apply, Finset.sum_add_distrib]
  congr 1
  rw [← RefValue.sum_rows8 fun ρ => ∑ col : Fin 512, Spec.sqK (x1 (ix2 ρ col)) (x2 (ix2 ρ col))]
  refine Finset.sum_congr rfl fun r _ => ?_
  rw [Finset.sum_comm]

theorem total_cnAcc (x2 : Vec Ideal S2048x512 .f32) (a0 : FVec Ideal S8x512 .f32) :
    total (cnAcc x2 a0 256 le_rfl)
      = total a0 + ∑ ρ : Fin 2048, ∑ col : Fin 512, Spec.cnK (x2 (ix2 ρ col)) := by
  rw [total_eq, total_eq]
  simp only [cnAcc_apply, rows8_apply, Finset.sum_add_distrib]
  congr 1
  rw [← RefValue.sum_rows8 fun ρ => ∑ col : Fin 512, Spec.cnK (x2 (ix2 ρ col))]
  refine Finset.sum_congr rfl fun r _ => ?_
  rw [Finset.sum_comm]

/-- The zero array's planes total zero. -/
theorem total_zero (p : ℕ) (hp : p < 2) : total (plane (F := Ideal) zeroAcc p hp) = 0 := by
  rw [total_eq]
  refine Finset.sum_eq_zero fun r _ => Finset.sum_eq_zero fun col _ => ?_
  rw [plane_apply]
  exact Ideal.ofBits_zero_f32

/-! ## The seven blocks -/

/-- Block `n`'s entry `(ρ, col)` is the big array's at row `2048 n + ρ`. -/
theorem blkRows_entry (x : Spec.Big) (n : ℕ) (hn : n < 7) (ρ : Fin 2048) (col : Fin 512) :
    RegValue.blkRows (F := Ideal) x n (ix2 ρ col) = x (ix2 (⟨2048 * n + ρ.val, by have := ρ.isLt; omega⟩ : Fin 16384) col) := by
  have h : (2048 * n + ρ.val) % 16384 = 2048 * n + ρ.val := Nat.mod_eq_of_lt (by have := ρ.isLt; omega)
  unfold RegValue.blkRows
  refine congrArg x ?_
  funext d
  match d with
  | ⟨0, _⟩ => exact Fin.ext h
  | ⟨1, _⟩ => rfl

/-- Block `n`'s 2048 × 512 contributions are the masked sum of squares over its rows, -/
theorem block_sq (x0 x1 : Spec.Big) (n : ℕ) (hn : n < 7) :
    ∑ ρ : Fin 2048, ∑ col : Fin 512,
        Spec.sqK (RegValue.blkRows (F := Ideal) x0 n (ix2 ρ col)) (RegValue.blkRows (F := Ideal) x1 n (ix2 ρ col))
      = Spec.sqRows x0 x1 (2048 * n) (2048 * n + 2048) := by
  rw [RefValue.sqRows_window x0 x1 (2048 * n) (by omega)]
  refine Finset.sum_congr rfl fun ρ _ => Finset.sum_congr rfl fun col _ => ?_
  rw [blkRows_entry x0 n hn, blkRows_entry x1 n hn]

/-- and the mask count over them. -/
theorem block_cn (x1 : Spec.Big) (n : ℕ) (hn : n < 7) :
    ∑ ρ : Fin 2048, ∑ col : Fin 512, Spec.cnK (RegValue.blkRows (F := Ideal) x1 n (ix2 ρ col))
      = Spec.cnRows x1 (2048 * n) (2048 * n + 2048) := by
  rw [RefValue.cnRows_window x1 (2048 * n) (by omega)]
  refine Finset.sum_congr rfl fun ρ _ => Finset.sum_congr rfl fun col _ => ?_
  rw [blkRows_entry x1 n hn]

theorem plane0_accStep {F : FTy → Type} [FloatOps F] (x1 x2 : Vec F S2048x512 .f32) (a : Vec F S2x8x512 .f32) :
    plane (accStep x1 x2 a) 0 (by decide) = sqAcc x1 x2 (plane a 0 (by decide)) 256 le_rfl := by
  unfold accStep; exact plane_stack0 _ _ _

theorem plane1_accStep {F : FTy → Type} [FloatOps F] (x1 x2 : Vec F S2048x512 .f32) (a : Vec F S2x8x512 .f32) :
    plane (accStep x1 x2 a) 1 (by decide) = cnAcc x2 (plane a 1 (by decide)) 256 le_rfl := by
  unfold accStep; exact plane_stack1 _ _ _

/-- After blocks `0 … n` plane 0 totals the masked sum of squares over rows `0 … 2048 (n + 1) - 1`, -/
theorem tot_sq (x0 x1 : Spec.Big) : ∀ n, n < 7 →
    total (plane (RegValue.accN (F := Ideal) accStep zeroAcc x0 x1 n) 0 (by decide)) = Spec.sqRows x0 x1 0 (2048 * n + 2048)
  | 0, _ => by
    show total (plane (accStep (RegValue.blkRows (F := Ideal) x0 0) (RegValue.blkRows (F := Ideal) x1 0) zeroAcc) 0 _) = _
    rw [plane0_accStep, total_sqAcc, total_zero, zero_add, block_sq x0 x1 0 (by omega)]
  | n + 1, h => by
    show total (plane (accStep (RegValue.blkRows (F := Ideal) x0 (n + 1)) (RegValue.blkRows (F := Ideal) x1 (n + 1))
      (RegValue.accN (F := Ideal) accStep zeroAcc x0 x1 n)) 0 _) = _
    have e : 2048 * (n + 1) = 2048 * n + 2048 := by omega
    rw [plane0_accStep, total_sqAcc, tot_sq x0 x1 n (by omega), block_sq x0 x1 (n + 1) h, e]
    exact RefValue.sqRows_split x0 x1 0 (2048 * n + 2048) (2048 * n + 2048 + 2048) (by omega) (by omega)

/-- and plane 1 the mask count. -/
theorem tot_cn (x0 x1 : Spec.Big) : ∀ n, n < 7 →
    total (plane (RegValue.accN (F := Ideal) accStep zeroAcc x0 x1 n) 1 (by decide)) = Spec.cnRows x1 0 (2048 * n + 2048)
  | 0, _ => by
    show total (plane (accStep (RegValue.blkRows (F := Ideal) x0 0) (RegValue.blkRows (F := Ideal) x1 0) zeroAcc) 1 _) = _
    rw [plane1_accStep, total_cnAcc, total_zero, zero_add, block_cn x1 0 (by omega)]
  | n + 1, h => by
    show total (plane (accStep (RegValue.blkRows (F := Ideal) x0 (n + 1)) (RegValue.blkRows (F := Ideal) x1 (n + 1))
      (RegValue.accN (F := Ideal) accStep zeroAcc x0 x1 n)) 1 _) = _
    have e : 2048 * (n + 1) = 2048 * n + 2048 := by omega
    rw [plane1_accStep, total_cnAcc, tot_cn x0 x1 n (by omega), block_cn x1 (n + 1) h, e]
    exact RefValue.cnRows_split x1 0 (2048 * n + 2048) (2048 * n + 2048 + 2048) (by omega) (by omega)

/-- The TensorCore's two partial results after its seven blocks: the masked sum of squares and the mask count over
    rows `0 … 14335`. -/
theorem tc_totals (x0 x1 : Spec.Big) (h0 : Spec.AllReal x0) (h1 : Spec.AllReal x1) :
    totals (RegValue.accN (F := Ideal) accStep zeroAcc x0 x1 6) (ix1 0) = Spec.sqRows x0 x1 0 14336
      ∧ totals (RegValue.accN (F := Ideal) accStep zeroAcc x0 x1 6) (ix1 1) = Spec.cnRows x1 0 14336 :=
  ⟨(if_pos rfl).trans (tot_sq x0 x1 6 (by decide)), (if_neg (by decide)).trans (tot_cn x0 x1 6 (by decide))⟩

/-! ## The combined result -/

/-- The combining body's total of a `[16, 16]` array is the sum of its entries. -/
theorem total16_eq (g : Vec Ideal S16x16 .f32) : total16 g = ∑ i : S16x16.Idx, g i := by
  have h1 : total16 g = ∑ i : S1x16x16.Idx, shapeCast S1x16x16 g shapeCasts_S16x16_S1x16x16 i :=
    Ideal.reduceAdd_total reduces_S1x16x16_S1 (fun b => by fin_cases b; rfl) _ _
  rw [h1]
  exact Equiv.sum_comp (Shape.reshapeEquiv shapeCasts_S16x16_S1x16x16) g

/-- The combined result over the extended reals: the quotient of the two grand totals. -/
theorem quotient_eq (g0 g1 : S16x16.Idx → EReal) (g2 : S2.Idx → EReal) :
    quotient (F := Ideal) g0 g1 g2 (ix1 0)
      = Ideal.div ((∑ i : S16x16.Idx, g0 i) + g2 (ix1 0)) ((∑ i : S16x16.Idx, g1 i) + g2 (ix1 1)) := by
  show Ideal.div (total16 (F := Ideal) g0 + g2 (ix1 0)) (total16 (F := Ideal) g1 + g2 (ix1 1)) = _
  rw [total16_eq, total16_eq]

/-! ## One step of the carried array, entry by entry -/

/-- Plane 0 at `(r, col)` gains the 256 terms of rows `8k + r`. -/
theorem accStep_apply0 (x1 x2 : Vec Ideal S2048x512 .f32) (a : Vec Ideal S2x8x512 .f32) (r : Fin 8) (col : Fin 512) :
    accStep x1 x2 a (ix3 (0 : Fin 2) r col)
      = a (ix3 (0 : Fin 2) r col) + ∑ k : Fin 256,
          Spec.sqK (x1 (ix2 (⟨8 * k.val + r.val, by have := k.isLt; have := r.isLt; omega⟩ : Fin 2048) col))
            (x2 (ix2 (⟨8 * k.val + r.val, by have := k.isLt; have := r.isLt; omega⟩ : Fin 2048) col)) := by
  show sqAcc x1 x2 (plane a 0 (by decide)) 256 le_rfl (ix2 r col) = _
  rw [sqAcc_apply, plane_apply]
  simp only [rows8_apply]
  rfl

/-- Plane 1 at `(r, col)` gains the 256 mask values of rows `8k + r`. -/
theorem accStep_apply1 (x1 x2 : Vec Ideal S2048x512 .f32) (a : Vec Ideal S2x8x512 .f32) (r : Fin 8) (col : Fin 512) :
    accStep x1 x2 a (ix3 (1 : Fin 2) r col)
      = a (ix3 (1 : Fin 2) r col) + ∑ k : Fin 256,
          Spec.cnK (x2 (ix2 (⟨8 * k.val + r.val, by have := k.isLt; have := r.isLt; omega⟩ : Fin 2048) col)) := by
  show cnAcc x2 (plane a 1 (by decide)) 256 le_rfl (ix2 r col) = _
  rw [cnAcc_apply, plane_apply]
  simp only [rows8_apply]
  rfl

end Cert.Proof.KI.TcValue

end
-- ==== Proof.RefFrame.lean ====
/-
  The reference side.  The reference is a straight-line host program: it compares the target with 0.05, turns the
  comparison into a 0/1 array, squares the difference of source and target, multiplies the two, sums each of the
  two arrays over every index, and divides the sums.  Its run (every weakly fair execution ends, the result buffer
  at that composed term of the arguments, the arguments unchanged) is the generated run; its frame is that run with
  the result dropped.
-/
import proofs.«211649_g4638564679882_cont_8to1c4_562_19_alg».proof.Defs
import proofs.«211649_g4638564679882_cont_8to1c4_562_19_alg».proof.Proof.Gen.ReferenceIdeal
import proofs.«211649_g4638564679882_cont_8to1c4_562_19_alg».proof.Proof.Gen.Pre_finite_inputs
import proofs.«211649_g4638564679882_cont_8to1c4_562_19_alg».proof.Proof.Gen.ReferenceIdeal.Run
import proofs.«211649_g4638564679882_cont_8to1c4_562_19_alg».proof.Proof.Gen.ReferenceIdeal.Read

noncomputable section

namespace Cert.Proof.RefSide

open Idealize.ShloMosaic Idealize.SL.Sem

/-- The reference runs to the end, faults nowhere and leaves both arguments as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.ClaimI.lean ====
/-
  The claims about the idealized kernel.  Its frame is its run with the result dropped.  Against the reference: run from
  memories agreeing on the two arguments, both programs end; the kernel's result buffer holds the quotient of the masked
  sum of squares by the mask count, the sums split between the seven TensorCore blocks and the sixteen SparseCore tiles;
  the reference's holds the quotient of the same two sums taken at once; with every entry a real number the two are one
  extended real.
-/
import proofs.«211649_g4638564679882_cont_8to1c4_562_19_alg».proof.Proof.RunI
import proofs.«211649_g4638564679882_cont_8to1c4_562_19_alg».proof.Proof.ResultValueI
import proofs.«211649_g4638564679882_cont_8to1c4_562_19_alg».proof.Proof.TcValueI
import proofs.«211649_g4638564679882_cont_8to1c4_562_19_alg».proof.Proof.RefFrame

set_option Elab.async false

noncomputable section

namespace Cert.Proof.KI.Claim

open Cert.KernelIdeal Cert.KernelIdeal.Gen
open Cert.Proof.KI Cert.Proof.KI.Launch
open Idealize.ShloMosaic Idealize.SL.Sem

/-- The body's runs leave what the four value functions say. -/
theorem hLast : Reg0.LastSpec (F := Ideal) TcBody.accStep TcBody.totals :=
  fun c i hi6 M1 h1 M2 h2 M3 h3 M4 h4 f1 f2 f4 =>
    ⟨TcBody.runLast_val4 c i hi6 M1 h1 M2 h2 M3 h3 M4 h4 f1 f2 f4, TcBody.runLast_val3 c i hi6 M1 h1 M2 h2 M3 h3 M4 h4 f1 f2 f4⟩

/-- The idealized kernel's run: the result named, the arguments unchanged. -/
theorem run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩
      (Run.QC m TcBody.accStep TcBody.zeroAcc TcBody.totals TcBody.quotient) :=
  Run.run_main (F := Ideal) m ρ TcBody.accStep TcBody.zeroAcc TcBody.totals TcBody.quotient
    TcBody.runMid_val TcBody.runFirst_val hLast TcBody.runCombine_val

theorem frame_pi : Cert.frame_KernelIdeal := fun m ρ _ =>
  (θ_run Cert.KernelIdeal.defs _ _).mono (fun _ h c => ⟨(h c).2.1, (h c).2.2⟩) (run m ρ)

theorem algebraic : Cert.algebraic_KernelIdeal_ReferenceIdeal := by
  intro m ρ m' ρ' hpre hagree
  refine ⟨fun c => V6 m TcBody.accStep TcBody.zeroAcc TcBody.totals TcBody.quotient (ScTile.scSums (F := Ideal)) (ScTile.scCnts (F := Ideal)) c r_v5,
    (θ_run Cert.KernelIdeal.defs _ _).mono (fun _ h c => h c) (run m ρ), ?_⟩
  refine (θ_run Cert.ReferenceIdeal.defs _ _).mono (fun _ h c => ⟨(h c).1.trans ?_, (h c).2⟩) (Cert.ReferenceIdeal.Value.run (F := Ideal) m' ρ')
  rw [(hagree c).1, (hagree c).2, Cert.ReferenceIdeal.Read.val_main_v8_eq]
  obtain ⟨h0, h1⟩ := RefValue.finite_of_pre _ _ (hpre c)
  exact (ResultValue.result_ref_of m TcBody.accStep TcBody.zeroAcc TcBody.totals TcBody.quotient c (hpre c)
    (fun ss cc tp => TcValue.quotient_eq ss cc tp) (TcValue.tc_totals _ _ h0 h1)).symm

end Cert.Proof.KI.Claim

end
-- ==== Proof.lean ====
/-
  The claim: a masked mean of squared differences.  With s the source and t the target ([32, 1, 512, 512], read as
  [16384, 512]), the result is the sum of (s - t)^2 over the entries where t exceeds the threshold (the f32 value nearest
  0.05), divided by the number of such entries.  The kernel computes the two sums in three parts: rows 0 … 14335 on the
  TensorCore, in seven blocks of 2048 rows accumulated eight rows at a time into a [2, 8, 512] scratch whose two planes
  are totalled at the last block; rows 14336 … 16383 on the SparseCore, sixteen tiles of 128 rows, each accumulating
  sixteen lanes over double-buffered chunks of 32 rows; and a last TensorCore step that adds the tiles' partial sums to
  the first part's and divides.  The reference takes the two sums at once.  Over the extended reals, with every entry a
  real number (the precondition), each masked term is a real and a sum of reals may be regrouped freely, so the two
  quotients are the same extended real.  The three frames: each program runs to its end, faults nowhere, and never
  writes its two arguments.  The idealization rewrote nothing, so there is nothing to preserve.
-/
import proofs.«211649_g4638564679882_cont_8to1c4_562_19_alg».proof.Defs
import proofs.«211649_g4638564679882_cont_8to1c4_562_19_alg».proof.Proof.ClaimB
import proofs.«211649_g4638564679882_cont_8to1c4_562_19_alg».proof.Proof.ClaimI
import proofs.«211649_g4638564679882_cont_8to1c4_562_19_alg».proof.Proof.RefFrame

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.KB.Claim.frame_p, Cert.Proof.KI.Claim.frame_pi, Cert.Proof.RefSide.frame_ri, trivial, Cert.Proof.KI.Claim.algebraic⟩

end Cert.Proof

end
